-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S2600000x1 : Shape := ⟨2, ![2600000, 1]⟩
abbrev S1 : Shape := ⟨1, ![1]⟩
abbrev S_ : Shape := ⟨0, ![]⟩

class Facts : Prop where
  bcast_S_S2600000x1 : S_.BroadcastsInDim S2600000x1 (![] : Fin 0 → Fin S2600000x1.rank)
  reducesTo_S2600000x1_S_d0_1 : S2600000x1.ReducesTo [0, 1] S_
  h_S_ : 0 < S_.numel
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S2600000x1 .f32) (main_arg2 : FVec F S1 .f32) : IVec S_ 1 :=
  let main_v0 : FVec F S2600000x1 .f32 := Host.absf main_arg1
  let main_cst : FVec F S_ .f32 := constant S_ .f32 0x7F800000#32
  let main_v1 : FVec F S2600000x1 .f32 := broadcastInDim S2600000x1 ![] bcast_S_S2600000x1 main_cst
  let main_v2 : IVec S2600000x1 1 := cmpf .olt main_v0 main_v1
  let main_c : IVec S_ 1 := constantI S_ 1 1#1
  let main_v3 : IVec S_ 1 := (fun x v => Host.reduce IntOp.andi x v reducesTo_S2600000x1_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 2599999#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S2600000x1 : Shape := ⟨2, ![2600000, 1]⟩
abbrev S1 : Shape := ⟨1, ![1]⟩
abbrev S2599936x1 : Shape := ⟨2, ![2599936, 1]⟩
abbrev S2599936 : Shape := ⟨1, ![2599936]⟩
abbrev S64x1 : Shape := ⟨2, ![64, 1]⟩
abbrev S64 : Shape := ⟨1, ![64]⟩
abbrev S2600000 : Shape := ⟨1, ![2600000]⟩
abbrev S26x16384 : Shape := ⟨2, ![26, 16384]⟩
abbrev S16 : Shape := ⟨1, ![16]⟩
abbrev S16384 : Shape := ⟨1, ![16384]⟩
abbrev S13312 : Shape := ⟨1, ![13312]⟩
abbrev S512 : Shape := ⟨1, ![512]⟩
abbrev S_ : Shape := ⟨0, ![]⟩
abbrev S1x512 : Shape := ⟨2, ![1, 512]⟩
abbrev S6656 : Shape := ⟨1, ![6656]⟩
abbrev S16384x1 : Shape := ⟨2, ![16384, 1]⟩

abbrev nBuf : Table → Nat
  | .hbm => 12
  | .local .scVector .vmem => 4
  | _ => 0

abbrev bufTy : (tb : Table) → Fin (nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S2599936x1, .f32⟩
  | .hbm, ⟨4, _⟩ => ⟨S2599936, .f32⟩
  | .hbm, ⟨5, _⟩ => ⟨S64x1, .f32⟩
  | .hbm, ⟨6, _⟩ => ⟨S64, .f32⟩
  | .hbm, ⟨7, _⟩ => ⟨S2600000, .f32⟩
  | .hbm, ⟨8, _⟩ => ⟨S26x16384, .i32⟩
  | .hbm, ⟨9, _⟩ => ⟨S16, .f32⟩
  | .hbm, ⟨10, _⟩ => ⟨S16384, .f32⟩
  | .hbm, ⟨11, _⟩ => ⟨S16384x1, .f32⟩
  | .local .scVector .vmem, ⟨0, _⟩ => ⟨S13312, .i32⟩
  | .local .scVector .vmem, ⟨1, _⟩ => ⟨S13312, .f32⟩
  | .local .scVector .vmem, ⟨2, _⟩ => ⟨S512, .f32⟩
  | .local .scVector .vmem, ⟨3, _⟩ => ⟨S16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v5_scv : Ref sig .scVector := ⟨.hbm, 8, rfl⟩
abbrev main_v4_scv : Ref sig .scVector := ⟨.hbm, 7, rfl⟩
abbrev main_v6_scv : Ref sig .scVector := ⟨.hbm, 9, rfl⟩
abbrev main_v7_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off2 (i : grid0.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![1, v2.toNat]
def k0_off3 (i : grid0.Coords) : Fin 2 → Nat :=
  let c2_i32_4 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![2, v2.toNat]
def k0_off4 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![3, v2.toNat]
def k0_off5 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![4, v2.toNat]
def k0_off6 (i : grid0.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![5, v2.toNat]
def k0_off7 (i : grid0.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![6, v2.toNat]
def k0_off8 (i : grid0.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![7, v2.toNat]
def k0_off9 (i : grid0.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![8, v2.toNat]
def k0_off10 (i : grid0.Coords) : Fin 2 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![9, v2.toNat]
def k0_off11 (i : grid0.Coords) : Fin 2 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![10, v2.toNat]
def k0_off12 (i : grid0.Coords) : Fin 2 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![11, v2.toNat]
def k0_off13 (i : grid0.Coords) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![12, v2.toNat]
def k0_off14 (i : grid0.Coords) : Fin 2 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![13, v2.toNat]
def k0_off15 (i : grid0.Coords) : Fin 2 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![14, v2.toNat]
def k0_off16 (i : grid0.Coords) : Fin 2 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![15, v2.toNat]
def k0_off17 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![16, v2.toNat]
def k0_off18 (i : grid0.Coords) : Fin 2 → Nat :=
  let c17_i32 : BitVec 32 := 17#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![17, v2.toNat]
def k0_off19 (i : grid0.Coords) : Fin 2 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![18, v2.toNat]
def k0_off20 (i : grid0.Coords) : Fin 2 → Nat :=
  let c19_i32 : BitVec 32 := 19#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![19, v2.toNat]
def k0_off21 (i : grid0.Coords) : Fin 2 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![20, v2.toNat]
def k0_off22 (i : grid0.Coords) : Fin 2 → Nat :=
  let c21_i32 : BitVec 32 := 21#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![21, v2.toNat]
def k0_off23 (i : grid0.Coords) : Fin 2 → Nat :=
  let c22_i32 : BitVec 32 := 22#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![22, v2.toNat]
def k0_off24 (i : grid0.Coords) : Fin 2 → Nat :=
  let c23_i32 : BitVec 32 := 23#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![23, v2.toNat]
def k0_off25 (i : grid0.Coords) : Fin 2 → Nat :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![24, v2.toNat]
def k0_off26 (i : grid0.Coords) : Fin 2 → Nat :=
  let c25_i32 : BitVec 32 := 25#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![25, v2.toNat]
@[reducible] def k0_t1_loop : Scf.Loop 32 :=
  let c0_i32_117 : BitVec 32 := 0#32
  let c32_i32 : BitVec 32 := 32#32
  let v326 : BitVec 32 := Scalar.addi c0_i32_117 c32_i32
  let c1_i32_118 : BitVec 32 := 1#32
  ⟨c0_i32_117, v326, c1_i32_118⟩
def k0_off27 (k0_t1 : Fin k0_t1_loop.trips) : Fin 1 → Nat :=
  let c0_i32_117 : BitVec 32 := 0#32
  let c1_i32_118 : BitVec 32 := 1#32
  let arg13 : BitVec 32 := Scf.iv c0_i32_117 c1_i32_118 k0_t1
  let c16_i32_129 : BitVec 32 := 16#32
  let v334 : BitVec 32 := Scalar.muli arg13 c16_i32_129
  let v335 : Index := Scalar.indexCast v334
  ![v335.toNat]
def k0_off28 (k0_t1 : Fin k0_t1_loop.trips) (c512_i32_131 : BitVec 32) : Fin 1 → Nat :=
  let c0_i32_117 : BitVec 32 := 0#32
  let c1_i32_118 : BitVec 32 := 1#32
  let arg13 : BitVec 32 := Scf.iv c0_i32_117 c1_i32_118 k0_t1
  let c16_i32_130 : BitVec 32 := 16#32
  let v338 : BitVec 32 := Scalar.muli arg13 c16_i32_130
  let v339 : BitVec 32 := Scalar.addi c512_i32_131 v338
  let v340 : Index := Scalar.indexCast v339
  ![v340.toNat]
def k0_off29 (k0_t1 : Fin k0_t1_loop.trips) : Fin 1 → Nat :=
  let c0_i32_117 : BitVec 32 := 0#32
  let c1_i32_118 : BitVec 32 := 1#32
  let arg13 : BitVec 32 := Scf.iv c0_i32_117 c1_i32_118 k0_t1
  let c16_i32_154 : BitVec 32 := 16#32
  let v411 : BitVec 32 := Scalar.muli arg13 c16_i32_154
  let v412 : Index := Scalar.indexCast v411
  ![v412.toNat]
@[reducible] def k0_t2_loop : Scf.Loop 32 :=
  let c0_i32_124 : BitVec 32 := 0#32
  let c32_i32_125 : BitVec 32 := 32#32
  let v331 : BitVec 32 := Scalar.addi c0_i32_124 c32_i32_125
  let c1_i32_126 : BitVec 32 := 1#32
  ⟨c0_i32_124, v331, c1_i32_126⟩
def k0_off30 (k0_t2 : Fin k0_t2_loop.trips) : Fin 1 → Nat :=
  let c0_i32_124 : BitVec 32 := 0#32
  let c1_i32_126 : BitVec 32 := 1#32
  let arg13 : BitVec 32 := Scf.iv c0_i32_124 c1_i32_126 k0_t2
  let c16_i32_129 : BitVec 32 := 16#32
  let v334 : BitVec 32 := Scalar.muli arg13 c16_i32_129
  let v335 : Index := Scalar.indexCast v334
  ![v335.toNat]
def k0_off31 (k0_t2 : Fin k0_t2_loop.trips) (c6656_i32_131 : BitVec 32) : Fin 1 → Nat :=
  let c0_i32_124 : BitVec 32 := 0#32
  let c1_i32_126 : BitVec 32 := 1#32
  let arg13 : BitVec 32 := Scf.iv c0_i32_124 c1_i32_126 k0_t2
  let c16_i32_130 : BitVec 32 := 16#32
  let v338 : BitVec 32 := Scalar.muli arg13 c16_i32_130
  let v339 : BitVec 32 := Scalar.addi c6656_i32_131 v338
  let v340 : Index := Scalar.indexCast v339
  ![v340.toNat]
def k0_off32 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_128 : BitVec 32 := 512#32
  let v333 : BitVec 32 := Scalar.muli v1 c512_i32_128
  ![v333.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2600000x1_S2599936x1_0_0 : S2600000x1.Slices ![0, 0] S2599936x1
  shapeCasts_S2599936x1_S2599936 : S2599936x1.ShapeCasts S2599936
  slices_S2600000x1_S64x1_2599936_0 : S2600000x1.Slices ![2599936, 0] S64x1
  shapeCasts_S64x1_S64 : S64x1.ShapeCasts S64
  concatenates_S2599936_S64_S2600000_d0 : Shape.Concatenates [S2599936, S64] S2600000 0
  transposes_S16384x26_S26x16384_1_0 : S16384x26.Transposes [1, 0] S26x16384
  bcast_S1_S16_0 : S1.BroadcastsInDim S16 (![0] : Fin 1 → Fin S16.rank)
  inb_S13312_S512_0 : ∀ a, (![0] : Fin 1 → Nat) a + S512.size a ≤ S13312.size a
  squeezes_S1x512_S512 : S1x512.Squeezes S512
  inb_S13312_S512_512 : ∀ a, (![512] : Fin 1 → Nat) a + S512.size a ≤ S13312.size a
  inb_S13312_S512_1024 : ∀ a, (![1024] : Fin 1 → Nat) a + S512.size a ≤ S13312.size a
  inb_S13312_S512_1536 : ∀ a, (![1536] : Fin 1 → Nat) a + S512.size a ≤ S13312.size a
  inb_S13312_S512_2048 : ∀ a, (![2048] : Fin 1 → Nat) a + S512.size a ≤ S13312.size a
  inb_S13312_S512_2560 : ∀ a, (![2560] : Fin 1 → Nat) a + S512.size a ≤ S13312.size a
  inb_S13312_S512_3072 : ∀ a, (![3072] : Fin 1 → Nat) a + S512.size a ≤ S13312.size a
  inb_S13312_S512_3584 : ∀ a, (![3584] : Fin 1 → Nat) a + S512.size a ≤ S13312.size a
  inb_S13312_S512_4096 : ∀ a, (![4096] : Fin 1 → Nat) a + S512.size a ≤ S13312.size a
  inb_S13312_S512_4608 : ∀ a, (![4608] : Fin 1 → Nat) a + S512.size a ≤ S13312.size a
  inb_S13312_S512_5120 : ∀ a, (![5120] : Fin 1 → Nat) a + S512.size a ≤ S13312.size a
  inb_S13312_S512_5632 : ∀ a, (![5632] : Fin 1 → Nat) a + S512.size a ≤ S13312.size a
  inb_S13312_S512_6144 : ∀ a, (![6144] : Fin 1 → Nat) a + S512.size a ≤ S13312.size a
  inb_S13312_S6656_0 : ∀ a, (![0] : Fin 1 → Nat) a + S6656.size a ≤ S13312.size a
  inb_S2600000_S2600000_0 : ∀ a, (![0] : Fin 1 → Nat) a + S2600000.size a ≤ S2600000.size a
  gathers_S2600000_S6656 : S2600000.Gathers 0 S6656
  inb_S13312_S512_6656 : ∀ a, (![6656] : Fin 1 → Nat) a + S512.size a ≤ S13312.size a
  inb_S13312_S512_7168 : ∀ a, (![7168] : Fin 1 → Nat) a + S512.size a ≤ S13312.size a
  inb_S13312_S512_7680 : ∀ a, (![7680] : Fin 1 → Nat) a + S512.size a ≤ S13312.size a
  inb_S13312_S512_8192 : ∀ a, (![8192] : Fin 1 → Nat) a + S512.size a ≤ S13312.size a
  inb_S13312_S512_8704 : ∀ a, (![8704] : Fin 1 → Nat) a + S512.size a ≤ S13312.size a
  inb_S13312_S512_9216 : ∀ a, (![9216] : Fin 1 → Nat) a + S512.size a ≤ S13312.size a
  inb_S13312_S512_9728 : ∀ a, (![9728] : Fin 1 → Nat) a + S512.size a ≤ S13312.size a
  inb_S13312_S512_10240 : ∀ a, (![10240] : Fin 1 → Nat) a + S512.size a ≤ S13312.size a
  inb_S13312_S512_10752 : ∀ a, (![10752] : Fin 1 → Nat) a + S512.size a ≤ S13312.size a
  inb_S13312_S512_11264 : ∀ a, (![11264] : Fin 1 → Nat) a + S512.size a ≤ S13312.size a
  inb_S13312_S512_11776 : ∀ a, (![11776] : Fin 1 → Nat) a + S512.size a ≤ S13312.size a
  inb_S13312_S512_12288 : ∀ a, (![12288] : Fin 1 → Nat) a + S512.size a ≤ S13312.size a
  inb_S13312_S512_12800 : ∀ a, (![12800] : Fin 1 → Nat) a + S512.size a ≤ S13312.size a
  inb_S13312_S6656_6656 : ∀ a, (![6656] : Fin 1 → Nat) a + S6656.size a ≤ S13312.size a
  inb_S16_S16_0 : ∀ a, (![0] : Fin 1 → Nat) a + S16.size a ≤ S16.size a
  h_S16 : 0 < S16.numel
  shapeCasts_S16_S16 : S16.ShapeCasts S16
  shapeCasts_S16384_S16384x1 : S16384.ShapeCasts S16384x1
  hcc0_scratch4 : 0 + S_.numel ≤ 5
  hcc0_scratch5 : 1 + S_.numel ≤ 5
  hcc0_scratch6 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S26x16384.size a
  k0_off2_inb : ∀ i : grid0.Coords, ∀ a, (k0_off2 i) a + S1x512.size a ≤ S26x16384.size a
  k0_off3_inb : ∀ i : grid0.Coords, ∀ a, (k0_off3 i) a + S1x512.size a ≤ S26x16384.size a
  k0_off4_inb : ∀ i : grid0.Coords, ∀ a, (k0_off4 i) a + S1x512.size a ≤ S26x16384.size a
  k0_off5_inb : ∀ i : grid0.Coords, ∀ a, (k0_off5 i) a + S1x512.size a ≤ S26x16384.size a
  k0_off6_inb : ∀ i : grid0.Coords, ∀ a, (k0_off6 i) a + S1x512.size a ≤ S26x16384.size a
  k0_off7_inb : ∀ i : grid0.Coords, ∀ a, (k0_off7 i) a + S1x512.size a ≤ S26x16384.size a
  k0_off8_inb : ∀ i : grid0.Coords, ∀ a, (k0_off8 i) a + S1x512.size a ≤ S26x16384.size a
  k0_off9_inb : ∀ i : grid0.Coords, ∀ a, (k0_off9 i) a + S1x512.size a ≤ S26x16384.size a
  k0_off10_inb : ∀ i : grid0.Coords, ∀ a, (k0_off10 i) a + S1x512.size a ≤ S26x16384.size a
  k0_off11_inb : ∀ i : grid0.Coords, ∀ a, (k0_off11 i) a + S1x512.size a ≤ S26x16384.size a
  k0_off12_inb : ∀ i : grid0.Coords, ∀ a, (k0_off12 i) a + S1x512.size a ≤ S26x16384.size a
  k0_off13_inb : ∀ i : grid0.Coords, ∀ a, (k0_off13 i) a + S1x512.size a ≤ S26x16384.size a
  k0_off14_inb : ∀ i : grid0.Coords, ∀ a, (k0_off14 i) a + S1x512.size a ≤ S26x16384.size a
  k0_off15_inb : ∀ i : grid0.Coords, ∀ a, (k0_off15 i) a + S1x512.size a ≤ S26x16384.size a
  k0_off16_inb : ∀ i : grid0.Coords, ∀ a, (k0_off16 i) a + S1x512.size a ≤ S26x16384.size a
  k0_off17_inb : ∀ i : grid0.Coords, ∀ a, (k0_off17 i) a + S1x512.size a ≤ S26x16384.size a
  k0_off18_inb : ∀ i : grid0.Coords, ∀ a, (k0_off18 i) a + S1x512.size a ≤ S26x16384.size a
  k0_off19_inb : ∀ i : grid0.Coords, ∀ a, (k0_off19 i) a + S1x512.size a ≤ S26x16384.size a
  k0_off20_inb : ∀ i : grid0.Coords, ∀ a, (k0_off20 i) a + S1x512.size a ≤ S26x16384.size a
  k0_off21_inb : ∀ i : grid0.Coords, ∀ a, (k0_off21 i) a + S1x512.size a ≤ S26x16384.size a
  k0_off22_inb : ∀ i : grid0.Coords, ∀ a, (k0_off22 i) a + S1x512.size a ≤ S26x16384.size a
  k0_off23_inb : ∀ i : grid0.Coords, ∀ a, (k0_off23 i) a + S1x512.size a ≤ S26x16384.size a
  k0_off24_inb : ∀ i : grid0.Coords, ∀ a, (k0_off24 i) a + S1x512.size a ≤ S26x16384.size a
  k0_off25_inb : ∀ i : grid0.Coords, ∀ a, (k0_off25 i) a + S1x512.size a ≤ S26x16384.size a
  k0_off26_inb : ∀ i : grid0.Coords, ∀ a, (k0_off26 i) a + S1x512.size a ≤ S26x16384.size a
  k0_t1_ok : k0_t1_loop.OK
  k0_off27_inb : ∀ k0_t1 : Fin k0_t1_loop.trips, ∀ a, (k0_off27 k0_t1) a + S16.size a ≤ S13312.size a
  k0_off28_inb : ∀ k0_t1 : Fin k0_t1_loop.trips, ∀ (r : Fin 12), ∀ a, (k0_off28 k0_t1 (BitVec.ofNat 32 (512 + 512 * r.val))) a + S16.size a ≤ S13312.size a
  k0_off29_inb : ∀ k0_t1 : Fin k0_t1_loop.trips, ∀ a, (k0_off29 k0_t1) a + S16.size a ≤ S512.size a
  k0_t2_ok : k0_t2_loop.OK
  k0_off30_inb : ∀ k0_t2 : Fin k0_t2_loop.trips, ∀ a, (k0_off30 k0_t2) a + S16.size a ≤ S512.size a
  k0_off31_inb : ∀ k0_t2 : Fin k0_t2_loop.trips, ∀ (r : Fin 13), ∀ a, (k0_off31 k0_t2 (BitVec.ofNat 32 (6656 + 512 * r.val))) a + S16.size a ≤ S13312.size a
  k0_off32_inb : ∀ i : grid0.Coords, ∀ a, (k0_off32 i) a + S512.size a ≤ S16384.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S16384x26 : Shape := ⟨2, ![16384, 26]⟩
abbrev S2600000x1 : Shape := ⟨2, ![2600000, 1]⟩
abbrev S1 : Shape := ⟨1, ![1]⟩
abbrev S_ : Shape := ⟨0, ![]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S_, .i32⟩
  | .hbm, ⟨4, _⟩ => ⟨S16384x26, .i32⟩
  | .hbm, ⟨5, _⟩ => ⟨S16384x26, .i1⟩
  | .hbm, ⟨6, _⟩ => ⟨S_, .i32⟩
  | .hbm, ⟨7, _⟩ => ⟨S16384x26, .i32⟩
  | .hbm, ⟨8, _⟩ => ⟨S16384x26, .i32⟩
  | .hbm, ⟨9, _⟩ => ⟨S16384x26, .i32⟩
  | .hbm, ⟨10, _⟩ => ⟨S16384x26x1, .i32⟩
  | .hbm, ⟨11, _⟩ => ⟨S1, .i32⟩
  | .hbm, ⟨12, _⟩ => ⟨S_, .i32⟩
  | .hbm, ⟨13, _⟩ => ⟨S16384x26x1, .i32⟩
  | .hbm, ⟨14, _⟩ => ⟨S16384x26x1, .i1⟩
  | .hbm, ⟨15, _⟩ => ⟨S1x1x1, .i32⟩
  | .hbm, ⟨16, _⟩ => ⟨S16384x26x1, .i32⟩
  | .hbm, ⟨17, _⟩ => ⟨S16384x26x1, .i1⟩
  | .hbm, ⟨18, _⟩ => ⟨S16384x26x1, .i1⟩
  | .hbm, ⟨19, _⟩ => ⟨S_, .i1⟩
  | .hbm, ⟨20, _⟩ => ⟨S16384x26, .i1⟩
  | .hbm, ⟨21, _⟩ => ⟨S16384x26x1, .f32⟩
  | .hbm, ⟨22, _⟩ => ⟨S16384x26x1, .i1⟩
  | .hbm, ⟨23, _⟩ => ⟨S_, .f32⟩
  | .hbm, ⟨24, _⟩ => ⟨S16384x26x1, .f32⟩
  | .hbm, ⟨25, _⟩ => ⟨S16384x26x1, .f32⟩
  | .hbm, ⟨26, _⟩ => ⟨S_, .f32⟩
  | .hbm, ⟨27, _⟩ => ⟨S16384x1, .f32⟩
  | .hbm, ⟨28, _⟩ => ⟨S1x1, .f32⟩
  | .hbm, ⟨29, _⟩ => ⟨S16384x1, .f32⟩
  | .hbm, ⟨30, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  reducesTo_S16384x26x1_S16384x1_d1 : S16384x26x1.ReducesTo [1] S16384x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S2600000x1_S16384x26x1_S16384x26x1_2_0_n_n_0_2_11_wf : GatherDims.WF S2600000x1 S16384x26x1 S16384x26x1 [2] [0] [] [0] [] 2 ![1, 1]

variable [Facts₀]

def gather_S2600000x1_S16384x26x1_S16384x26x1_2_0_n_n_0_2_11 : GatherDims S2600000x1 S16384x26x1 S16384x26x1 where
  offsetDims := [2]
  collapsedSliceDims := [0]
  operandBatchingDims := []
  startIndicesBatchingDims := []
  startIndexMap := [0]
  indexVectorDim := 2
  sliceSizes := ![1, 1]
  wf := gather_S2600000x1_S16384x26x1_S16384x26x1_2_0_n_n_0_2_11_wf

class Facts : Prop extends Facts₀ where

variable [Facts]
-- ==== Proof.HostVals.lean ====
/-
  The host operations around the device call, each read at one index: the table's one column flattened to a vector
  (its first 2599936 rows and its last 64 rows sliced out, each reshaped to a vector, the two concatenated), the index
  array transposed, the bias word copied into sixteen lanes, and the result vector reshaped to a column.
-/
import Idealize.ShloMosaic.Lib.ValueIdx
import Idealize.ShloMosaic.Lib.ValueLayout
import Idealize.ShloMosaic.Lib.Pipeline.Value
import Idealize.ShloMosaic.PureOps
import proofs.«207411_g41145786696212_cont_8to1_b_1804_24_alg».proof.KernelIdeal
import proofs.«207411_g41145786696212_cont_8to1_b_1804_24_alg».proof.Proof.Gen.KernelIdeal

noncomputable section

namespace Cert.EmbSum.Host

open Idealize.ShloMosaic Idealize.ShloMosaic.ValueIdx
open Cert.KernelIdeal Cert.KernelIdeal.Facts₀

variable {F : FTy → Type} [FloatOps F] [Cert.KernelIdeal.Facts]

/-! ## The table, flattened -/

/-- The table's column as a vector: rows 0 … 2599935 and rows 2599936 … 2599999, each slice reshaped to a vector,
    concatenated in that order. -/
def tblLin (tbl : FVec F S2600000x1 .f32) : FVec F S2600000 .f32 :=
  concatenate S2600000 0
    [⟨S2599936, shapeCast S2599936
        (extractStridedSlice S2599936x1 ![0, 0] tbl slices_S2600000x1_S2599936x1_0_0) shapeCasts_S2599936x1_S2599936⟩,
     ⟨S64, shapeCast S64
        (extractStridedSlice S64x1 ![2599936, 0] tbl slices_S2600000x1_S64x1_2599936_0) shapeCasts_S64x1_S64⟩]
    concatenates_S2599936_S64_S2600000_d0

/-- Entry n of the flattened table is row n of the table's one column: below 2599936 it falls in the first piece at
    position n, from 2599936 on in the second piece at position n - 2599936, whose slice starts at row 2599936. -/
theorem tblLin_apply (tbl : FVec F S2600000x1 .f32) (n : Fin 2600000) : tblLin tbl (ix1 n) = tbl (ix2 n 0) := by
  unfold tblLin
  by_cases hn : n.val < 2599936
  · -- the position in the first piece
    obtain ⟨m, hm⟩ : ∃ m : Fin 2599936, m.val = n.val := ⟨⟨n.val, hn⟩, rfl⟩
    refine (concatenate_pair_apply_left 0 _ _ concatenates_S2599936_S64_S2600000_d0 (ix1 n) rfl (ix1 m)
      (fun b => match b with | ⟨0, _⟩ => hm)).trans ?_
    refine (shapeCast_apply _ shapeCasts_S2599936x1_S2599936 (ix1 m) (ix2 m 0)
      (by rw [Shape.rowMajor_val_two, Shape.rowMajor_val_one]; show m.val * 1 + 0 = m.val; omega)).trans ?_
    exact extractStridedSlice_apply ![0, 0] tbl slices_S2600000x1_S2599936x1_0_0 (ix2 m 0) (ix2 n 0)
      (fun a => match a with
        | ⟨0, _⟩ => by show n.val = 0 + m.val; omega
        | ⟨1, _⟩ => by show (0 : Nat) = 0 + 0; rfl)
  · -- the position in the second piece
    obtain ⟨m, hm⟩ : ∃ m : Fin 64, m.val + 2599936 = n.val :=
      ⟨⟨n.val - 2599936, by have := n.isLt; omega⟩, by show n.val - 2599936 + 2599936 = n.val; omega⟩
    refine (concatenate_pair_apply_right 0 _ _ concatenates_S2599936_S64_S2600000_d0 (ix1 n) rfl rfl (ix1 m)
      (fun b hb => absurd (Fin.ext (by have hb1 : b.val < 1 := b.isLt; show b.val = 0; omega)) hb)
      hm).trans ?_
    refine (shapeCast_apply _ shapeCasts_S64x1_S64 (ix1 m) (ix2 m 0)
      (by rw [Shape.rowMajor_val_two, Shape.rowMajor_val_one]; show m.val * 1 + 0 = m.val; omega)).trans ?_
    exact extractStridedSlice_apply ![2599936, 0] tbl slices_S2600000x1_S64x1_2599936_0 (ix2 m 0) (ix2 n 0)
      (fun a => match a with
        | ⟨0, _⟩ => by show n.val = 2599936 + m.val; omega
        | ⟨1, _⟩ => by show (0 : Nat) = 0 + 0; rfl)

/-! ## The index array, transposed -/

/-- The index array with its two axes exchanged: a row per field, a column per example. -/
def xT (x : IVec S16384x26 32) : IVec S26x16384 32 :=
  transpose S26x16384 [1, 0] x transposes_S16384x26_S26x16384_1_0

/-- Field f of example r. -/
theorem xT_apply (x : IVec S16384x26 32) (f : Fin 26) (r : Fin 16384) : xT x (ix2 f r) = x (ix2 r f) := by
  unfold xT
  exact transpose_apply [1, 0] x transposes_S16384x26_S26x16384_1_0 (ix2 f r) (ix2 r f)
    (fun b => match b with | ⟨0, _⟩ => rfl | ⟨1, _⟩ => rfl)

/-! ## The bias, in sixteen lanes -/

/-- The one bias word copied into each of sixteen lanes. -/
def bias16 (b : FVec F S1 .f32) : FVec F S16 .f32 :=
  broadcastInDim S16 ![0] bcast_S1_S16_0 b

/-- Every lane holds the bias word. -/
theorem bias16_apply (b : FVec F S1 .f32) (l : Fin 16) : bias16 b (ix1 l) = b (ix1 0) := by
  unfold bias16
  exact broadcastInDim_apply ![0] bcast_S1_S16_0 b (ix1 l) (ix1 0)
    (fun a => match a with | ⟨0, _⟩ => by show (0 : Nat) = if (1 : Nat) = 1 then 0 else l.val; rfl)

/-! ## The result, as a column -/

/-- The result vector reshaped to a one-column array, in row-major order. -/
def outCol (o : FVec F S16384 .f32) : FVec F S16384x1 .f32 :=
  shapeCast S16384x1 o shapeCasts_S16384_S16384x1

/-- Row r of the column is entry r of the vector. -/
theorem outCol_apply (o : FVec F S16384 .f32) (r : Fin 16384) (u : Fin 1) : outCol o (ix2 r u) = o (ix1 r) := by
  unfold outCol
  exact shapeCast_apply o shapeCasts_S16384_S16384x1 (ix2 r u) (ix1 r)
    (by rw [Shape.rowMajor_val_two, Shape.rowMajor_val_one]
        have hu : u.val < 1 := u.isLt
        show r.val = r.val * 1 + u.val; omega)

end Cert.EmbSum.Host

end
-- ==== Proof.Spec.lean ====
/-
  The function both programs compute, stated once over the three argument arrays: row r of the result is the sum of
  the 26 table entries that row r of the index array names, plus the one bias word.
-/
import Idealize.ShloMosaic.Lib.ValueIdx
import Idealize.ShloMosaic.PureOps.Ideal

noncomputable section

open scoped BigOperators

namespace Cert.EmbSum

open Idealize.ShloMosaic Idealize.ShloMosaic.ValueIdx

/-- The index array (a row per example, a column per field), the table (one column), the bias, the result. -/
abbrev SX : Shape := ⟨2, ![16384, 26]⟩
abbrev ST : Shape := ⟨2, ![2600000, 1]⟩
abbrev SB : Shape := ⟨1, ![1]⟩
abbrev SO : Shape := ⟨2, ![16384, 1]⟩

/-- Every index word, read signed, names a row of the table. -/
def InRange (x : SX.Idx → BitVec 32) : Prop := ∀ i, 0 ≤ (x i).toInt ∧ (x i).toInt ≤ 2599999

/-- Entry n of the table's one column (zero past the last row: a value no index in range reads). -/
def tblAt (tbl : ST.Idx → EReal) (n : ℕ) : EReal := if h : n < 2600000 then tbl (ix2 ⟨n, h⟩ 0) else 0

/-- Row r of the result: the 26 looked-up entries added up, plus the bias. -/
def rowSum (x : SX.Idx → BitVec 32) (tbl : ST.Idx → EReal) (b : SB.Idx → EReal) (r : Fin 16384) : EReal :=
  (∑ f : Fin 26, tblAt tbl (x (ix2 r f)).toNat) + b (ix1 0)

/-- The whole result array. -/
def out (x : SX.Idx → BitVec 32) (tbl : ST.Idx → EReal) (b : SB.Idx → EReal) : SO.Idx → EReal :=
  fun j => rowSum x tbl b (j 0)

theorem out_apply (x : SX.Idx → BitVec 32) (tbl : ST.Idx → EReal) (b : SB.Idx → EReal) (r : Fin 16384) (u : Fin 1) :
    out x tbl b (ix2 r u) = rowSum x tbl b r := rfl

end Cert.EmbSum

end
-- ==== Proof.Common.lean ====
/-
  The embedding-sum kernel's launch, common ground: the program as the launch theorem reads it, the arrays, the 32 workers'
  shares, and the value each worker leaves in its rows of the result — stated once, generic in the float instance.
-/
import proofs.«207411_g41145786696212_cont_8to1_b_1804_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207411_g41145786696212_cont_8to1_b_1804_24_alg».proof.Proof.Gen.KernelIdeal
import proofs.«207411_g41145786696212_cont_8to1_b_1804_24_alg».proof.Proof.Gen.KernelIdeal.Skeleton
import proofs.«207411_g41145786696212_cont_8to1_b_1804_24_alg».proof.Proof.HostVals
import proofs.«207411_g41145786696212_cont_8to1_b_1804_24_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

scoped notation "xV" => (Memref.whole Cert.KernelIdeal.main_v5_scv : Memref Cert.KernelIdeal.sig Kind.scVector Space.hbm Cert.KernelIdeal.S26x16384 EltTy.i32)
scoped notation "tV" => (Memref.whole Cert.KernelIdeal.main_v4_scv : Memref Cert.KernelIdeal.sig Kind.scVector Space.hbm Cert.KernelIdeal.S2600000 EltTy.f32)
scoped notation "bV" => (Memref.whole Cert.KernelIdeal.main_v6_scv : Memref Cert.KernelIdeal.sig Kind.scVector Space.hbm Cert.KernelIdeal.S16 EltTy.f32)
scoped notation "oV" => (Memref.whole Cert.KernelIdeal.main_v7_scv : Memref Cert.KernelIdeal.sig Kind.scVector Space.hbm Cert.KernelIdeal.S16384 EltTy.f32)
scoped notation "sI" => (Memref.whole Cert.KernelIdeal.cc0_scratch0 : Memref Cert.KernelIdeal.sig Kind.scVector Space.vmem Cert.KernelIdeal.S13312 EltTy.i32)
scoped notation "sVl" => (Memref.whole Cert.KernelIdeal.cc0_scratch1 : Memref Cert.KernelIdeal.sig Kind.scVector Space.vmem Cert.KernelIdeal.S13312 EltTy.f32)
scoped notation "sO" => (Memref.whole Cert.KernelIdeal.cc0_scratch2 : Memref Cert.KernelIdeal.sig Kind.scVector Space.vmem Cert.KernelIdeal.S512 EltTy.f32)
scoped notation "sB" => (Memref.whole Cert.KernelIdeal.cc0_scratch3 : Memref Cert.KernelIdeal.sig Kind.scVector Space.vmem Cert.KernelIdeal.S16 EltTy.f32)

variable [FloatOps F]

abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)

/-! ## The launch's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The three arguments, the four arrays the call works on (the index array transposed, the table flattened, the bias in
    sixteen lanes, the result vector) and the result column, as locations of device d. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v5
abbrev tLoc (d : Dev nD) : Loc nD τ sig := (SparseCore.T d).loc main_v4
abbrev bLoc (d : Dev nD) : Loc nD τ sig := (SparseCore.T d).loc main_v6
abbrev oLoc (d : Dev nD) : Loc nD τ sig := (SparseCore.T d).loc main_v7
abbrev rLoc (d : Dev nD) : Loc nD τ sig := (SparseCore.T d).loc main_v8

/-! ## The 32 workers: vector subcore s of SparseCore c is worker 2 s + c, and owns result rows 512 w … 512 w + 511 -/

omit [FloatOps F] in
theorem bound_zero : grid0.bound 0 = 2 := rfl
omit [FloatOps F] in
theorem bound_one : grid0.bound 1 = 16 := rfl

/-- A worker's number, from its grid coordinates. -/
def widL (L : grid0.Coords) : Fin 32 := ⟨2 * (L 1).val + (L 0).val, by
  have h0 : (L 0).val < 2 := (L 0).isLt
  have h1 : (L 1).val < 16 := (L 1).isLt
  omega⟩

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem hdiv32 : 32 ∣ S16384.size 0 := ⟨512, rfl⟩
/-- Worker w's rows of the result vector. -/
abbrev oRect (w : Fin 32) : Rect S16384 := Rect.part (s := S16384) (a₀ := 0) hdiv32 w
abbrev oSet (w : Fin 32) : Finset S16384.Idx := (oRect w).set

/-- The w-th read token of a whole array: every worker reads the transposed indices, the table and the bias lanes under a
    token of its own. -/
abbrev tokW (w : Fin 32) : PosShare TreeShare := Transfers.shareTok fullShare 32 w

/-! ## The value the kernel leaves, as one function of the three arrays it reads

Generic in the float instance: only the kernel's own additions, in the kernel's own order. -/

/-- Entry n of the flattened table (entry 0 past the end: never read by an index in range). -/
def tblGet (tbl : S2600000.Idx → F .f32) (n : ℕ) : F .f32 :=
  if h : n < 2600000 then tbl (ValueIdx.ix1 ⟨n, h⟩) else tbl (ValueIdx.ix1 ⟨0, by decide⟩)

/-- The kernel's order of addition over one row: the first thirteen values in two interleaved chains that start from the bias
    and from value 0, joined; the last thirteen in two chains that start from that partial sum and from value 13, joined. -/
def kerTree {α : Type} (add : α → α → α) (β : α) (v : Fin 26 → α) : α :=
  add (add (add (add (add (add (add
    (add (add (add (add (add (add (add β (v 1)) (v 3)) (v 5)) (v 7)) (v 9)) (v 11))
         (add (add (add (add (add (add (v 0) (v 2)) (v 4)) (v 6)) (v 8)) (v 10)) (v 12)))
    (v 14)) (v 16)) (v 18)) (v 20)) (v 22)) (v 24))
    (add (add (add (add (add (add (v 13) (v 15)) (v 17)) (v 19)) (v 21)) (v 23)) (v 25))

/-- Row r of the result vector: the 26 table entries the transposed index array's column r names, and lane r mod 16 of the
    bias lanes, added in the kernel's order. -/
def kerOut (xT : S26x16384.Idx → BitVec 32) (tbl : S2600000.Idx → F .f32) (b16 : S16.Idx → F .f32) : S16384.Idx → F .f32 :=
  fun j => kerTree FloatOps.addf (b16 (ValueIdx.ix1 ⟨(j 0).val % 16, Nat.mod_lt _ (by decide)⟩))
    (fun f => tblGet tbl (xT (ValueIdx.ix2 f (j 0))).toNat)

/-! ## The launch memory -/

variable (m : (ℓ : Loc nD τ sig) → Buf (Elt F) ℓ)

/-- What the call finds in the three arrays it reads: the host operations before it applied to the arguments. -/
def xTc (d : Dev nD) : S26x16384.Idx → BitVec 32 := Cert.EmbSum.Host.xT (m (a0Loc d))
def tblc (d : Dev nD) : S2600000.Idx → F .f32 := Cert.EmbSum.Host.tblLin (F := F) (m (a1Loc d))
def b16c (d : Dev nD) : S16.Idx → F .f32 := Cert.EmbSum.Host.bias16 (F := F) (m (a2Loc d))

/-- What the proof asks of the launch memory: every index word names a row of the table. -/
def PreOK : Prop := ∀ d : Dev nD, Cert.EmbSum.InRange (m (a0Loc d))

/-- What worker w is handed: a read token of each of the three arrays at the contents the host operations left, and its own
    rows of the result vector at the launch contents. -/
def goRes (d : Dev nD) (w : Fin 32) : sProp 𝕄 :=
  iprop((xLoc d ↦{tokW w} xTc m d) ∗ (tLoc d ↦{tokW w} tblc m d) ∗ (bLoc d ↦{tokW w} b16c m d) ∗ (oLoc d ↦[oSet w]{fullShare} m (oLoc d)))

/-- What it hands back: the tokens, and its rows at the kernel's value. -/
def tdRes (d : Dev nD) (w : Fin 32) : sProp 𝕄 :=
  iprop((xLoc d ↦{tokW w} xTc m d) ∗ (tLoc d ↦{tokW w} tblc m d) ∗ (bLoc d ↦{tokW w} b16c m d)
    ∗ (oLoc d ↦[oSet w]{fullShare} kerOut (xTc m d) (tblc m d) (b16c m d)))

end Cert.Proof.KI

end
-- ==== Proof.BodyGeom.lean ====
/-
  A worker's own storage and the arrays in the program's spelling: the scratch buffers and DMA semaphores among the subcore's
  scoped storage, the worker's rows of the result as the program slices them, the table's token as two read shares.
-/
import proofs.«207411_g41145786696212_cont_8to1_b_1804_24_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The worker's own storage -/

section Tile

variable (d : Dev nD) (L : grid0.Coords)

abbrev cell (k : DmaSem sig) : GSem nD τ sig := (thrOf d L, .dma k)

omit [FloatOps F] in
theorem ownSems0_V :
    (ownSems0 (thrOf d L) : sProp 𝕄)
      = iprop(semVal (cell d L cc0_scratch4.sem) 0 ∗ semVal (cell d L cc0_scratch5.sem) 0 ∗ semVal (cell d L cc0_scratch6.sem) 0
          ∗ semVal (cell d L cc0_scoped0.sem) 0 ∗ semVal (cell d L cc0_scoped1.sem) 0
          ∗ bigSep ((((((ownCells (thrOf d L)).erase (cell d L cc0_scratch4.sem)).erase (cell d L cc0_scratch5.sem)).erase (cell d L cc0_scratch6.sem)).erase
              (cell d L cc0_scoped0.sem)).erase (cell d L cc0_scoped1.sem)) fun g => semVal g 0) := by
  unfold SparseCore.Cfg.ownSems0
  have hm : ∀ k : DmaSem sig, cell d L k ∈ ownCells (sig := sig) (thrOf d L) := fun k =>
    (mem_ownCells (g := cell d L k)).mpr ⟨rfl, by show (SemLoc.dma k : SemLoc sig).isScoped .scVector = true; revert k; decide⟩
  have hne : ∀ k k' : DmaSem sig, k ≠ k' → cell d L k ≠ cell d L k' := fun k k' h e => h (by
    have := (Prod.mk.inj e).2; exact SemLoc.dma.inj this)
  rw [SparseCore.bigSep_erase' (hm cc0_scratch4.sem),
    SparseCore.bigSep_erase' (Finset.mem_erase.mpr ⟨hne _ _ (by decide), hm cc0_scratch5.sem⟩),
    SparseCore.bigSep_erase' (Finset.mem_erase.mpr ⟨hne _ _ (by decide), Finset.mem_erase.mpr ⟨hne _ _ (by decide), hm cc0_scratch6.sem⟩⟩),
    SparseCore.bigSep_erase' (Finset.mem_erase.mpr ⟨hne _ _ (by decide), Finset.mem_erase.mpr ⟨hne _ _ (by decide), Finset.mem_erase.mpr ⟨hne _ _ (by decide), hm cc0_scoped0.sem⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1.sem⟩⟩⟩⟩)]

abbrev bref (b : Ref sig .scVector) : DevRef τ sig := (Proc.scVector (cV L) (jV L)).devRef b

omit [FloatOps F] in
theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ (∃ f, (thrOf d L).loc cc0_scratch2 ↦{fullShare} f) ∗ (∃ f, (thrOf d L).loc cc0_scratch3 ↦{fullShare} f)
          ∗ bigSep (((((ownRefs (τ := τ) (.scVector (cV L) (jV L))).erase (bref L cc0_scratch0)).erase (bref L cc0_scratch1)).erase (bref L cc0_scratch2)).erase (bref L cc0_scratch3))
              fun b => iprop(∃ f, ((d, b) : Loc nD τ sig) ↦{fullShare} f)) := by
  unfold SparseCore.Cfg.ownBufs
  have hm0 := SparseCore.Cfg.mem_ownRefs_of_owner (sig := sig) (p := Proc.scVector (cV L) (jV L)) (b := bref L cc0_scratch0) rfl
  have hm1 := SparseCore.Cfg.mem_ownRefs_of_owner (sig := sig) (p := Proc.scVector (cV L) (jV L)) (b := bref L cc0_scratch1) rfl
  have hm2 := SparseCore.Cfg.mem_ownRefs_of_owner (sig := sig) (p := Proc.scVector (cV L) (jV L)) (b := bref L cc0_scratch2) rfl
  have hm3 := SparseCore.Cfg.mem_ownRefs_of_owner (sig := sig) (p := Proc.scVector (cV L) (jV L)) (b := bref L cc0_scratch3) rfl
  have hne : ∀ b b' : Ref sig .scVector, b ≠ b' → bref L b ≠ bref L b' := fun b b' h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide), Finset.mem_erase.mpr ⟨hne _ _ (by decide), hm3⟩⟩⟩)]

/-! ## The arrays in the program's spelling -/

abbrev oRectK (L : grid0.Coords) : Rect S16384 := Rect.unit (s := S16384) (k0_off32 L) S512.size (k0_off32_inb L)
abbrev oRowK (L : grid0.Coords) : Memref sig .scVector .hbm S512 .f32 := (oV).slice (oRectK L) (fun _ => rfl)

omit [FloatOps F] in
theorem oRectK_eq : oRectK L = oRect (widL L) := by
  unfold oRectK oRect Rect.part Rect.block
  congr 1 <;> funext a
  · rw [k0_off32_eq]
    match a with
    | 0 => simp [Shape.partIx, Shape.partSize, widL]; omega
  · match a with
    | 0 => simp [Shape.partSize]

omit [FloatOps F] in
theorem set_oRowK : (oRowK L).view.set = oSet (widL L) := by
  show ((oV).view.slice (oRectK L)).set = (oRect (widL L)).set
  rw [oRectK_eq]
  show ((View.whole (main_v7_scv : Ref sig .scVector)).slice (oRect (widL L))).set = _
  rw [View.set_slice]; exact Finset.map_refl

omit [FloatOps F] in
theorem pts_o (f : Buf (Elt F) (oLoc d)) :
    ((oRowK L).view.loc (thrOf d L) ↦[(oRowK L).view.set]{fullShare} f : sProp 𝕄) = oLoc d ↦[oSet (widL L)]{fullShare} f := by
  rw [set_oRowK]
omit [FloatOps F] in
theorem pts_x (q : PosShare TreeShare) (f : Buf (Elt F) (xLoc d)) : ((xV).view.loc (thrOf d L) ↦{q} f : sProp 𝕄) = xLoc d ↦{q} f := rfl
omit [FloatOps F] in
theorem pts_t (q : PosShare TreeShare) (f : Buf (Elt F) (tLoc d)) : ((tV).view.loc (thrOf d L) ↦{q} f : sProp 𝕄) = tLoc d ↦{q} f := rfl
omit [FloatOps F] in
theorem pts_b (q : PosShare TreeShare) (f : Buf (Elt F) (bLoc d)) : ((bV).view.loc (thrOf d L) ↦{q} f : sProp 𝕄) = bLoc d ↦{q} f := rfl
omit [FloatOps F] in
theorem pts_s0 (f : Buf (Elt F) ((thrOf d L).loc cc0_scratch0)) : ((sI).view.loc (thrOf d L) ↦{fullShare} f : sProp 𝕄) = (thrOf d L).loc cc0_scratch0 ↦{fullShare} f := rfl
omit [FloatOps F] in
theorem pts_s1 (f : Buf (Elt F) ((thrOf d L).loc cc0_scratch1)) : ((sVl).view.loc (thrOf d L) ↦{fullShare} f : sProp 𝕄) = (thrOf d L).loc cc0_scratch1 ↦{fullShare} f := rfl
omit [FloatOps F] in
theorem pts_s2 (f : Buf (Elt F) ((thrOf d L).loc cc0_scratch2)) : ((sO).view.loc (thrOf d L) ↦{fullShare} f : sProp 𝕄) = (thrOf d L).loc cc0_scratch2 ↦{fullShare} f := rfl
omit [FloatOps F] in
theorem pts_s3 (f : Buf (Elt F) ((thrOf d L).loc cc0_scratch3)) : ((sB).view.loc (thrOf d L) ↦{fullShare} f : sProp 𝕄) = (thrOf d L).loc cc0_scratch3 ↦{fullShare} f := rfl

omit [FloatOps F] in
/-- The worker's token of the table as two read shares, one per gather semaphore, and what is left. -/
theorem tbl_two (q : PosShare TreeShare) (f : Buf (Elt F) (tLoc d)) :
    ((tV).view.loc (thrOf d L) ↦{q} f : sProp 𝕄)
      ⊣⊢ iprop(((tV).view.loc (thrOf d L) ↦{Transfers.shareDrop q 2} f)
          ∗ ((tV).view.loc (thrOf d L) ↦{Transfers.shareTok q 2 0} f) ∗ ((tV).view.loc (thrOf d L) ↦{Transfers.shareTok q 2 1} f)) := by
  have h := Transfers.pointsTo_toks (nD := nD) (τ := τ) (sig := sig) (Ix := HIx 1) (Val := Elt F) (Name := ℕ) (U := UU) (Lvl := ℕ)
    (ℓ := (tV).view.loc (thrOf d L)) (S := Finset.univ) (f := f) q 2
  rw [show (Finset.univ : Finset (Fin 2)) = {0, 1} by decide, SparseCore.bigSep_insert' (by decide), bigSep_singleton] at h
  exact h

end Tile

end Cert.Proof.KI

end
-- ==== Proof.LibStoreReadBack.lean ====
import Idealize.ShloMosaic.Lib.Writes
import Idealize.ShloMosaic.PureOps.ShapeOps

/-!
# Reading a buffer back after stores, by coordinates

A buffer is written by a list of unmasked stores through unit-stride boxes (the last store first) and then read.

* A plain store of `w` through the box at offsets `off` with sizes `size`: an element whose coordinates are
  `off + x` reads `w x` (`read_store_in`); an element with one coordinate outside the box reads what the earlier
  stores left (`read_store_out`).
* A store of rows that are part of their machine words first loads the words' box, replaces inside the loaded block
  the window of `upd`'s shape at the offsets `start`, and stores the block. Read back, this is the plain store of
  `upd` through the narrower box at `off + start`: an element at `off + start + x'` reads `upd x'`
  (`read_blend_in`), an element with one coordinate outside that narrower box reads what the earlier stores left,
  whether or not it lies in the words' box (`read_blend_out`).

So after such stores the contents are found by asking, box by box from the last store back, whether the element's
coordinates lie in the box: no knowledge of what the buffer held before is needed where the boxes cover the buffer.
-/

noncomputable section

namespace Idealize.ShloMosaic.View

variable {sig : RefSig} {κ : Kind} {sp : Space} {s : Shape} {e : EltTy} {Val : EltTy → Type}
variable (v : View sig κ sp s e) (f : v.ty.Contents Val)

/-- An element at `off + x` of the box reads the last store's payload at `x`. -/
theorem read_store_in (off size : Fin s.rank → Nat) (inb : ∀ a, off a + size a ≤ s.size a)
    (w : (Rect.unit off size inb).shape.Idx → Val e) (L : List (Piece Val s e)) (y : s.Idx)
    (x : (Rect.unit off size inb).shape.Idx) (hy : ∀ a, (y a).val = off a + (x a).val) :
    v.read Val (v.writes Val f (⟨Rect.unit off size inb, w⟩ :: L)) y = w x := by
  have e : y = (Rect.unit off size inb).emb x := funext fun a => Fin.ext (by
    rw [hy a, Rect.emb_apply, Rect.off_unit, Rect.stride_unit, Nat.one_mul])
  rw [e]; exact read_writes_cons_emb v f _ w L x

/-- An element with a coordinate outside the last store's box reads what the earlier stores left. -/
theorem read_store_out (off size : Fin s.rank → Nat) (inb : ∀ a, off a + size a ≤ s.size a)
    (w : (Rect.unit off size inb).shape.Idx → Val e) (L : List (Piece Val s e)) (y : s.Idx)
    (hy : ∃ a, (y a).val < off a ∨ off a + size a ≤ (y a).val) :
    v.read Val (v.writes Val f (⟨Rect.unit off size inb, w⟩ :: L)) y = v.read Val (v.writes Val f L) y := by
  have hn : y ∉ (Rect.unit off size inb).set := fun hm => by
    obtain ⟨a, ha⟩ := hy
    have := (Rect.mem_set_unit.mp hm) a
    omega
  rw [writes_cons]
  exact read_slice_write_of_not_mem _ _ _ _ (by rw [Rect.map_emb_univ]; exact hn)

variable {u : Shape}

/-- After a store of rows that are part of their words, an element of the stored window reads the stored value. -/
theorem read_blend_in (off size : Fin s.rank → Nat) (inb : ∀ a, off a + size a ≤ s.size a)
    (upd : u.Idx → Val e) (start : Fin s.rank → Nat) (h : (Rect.unit off size inb).shape.Slices start u)
    (L : List (Piece Val s e)) (y : s.Idx) (x' : u.Idx)
    (hy : ∀ a : Fin s.rank, (y a).val = off a + start a + (x' (a.cast h.1.symm)).val) :
    v.read Val (v.writes Val f (⟨Rect.unit off size inb,
      updateSlice (v.readAt Val (Rect.unit off size inb).toLoadRect (v.writes Val f L)) upd start h⟩ :: L)) y = upd x' := by
  have hx (a : Fin s.rank) : start a + (x' (a.cast h.1.symm)).val < size a := by
    have h1 := h.2 a
    have h2 := (x' (a.cast h.1.symm)).isLt
    show start a + (x' (a.cast h.1.symm)).val < (Rect.unit off size inb).shape.size a
    omega
  rw [read_store_in v f off size inb _ L y (fun a => ⟨start a + (x' (a.cast h.1.symm)).val, hx a⟩)
    (fun a => by rw [hy a]; simp only [Nat.add_assoc])]
  unfold updateSlice
  rw [dif_pos (fun a => ⟨Nat.le_add_right _ _, Nat.add_lt_add_left (x' (a.cast h.1.symm)).isLt _⟩)]
  congr 1
  funext b
  apply Fin.ext
  simp only [Nat.add_sub_cancel_left]
  rfl

/-- After a store of rows that are part of their words, an element outside the stored window reads what the earlier
    stores left, whether or not the words' box holds it. -/
theorem read_blend_out (off size : Fin s.rank → Nat) (inb : ∀ a, off a + size a ≤ s.size a)
    (upd : u.Idx → Val e) (start : Fin s.rank → Nat) (h : (Rect.unit off size inb).shape.Slices start u)
    (L : List (Piece Val s e)) (y : s.Idx)
    (hy : ∃ a : Fin s.rank, (y a).val < off a + start a ∨ off a + start a + u.size (a.cast h.1.symm) ≤ (y a).val) :
    v.read Val (v.writes Val f (⟨Rect.unit off size inb,
      updateSlice (v.readAt Val (Rect.unit off size inb).toLoadRect (v.writes Val f L)) upd start h⟩ :: L)) y
      = v.read Val (v.writes Val f L) y := by
  by_cases hm : y ∈ (Rect.unit off size inb).set
  · obtain ⟨x, rfl⟩ := (Rect.unit off size inb).exists_idx_of_mem hm
    rw [show (Rect.unit off size inb).idx x = (Rect.unit off size inb).emb x from rfl, read_writes_cons_emb]
    unfold updateSlice
    rw [dif_neg]
    · rfl
    · intro hall
      obtain ⟨a, ha⟩ := hy
      have := hall a
      have e : ((Rect.unit off size inb).idx x a).val = off a + 1 * (x a).val := rfl
      rw [e] at ha
      omega
  · exact read_store_out v f off size inb _ L y (by
      by_contra hc
      exact hm (Rect.mem_set_unit.mpr fun a => by
        have := not_exists.mp hc a
        omega))

end Idealize.ShloMosaic.View

end
-- ==== Proof.PreRange.lean ====
/-
  What the precondition says of the index array: it is the conjunction of three tests, the last of which is
  "every index word v has 0 ≤ v and v ≤ 2599999 as a signed word", so where the precondition holds every index names
  a row of the table. The two tests on the float arrays are not read here.
-/
import proofs.«207411_g41145786696212_cont_8to1_b_1804_24_alg».proof.Pre_input_domain
import proofs.«207411_g41145786696212_cont_8to1_b_1804_24_alg».proof.Proof.Gen.Pre_input_domain
import proofs.«207411_g41145786696212_cont_8to1_b_1804_24_alg».proof.Proof.Spec
import Idealize.ShloMosaic.Lib.ReduceAll
import Idealize.ShloMosaic.Lib.ValueIdx

namespace Cert.EmbSum.Pre

open Idealize.ShloMosaic Idealize.ShloMosaic.ValueIdx

/-- The rank-0 shape has one index. -/
instance subsingleton_idx0 : Subsingleton Cert.Pre_input_domain.S_.Idx := ⟨fun a b => funext fun d => d.elim0⟩

/-- One word's test read back: both comparison bits set means 0 ≤ v ≤ 2599999, read signed. -/
theorem word_inRange (v : BitVec 32)
    (e : IntOp.andi (IntOp.cmpi .sge v 0#32) (IntOp.cmpi .sle v 2599999#32) = 1#1) :
    0 ≤ v.toInt ∧ v.toInt ≤ 2599999 := by
  obtain ⟨h1, h2⟩ := IntOp.andi_eq_one.1 e
  rw [IntOp.cmpi_sge, show (0#32 : BitVec 32).toInt = 0 from by decide] at h1
  rw [IntOp.cmpi_sle, show (2599999#32 : BitVec 32).toInt = 2599999 from by decide] at h2
  exact ⟨h1, h2⟩

/-- Where the precondition holds, every index word is in the table's range. -/
theorem inRange_of_pre {F : FTy → Type} [FloatOps F] [Cert.Pre_input_domain.Facts]
    (x : IVec Cert.Pre_input_domain.S16384x26 32) (tbl : FVec F Cert.Pre_input_domain.S2600000x1 .f32)
    (b : FVec F Cert.Pre_input_domain.S1 .f32)
    (h : Cert.Pre_input_domain.fn (F := F) x tbl b = fun _ => 1#1) : Cert.EmbSum.InRange x := by
  intro i
  have e := congrFun h ValueIdx.ix0
  dsimp only [Cert.Pre_input_domain.fn] at e
  obtain ⟨-, e3⟩ := IntOp.andi_eq_one.1 e
  exact word_inRange (x i) (Host.reduce_andi_all _ _ _ _ _ e3 i)

/-- A signed word in [0, 2599999] is its own unsigned value, so it is below the table's row count. -/
theorem toNat_lt_of_inRange {x : Cert.EmbSum.SX.Idx → BitVec 32} (hx : Cert.EmbSum.InRange x)
    (i : Cert.EmbSum.SX.Idx) : (x i).toNat < 2600000 := by
  obtain ⟨h0, h1⟩ := hx i
  have e := BitVec.toInt_eq_toNat_cond (x i)
  have := (x i).isLt
  omega

end Cert.EmbSum.Pre
-- ==== Proof.BodyFacts.lean ====
/-
  Facts the one worker's task needs of the index words: every word of the transposed index array names a row of the
  table; so does every word a copy of 512 of them brings; the index scratch, filled 512 words at a time from the start,
  holds such words below the fill line; and the two halves of the filled scratch, read as the gathers' offset lists,
  hold only such words.
-/
import proofs.«207411_g41145786696212_cont_8to1_b_1804_24_alg».proof.Proof.Common
import proofs.«207411_g41145786696212_cont_8to1_b_1804_24_alg».proof.Proof.LibStoreReadBack
import proofs.«207411_g41145786696212_cont_8to1_b_1804_24_alg».proof.Proof.PreRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The index scratch, filled from the start -/

/-- Every word of the scratch below position n names a row of the table. -/
def InRng (f : S13312.Idx → BitVec 32) (n : ℕ) : Prop := ∀ j : S13312.Idx, (j 0).val < n → (f j).toNat < 2600000

theorem InRng_zero (f : S13312.Idx → BitVec 32) : InRng f 0 := fun _ h => absurd h (Nat.not_lt_zero _)

/-- A store of 512 words that name rows, at the fill line n, moves the fill line to n + 512: a position below n
    lies outside the stored run and reads what was there, a position from n on and below n + 512 reads the stored
    word at its distance from n. -/
theorem InRng_store (g : S13312.Idx → BitVec 32) (Lst : List (View.Piece (Elt F) S13312 .i32)) (n : ℕ)
    (inb : ∀ a, (![n] : Fin 1 → Nat) a + S512.size a ≤ S13312.size a)
    (p : (Rect.unit (s := S13312) ![n] S512.size inb).shape.Idx → BitVec 32)
    (h : InRng ((sI).view.writes (Elt F) g Lst) n) (hp : ∀ y, (p y).toNat < 2600000) :
    InRng ((sI).view.writes (Elt F) g (⟨Rect.unit ![n] S512.size inb, p⟩ :: Lst)) (n + 512) := by
  intro j hj
  show (((sI).view.read (Elt F) ((sI).view.writes (Elt F) g (⟨Rect.unit ![n] S512.size inb, p⟩ :: Lst))) j).toNat < 2600000
  by_cases hlt : (j 0).val < n
  · rw [View.read_store_out (sI).view g ![n] S512.size inb p Lst j ⟨0, Or.inl hlt⟩]
    exact h j hlt
  · have hx : (j 0).val - n < 512 := by omega
    rw [View.read_store_in (sI).view g ![n] S512.size inb p Lst j (fun a => match a with | ⟨0, _⟩ => ⟨(j 0).val - n, hx⟩)
      (fun a => match a with | ⟨0, _⟩ => by show (j 0).val = n + ((j 0).val - n); omega)]
    exact hp _

/-! ## The gathers' offset lists -/

omit [FloatOps F] in
/-- The table has 2600000 rows along the gathered axis. -/
theorem gather_rows : S2600000.size gathers_S2600000_S6656.axis = 2600000 := rfl

/-- The first half of the scratch, filled, is a list of row numbers. -/
theorem hin_lo (fo : S13312.Idx → BitVec 32) (h : InRng fo 6656) :
    ∀ x, (((sI).slice (Rect.unit (s := S13312) ![0] S6656.size inb_S13312_S6656_0) (fun _ => rfl)).view.read (Elt F) fo x).toNat
      < S2600000.size gathers_S2600000_S6656.axis := by
  intro x
  have hx : (x 0).val < 6656 := (x 0).isLt
  exact h ((Rect.unit (s := S13312) ![0] S6656.size inb_S13312_S6656_0).emb x)
    (by show 0 + 1 * (x 0).val < 6656; omega)

/-- The second half of the scratch, filled, is a list of row numbers. -/
theorem hin_hi (fo : S13312.Idx → BitVec 32) (h : InRng fo 13312) :
    ∀ x, (((sI).slice (Rect.unit (s := S13312) ![6656] S6656.size inb_S13312_S6656_6656) (fun _ => rfl)).view.read (Elt F) fo x).toNat
      < S2600000.size gathers_S2600000_S6656.axis := by
  intro x
  have hx : (x 0).val < 6656 := (x 0).isLt
  exact h ((Rect.unit (s := S13312) ![6656] S6656.size inb_S13312_S6656_6656).emb x)
    (by show 6656 + 1 * (x 0).val < 13312; omega)

/-! ## The index words -/

/-- Under the precondition every word of the transposed index array names a row of the table. -/
theorem xTc_lt (hpre : PreOK m) (d : Dev nD) (i : S26x16384.Idx) : (xTc m d i).toNat < 2600000 := by
  obtain ⟨f, r, rfl⟩ : ∃ f r, i = ValueIdx.ix2 f r := ⟨i 0, i 1, ValueIdx.eq_ix2 i⟩
  unfold xTc
  rw [Cert.EmbSum.Host.xT_apply]
  exact Cert.EmbSum.Pre.toNat_lt_of_inRange (hpre d) _

/-- So does every word that a copy of 512 consecutive words of one of its rows brings. -/
theorem read_xTc_lt (hpre : PreOK m) (d : Dev nD) (off : Fin 2 → ℕ) (inb : ∀ a, off a + S1x512.size a ≤ S26x16384.size a)
    (y : S512.Idx) :
    ((ReadAs.same.apply ((((xV).slice (Rect.unit (s := S26x16384) off S1x512.size inb) (fun _ => rfl)).squeeze S512
      squeezes_S1x512_S512).view.read (Elt F) (xTc m d))) y).toNat < 2600000 :=
  xTc_lt m hpre d _

end Cert.Proof.KI

end
-- ==== Proof.ValFacts.lean ====
/-
  What one vector subcore's scratch arrays hold, as functions of the launch contents: the index scratch, filled 512 words
  at a time, holds below the fill line the transposed index array's words of the subcore's 512 columns, field by field;
  the value scratch holds the table's entries those words name; and a row of the kernel's result is the kernel's tree
  of additions over the 26 values of that row's column.
-/
import proofs.«207411_g41145786696212_cont_8to1_b_1804_24_alg».proof.Proof.BodyFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The index scratch -/

/-- Position p of the filled index scratch: field p / 512 of the subcore's column p mod 512, that is column
    512 w + p mod 512 of the transposed index array. -/
def idxFn (d : Dev nD) (L : grid0.Coords) : S13312.Idx → BitVec 32 := fun j =>
  xTc m d (ValueIdx.ix2 (⟨(j 0).val / 512, by have h : (j 0).val < 13312 := (j 0).isLt; omega⟩ : Fin 26)
    (⟨512 * (widL L).val + (j 0).val % 512, by have h := (widL L).isLt; omega⟩ : Fin 16384))

/-- Below position n the scratch holds those words. -/
def IdxIs (d : Dev nD) (L : grid0.Coords) (f : S13312.Idx → BitVec 32) (n : ℕ) : Prop :=
  ∀ j : S13312.Idx, (j 0).val < n → f j = idxFn m d L j

theorem IdxIs_zero (d : Dev nD) (L : grid0.Coords) (f : S13312.Idx → BitVec 32) : IdxIs m d L f 0 :=
  fun _ h => absurd h (Nat.not_lt_zero _)

/-- A store of the 512 words of positions n … n + 511, at the fill line n, moves the fill line to n + 512. -/
theorem IdxIs_store (d : Dev nD) (L : grid0.Coords) (g : S13312.Idx → BitVec 32)
    (Lst : List (View.Piece (Elt F) S13312 .i32)) (n : ℕ)
    (inb : ∀ a, (![n] : Fin 1 → Nat) a + S512.size a ≤ S13312.size a)
    (p : (Rect.unit (s := S13312) ![n] S512.size inb).shape.Idx → BitVec 32)
    (h : IdxIs m d L ((sI).view.writes (Elt F) g Lst) n)
    (hp : ∀ y, p y = idxFn m d L (ValueIdx.ix1 (⟨n + (y 0).val, by
      have h0 := inb 0
      have hy : (y 0).val < 512 := (y 0).isLt
      have e : (![n] : Fin 1 → Nat) 0 + S512.size 0 = n + 512 := rfl
      have e' : S13312.size 0 = 13312 := rfl
      omega⟩ : Fin 13312))) :
    IdxIs m d L ((sI).view.writes (Elt F) g (⟨Rect.unit ![n] S512.size inb, p⟩ :: Lst)) (n + 512) := by
  intro j hj
  show ((sI).view.read (Elt F) ((sI).view.writes (Elt F) g (⟨Rect.unit ![n] S512.size inb, p⟩ :: Lst))) j = idxFn m d L j
  by_cases hlt : (j 0).val < n
  · rw [View.read_store_out (sI).view g ![n] S512.size inb p Lst j ⟨0, Or.inl hlt⟩]
    exact h j hlt
  · have hx : (j 0).val - n < 512 := by omega
    rw [View.read_store_in (sI).view g ![n] S512.size inb p Lst j (fun a => match a with | ⟨0, _⟩ => ⟨(j 0).val - n, hx⟩)
      (fun a => match a with | ⟨0, _⟩ => by show (j 0).val = n + ((j 0).val - n); omega)]
    rw [hp]
    refine congrArg (idxFn m d L) ?_
    funext a
    match a with
    | ⟨0, _⟩ => exact Fin.ext (by show n + ((j 0).val - n) = (j 0).val; omega)

/-- A copy of 512 consecutive words of row k of the transposed index array, from column 512 w on, brings its words
    in order. -/
theorem read_xTc_eq (d : Dev nD) (L : grid0.Coords) (off : Fin 2 → ℕ) (inb : ∀ a, off a + S1x512.size a ≤ S26x16384.size a)
    (k : Fin 26) (h0 : off 0 = k.val) (h1 : off 1 = 512 * (widL L).val) (y : S512.Idx) :
    (ReadAs.same.apply ((((xV).slice (Rect.unit (s := S26x16384) off S1x512.size inb) (fun _ => rfl)).squeeze S512
      squeezes_S1x512_S512).view.read (Elt F) (xTc m d))) y
      = xTc m d (ValueIdx.ix2 k (⟨512 * (widL L).val + (y 0).val, by
          have h := (widL L).isLt
          have hy : (y 0).val < 512 := (y 0).isLt
          omega⟩ : Fin 16384)) := by
  have hy : (y 0).val < 512 := (y 0).isLt
  have hq : Shape.reshapeEquiv (s := S1x512) (s' := S512) squeezes_S1x512_S512.numel_eq y
      = (ValueIdx.ix2 (0 : Fin 1) (⟨(y 0).val, hy⟩ : Fin 512) : S1x512.Idx) :=
    Shape.reshapeEquiv_eq_of_rowMajor _ (by
      rw [Shape.rowMajor_val_two, Shape.rowMajor_val_one]
      show 0 * 512 + (y 0).val = (y 0).val
      omega)
  show xTc m d ((Rect.unit (s := S26x16384) off S1x512.size inb).emb
    (Shape.reshapeEquiv (s := S1x512) (s' := S512) squeezes_S1x512_S512.numel_eq y)) = _
  rw [hq]
  refine congrArg (xTc m d) (funext fun a => Fin.ext ?_)
  match a with
  | ⟨0, _⟩ =>
    show off 0 + 1 * 0 = k.val
    omega
  | ⟨1, _⟩ =>
    show off 1 + 1 * (y 0).val = 512 * (widL L).val + (y 0).val
    omega

/-- Piece k of the index scratch's fill: the copy's words are positions 512 k … 512 k + 511 of the filled scratch. -/
theorem pay_idx (d : Dev nD) (L : grid0.Coords) (k : Fin 26) (off : Fin 2 → ℕ)
    (inb : ∀ a, off a + S1x512.size a ≤ S26x16384.size a)
    (h : off = ![k.val, 1024 * (L 1).val + 512 * (L 0).val]) (y : S512.Idx) :
    (ReadAs.same.apply ((((xV).slice (Rect.unit (s := S26x16384) off S1x512.size inb) (fun _ => rfl)).squeeze S512
      squeezes_S1x512_S512).view.read (Elt F) (xTc m d))) y
      = idxFn m d L (ValueIdx.ix1 (⟨512 * k.val + (y 0).val, by
          have hk := k.isLt
          have hy : (y 0).val < 512 := (y 0).isLt
          omega⟩ : Fin 13312)) := by
  have hy : (y 0).val < 512 := (y 0).isLt
  rw [read_xTc_eq m d L off inb k (by rw [h]; rfl)
    (by rw [h]; show 1024 * (L 1).val + 512 * (L 0).val = 512 * (2 * (L 1).val + (L 0).val); omega) y]
  unfold idxFn
  refine congrArg (xTc m d) (funext fun a => ?_)
  match a with
  | ⟨0, _⟩ => exact Fin.ext (by show k.val = (512 * k.val + (y 0).val) / 512; omega)
  | ⟨1, _⟩ => exact Fin.ext (by
      show 512 * (widL L).val + (y 0).val = 512 * (widL L).val + (512 * k.val + (y 0).val) % 512; omega)

/-! ## The value scratch -/

/-- Position p of the filled value scratch: the flattened table's entry at the row the index scratch's word p names. -/
def valFn (d : Dev nD) (L : grid0.Coords) : S13312.Idx → F .f32 := fun p => tblGet (tblc m d) (idxFn m d L p).toNat

/-- A gather of 6656 table entries by the offset list at positions off … off + 6655 of the index scratch: entry x
    is the flattened table's at the row the list's word x names. -/
theorem gather_gen (d : Dev nD) (off : ℕ) (inbI : ∀ a, (![off] : Fin 1 → Nat) a + S6656.size a ≤ S13312.size a)
    (fo : S13312.Idx → BitVec 32) (hn : S6656.numel = S6656.size gathers_S2600000_S6656.axis')
    (hin : ∀ x, (((sI).slice (Rect.unit (s := S13312) ![off] S6656.size inbI) (fun _ => rfl)).view.read (Elt F) fo x).toNat
      < S2600000.size gathers_S2600000_S6656.axis)
    (x : S6656.Idx) (hb : off + (x 0).val < 13312) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![off] S6656.size inbI) (fun _ => rfl)).view.read (Elt F) fo) hn hin) x
      = tblGet (tblc m d) (fo (ValueIdx.ix1 (⟨off + (x 0).val, hb⟩ : Fin 13312))).toNat := by
  have hz : S6656.rowMajor.symm ((x gathers_S2600000_S6656.axis').cast hn.symm) = x := by
    rw [Equiv.symm_apply_eq]
    exact Fin.ext (by rw [Shape.rowMajor_val_one]; rfl)
  have hr : (SparseCore.rows (((sI).slice (Rect.unit (s := S13312) ![off] S6656.size inbI) (fun _ => rfl)).view.read (Elt F) fo)
      hn hin (x gathers_S2600000_S6656.axis')).val = (fo (ValueIdx.ix1 (⟨off + (x 0).val, hb⟩ : Fin 13312))).toNat := by
    show ((((sI).slice (Rect.unit (s := S13312) ![off] S6656.size inbI) (fun _ => rfl)).view.read (Elt F) fo)
      (S6656.rowMajor.symm ((x gathers_S2600000_S6656.axis').cast hn.symm))).toNat = _
    rw [hz]
    refine congrArg (fun j => (fo j).toNat) (funext fun a => Fin.ext ?_)
    match a with
    | ⟨0, _⟩ => show off + 1 * (x 0).val = off + (x 0).val; omega
  have hlt : (fo (ValueIdx.ix1 (⟨off + (x 0).val, hb⟩ : Fin 13312))).toNat < 2600000 := by
    rw [← hr]
    exact (SparseCore.rows (((sI).slice (Rect.unit (s := S13312) ![off] S6656.size inbI) (fun _ => rfl)).view.read (Elt F) fo)
      hn hin (x gathers_S2600000_S6656.axis')).isLt
  unfold tblGet
  rw [dif_pos hlt]
  unfold SparseCore.gatherPayload
  refine congrArg (tblc m d) (funext fun a => Fin.ext ?_)
  match a with
  | ⟨0, _⟩ =>
    have e := congrArg Fin.val (Shape.Gathers.idx_axis gathers_S2600000_S6656
      (SparseCore.rows (((sI).slice (Rect.unit (s := S13312) ![off] S6656.size inbI) (fun _ => rfl)).view.read (Elt F) fo) hn hin) x)
    rw [hr] at e
    show 0 + 1 * (gathers_S2600000_S6656.idx
      (SparseCore.rows (((sI).slice (Rect.unit (s := S13312) ![off] S6656.size inbI) (fun _ => rfl)).view.read (Elt F) fo) hn hin) x
        gathers_S2600000_S6656.axis).val = _
    rw [e]
    show 0 + 1 * (fo (ValueIdx.ix1 (⟨off + (x 0).val, hb⟩ : Fin 13312))).toNat = (fo (ValueIdx.ix1 (⟨off + (x 0).val, hb⟩ : Fin 13312))).toNat
    omega

/-- The first gather, over the filled first half of the index scratch: entry x is position x of the value scratch. -/
theorem gather_lo_apply (d : Dev nD) (L : grid0.Coords) (fo : S13312.Idx → BitVec 32)
    (hn : S6656.numel = S6656.size gathers_S2600000_S6656.axis')
    (hin : ∀ x, (((sI).slice (Rect.unit (s := S13312) ![0] S6656.size inb_S13312_S6656_0) (fun _ => rfl)).view.read (Elt F) fo x).toNat
      < S2600000.size gathers_S2600000_S6656.axis)
    (h : IdxIs m d L fo 6656) (x : S6656.Idx) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![0] S6656.size inb_S13312_S6656_0) (fun _ => rfl)).view.read (Elt F) fo) hn hin) x
      = valFn m d L (ValueIdx.ix1 (⟨(x 0).val, by have hx : (x 0).val < 6656 := (x 0).isLt; omega⟩ : Fin 13312)) := by
  have hx : (x 0).val < 6656 := (x 0).isLt
  rw [gather_gen m d 0 inb_S13312_S6656_0 fo hn hin x (by omega)]
  unfold valFn
  rw [h _ (show 0 + (x 0).val < 6656 by omega)]
  refine congrArg (fun j => tblGet (tblc m d) (idxFn m d L j).toNat) (funext fun a => ?_)
  match a with
  | ⟨0, _⟩ => exact Fin.ext (by show 0 + (x 0).val = (x 0).val; omega)

/-- The second gather, over the filled second half: entry x is position 6656 + x of the value scratch. -/
theorem gather_hi_apply (d : Dev nD) (L : grid0.Coords) (fo : S13312.Idx → BitVec 32)
    (hn : S6656.numel = S6656.size gathers_S2600000_S6656.axis')
    (hin : ∀ x, (((sI).slice (Rect.unit (s := S13312) ![6656] S6656.size inb_S13312_S6656_6656) (fun _ => rfl)).view.read (Elt F) fo x).toNat
      < S2600000.size gathers_S2600000_S6656.axis)
    (h : IdxIs m d L fo 13312) (x : S6656.Idx) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![6656] S6656.size inb_S13312_S6656_6656) (fun _ => rfl)).view.read (Elt F) fo) hn hin) x
      = valFn m d L (ValueIdx.ix1 (⟨6656 + (x 0).val, by have hx : (x 0).val < 6656 := (x 0).isLt; omega⟩ : Fin 13312)) := by
  have hx : (x 0).val < 6656 := (x 0).isLt
  rw [gather_gen m d 6656 inb_S13312_S6656_6656 fo hn hin x (by omega)]
  unfold valFn
  rw [h _ (show 6656 + (x 0).val < 13312 by omega)]

/-- Reading the whole value scratch through its own view is reading the array. -/
theorem of_read_sVl (W : (sVl).view.ty.Contents (Elt F)) (p : S13312.Idx) (v : F .f32)
    (h : (sVl).view.read (Elt F) W p = v) : W p = v := h

/-- A position inside the last stored run of 6656 values reads the stored value at its distance from the run's start. -/
theorem read_sVl_in (f1 : S13312.Idx → F .f32) (n : ℕ) (inb : ∀ a, (![n] : Fin 1 → Nat) a + S6656.size a ≤ S13312.size a)
    (w : (Rect.unit (s := S13312) ![n] S6656.size inb).shape.Idx → F .f32) (Lst : List (View.Piece (Elt F) S13312 .f32))
    (p : S13312.Idx) (h1 : n ≤ (p 0).val) (h2 : (p 0).val - n < 6656) :
    (sVl).view.read (Elt F) ((sVl).view.writes (Elt F) f1 (⟨Rect.unit ![n] S6656.size inb, w⟩ :: Lst)) p
      = w (fun a => match a with | ⟨0, _⟩ => ⟨(p 0).val - n, h2⟩) :=
  View.read_store_in (Val := Elt F) (sVl).view f1 ![n] S6656.size inb w Lst p
    (fun a => match a with | ⟨0, _⟩ => ⟨(p 0).val - n, h2⟩)
    (fun a => match a with | ⟨0, _⟩ => by show (p 0).val = n + ((p 0).val - n); omega)

/-- After both gathers the value scratch is filled: every position holds its value. -/
theorem vals_eq (d : Dev nD) (L : grid0.Coords) (f1 : S13312.Idx → F .f32)
    (G0' : (Rect.unit (s := S13312) ![0] S6656.size inb_S13312_S6656_0).shape.Idx → F .f32)
    (G1' : (Rect.unit (s := S13312) ![6656] S6656.size inb_S13312_S6656_6656).shape.Idx → F .f32)
    (h0 : ∀ x, G0' x = valFn m d L (ValueIdx.ix1 (⟨(x 0).val, by have hx : (x 0).val < 6656 := (x 0).isLt; omega⟩ : Fin 13312)))
    (h1 : ∀ x, G1' x = valFn m d L (ValueIdx.ix1 (⟨6656 + (x 0).val, by have hx : (x 0).val < 6656 := (x 0).isLt; omega⟩ : Fin 13312)))
    (p : S13312.Idx) :
    ((sVl).view.writes (Elt F) f1 [⟨Rect.unit ![6656] S6656.size inb_S13312_S6656_6656, G1'⟩,
      ⟨Rect.unit ![0] S6656.size inb_S13312_S6656_0, G0'⟩]) p = valFn m d L p := by
  have hp : (p 0).val < 13312 := (p 0).isLt
  refine of_read_sVl _ p _ ?_
  by_cases hlt : (p 0).val < 6656
  · rw [View.read_store_out (Val := Elt F) (sVl).view f1 ![6656] S6656.size inb_S13312_S6656_6656 G1' _ p ⟨0, Or.inl hlt⟩,
      read_sVl_in f1 0 inb_S13312_S6656_0 G0' [] p (Nat.zero_le _) (by omega), h0]
    refine congrArg (valFn m d L) (funext fun a => ?_)
    match a with
    | ⟨0, _⟩ => exact Fin.ext (by show (p 0).val - 0 = (p 0).val; omega)
  · have hx : (p 0).val - 6656 < 6656 := by omega
    rw [read_sVl_in f1 6656 inb_S13312_S6656_6656 G1' _ p (by omega) hx, h1]
    refine congrArg (valFn m d L) (funext fun a => ?_)
    obtain rfl : a = 0 := Subsingleton.elim _ _
    exact Fin.ext (by show 6656 + ((p 0).val - 6656) = (p 0).val; omega)

/-- After the first gather alone the first half of the value scratch is filled. -/
theorem vals_lo_eq (d : Dev nD) (L : grid0.Coords) (f1 : S13312.Idx → F .f32)
    (G0' : (Rect.unit (s := S13312) ![0] S6656.size inb_S13312_S6656_0).shape.Idx → F .f32)
    (h0 : ∀ x, G0' x = valFn m d L (ValueIdx.ix1 (⟨(x 0).val, by have hx : (x 0).val < 6656 := (x 0).isLt; omega⟩ : Fin 13312)))
    (p : S13312.Idx) (hlt : (p 0).val < 6656) :
    ((sVl).view.writes (Elt F) f1 [⟨Rect.unit ![0] S6656.size inb_S13312_S6656_0, G0'⟩]) p = valFn m d L p := by
  refine of_read_sVl _ p _ ?_
  rw [read_sVl_in f1 0 inb_S13312_S6656_0 G0' [] p (Nat.zero_le _) (by omega), h0]
  refine congrArg (valFn m d L) (funext fun a => ?_)
  match a with
  | ⟨0, _⟩ => exact Fin.ext (by show (p 0).val - 0 = (p 0).val; omega)

/-! ## A row of the result -/

/-- Row 512 w + j of the kernel's result: the kernel's tree of additions over the bias lane j mod 16 and the 26 values
    at positions 512 f + j of the value scratch. -/
theorem kerOut_row (d : Dev nD) (L : grid0.Coords) (j : Fin 512) :
    kerOut (xTc m d) (tblc m d) (b16c m d) (ValueIdx.ix1 (⟨512 * (widL L).val + j.val, by
        have h := (widL L).isLt
        have hj := j.isLt
        omega⟩ : Fin 16384))
      = kerTree FloatOps.addf (b16c m d (ValueIdx.ix1 (⟨j.val % 16, Nat.mod_lt _ (by decide)⟩ : Fin 16)))
          (fun f => valFn m d L (ValueIdx.ix1 (⟨512 * f.val + j.val, by
            have hf := f.isLt
            have hj := j.isLt
            omega⟩ : Fin 13312))) := by
  have hj := j.isLt
  unfold kerOut valFn idxFn
  refine congrArg₂ (kerTree FloatOps.addf) ?_ ?_
  · refine congrArg (b16c m d) (funext fun a => ?_)
    match a with
    | ⟨0, _⟩ => exact Fin.ext (by show (512 * (widL L).val + j.val) % 16 = j.val % 16; omega)
  · funext f
    refine congrArg (fun i => tblGet (tblc m d) (xTc m d i).toNat) (funext fun a => ?_)
    match a with
    | ⟨0, _⟩ => exact Fin.ext (by show f.val = (512 * f.val + j.val) / 512; omega)
    | ⟨1, _⟩ => exact Fin.ext (by
        show 512 * (widL L).val + j.val = 512 * (widL L).val + (512 * f.val + j.val) % 512; omega)

end Cert.Proof.KI

end
-- ==== Proof.Chains.lean ====
/-
  The index scratch after its 13 and after its 26 copies, as explicit lists of stores: every word below the fill line
  names a row of the table and is the transposed index array's word of its position; so the two halves are the
  gathers' offset lists, and after both gathers the value scratch holds, at every position, the table's entry that the
  index scratch's word there names.
-/
import proofs.«207411_g41145786696212_cont_8to1_b_1804_24_alg».proof.Proof.ValFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The copies' payloads and the two lists of stores -/

/-- What a copy of 512 consecutive words of one row of the transposed index array brings. -/
abbrev qPay (d : Dev nD) (L : grid0.Coords) (off : Fin 2 → ℕ) (inb : ∀ a, off a + S1x512.size a ≤ S26x16384.size a) :
    S512.Idx → BitVec 32 :=
  ReadAs.same.apply ((((xV).slice (Rect.unit (s := S26x16384) off S1x512.size inb) (fun _ => rfl)).squeeze S512
    squeezes_S1x512_S512).view.read (Elt F) (xTc m d))

/-- The index scratch after the first 13 copies (the last store first). -/
abbrev idx13 (d : Dev nD) (L : grid0.Coords) (f0 : S13312.Idx → BitVec 32) : S13312.Idx → BitVec 32 :=
  (sI).view.writes (Elt F) f0 [
      ⟨Rect.unit ![6144] S512.size inb_S13312_S512_6144, qPay m d L (k0_off13 L) (k0_off13_inb L)⟩,
      ⟨Rect.unit ![5632] S512.size inb_S13312_S512_5632, qPay m d L (k0_off12 L) (k0_off12_inb L)⟩,
      ⟨Rect.unit ![5120] S512.size inb_S13312_S512_5120, qPay m d L (k0_off11 L) (k0_off11_inb L)⟩,
      ⟨Rect.unit ![4608] S512.size inb_S13312_S512_4608, qPay m d L (k0_off10 L) (k0_off10_inb L)⟩,
      ⟨Rect.unit ![4096] S512.size inb_S13312_S512_4096, qPay m d L (k0_off9 L) (k0_off9_inb L)⟩,
      ⟨Rect.unit ![3584] S512.size inb_S13312_S512_3584, qPay m d L (k0_off8 L) (k0_off8_inb L)⟩,
      ⟨Rect.unit ![3072] S512.size inb_S13312_S512_3072, qPay m d L (k0_off7 L) (k0_off7_inb L)⟩,
      ⟨Rect.unit ![2560] S512.size inb_S13312_S512_2560, qPay m d L (k0_off6 L) (k0_off6_inb L)⟩,
      ⟨Rect.unit ![2048] S512.size inb_S13312_S512_2048, qPay m d L (k0_off5 L) (k0_off5_inb L)⟩,
      ⟨Rect.unit ![1536] S512.size inb_S13312_S512_1536, qPay m d L (k0_off4 L) (k0_off4_inb L)⟩,
      ⟨Rect.unit ![1024] S512.size inb_S13312_S512_1024, qPay m d L (k0_off3 L) (k0_off3_inb L)⟩,
      ⟨Rect.unit ![512] S512.size inb_S13312_S512_512, qPay m d L (k0_off2 L) (k0_off2_inb L)⟩,
      ⟨Rect.unit ![0] S512.size inb_S13312_S512_0, qPay m d L (k0_off1 L) (k0_off1_inb L)⟩]

/-- The index scratch after all 26 copies (the last store first). -/
abbrev idx26 (d : Dev nD) (L : grid0.Coords) (f0 : S13312.Idx → BitVec 32) : S13312.Idx → BitVec 32 :=
  (sI).view.writes (Elt F) f0 [
      ⟨Rect.unit ![12800] S512.size inb_S13312_S512_12800, qPay m d L (k0_off26 L) (k0_off26_inb L)⟩,
      ⟨Rect.unit ![12288] S512.size inb_S13312_S512_12288, qPay m d L (k0_off25 L) (k0_off25_inb L)⟩,
      ⟨Rect.unit ![11776] S512.size inb_S13312_S512_11776, qPay m d L (k0_off24 L) (k0_off24_inb L)⟩,
      ⟨Rect.unit ![11264] S512.size inb_S13312_S512_11264, qPay m d L (k0_off23 L) (k0_off23_inb L)⟩,
      ⟨Rect.unit ![10752] S512.size inb_S13312_S512_10752, qPay m d L (k0_off22 L) (k0_off22_inb L)⟩,
      ⟨Rect.unit ![10240] S512.size inb_S13312_S512_10240, qPay m d L (k0_off21 L) (k0_off21_inb L)⟩,
      ⟨Rect.unit ![9728] S512.size inb_S13312_S512_9728, qPay m d L (k0_off20 L) (k0_off20_inb L)⟩,
      ⟨Rect.unit ![9216] S512.size inb_S13312_S512_9216, qPay m d L (k0_off19 L) (k0_off19_inb L)⟩,
      ⟨Rect.unit ![8704] S512.size inb_S13312_S512_8704, qPay m d L (k0_off18 L) (k0_off18_inb L)⟩,
      ⟨Rect.unit ![8192] S512.size inb_S13312_S512_8192, qPay m d L (k0_off17 L) (k0_off17_inb L)⟩,
      ⟨Rect.unit ![7680] S512.size inb_S13312_S512_7680, qPay m d L (k0_off16 L) (k0_off16_inb L)⟩,
      ⟨Rect.unit ![7168] S512.size inb_S13312_S512_7168, qPay m d L (k0_off15 L) (k0_off15_inb L)⟩,
      ⟨Rect.unit ![6656] S512.size inb_S13312_S512_6656, qPay m d L (k0_off14 L) (k0_off14_inb L)⟩,
      ⟨Rect.unit ![6144] S512.size inb_S13312_S512_6144, qPay m d L (k0_off13 L) (k0_off13_inb L)⟩,
      ⟨Rect.unit ![5632] S512.size inb_S13312_S512_5632, qPay m d L (k0_off12 L) (k0_off12_inb L)⟩,
      ⟨Rect.unit ![5120] S512.size inb_S13312_S512_5120, qPay m d L (k0_off11 L) (k0_off11_inb L)⟩,
      ⟨Rect.unit ![4608] S512.size inb_S13312_S512_4608, qPay m d L (k0_off10 L) (k0_off10_inb L)⟩,
      ⟨Rect.unit ![4096] S512.size inb_S13312_S512_4096, qPay m d L (k0_off9 L) (k0_off9_inb L)⟩,
      ⟨Rect.unit ![3584] S512.size inb_S13312_S512_3584, qPay m d L (k0_off8 L) (k0_off8_inb L)⟩,
      ⟨Rect.unit ![3072] S512.size inb_S13312_S512_3072, qPay m d L (k0_off7 L) (k0_off7_inb L)⟩,
      ⟨Rect.unit ![2560] S512.size inb_S13312_S512_2560, qPay m d L (k0_off6 L) (k0_off6_inb L)⟩,
      ⟨Rect.unit ![2048] S512.size inb_S13312_S512_2048, qPay m d L (k0_off5 L) (k0_off5_inb L)⟩,
      ⟨Rect.unit ![1536] S512.size inb_S13312_S512_1536, qPay m d L (k0_off4 L) (k0_off4_inb L)⟩,
      ⟨Rect.unit ![1024] S512.size inb_S13312_S512_1024, qPay m d L (k0_off3 L) (k0_off3_inb L)⟩,
      ⟨Rect.unit ![512] S512.size inb_S13312_S512_512, qPay m d L (k0_off2 L) (k0_off2_inb L)⟩,
      ⟨Rect.unit ![0] S512.size inb_S13312_S512_0, qPay m d L (k0_off1 L) (k0_off1_inb L)⟩]

/-! ## Every word below the fill line names a row of the table -/

theorem inRng13 (hpre : PreOK m) (d : Dev nD) (L : grid0.Coords) (f0 : S13312.Idx → BitVec 32) :
    InRng (idx13 m d L f0) 6656 :=
  InRng_store f0 _ 6144 _ _
    (InRng_store f0 _ 5632 _ _
    (InRng_store f0 _ 5120 _ _
    (InRng_store f0 _ 4608 _ _
    (InRng_store f0 _ 4096 _ _
    (InRng_store f0 _ 3584 _ _
    (InRng_store f0 _ 3072 _ _
    (InRng_store f0 _ 2560 _ _
    (InRng_store f0 _ 2048 _ _
    (InRng_store f0 _ 1536 _ _
    (InRng_store f0 _ 1024 _ _
    (InRng_store f0 _ 512 _ _
    (InRng_store f0 _ 0 _ _
    (InRng_zero _)
    (fun y => read_xTc_lt m hpre d (k0_off1 L) (k0_off1_inb L) y))
    (fun y => read_xTc_lt m hpre d (k0_off2 L) (k0_off2_inb L) y))
    (fun y => read_xTc_lt m hpre d (k0_off3 L) (k0_off3_inb L) y))
    (fun y => read_xTc_lt m hpre d (k0_off4 L) (k0_off4_inb L) y))
    (fun y => read_xTc_lt m hpre d (k0_off5 L) (k0_off5_inb L) y))
    (fun y => read_xTc_lt m hpre d (k0_off6 L) (k0_off6_inb L) y))
    (fun y => read_xTc_lt m hpre d (k0_off7 L) (k0_off7_inb L) y))
    (fun y => read_xTc_lt m hpre d (k0_off8 L) (k0_off8_inb L) y))
    (fun y => read_xTc_lt m hpre d (k0_off9 L) (k0_off9_inb L) y))
    (fun y => read_xTc_lt m hpre d (k0_off10 L) (k0_off10_inb L) y))
    (fun y => read_xTc_lt m hpre d (k0_off11 L) (k0_off11_inb L) y))
    (fun y => read_xTc_lt m hpre d (k0_off12 L) (k0_off12_inb L) y))
    (fun y => read_xTc_lt m hpre d (k0_off13 L) (k0_off13_inb L) y)

theorem inRng26 (hpre : PreOK m) (d : Dev nD) (L : grid0.Coords) (f0 : S13312.Idx → BitVec 32) :
    InRng (idx26 m d L f0) 13312 :=
  InRng_store f0 _ 12800 _ _
    (InRng_store f0 _ 12288 _ _
    (InRng_store f0 _ 11776 _ _
    (InRng_store f0 _ 11264 _ _
    (InRng_store f0 _ 10752 _ _
    (InRng_store f0 _ 10240 _ _
    (InRng_store f0 _ 9728 _ _
    (InRng_store f0 _ 9216 _ _
    (InRng_store f0 _ 8704 _ _
    (InRng_store f0 _ 8192 _ _
    (InRng_store f0 _ 7680 _ _
    (InRng_store f0 _ 7168 _ _
    (InRng_store f0 _ 6656 _ _
    (InRng_store f0 _ 6144 _ _
    (InRng_store f0 _ 5632 _ _
    (InRng_store f0 _ 5120 _ _
    (InRng_store f0 _ 4608 _ _
    (InRng_store f0 _ 4096 _ _
    (InRng_store f0 _ 3584 _ _
    (InRng_store f0 _ 3072 _ _
    (InRng_store f0 _ 2560 _ _
    (InRng_store f0 _ 2048 _ _
    (InRng_store f0 _ 1536 _ _
    (InRng_store f0 _ 1024 _ _
    (InRng_store f0 _ 512 _ _
    (InRng_store f0 _ 0 _ _
    (InRng_zero _)
    (fun y => read_xTc_lt m hpre d (k0_off1 L) (k0_off1_inb L) y))
    (fun y => read_xTc_lt m hpre d (k0_off2 L) (k0_off2_inb L) y))
    (fun y => read_xTc_lt m hpre d (k0_off3 L) (k0_off3_inb L) y))
    (fun y => read_xTc_lt m hpre d (k0_off4 L) (k0_off4_inb L) y))
    (fun y => read_xTc_lt m hpre d (k0_off5 L) (k0_off5_inb L) y))
    (fun y => read_xTc_lt m hpre d (k0_off6 L) (k0_off6_inb L) y))
    (fun y => read_xTc_lt m hpre d (k0_off7 L) (k0_off7_inb L) y))
    (fun y => read_xTc_lt m hpre d (k0_off8 L) (k0_off8_inb L) y))
    (fun y => read_xTc_lt m hpre d (k0_off9 L) (k0_off9_inb L) y))
    (fun y => read_xTc_lt m hpre d (k0_off10 L) (k0_off10_inb L) y))
    (fun y => read_xTc_lt m hpre d (k0_off11 L) (k0_off11_inb L) y))
    (fun y => read_xTc_lt m hpre d (k0_off12 L) (k0_off12_inb L) y))
    (fun y => read_xTc_lt m hpre d (k0_off13 L) (k0_off13_inb L) y))
    (fun y => read_xTc_lt m hpre d (k0_off14 L) (k0_off14_inb L) y))
    (fun y => read_xTc_lt m hpre d (k0_off15 L) (k0_off15_inb L) y))
    (fun y => read_xTc_lt m hpre d (k0_off16 L) (k0_off16_inb L) y))
    (fun y => read_xTc_lt m hpre d (k0_off17 L) (k0_off17_inb L) y))
    (fun y => read_xTc_lt m hpre d (k0_off18 L) (k0_off18_inb L) y))
    (fun y => read_xTc_lt m hpre d (k0_off19 L) (k0_off19_inb L) y))
    (fun y => read_xTc_lt m hpre d (k0_off20 L) (k0_off20_inb L) y))
    (fun y => read_xTc_lt m hpre d (k0_off21 L) (k0_off21_inb L) y))
    (fun y => read_xTc_lt m hpre d (k0_off22 L) (k0_off22_inb L) y))
    (fun y => read_xTc_lt m hpre d (k0_off23 L) (k0_off23_inb L) y))
    (fun y => read_xTc_lt m hpre d (k0_off24 L) (k0_off24_inb L) y))
    (fun y => read_xTc_lt m hpre d (k0_off25 L) (k0_off25_inb L) y))
    (fun y => read_xTc_lt m hpre d (k0_off26 L) (k0_off26_inb L) y)

/-! ## Every word below the fill line is the transposed index array's word of its position -/

theorem idxIs13 (d : Dev nD) (L : grid0.Coords) (f0 : S13312.Idx → BitVec 32) :
    IdxIs m d L (idx13 m d L f0) 6656 :=
  IdxIs_store m d L f0 _ 6144 _ _
    (IdxIs_store m d L f0 _ 5632 _ _
    (IdxIs_store m d L f0 _ 5120 _ _
    (IdxIs_store m d L f0 _ 4608 _ _
    (IdxIs_store m d L f0 _ 4096 _ _
    (IdxIs_store m d L f0 _ 3584 _ _
    (IdxIs_store m d L f0 _ 3072 _ _
    (IdxIs_store m d L f0 _ 2560 _ _
    (IdxIs_store m d L f0 _ 2048 _ _
    (IdxIs_store m d L f0 _ 1536 _ _
    (IdxIs_store m d L f0 _ 1024 _ _
    (IdxIs_store m d L f0 _ 512 _ _
    (IdxIs_store m d L f0 _ 0 _ _
    (IdxIs_zero m d L _)
    (fun y => pay_idx m d L 0 (k0_off1 L) (k0_off1_inb L) (k0_off1_eq L) y))
    (fun y => pay_idx m d L 1 (k0_off2 L) (k0_off2_inb L) (k0_off2_eq L) y))
    (fun y => pay_idx m d L 2 (k0_off3 L) (k0_off3_inb L) (k0_off3_eq L) y))
    (fun y => pay_idx m d L 3 (k0_off4 L) (k0_off4_inb L) (k0_off4_eq L) y))
    (fun y => pay_idx m d L 4 (k0_off5 L) (k0_off5_inb L) (k0_off5_eq L) y))
    (fun y => pay_idx m d L 5 (k0_off6 L) (k0_off6_inb L) (k0_off6_eq L) y))
    (fun y => pay_idx m d L 6 (k0_off7 L) (k0_off7_inb L) (k0_off7_eq L) y))
    (fun y => pay_idx m d L 7 (k0_off8 L) (k0_off8_inb L) (k0_off8_eq L) y))
    (fun y => pay_idx m d L 8 (k0_off9 L) (k0_off9_inb L) (k0_off9_eq L) y))
    (fun y => pay_idx m d L 9 (k0_off10 L) (k0_off10_inb L) (k0_off10_eq L) y))
    (fun y => pay_idx m d L 10 (k0_off11 L) (k0_off11_inb L) (k0_off11_eq L) y))
    (fun y => pay_idx m d L 11 (k0_off12 L) (k0_off12_inb L) (k0_off12_eq L) y))
    (fun y => pay_idx m d L 12 (k0_off13 L) (k0_off13_inb L) (k0_off13_eq L) y)

theorem idxIs26 (d : Dev nD) (L : grid0.Coords) (f0 : S13312.Idx → BitVec 32) :
    IdxIs m d L (idx26 m d L f0) 13312 :=
  IdxIs_store m d L f0 _ 12800 _ _
    (IdxIs_store m d L f0 _ 12288 _ _
    (IdxIs_store m d L f0 _ 11776 _ _
    (IdxIs_store m d L f0 _ 11264 _ _
    (IdxIs_store m d L f0 _ 10752 _ _
    (IdxIs_store m d L f0 _ 10240 _ _
    (IdxIs_store m d L f0 _ 9728 _ _
    (IdxIs_store m d L f0 _ 9216 _ _
    (IdxIs_store m d L f0 _ 8704 _ _
    (IdxIs_store m d L f0 _ 8192 _ _
    (IdxIs_store m d L f0 _ 7680 _ _
    (IdxIs_store m d L f0 _ 7168 _ _
    (IdxIs_store m d L f0 _ 6656 _ _
    (IdxIs_store m d L f0 _ 6144 _ _
    (IdxIs_store m d L f0 _ 5632 _ _
    (IdxIs_store m d L f0 _ 5120 _ _
    (IdxIs_store m d L f0 _ 4608 _ _
    (IdxIs_store m d L f0 _ 4096 _ _
    (IdxIs_store m d L f0 _ 3584 _ _
    (IdxIs_store m d L f0 _ 3072 _ _
    (IdxIs_store m d L f0 _ 2560 _ _
    (IdxIs_store m d L f0 _ 2048 _ _
    (IdxIs_store m d L f0 _ 1536 _ _
    (IdxIs_store m d L f0 _ 1024 _ _
    (IdxIs_store m d L f0 _ 512 _ _
    (IdxIs_store m d L f0 _ 0 _ _
    (IdxIs_zero m d L _)
    (fun y => pay_idx m d L 0 (k0_off1 L) (k0_off1_inb L) (k0_off1_eq L) y))
    (fun y => pay_idx m d L 1 (k0_off2 L) (k0_off2_inb L) (k0_off2_eq L) y))
    (fun y => pay_idx m d L 2 (k0_off3 L) (k0_off3_inb L) (k0_off3_eq L) y))
    (fun y => pay_idx m d L 3 (k0_off4 L) (k0_off4_inb L) (k0_off4_eq L) y))
    (fun y => pay_idx m d L 4 (k0_off5 L) (k0_off5_inb L) (k0_off5_eq L) y))
    (fun y => pay_idx m d L 5 (k0_off6 L) (k0_off6_inb L) (k0_off6_eq L) y))
    (fun y => pay_idx m d L 6 (k0_off7 L) (k0_off7_inb L) (k0_off7_eq L) y))
    (fun y => pay_idx m d L 7 (k0_off8 L) (k0_off8_inb L) (k0_off8_eq L) y))
    (fun y => pay_idx m d L 8 (k0_off9 L) (k0_off9_inb L) (k0_off9_eq L) y))
    (fun y => pay_idx m d L 9 (k0_off10 L) (k0_off10_inb L) (k0_off10_eq L) y))
    (fun y => pay_idx m d L 10 (k0_off11 L) (k0_off11_inb L) (k0_off11_eq L) y))
    (fun y => pay_idx m d L 11 (k0_off12 L) (k0_off12_inb L) (k0_off12_eq L) y))
    (fun y => pay_idx m d L 12 (k0_off13 L) (k0_off13_inb L) (k0_off13_eq L) y))
    (fun y => pay_idx m d L 13 (k0_off14 L) (k0_off14_inb L) (k0_off14_eq L) y))
    (fun y => pay_idx m d L 14 (k0_off15 L) (k0_off15_inb L) (k0_off15_eq L) y))
    (fun y => pay_idx m d L 15 (k0_off16 L) (k0_off16_inb L) (k0_off16_eq L) y))
    (fun y => pay_idx m d L 16 (k0_off17 L) (k0_off17_inb L) (k0_off17_eq L) y))
    (fun y => pay_idx m d L 17 (k0_off18 L) (k0_off18_inb L) (k0_off18_eq L) y))
    (fun y => pay_idx m d L 18 (k0_off19 L) (k0_off19_inb L) (k0_off19_eq L) y))
    (fun y => pay_idx m d L 19 (k0_off20 L) (k0_off20_inb L) (k0_off20_eq L) y))
    (fun y => pay_idx m d L 20 (k0_off21 L) (k0_off21_inb L) (k0_off21_eq L) y))
    (fun y => pay_idx m d L 21 (k0_off22 L) (k0_off22_inb L) (k0_off22_eq L) y))
    (fun y => pay_idx m d L 22 (k0_off23 L) (k0_off23_inb L) (k0_off23_eq L) y))
    (fun y => pay_idx m d L 23 (k0_off24 L) (k0_off24_inb L) (k0_off24_eq L) y))
    (fun y => pay_idx m d L 24 (k0_off25 L) (k0_off25_inb L) (k0_off25_eq L) y))
    (fun y => pay_idx m d L 25 (k0_off26 L) (k0_off26_inb L) (k0_off26_eq L) y)

/-! ## The gathers' offset lists, and the value scratch after both gathers -/

/-- The first half of the scratch after 13 copies is a list of row numbers. -/
theorem hin1_of (hpre : PreOK m) (d : Dev nD) (L : grid0.Coords) (f0 : S13312.Idx → BitVec 32) :
    ∀ x, (((sI).slice (Rect.unit (s := S13312) ![0] S6656.size inb_S13312_S6656_0) (fun _ => rfl)).view.read (Elt F)
      (idx13 m d L f0) x).toNat < S2600000.size gathers_S2600000_S6656.axis :=
  hin_lo _ (inRng13 m hpre d L f0)

/-- The second half of the scratch after 26 copies is a list of row numbers. -/
theorem hin2_of (hpre : PreOK m) (d : Dev nD) (L : grid0.Coords) (f0 : S13312.Idx → BitVec 32) :
    ∀ x, (((sI).slice (Rect.unit (s := S13312) ![6656] S6656.size inb_S13312_S6656_6656) (fun _ => rfl)).view.read (Elt F)
      (idx26 m d L f0) x).toNat < S2600000.size gathers_S2600000_S6656.axis :=
  hin_hi _ (inRng26 m hpre d L f0)

/-- After the two gathers — the first over the list as it stood after 13 copies, the second over the list after all
    26 — every position of the value scratch holds the table's entry that the index scratch's word there names. -/
theorem vals_run (_hpre : PreOK m) (d : Dev nD) (L : grid0.Coords) (f0 : S13312.Idx → BitVec 32) (f1 : S13312.Idx → F .f32)
    (hn : S6656.numel = S6656.size gathers_S2600000_S6656.axis')
    (hin1 : ∀ x, (((sI).slice (Rect.unit (s := S13312) ![0] S6656.size inb_S13312_S6656_0) (fun _ => rfl)).view.read (Elt F)
      (idx13 m d L f0) x).toNat < S2600000.size gathers_S2600000_S6656.axis)
    (hin2 : ∀ x, (((sI).slice (Rect.unit (s := S13312) ![6656] S6656.size inb_S13312_S6656_6656) (fun _ => rfl)).view.read (Elt F)
      (idx26 m d L f0) x).toNat < S2600000.size gathers_S2600000_S6656.axis)
    (p : S13312.Idx) :
    ((sVl).view.writes (Elt F) f1
      [⟨Rect.unit ![6656] S6656.size inb_S13312_S6656_6656,
          SparseCore.gatherPayload gathers_S2600000_S6656
            (((tV).slice (Rect.unit (s := S2600000) ![0] S2600000.size inb_S2600000_S2600000_0) (fun _ => rfl)).view.read (Elt F) (tblc m d))
            (SparseCore.rows (((sI).slice (Rect.unit (s := S13312) ![6656] S6656.size inb_S13312_S6656_6656) (fun _ => rfl)).view.read (Elt F)
              (idx26 m d L f0)) hn hin2)⟩,
       ⟨Rect.unit ![0] S6656.size inb_S13312_S6656_0,
          SparseCore.gatherPayload gathers_S2600000_S6656
            (((tV).slice (Rect.unit (s := S2600000) ![0] S2600000.size inb_S2600000_S2600000_0) (fun _ => rfl)).view.read (Elt F) (tblc m d))
            (SparseCore.rows (((sI).slice (Rect.unit (s := S13312) ![0] S6656.size inb_S13312_S6656_0) (fun _ => rfl)).view.read (Elt F)
              (idx13 m d L f0)) hn hin1)⟩]) p = valFn m d L p :=
  vals_eq m d L f1 _ _
    (fun x => gather_lo_apply m d L (idx13 m d L f0) hn hin1 (idxIs13 m d L f0) x)
    (fun x => gather_hi_apply m d L (idx26 m d L f0) hn hin2 (idxIs26 m d L f0) x) p

end Cert.Proof.KI

end
-- ==== Proof.BoxFacts.lean ====
/-
  Facts about the boxes of sixteen lanes the two accumulation loops load and store: where each box lies (below the half of
  the value scratch a gather in flight owns, in the first loop), what a load through a box reads lane by lane, and what the
  bias scratch holds after its copy.
-/
import proofs.«207411_g41145786696212_cont_8to1_b_1804_24_alg».proof.Proof.BodyFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## A box of sixteen lanes below position 6656 misses the upper half of the value scratch -/

omit [FloatOps F] in
theorem box_disj (off : Fin 1 → ℕ) (inb : ∀ a, off a + S16.size a ≤ S13312.size a) (h : off 0 + 16 ≤ 6656) :
    Disjoint ((sVl).view.setOn (Rect.unit (s := S13312) off S16.size inb).set)
      (((sVl).slice (Rect.unit (s := S13312) ![6656] S6656.size inb_S13312_S6656_6656) (fun _ => rfl)).view.set) := by
  rw [Finset.disjoint_left]
  intro i hi hj
  obtain ⟨x, hx, rfl⟩ := Finset.mem_map.mp hi
  have hj' : (sVl).view.emb x ∈ (Rect.unit (s := S13312) ![6656] S6656.size inb_S13312_S6656_6656).set.map (sVl).view.emb := by
    rw [← View.set_slice]; exact hj
  obtain ⟨y, hy, e⟩ := Finset.mem_map.mp hj'
  have e' : y = x := (sVl).view.emb.injective e
  subst e'
  have h1 := (Rect.mem_set_unit.mp hx) 0
  have h2 := (Rect.mem_set_unit.mp hy) 0
  have h3 : (![6656] : Fin 1 → ℕ) 0 = 6656 := rfl
  have h4 : S16.size 0 = 16 := rfl
  omega

/-! ## Where the loops' boxes lie -/

omit [FloatOps F] in
theorem t1_lt (k : Fin k0_t1_loop.trips) : k.val < 32 := Nat.lt_of_lt_of_le k.isLt k0_t1_abs.2.1
omit [FloatOps F] in
theorem t2_lt (k : Fin k0_t2_loop.trips) : k.val < 32 := Nat.lt_of_lt_of_le k.isLt k0_t2_abs.2.1

omit [FloatOps F] in
theorem t1_off27_val (k : Fin k0_t1_loop.trips) : (k0_off27 k) 0 = 16 * k.val := by rw [k0_off27_eq]; rfl
omit [FloatOps F] in
theorem t1_off28_val (k : Fin k0_t1_loop.trips) (r : Fin 12) :
    (k0_off28 k (BitVec.ofNat 32 (512 + 512 * r.val))) 0 = 512 * r.val + 16 * k.val + 512 := by rw [k0_off28_eq]; rfl
omit [FloatOps F] in
theorem t1_off29_val (k : Fin k0_t1_loop.trips) : (k0_off29 k) 0 = 16 * k.val := by rw [k0_off29_eq]; rfl
omit [FloatOps F] in
theorem t2_off30_val (k : Fin k0_t2_loop.trips) : (k0_off30 k) 0 = 16 * k.val := by rw [k0_off30_eq]; rfl
omit [FloatOps F] in
theorem t2_off31 (k : Fin k0_t2_loop.trips) (r : Fin 13) :
    (k0_off31 k (BitVec.ofNat 32 (6656 + 512 * r.val))) 0 = 512 * r.val + 16 * k.val + 6656 := by rw [k0_off31_eq]; rfl

omit [FloatOps F] in
/-- The first loop's boxes end at or below position 6656: the last of them, row 11 of trip 31, ends at
    512·11 + 16·31 + 512 + 16 = 6656. -/
theorem t1_off27 (k : Fin k0_t1_loop.trips) : (k0_off27 k) 0 + 16 ≤ 6656 := by
  rw [t1_off27_val]; have := t1_lt k; omega
omit [FloatOps F] in
theorem t1_off28 (k : Fin k0_t1_loop.trips) (r : Fin 12) :
    (k0_off28 k (BitVec.ofNat 32 (512 + 512 * r.val))) 0 + 16 ≤ 6656 := by
  rw [t1_off28_val]; have := t1_lt k; have := r.isLt; omega

/-! ## A load through a box, lane by lane -/

omit [FloatOps F] in
theorem box_lt {n : ℕ} (off : Fin 1 → ℕ) (inb : ∀ a, off a + S16.size a ≤ (⟨1, ![n]⟩ : Shape).size a) (l : S16.Idx) :
    off 0 + (l 0).val < n := by
  have h1 : off 0 + 16 ≤ n := inb 0
  have h2 : (l 0).val < 16 := (l 0).isLt
  omega

/-- Lane l of a box of the value scratch at offset off is the scratch's word at off + l. -/
theorem readAt_box (V : S13312.Idx → F .f32) (off : Fin 1 → ℕ) (inb : ∀ a, off a + S16.size a ≤ S13312.size a) (l : S16.Idx) :
    View.readAt (Elt F) (sVl).view (Rect.unit (s := S13312) off S16.size inb).toLoadRect V l
      = V (ValueIdx.ix1 ⟨off 0 + (l 0).val, box_lt off inb l⟩) :=
  congrArg V (funext fun a => match a with
    | ⟨0, _⟩ => Fin.ext (show off 0 + 1 * (l 0).val = off 0 + (l 0).val by omega))

/-- The same of the output scratch, -/
theorem readAt_boxO (g : S512.Idx → F .f32) (off : Fin 1 → ℕ) (inb : ∀ a, off a + S16.size a ≤ S512.size a) (l : S16.Idx) :
    View.readAt (Elt F) (sO).view (Rect.unit (s := S512) off S16.size inb).toLoadRect g l
      = g (ValueIdx.ix1 ⟨off 0 + (l 0).val, box_lt off inb l⟩) :=
  congrArg g (funext fun a => match a with
    | ⟨0, _⟩ => Fin.ext (show off 0 + 1 * (l 0).val = off 0 + (l 0).val by omega))

/-- and of the bias scratch, whose one box is the whole of it. -/
theorem readAt_boxB (b : S16.Idx → F .f32) (l : S16.Idx) :
    View.readAt (Elt F) (sB).view (Rect.unit (s := S16) ![0] S16.size inb_S16_S16_0).toLoadRect b l = b l :=
  congrArg b (funext fun a => match a with
    | ⟨0, _⟩ => Fin.ext (show 0 + 1 * (l 0).val = (l 0).val by omega))

/-! ## The bias scratch after its copy -/

/-- A copy into the whole bias scratch replaces its contents by what was copied, -/
theorem write_univ_whole (f3 P : S16.Idx → F .f32) : (sB).view.write (Elt F) f3 P Finset.univ = P :=
  View.write_whole_univ (Val := Elt F) cc0_scratch3 f3 P

/-- and what was copied is the bias lanes as the call found them. -/
theorem bias_read (d : Dev nD) (l : S16.Idx) : (ReadAs.same.apply ((bV).view.read (Elt F) (b16c m d))) l = b16c m d l := rfl

end Cert.Proof.KI

end
-- ==== Proof.BodyPay.lean ====
/-
  The kernel's order of addition as two chains, and the two loops' stored vectors lane by lane.
-/
import proofs.«207411_g41145786696212_cont_8to1_b_1804_24_alg».proof.Proof.Common
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The kernel's two chains of additions, and the stores' payloads as chains of the loaded vectors -/

/-- The first thirteen values added: one chain from the bias through the odd ones, one through the even ones, joined. -/
def chainA {α : Type} (add : α → α → α) (β a0 a1 a2 a3 a4 a5 a6 a7 a8 a9 a10 a11 a12 : α) : α :=
  add (add (add (add (add (add (add β a1) a3) a5) a7) a9) a11) (add (add (add (add (add (add a0 a2) a4) a6) a8) a10) a12)

/-- The last thirteen added onto a partial sum h: one chain from h through the even ones, one through the odd ones, joined. -/
def chainB {α : Type} (add : α → α → α) (h a13 a14 a15 a16 a17 a18 a19 a20 a21 a22 a23 a24 a25 : α) : α :=
  add (add (add (add (add (add (add h a14) a16) a18) a20) a22) a24) (add (add (add (add (add (add a13 a15) a17) a19) a21) a23) a25)

omit [FloatOps F] in
theorem kerTree_chain {α : Type} (add : α → α → α) (β : α) (v : Fin 26 → α) :
    kerTree add β v = chainB add (chainA add β (v 0) (v 1) (v 2) (v 3) (v 4) (v 5) (v 6) (v 7) (v 8) (v 9) (v 10) (v 11) (v 12))
      (v 13) (v 14) (v 15) (v 16) (v 17) (v 18) (v 19) (v 20) (v 21) (v 22) (v 23) (v 24) (v 25) := rfl

/-- The first loop's store, lane by lane. -/
theorem pay2_apply (β u0 u1 u2 u3 u4 u5 u6 u7 u8 u9 u10 u11 u12 : S16.Idx → F .f32) (l : S16.Idx) :
    k0_pay2 (k0_pay4 u0) (k0_pay5 (k0_pay1 β) u1 u3 u5 u7 u9 u11) u2 u4 u6 u8 u10 u12 l
      = chainA FloatOps.addf (β l) (u0 l) (u1 l) (u2 l) (u3 l) (u4 l) (u5 l) (u6 l) (u7 l) (u8 l) (u9 l) (u10 l) (u11 l) (u12 l) := by
  simp only [k0_pay2, k0_pay4, k0_pay5, k0_pay1, shapeCast_self, addf, chainA]

/-- The second loop's store, lane by lane. -/
theorem pay3_apply (h u13 u14 u15 u16 u17 u18 u19 u20 u21 u22 u23 u24 u25 : S16.Idx → F .f32) (l : S16.Idx) :
    k0_pay3 (k0_pay6 u13) (k0_pay7 h u14 u16 u18 u20 u22) (k0_pay8 u24) u15 u17 u19 u21 u23 u25 l
      = chainB FloatOps.addf (h l) (u13 l) (u14 l) (u15 l) (u16 l) (u17 l) (u18 l) (u19 l) (u20 l) (u21 l) (u22 l) (u23 l) (u24 l) (u25 l) := by
  simp only [k0_pay3, k0_pay6, k0_pay7, k0_pay8, shapeCast_self, addf, chainB]

end Cert.Proof.KI

end
-- ==== Proof.BodyOut.lean ====
/-
  The output scratch's contents after each of the two accumulation loops, as functions of the worker's local row.
-/
import proofs.«207411_g41145786696212_cont_8to1_b_1804_24_alg».proof.Proof.ValFacts
import proofs.«207411_g41145786696212_cont_8to1_b_1804_24_alg».proof.Proof.BodyPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the output scratch holds after each loop, entry by entry -/

variable (d : Dev nD) (L : grid0.Coords)

/-- Entry 512 f + j of the value scratch after the gathers, as a function of the field f and the worker's local row j
    (entry 0 when out of range: never the case for f < 26, j < 512). -/
def vAt (f j : ℕ) : F .f32 :=
  if h : 512 * f + j < 13312 then valFn m d L (ValueIdx.ix1 ⟨512 * f + j, h⟩) else valFn m d L (ValueIdx.ix1 ⟨0, by decide⟩)

/-- Lane l of the bias lanes (lane 0 when out of range). -/
def bAt (l : ℕ) : F .f32 :=
  if h : l < 16 then b16c m d (ValueIdx.ix1 ⟨l, h⟩) else b16c m d (ValueIdx.ix1 ⟨0, by decide⟩)

/-- After the first loop: local row j holds the bias lane and the first thirteen fields' entries, in the kernel's order. -/
def outH1 : S512.Idx → F .f32 := fun j =>
  chainA FloatOps.addf (bAt m d ((j 0).val % 16)) (vAt m d L 0 (j 0).val) (vAt m d L 1 (j 0).val) (vAt m d L 2 (j 0).val) (vAt m d L 3 (j 0).val) (vAt m d L 4 (j 0).val) (vAt m d L 5 (j 0).val) (vAt m d L 6 (j 0).val) (vAt m d L 7 (j 0).val) (vAt m d L 8 (j 0).val) (vAt m d L 9 (j 0).val) (vAt m d L 10 (j 0).val) (vAt m d L 11 (j 0).val) (vAt m d L 12 (j 0).val)

/-- After the second loop: the other thirteen added on. -/
def outH2 : S512.Idx → F .f32 := fun j =>
  chainB FloatOps.addf (outH1 m d L j) (vAt m d L 13 (j 0).val) (vAt m d L 14 (j 0).val) (vAt m d L 15 (j 0).val) (vAt m d L 16 (j 0).val) (vAt m d L 17 (j 0).val) (vAt m d L 18 (j 0).val) (vAt m d L 19 (j 0).val) (vAt m d L 20 (j 0).val) (vAt m d L 21 (j 0).val) (vAt m d L 22 (j 0).val) (vAt m d L 23 (j 0).val) (vAt m d L 24 (j 0).val) (vAt m d L 25 (j 0).val)

end Cert.Proof.KI

end
-- ==== Proof.Region1.lean ====
/-
  One trip of the first accumulation loop, as a fact about the output scratch: with the sixteen rows of trip k stored,
  every row below 16 (k + 1) holds the bias lane and the first thirteen fields' values added in the kernel's order.
-/
import proofs.«207411_g41145786696212_cont_8to1_b_1804_24_alg».proof.Proof.BodyOut
import proofs.«207411_g41145786696212_cont_8to1_b_1804_24_alg».proof.Proof.BoxFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

variable (d : Dev nD) (L : grid0.Coords)

/-! ## Index lemmas -/

/-- Reading the whole output scratch through its own view is reading the array. -/
theorem of_read_sO (W : (sO).view.ty.Contents (Elt F)) (p : S512.Idx) (v : F .f32)
    (h : (sO).view.read (Elt F) W p = v) : W p = v := h

/-- Position 512 f + j of the value scratch is field f of local row j. -/
theorem vAt_eq (f j a : ℕ) (h : a < 13312) (e : a = 512 * f + j) :
    valFn m d L (ValueIdx.ix1 ⟨a, h⟩) = vAt m d L f j := by
  subst e; unfold vAt; rw [dif_pos h]

theorem bAt_eq (l : ℕ) (h : l < 16) : b16c m d (ValueIdx.ix1 ⟨l, h⟩) = bAt m d l := by
  unfold bAt; rw [dif_pos h]

/-- Lane l of the bias lanes is the lane of any row number that is l modulo 16. -/
theorem bias_lane (l : S16.Idx) (n : ℕ) (e : (l 0).val = n % 16) : b16c m d l = bAt m d (n % 16) := by
  have h : n % 16 < 16 := Nat.mod_lt _ (by decide)
  rw [← bAt_eq m d (n % 16) h]
  exact congrArg (b16c m d) (funext fun a => match a with | ⟨0, _⟩ => Fin.ext e)

/-- Lane l of a box loaded from the filled value scratch at offset off is field f of local row j when
    off + l = 512 f + j. -/
theorem load_lane (V : S13312.Idx → F .f32) (hV : ∀ p, V p = valFn m d L p) (off : Fin 1 → ℕ)
    (inb : ∀ a, off a + S16.size a ≤ S13312.size a) (l : S16.Idx) (f j : ℕ) (e : off 0 + (l 0).val = 512 * f + j) :
    View.readAt (Elt F) (sVl).view (Rect.unit (s := S13312) off S16.size inb).toLoadRect V l = vAt m d L f j := by
  rw [readAt_box, hV]
  exact vAt_eq m d L f j _ _ e

/-! ## The trip, over the thirteen loaded vectors taken as given -/

theorem region1_step (k : Fin k0_t1_loop.trips) (g : S512.Idx → F .f32)
    (hg : ∀ j : S512.Idx, (j 0).val < 16 * k.val → g j = outH1 m d L j)
    (β u0 u1 u2 u3 u4 u5 u6 u7 u8 u9 u10 u11 u12 : S16.Idx → F .f32) (hβ : ∀ l, β l = b16c m d l)
    (h0 : ∀ (l : S16.Idx) (n : ℕ), n = 16 * k.val + (l 0).val → u0 l = vAt m d L 0 n)
    (h1 : ∀ (l : S16.Idx) (n : ℕ), n = 16 * k.val + (l 0).val → u1 l = vAt m d L 1 n)
    (h2 : ∀ (l : S16.Idx) (n : ℕ), n = 16 * k.val + (l 0).val → u2 l = vAt m d L 2 n)
    (h3 : ∀ (l : S16.Idx) (n : ℕ), n = 16 * k.val + (l 0).val → u3 l = vAt m d L 3 n)
    (h4 : ∀ (l : S16.Idx) (n : ℕ), n = 16 * k.val + (l 0).val → u4 l = vAt m d L 4 n)
    (h5 : ∀ (l : S16.Idx) (n : ℕ), n = 16 * k.val + (l 0).val → u5 l = vAt m d L 5 n)
    (h6 : ∀ (l : S16.Idx) (n : ℕ), n = 16 * k.val + (l 0).val → u6 l = vAt m d L 6 n)
    (h7 : ∀ (l : S16.Idx) (n : ℕ), n = 16 * k.val + (l 0).val → u7 l = vAt m d L 7 n)
    (h8 : ∀ (l : S16.Idx) (n : ℕ), n = 16 * k.val + (l 0).val → u8 l = vAt m d L 8 n)
    (h9 : ∀ (l : S16.Idx) (n : ℕ), n = 16 * k.val + (l 0).val → u9 l = vAt m d L 9 n)
    (h10 : ∀ (l : S16.Idx) (n : ℕ), n = 16 * k.val + (l 0).val → u10 l = vAt m d L 10 n)
    (h11 : ∀ (l : S16.Idx) (n : ℕ), n = 16 * k.val + (l 0).val → u11 l = vAt m d L 11 n)
    (h12 : ∀ (l : S16.Idx) (n : ℕ), n = 16 * k.val + (l 0).val → u12 l = vAt m d L 12 n) :
    ∀ j : S512.Idx, (j 0).val < 16 * (k.val + 1) →
      ((sO).view.writes (Elt F) g [⟨Rect.unit (s := S512) (k0_off29 k) S16.size (k0_off29_inb k),
        k0_pay2 (k0_pay4 u0) (k0_pay5 (k0_pay1 β) u1 u3 u5 u7 u9 u11) u2 u4 u6 u8 u10 u12⟩]) j = outH1 m d L j := by
  intro j hj
  refine of_read_sO _ j _ ?_
  by_cases hlt : (j 0).val < 16 * k.val
  · rw [View.read_store_out (Val := Elt F) (sO).view g (k0_off29 k) S16.size (k0_off29_inb k) _ [] j
      ⟨0, Or.inl (by rw [t1_off29_val]; exact hlt)⟩]
    exact hg j hlt
  · have hx : (j 0).val - 16 * k.val < 16 := by omega
    let lx : S16.Idx := fun a => match a with | ⟨0, _⟩ => ⟨(j 0).val - 16 * k.val, hx⟩
    have hl : (j 0).val = 16 * k.val + (lx 0).val := by
      show (j 0).val = 16 * k.val + ((j 0).val - 16 * k.val); omega
    have hm : (lx 0).val = (j 0).val % 16 := by
      show (j 0).val - 16 * k.val = (j 0).val % 16; omega
    rw [View.read_store_in (Val := Elt F) (sO).view g (k0_off29 k) S16.size (k0_off29_inb k) _ [] j lx
      (fun a => match a with
        | ⟨0, _⟩ => by show (j 0).val = (k0_off29 k) 0 + ((j 0).val - 16 * k.val); rw [t1_off29_val]; omega)]
    rw [pay2_apply, hβ, bias_lane m d lx (j 0).val hm, h0 lx (j 0).val hl, h1 lx (j 0).val hl, h2 lx (j 0).val hl, h3 lx (j 0).val hl, h4 lx (j 0).val hl, h5 lx (j 0).val hl, h6 lx (j 0).val hl, h7 lx (j 0).val hl, h8 lx (j 0).val hl, h9 lx (j 0).val hl, h10 lx (j 0).val hl, h11 lx (j 0).val hl, h12 lx (j 0).val hl]
    rfl

/-! ## The trip, over the program's own loads -/

/-- With trip k's store in place, the rows below 16 (k + 1) of the output scratch hold the first loop's value: a row
    below 16 k lies outside the stored box and keeps what it held; a row of the box, at lane l = row − 16 k, holds the
    kernel's chain over the bias lane and the thirteen loaded lanes, and the load of field f at offset 512 f + 16 k
    reads at lane l position 512 f + row of the filled value scratch. -/
theorem region1_pure (V : S13312.Idx → F .f32) (hV : ∀ p, V p = valFn m d L p)
    (bias : S16.Idx → F .f32) (hb : ∀ l, bias l = b16c m d l)
    (k : Fin k0_t1_loop.trips) (g : S512.Idx → F .f32)
    (hg : ∀ j : S512.Idx, (j 0).val < 16 * k.val → g j = outH1 m d L j) :
    ∀ j : S512.Idx, (j 0).val < 16 * (k.val + 1) →
      ((sO).view.writes (Elt F) g [⟨Rect.unit (s := S512) (k0_off29 k) S16.size (k0_off29_inb k),
        k0_pay2 (k0_pay4 (View.readAt (Elt F) (sVl).view (Rect.unit (s := S13312) (k0_off27 k) S16.size (k0_off27_inb k)).toLoadRect V)) (k0_pay5 (k0_pay1 bias) (View.readAt (Elt F) (sVl).view (Rect.unit (s := S13312) (k0_off28 k 512#32) S16.size (k0_off28_inb k 0)).toLoadRect V) (View.readAt (Elt F) (sVl).view (Rect.unit (s := S13312) (k0_off28 k 1536#32) S16.size (k0_off28_inb k 2)).toLoadRect V) (View.readAt (Elt F) (sVl).view (Rect.unit (s := S13312) (k0_off28 k 2560#32) S16.size (k0_off28_inb k 4)).toLoadRect V) (View.readAt (Elt F) (sVl).view (Rect.unit (s := S13312) (k0_off28 k 3584#32) S16.size (k0_off28_inb k 6)).toLoadRect V) (View.readAt (Elt F) (sVl).view (Rect.unit (s := S13312) (k0_off28 k 4608#32) S16.size (k0_off28_inb k 8)).toLoadRect V) (View.readAt (Elt F) (sVl).view (Rect.unit (s := S13312) (k0_off28 k 5632#32) S16.size (k0_off28_inb k 10)).toLoadRect V))
          (View.readAt (Elt F) (sVl).view (Rect.unit (s := S13312) (k0_off28 k 1024#32) S16.size (k0_off28_inb k 1)).toLoadRect V) (View.readAt (Elt F) (sVl).view (Rect.unit (s := S13312) (k0_off28 k 2048#32) S16.size (k0_off28_inb k 3)).toLoadRect V) (View.readAt (Elt F) (sVl).view (Rect.unit (s := S13312) (k0_off28 k 3072#32) S16.size (k0_off28_inb k 5)).toLoadRect V) (View.readAt (Elt F) (sVl).view (Rect.unit (s := S13312) (k0_off28 k 4096#32) S16.size (k0_off28_inb k 7)).toLoadRect V) (View.readAt (Elt F) (sVl).view (Rect.unit (s := S13312) (k0_off28 k 5120#32) S16.size (k0_off28_inb k 9)).toLoadRect V) (View.readAt (Elt F) (sVl).view (Rect.unit (s := S13312) (k0_off28 k 6144#32) S16.size (k0_off28_inb k 11)).toLoadRect V)⟩]) j = outH1 m d L j :=
  region1_step m d L k g hg bias _ _ _ _ _ _ _ _ _ _ _ _ _ hb
    (fun l n e => load_lane m d L V hV (k0_off27 k) (k0_off27_inb k) l 0 n (by rw [t1_off27_val, e]; omega))
    (fun l n e => load_lane m d L V hV (k0_off28 k 512#32) (k0_off28_inb k 0) l 1 n (by
      have h : (k0_off28 k 512#32) 0 = 512 * 0 + 16 * k.val + 512 := t1_off28_val k 0
      rw [h, e]; omega))
    (fun l n e => load_lane m d L V hV (k0_off28 k 1024#32) (k0_off28_inb k 1) l 2 n (by
      have h : (k0_off28 k 1024#32) 0 = 512 * 1 + 16 * k.val + 512 := t1_off28_val k 1
      rw [h, e]; omega))
    (fun l n e => load_lane m d L V hV (k0_off28 k 1536#32) (k0_off28_inb k 2) l 3 n (by
      have h : (k0_off28 k 1536#32) 0 = 512 * 2 + 16 * k.val + 512 := t1_off28_val k 2
      rw [h, e]; omega))
    (fun l n e => load_lane m d L V hV (k0_off28 k 2048#32) (k0_off28_inb k 3) l 4 n (by
      have h : (k0_off28 k 2048#32) 0 = 512 * 3 + 16 * k.val + 512 := t1_off28_val k 3
      rw [h, e]; omega))
    (fun l n e => load_lane m d L V hV (k0_off28 k 2560#32) (k0_off28_inb k 4) l 5 n (by
      have h : (k0_off28 k 2560#32) 0 = 512 * 4 + 16 * k.val + 512 := t1_off28_val k 4
      rw [h, e]; omega))
    (fun l n e => load_lane m d L V hV (k0_off28 k 3072#32) (k0_off28_inb k 5) l 6 n (by
      have h : (k0_off28 k 3072#32) 0 = 512 * 5 + 16 * k.val + 512 := t1_off28_val k 5
      rw [h, e]; omega))
    (fun l n e => load_lane m d L V hV (k0_off28 k 3584#32) (k0_off28_inb k 6) l 7 n (by
      have h : (k0_off28 k 3584#32) 0 = 512 * 6 + 16 * k.val + 512 := t1_off28_val k 6
      rw [h, e]; omega))
    (fun l n e => load_lane m d L V hV (k0_off28 k 4096#32) (k0_off28_inb k 7) l 8 n (by
      have h : (k0_off28 k 4096#32) 0 = 512 * 7 + 16 * k.val + 512 := t1_off28_val k 7
      rw [h, e]; omega))
    (fun l n e => load_lane m d L V hV (k0_off28 k 4608#32) (k0_off28_inb k 8) l 9 n (by
      have h : (k0_off28 k 4608#32) 0 = 512 * 8 + 16 * k.val + 512 := t1_off28_val k 8
      rw [h, e]; omega))
    (fun l n e => load_lane m d L V hV (k0_off28 k 5120#32) (k0_off28_inb k 9) l 10 n (by
      have h : (k0_off28 k 5120#32) 0 = 512 * 9 + 16 * k.val + 512 := t1_off28_val k 9
      rw [h, e]; omega))
    (fun l n e => load_lane m d L V hV (k0_off28 k 5632#32) (k0_off28_inb k 10) l 11 n (by
      have h : (k0_off28 k 5632#32) 0 = 512 * 10 + 16 * k.val + 512 := t1_off28_val k 10
      rw [h, e]; omega))
    (fun l n e => load_lane m d L V hV (k0_off28 k 6144#32) (k0_off28_inb k 11) l 12 n (by
      have h : (k0_off28 k 6144#32) 0 = 512 * 11 + 16 * k.val + 512 := t1_off28_val k 11
      rw [h, e]; omega))

end Cert.Proof.KI

end
-- ==== Proof.Region2.lean ====
/-
  One trip of the second accumulation loop, as a step on the output scratch's contents: trip k adds, to rows 16 k … 16 k + 15
  of the first loop's partial sums, the last thirteen fields' entries in the kernel's order, and leaves every other row.
-/
import proofs.«207411_g41145786696212_cont_8to1_b_1804_24_alg».proof.Proof.BodyOut
import proofs.«207411_g41145786696212_cont_8to1_b_1804_24_alg».proof.Proof.BoxFacts

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## Index lemmas -/

omit [FloatOps F] in
/-- A rank-one index is determined by its coordinate. -/
theorem r2_ix1_eq {n : ℕ} (j : (⟨1, ![n]⟩ : Shape).Idx) (a : ℕ) (h : a < n) (e : a = (j 0).val) : ValueIdx.ix1 ⟨a, h⟩ = j := by
  subst e; exact (ValueIdx.eq_ix1 j).symm

/-- Position 512 f + j of the value scratch holds field f's entry for local row j. -/
theorem r2_vAt_eq (d : Dev nD) (L : grid0.Coords) (a : ℕ) (h : a < 13312) (f j : ℕ) (hf : 512 * f + j < 13312) (e : a = 512 * f + j) :
    valFn m d L (ValueIdx.ix1 ⟨a, h⟩) = vAt m d L f j := by
  subst e; unfold vAt; rw [dif_pos hf]

/-- Lane l of a box of the filled value scratch whose position off + l is 512 f + j is field f's entry for local row j. -/
theorem r2_load_lane (d : Dev nD) (L : grid0.Coords) (V : S13312.Idx → F .f32) (hV : ∀ p, V p = valFn m d L p)
    (off : Fin 1 → ℕ) (inb : ∀ a, off a + S16.size a ≤ S13312.size a) (l : S16.Idx) (f j : ℕ) (hf : 512 * f + j < 13312)
    (e : off 0 + (l 0).val = 512 * f + j) :
    View.readAt (Elt F) (sVl).view (Rect.unit (s := S13312) off S16.size inb).toLoadRect V l = vAt m d L f j := by
  rw [readAt_box, hV]; exact r2_vAt_eq m d L _ _ f j hf e

/-- Reading the whole output scratch through its own view is reading the array. -/
theorem r2_of_read_sO (W : (sO).view.ty.Contents (Elt F)) (p : S512.Idx) (v : F .f32)
    (h : (sO).view.read (Elt F) W p = v) : W p = v := h

/-! ## The stored box, row by row -/

/-- A row inside trip k's box: the store leaves the first loop's partial sum with the last thirteen fields' entries added
    in the kernel's order. -/
theorem r2_in (d : Dev nD) (L : grid0.Coords) (V : S13312.Idx → F .f32) (hV : ∀ p, V p = valFn m d L p)
    (k : Fin k0_t2_loop.trips) (g : S512.Idx → F .f32)
    (hhi : ∀ j : S512.Idx, 16 * k.val ≤ (j 0).val → g j = outH1 m d L j)
    (j : S512.Idx) (l : Fin 16) (hl : 16 * k.val + l.val = (j 0).val) :
    ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH2 m d L j := by
  have hj512 : (j 0).val < 512 := (j 0).isLt
  have hk : k.val < 32 := t2_lt k
  refine r2_of_read_sO _ j _ ?_
  rw [View.read_store_in (Val := Elt F) (sO).view g (k0_off30 k) S16.size (k0_off30_inb k) _ [] j (ValueIdx.ix1 l)
    (fun a => match a with | ⟨0, _⟩ => by have h30 := t2_off30_val k; show (j 0).val = (k0_off30 k) 0 + l.val; omega)]
  rw [pay3_apply]
  generalize hx : (ValueIdx.ix1 l : S16.Idx) = x
  have hxl : (x 0).val = l.val := by rw [← hx]
  have eH : (View.readAt (Elt F) (sO).view (Rect.unit (s := S512) (k0_off30 k) S16.size (k0_off30_inb k)).toLoadRect g) x = outH1 m d L j := by
    rw [readAt_boxO, r2_ix1_eq j _ _ (by rw [t2_off30_val, hxl]; exact hl)]
    exact hhi j (by omega)
  have e13 : (View.readAt (Elt F) (sVl).view (Rect.unit (s := S13312) (k0_off31 k 6656#32) S16.size (k0_off31_inb k 0)).toLoadRect V) x = vAt m d L 13 (j 0).val :=
    r2_load_lane m d L V hV (k0_off31 k 6656#32) (k0_off31_inb k 0) x 13 (j 0).val (by omega)
      (by rw [show (k0_off31 k 6656#32) 0 = 512 * 0 + 16 * k.val + 6656 from t2_off31 k 0]; show 512 * 0 + 16 * k.val + 6656 + (x 0).val = 512 * 13 + (j 0).val; omega)
  have e14 : (View.readAt (Elt F) (sVl).view (Rect.unit (s := S13312) (k0_off31 k 7168#32) S16.size (k0_off31_inb k 1)).toLoadRect V) x = vAt m d L 14 (j 0).val :=
    r2_load_lane m d L V hV (k0_off31 k 7168#32) (k0_off31_inb k 1) x 14 (j 0).val (by omega)
      (by rw [show (k0_off31 k 7168#32) 0 = 512 * 1 + 16 * k.val + 6656 from t2_off31 k 1]; show 512 * 1 + 16 * k.val + 6656 + (x 0).val = 512 * 14 + (j 0).val; omega)
  have e15 : (View.readAt (Elt F) (sVl).view (Rect.unit (s := S13312) (k0_off31 k 7680#32) S16.size (k0_off31_inb k 2)).toLoadRect V) x = vAt m d L 15 (j 0).val :=
    r2_load_lane m d L V hV (k0_off31 k 7680#32) (k0_off31_inb k 2) x 15 (j 0).val (by omega)
      (by rw [show (k0_off31 k 7680#32) 0 = 512 * 2 + 16 * k.val + 6656 from t2_off31 k 2]; show 512 * 2 + 16 * k.val + 6656 + (x 0).val = 512 * 15 + (j 0).val; omega)
  have e16 : (View.readAt (Elt F) (sVl).view (Rect.unit (s := S13312) (k0_off31 k 8192#32) S16.size (k0_off31_inb k 3)).toLoadRect V) x = vAt m d L 16 (j 0).val :=
    r2_load_lane m d L V hV (k0_off31 k 8192#32) (k0_off31_inb k 3) x 16 (j 0).val (by omega)
      (by rw [show (k0_off31 k 8192#32) 0 = 512 * 3 + 16 * k.val + 6656 from t2_off31 k 3]; show 512 * 3 + 16 * k.val + 6656 + (x 0).val = 512 * 16 + (j 0).val; omega)
  have e17 : (View.readAt (Elt F) (sVl).view (Rect.unit (s := S13312) (k0_off31 k 8704#32) S16.size (k0_off31_inb k 4)).toLoadRect V) x = vAt m d L 17 (j 0).val :=
    r2_load_lane m d L V hV (k0_off31 k 8704#32) (k0_off31_inb k 4) x 17 (j 0).val (by omega)
      (by rw [show (k0_off31 k 8704#32) 0 = 512 * 4 + 16 * k.val + 6656 from t2_off31 k 4]; show 512 * 4 + 16 * k.val + 6656 + (x 0).val = 512 * 17 + (j 0).val; omega)
  have e18 : (View.readAt (Elt F) (sVl).view (Rect.unit (s := S13312) (k0_off31 k 9216#32) S16.size (k0_off31_inb k 5)).toLoadRect V) x = vAt m d L 18 (j 0).val :=
    r2_load_lane m d L V hV (k0_off31 k 9216#32) (k0_off31_inb k 5) x 18 (j 0).val (by omega)
      (by rw [show (k0_off31 k 9216#32) 0 = 512 * 5 + 16 * k.val + 6656 from t2_off31 k 5]; show 512 * 5 + 16 * k.val + 6656 + (x 0).val = 512 * 18 + (j 0).val; omega)
  have e19 : (View.readAt (Elt F) (sVl).view (Rect.unit (s := S13312) (k0_off31 k 9728#32) S16.size (k0_off31_inb k 6)).toLoadRect V) x = vAt m d L 19 (j 0).val :=
    r2_load_lane m d L V hV (k0_off31 k 9728#32) (k0_off31_inb k 6) x 19 (j 0).val (by omega)
      (by rw [show (k0_off31 k 9728#32) 0 = 512 * 6 + 16 * k.val + 6656 from t2_off31 k 6]; show 512 * 6 + 16 * k.val + 6656 + (x 0).val = 512 * 19 + (j 0).val; omega)
  have e20 : (View.readAt (Elt F) (sVl).view (Rect.unit (s := S13312) (k0_off31 k 10240#32) S16.size (k0_off31_inb k 7)).toLoadRect V) x = vAt m d L 20 (j 0).val :=
    r2_load_lane m d L V hV (k0_off31 k 10240#32) (k0_off31_inb k 7) x 20 (j 0).val (by omega)
      (by rw [show (k0_off31 k 10240#32) 0 = 512 * 7 + 16 * k.val + 6656 from t2_off31 k 7]; show 512 * 7 + 16 * k.val + 6656 + (x 0).val = 512 * 20 + (j 0).val; omega)
  have e21 : (View.readAt (Elt F) (sVl).view (Rect.unit (s := S13312) (k0_off31 k 10752#32) S16.size (k0_off31_inb k 8)).toLoadRect V) x = vAt m d L 21 (j 0).val :=
    r2_load_lane m d L V hV (k0_off31 k 10752#32) (k0_off31_inb k 8) x 21 (j 0).val (by omega)
      (by rw [show (k0_off31 k 10752#32) 0 = 512 * 8 + 16 * k.val + 6656 from t2_off31 k 8]; show 512 * 8 + 16 * k.val + 6656 + (x 0).val = 512 * 21 + (j 0).val; omega)
  have e22 : (View.readAt (Elt F) (sVl).view (Rect.unit (s := S13312) (k0_off31 k 11264#32) S16.size (k0_off31_inb k 9)).toLoadRect V) x = vAt m d L 22 (j 0).val :=
    r2_load_lane m d L V hV (k0_off31 k 11264#32) (k0_off31_inb k 9) x 22 (j 0).val (by omega)
      (by rw [show (k0_off31 k 11264#32) 0 = 512 * 9 + 16 * k.val + 6656 from t2_off31 k 9]; show 512 * 9 + 16 * k.val + 6656 + (x 0).val = 512 * 22 + (j 0).val; omega)
  have e23 : (View.readAt (Elt F) (sVl).view (Rect.unit (s := S13312) (k0_off31 k 11776#32) S16.size (k0_off31_inb k 10)).toLoadRect V) x = vAt m d L 23 (j 0).val :=
    r2_load_lane m d L V hV (k0_off31 k 11776#32) (k0_off31_inb k 10) x 23 (j 0).val (by omega)
      (by rw [show (k0_off31 k 11776#32) 0 = 512 * 10 + 16 * k.val + 6656 from t2_off31 k 10]; show 512 * 10 + 16 * k.val + 6656 + (x 0).val = 512 * 23 + (j 0).val; omega)
  have e24 : (View.readAt (Elt F) (sVl).view (Rect.unit (s := S13312) (k0_off31 k 12288#32) S16.size (k0_off31_inb k 11)).toLoadRect V) x = vAt m d L 24 (j 0).val :=
    r2_load_lane m d L V hV (k0_off31 k 12288#32) (k0_off31_inb k 11) x 24 (j 0).val (by omega)
      (by rw [show (k0_off31 k 12288#32) 0 = 512 * 11 + 16 * k.val + 6656 from t2_off31 k 11]; show 512 * 11 + 16 * k.val + 6656 + (x 0).val = 512 * 24 + (j 0).val; omega)
  have e25 : (View.readAt (Elt F) (sVl).view (Rect.unit (s := S13312) (k0_off31 k 12800#32) S16.size (k0_off31_inb k 12)).toLoadRect V) x = vAt m d L 25 (j 0).val :=
    r2_load_lane m d L V hV (k0_off31 k 12800#32) (k0_off31_inb k 12) x 25 (j 0).val (by omega)
      (by rw [show (k0_off31 k 12800#32) 0 = 512 * 12 + 16 * k.val + 6656 from t2_off31 k 12]; show 512 * 12 + 16 * k.val + 6656 + (x 0).val = 512 * 25 + (j 0).val; omega)
  rw [eH, e13, e14, e15, e16, e17, e18, e19, e20, e21, e22, e23, e24, e25]
  rfl

/-! ## The step -/

/-- Trip k of the second loop, on contents that hold the finished rows below 16 k and the first loop's partial sums from
    16 k on: afterwards the finished rows reach 16 (k + 1). -/
theorem region2_pure (d : Dev nD) (L : grid0.Coords) (V : S13312.Idx → F .f32) (hV : ∀ p, V p = valFn m d L p)
    (k : Fin k0_t2_loop.trips) (g : S512.Idx → F .f32)
    (hlo : ∀ j : S512.Idx, (j 0).val < 16 * k.val → g j = outH2 m d L j) (hhi : ∀ j : S512.Idx, 16 * k.val ≤ (j 0).val → g j = outH1 m d L j) :
    (∀ j : S512.Idx, (j 0).val < 16 * (k.val + 1) → ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH2 m d L j)
    ∧ (∀ j : S512.Idx, 16 * (k.val + 1) ≤ (j 0).val → ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH1 m d L j) := by
  refine ⟨fun j hj => ?_, fun j hj => ?_⟩
  · by_cases hb : (j 0).val < 16 * k.val
    · refine r2_of_read_sO _ j _ ?_
      rw [View.read_store_out (Val := Elt F) (sO).view g (k0_off30 k) S16.size (k0_off30_inb k) _ [] j
        ⟨0, Or.inl (by rw [t2_off30_val]; exact hb)⟩]
      exact hlo j hb
    · obtain ⟨l, hl⟩ : ∃ l : Fin 16, 16 * k.val + l.val = (j 0).val :=
        ⟨⟨(j 0).val - 16 * k.val, by omega⟩, by show 16 * k.val + ((j 0).val - 16 * k.val) = (j 0).val; omega⟩
      exact r2_in m d L V hV k g hhi j l hl
  · refine r2_of_read_sO _ j _ ?_
    rw [View.read_store_out (Val := Elt F) (sO).view g (k0_off30 k) S16.size (k0_off30_inb k) _ [] j
      ⟨0, Or.inr (by rw [t2_off30_val]; show 16 * k.val + 16 ≤ (j 0).val; omega)⟩]
    exact hhi j (by omega)

end Cert.Proof.KI

end
-- ==== Proof.OutRows.lean ====
/-
  The rows of the result that one vector subcore writes: the output scratch after the second accumulation loop holds,
  at local row j, the kernel's value of row 512 w + j; and the copy of the scratch onto the subcore's 512 rows of the
  result vector leaves those rows at the kernel's value.
-/
import proofs.«207411_g41145786696212_cont_8to1_b_1804_24_alg».proof.Proof.BodyOut
import proofs.«207411_g41145786696212_cont_8to1_b_1804_24_alg».proof.Proof.BodyGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

variable (d : Dev nD) (L : grid0.Coords)

/-! ## The output scratch after the second loop -/

/-- For a field f < 26 and a local row j < 512, entry 512 f + j of the value scratch is in range. -/
theorem or_vAt_eq (f : Fin 26) (j : Fin 512) :
    vAt m d L f.val j.val = valFn m d L (ValueIdx.ix1 (⟨512 * f.val + j.val, by
      have hf := f.isLt
      have hj := j.isLt
      omega⟩ : Fin 13312)) := by
  unfold vAt
  rw [dif_pos]

/-- A lane number below 16 is in range. -/
theorem or_bAt_eq (l : ℕ) (h : l < 16) : bAt m d l = b16c m d (ValueIdx.ix1 (⟨l, h⟩ : Fin 16)) := by
  unfold bAt
  rw [dif_pos h]

/-- After the second loop, local row j of the output scratch holds the kernel's value of row 512 w + j. -/
theorem outH2_row (j : Fin 512) :
    outH2 m d L (ValueIdx.ix1 j) = kerOut (xTc m d) (tblc m d) (b16c m d) (ValueIdx.ix1 (⟨512 * (widL L).val + j.val, by
      have h := (widL L).isLt
      have hj := j.isLt
      omega⟩ : Fin 16384)) := by
  rw [kerOut_row, kerTree_chain]
  show chainB FloatOps.addf
      (chainA FloatOps.addf (bAt m d (j.val % 16)) (vAt m d L (0 : Fin 26).val j.val) (vAt m d L (1 : Fin 26).val j.val) (vAt m d L (2 : Fin 26).val j.val) (vAt m d L (3 : Fin 26).val j.val) (vAt m d L (4 : Fin 26).val j.val) (vAt m d L (5 : Fin 26).val j.val) (vAt m d L (6 : Fin 26).val j.val) (vAt m d L (7 : Fin 26).val j.val) (vAt m d L (8 : Fin 26).val j.val) (vAt m d L (9 : Fin 26).val j.val) (vAt m d L (10 : Fin 26).val j.val) (vAt m d L (11 : Fin 26).val j.val) (vAt m d L (12 : Fin 26).val j.val))
      (vAt m d L (13 : Fin 26).val j.val) (vAt m d L (14 : Fin 26).val j.val) (vAt m d L (15 : Fin 26).val j.val) (vAt m d L (16 : Fin 26).val j.val) (vAt m d L (17 : Fin 26).val j.val) (vAt m d L (18 : Fin 26).val j.val) (vAt m d L (19 : Fin 26).val j.val) (vAt m d L (20 : Fin 26).val j.val) (vAt m d L (21 : Fin 26).val j.val) (vAt m d L (22 : Fin 26).val j.val) (vAt m d L (23 : Fin 26).val j.val) (vAt m d L (24 : Fin 26).val j.val) (vAt m d L (25 : Fin 26).val j.val) = _
  rw [or_bAt_eq m d (j.val % 16) (Nat.mod_lt _ (by decide)),
    or_vAt_eq m d L 0 j, or_vAt_eq m d L 1 j, or_vAt_eq m d L 2 j, or_vAt_eq m d L 3 j, or_vAt_eq m d L 4 j, or_vAt_eq m d L 5 j, or_vAt_eq m d L 6 j, or_vAt_eq m d L 7 j, or_vAt_eq m d L 8 j, or_vAt_eq m d L 9 j, or_vAt_eq m d L 10 j, or_vAt_eq m d L 11 j, or_vAt_eq m d L 12 j, or_vAt_eq m d L 13 j, or_vAt_eq m d L 14 j, or_vAt_eq m d L 15 j, or_vAt_eq m d L 16 j, or_vAt_eq m d L 17 j, or_vAt_eq m d L 18 j, or_vAt_eq m d L 19 j, or_vAt_eq m d L 20 j, or_vAt_eq m d L 21 j, or_vAt_eq m d L 22 j, or_vAt_eq m d L 23 j, or_vAt_eq m d L 24 j, or_vAt_eq m d L 25 j]

/-! ## The copy onto the subcore's rows of the result vector -/

/-- Reading an array through the subcore's rows at local row x is the array at that row's place. -/
theorem or_of_read_oRow (W : (oRowK L).view.ty.Contents (Elt F)) (x : S512.Idx) (v : F .f32)
    (h : (oRowK L).view.read (Elt F) W x = v) : W ((oRowK L).view.emb x) = v := h

/-- Local row j of the subcore's rows is row 512 w + j of the result vector. -/
theorem or_emb_oRowK (x : S512.Idx) (j : Fin 512) (hx : (x 0).val = j.val) :
    (oRowK L).view.emb x = ValueIdx.ix1 (⟨512 * (widL L).val + j.val, by
      have h := (widL L).isLt
      have hj := j.isLt
      omega⟩ : Fin 16384) := by
  funext a
  match a with
  | ⟨0, _⟩ =>
    refine Fin.ext ?_
    show (k0_off32 L) 0 + 1 * (x 0).val = 512 * (widL L).val + j.val
    rw [k0_off32_eq]
    show 1024 * (L 1).val + 512 * (L 0).val + 1 * (x 0).val = 512 * (2 * (L 1).val + (L 0).val) + j.val
    omega

/-- What the copy brings, when the output scratch holds the second loop's values. -/
theorem copy_pay (g2 : S512.Idx → F .f32) (hg : ∀ j, g2 j = outH2 m d L j) (j : Fin 512) :
    (ReadAs.same.apply ((sO).view.read (Elt F) g2)) (ValueIdx.ix1 j) = outH2 m d L (ValueIdx.ix1 j) :=
  hg (ValueIdx.ix1 j)

/-- After the copy, written as a list of one store over all 512 rows: every one of the subcore's rows of the result
    vector holds the kernel's value. -/
theorem out_final (o0 : Buf (Elt F) (oLoc d)) (P : (Rect.whole S512).shape.Idx → F .f32)
    (hP : ∀ j : Fin 512, P (ValueIdx.ix1 j) = outH2 m d L (ValueIdx.ix1 j)) :
    ∀ i ∈ (oRowK L).view.set,
      ((oRowK L).view.writes (Elt F) o0 [⟨Rect.whole S512, P⟩]) i = kerOut (xTc m d) (tblc m d) (b16c m d) i := by
  intro i hi
  obtain ⟨x, -, rfl⟩ := Finset.mem_map.mp hi
  have hxl : (x 0).val < 512 := (x 0).isLt
  have hx : x = ValueIdx.ix1 (⟨(x 0).val, hxl⟩ : Fin 512) := by
    funext a
    match a with
    | ⟨0, _⟩ => rfl
  refine or_of_read_oRow L _ x _ ?_
  have h := View.read_writes_cons_emb (Val := Elt F) (oRowK L).view o0 (Rect.whole S512) P [] x
  rw [Rect.emb_whole_apply] at h
  rw [h, or_emb_oRowK L x ⟨(x 0).val, hxl⟩ rfl, ← outH2_row, ← hP]
  exact congrArg P hx

/-- The same with the copy written as one write over all 512 rows. -/
theorem out_final' (o0 : Buf (Elt F) (oLoc d)) (P : S512.Idx → F .f32)
    (hP : ∀ j : Fin 512, P (ValueIdx.ix1 j) = outH2 m d L (ValueIdx.ix1 j)) :
    ∀ i ∈ (oRowK L).view.set,
      ((oRowK L).view.write (Elt F) o0 P Finset.univ) i = kerOut (xTc m d) (tblc m d) (b16c m d) i := by
  intro i hi
  obtain ⟨x, -, rfl⟩ := Finset.mem_map.mp hi
  have hxl : (x 0).val < 512 := (x 0).isLt
  have hx : x = ValueIdx.ix1 (⟨(x 0).val, hxl⟩ : Fin 512) := by
    funext a
    match a with
    | ⟨0, _⟩ => rfl
  refine or_of_read_oRow L _ x _ ?_
  rw [View.read_write_of_mem (Val := Elt F) (v := (oRowK L).view) o0 P (Finset.mem_univ x),
    or_emb_oRowK L x ⟨(x 0).val, hxl⟩ rfl, ← outH2_row, ← hP]
  exact congrArg P hx

end Cert.Proof.KI

end
-- ==== Proof.Body.lean ====
/-
  One worker's task. Vector subcore s of SparseCore c is worker w = 2 s + c and owns rows 512 w … 512 w + 511 of the result. It
  copies its 512 columns of the transposed index array, field by field, into an index scratch (thirteen copies on one DMA
  semaphore, all issued, then all waited for; twice), gathers the flattened table at those indices into a value scratch (one
  indirect gather per half, each on a semaphore of its own, the second half's copies running while the first gather is in
  flight), adds up each local row's 26 values and the bias lane in two loops of 32 trips of 16 lanes (the first over fields
  0 … 12 while the second gather is still in flight: its loads stay below entry 6656, the window that gather owns starts
  there), and copies the 512 sums out to its rows. No copy's source or destination is touched between its issue and the wait
  that completes it. Stated once, generic in the float instance: the rows end at the kernel's own order of additions.
-/
import proofs.«207411_g41145786696212_cont_8to1_b_1804_24_alg».proof.Proof.BodyGeom
import proofs.«207411_g41145786696212_cont_8to1_b_1804_24_alg».proof.Proof.Chains
import proofs.«207411_g41145786696212_cont_8to1_b_1804_24_alg».proof.Proof.BoxFacts
import proofs.«207411_g41145786696212_cont_8to1_b_1804_24_alg».proof.Proof.BodyOut
import proofs.«207411_g41145786696212_cont_8to1_b_1804_24_alg».proof.Proof.Region1
import proofs.«207411_g41145786696212_cont_8to1_b_1804_24_alg».proof.Proof.Region2
import proofs.«207411_g41145786696212_cont_8to1_b_1804_24_alg».proof.Proof.OutRows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- A wait recorded at the index none keeps the waits within what the launch allows. -/
theorem waits_ok {W W' : Waits sig (HIx 1)} (a : SemLoc sig × HIx 1) (ha : a.2 = none) (h : ∀ p ∈ W', p ∈ W ∨ p.2 = none) :
    ∀ p ∈ insert a W', p ∈ W ∨ p.2 = none :=
  fun p hp => (Finset.mem_insert.mp hp).elim (fun e => Or.inr (e ▸ ha)) (h p)

/-- The first loop's invariant: the value scratch as found (less the window the second gather owns), and the output scratch's
    first 16 k entries at H. -/
def inv1 (d : Dev nD) (L : grid0.Coords) (Sv : Finset S13312.Idx) (V : S13312.Idx → F .f32) (H : S512.Idx → F .f32) (k : Nat) (_ : BitVec 32) : sProp 𝕄 :=
  iprop(((sVl).view.loc (thrOf d L) ↦[Sv]{fullShare} V)
    ∗ ∃ g : S512.Idx → F .f32, ((sO).view.loc (thrOf d L) ↦{fullShare} g) ∗ ⌜∀ j : S512.Idx, (j 0).val < 16 * k → g j = H j⌝)

/-- The second loop's invariant: the value scratch whole, the output scratch's first 16 k entries final, the rest the first loop's. -/
def inv2 (d : Dev nD) (L : grid0.Coords) (V : S13312.Idx → F .f32) (H1 H2 : S512.Idx → F .f32) (k : Nat) (_ : BitVec 32) : sProp 𝕄 :=
  iprop(((sVl).view.loc (thrOf d L) ↦{fullShare} V)
    ∗ ∃ g : S512.Idx → F .f32, ((sO).view.loc (thrOf d L) ↦{fullShare} g)
        ∗ ⌜(∀ j : S512.Idx, (j 0).val < 16 * k → g j = H2 j) ∧ (∀ j : S512.Idx, 16 * k ≤ (j 0).val → g j = H1 j)⌝)

/-- The task of the worker at grid coordinates L, from what it is handed to what it hands back, its scoped storage returned
    as found and nothing newly owed. -/
theorem tile_body [∀ e, Nonempty (Elt F e)] (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goRes m d (widL L)
        ∗ scopedBufs (thrOf d L) ∗ scopedSems0 (thrOf d L) ∗ owes (thrOf d L) O W)
      ⊢ wp frame (wpE (defs₀ (F := F)) 𝒱₀ (thrOf d L) none) Set.univ
          (cc0__emb_sum L xV (Memref.isWhole_whole _) tV (Memref.isWhole_whole _) bV (Memref.isWhole_whole _) oV (Memref.isWhole_whole _)
            sI (Memref.isWhole_whole _) sVl (Memref.isWhole_whole _) sO (Memref.isWhole_whole _) sB (Memref.isWhole_whole _)
            cc0_scratch4 cc0_scratch5 cc0_scratch6 cc0_scoped0 cc0_scoped1)
          fun _ => iprop(tdRes m d (widL L) ∗ scopedBufs (thrOf d L) ∗ scopedSems0 (thrOf d L)
            ∗ ∃ W', ⌜∀ p ∈ W', p ∈ W ∨ p.2 = none⌝ ∗ owes (thrOf d L) O W') := by
  rw [cc0__emb_sum_eq_skeleton]; unfold cc0__emb_sum_skel
  rw [(K (F := F)).scopedBufs_V hF d (cV L) (jV L), SparseCore.Cfg.scopedSems0_V (Val := Elt F) d (cV L) (jV L), ownSems0_V, ownBufs_V]
  unfold goRes
  iintro ⟨#Hlv, -, ⟨Hx, Ht, Hb, Ho⟩, ⟨⟨%f0, Hs0⟩, ⟨%f1, Hs1⟩, ⟨%f2, Hs2⟩, ⟨%f3, Hs3⟩, Hbufs⟩, ⟨Hsem4, Hsem5, Hsem6, Hsc0, Hsc1, Hsems⟩, HO⟩
  ihave Hmw := ((K (F := F)).mayWaits_none (thr := thrOf d L) hO) $$ Hlv
  -- the thirteen copies of each half complete on one semaphore: a batch, its windows carved out of the index scratch
  have plan : Transfers.BatchOf (thrOf d L) (SemLoc.dma (sig := sig) cc0_scratch6.sem) 13 (windows := true) := trivial
  ihave Hx' := (Entails.of_eq (pts_x (F := F) d L _ _).symm) $$ Hx
  ihave Ht' := (Entails.of_eq (pts_t (F := F) d L _ _).symm) $$ Ht
  -- the table is read by two gathers in flight at once: a read share for each
  ihave Ht2 := (tbl_two (F := F) d L _ _).1 $$ Ht'
  icases Ht2 with ⟨Htd, Ht0, Ht1⟩
  ihave Hb' := (Entails.of_eq (pts_b (F := F) d L _ _).symm) $$ Hb
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  -- the first gather's list: the first thirteen fields' indices, every word a row of the table
  have hin1 : ∀ x, (((sI).slice (Rect.unit (s := S13312) ![0] S6656.size inb_S13312_S6656_0) (fun _ => rfl)).view.read (Elt F)
      ((sI).view.writes (Elt F) f0 [⟨Rect.unit ![6144] S512.size inb_S13312_S512_6144, tile_body.sl.dma12 m d L⟩, ⟨Rect.unit ![5632] S512.size inb_S13312_S512_5632, tile_body.sl.dma11 m d L⟩, ⟨Rect.unit ![5120] S512.size inb_S13312_S512_5120, tile_body.sl.dma10 m d L⟩, ⟨Rect.unit ![4608] S512.size inb_S13312_S512_4608, tile_body.sl.dma9 m d L⟩, ⟨Rect.unit ![4096] S512.size inb_S13312_S512_4096, tile_body.sl.dma8 m d L⟩, ⟨Rect.unit ![3584] S512.size inb_S13312_S512_3584, tile_body.sl.dma7 m d L⟩, ⟨Rect.unit ![3072] S512.size inb_S13312_S512_3072, tile_body.sl.dma6 m d L⟩, ⟨Rect.unit ![2560] S512.size inb_S13312_S512_2560, tile_body.sl.dma5 m d L⟩, ⟨Rect.unit ![2048] S512.size inb_S13312_S512_2048, tile_body.sl.dma4 m d L⟩, ⟨Rect.unit ![1536] S512.size inb_S13312_S512_1536, tile_body.sl.dma3 m d L⟩, ⟨Rect.unit ![1024] S512.size inb_S13312_S512_1024, tile_body.sl.dma2 m d L⟩, ⟨Rect.unit ![512] S512.size inb_S13312_S512_512, tile_body.sl.dma1 m d L⟩, ⟨Rect.unit ![0] S512.size inb_S13312_S512_0, tile_body.sl.dma0 m d L⟩]) x).toNat < S2600000.size gathers_S2600000_S6656.axis := hin1_of m hpre d L f0
  sl_exec
  -- the second gather's list: the other thirteen
  have hin2 : ∀ x, (((sI).slice (Rect.unit (s := S13312) ![6656] S6656.size inb_S13312_S6656_6656) (fun _ => rfl)).view.read (Elt F)
      ((sI).view.writes (Elt F) f0 [⟨Rect.unit ![12800] S512.size inb_S13312_S512_12800, tile_body.sl.dma13 m d L⟩, ⟨Rect.unit ![12288] S512.size inb_S13312_S512_12288, tile_body.sl.dma12_1 m d L⟩, ⟨Rect.unit ![11776] S512.size inb_S13312_S512_11776, tile_body.sl.dma11_1 m d L⟩, ⟨Rect.unit ![11264] S512.size inb_S13312_S512_11264, tile_body.sl.dma10_1 m d L⟩, ⟨Rect.unit ![10752] S512.size inb_S13312_S512_10752, tile_body.sl.dma9_1 m d L⟩, ⟨Rect.unit ![10240] S512.size inb_S13312_S512_10240, tile_body.sl.dma8_1 m d L⟩, ⟨Rect.unit ![9728] S512.size inb_S13312_S512_9728, tile_body.sl.dma7_1 m d L⟩, ⟨Rect.unit ![9216] S512.size inb_S13312_S512_9216, tile_body.sl.dma6_1 m d L⟩, ⟨Rect.unit ![8704] S512.size inb_S13312_S512_8704, tile_body.sl.dma5_1 m d L⟩, ⟨Rect.unit ![8192] S512.size inb_S13312_S512_8192, tile_body.sl.dma4_1 m d L⟩, ⟨Rect.unit ![7680] S512.size inb_S13312_S512_7680, tile_body.sl.dma3_1 m d L⟩, ⟨Rect.unit ![7168] S512.size inb_S13312_S512_7168, tile_body.sl.dma2_1 m d L⟩, ⟨Rect.unit ![6656] S512.size inb_S13312_S512_6656, tile_body.sl.dma1_1 m d L⟩, ⟨Rect.unit ![6144] S512.size inb_S13312_S512_6144, tile_body.sl.dma12 m d L⟩, ⟨Rect.unit ![5632] S512.size inb_S13312_S512_5632, tile_body.sl.dma11 m d L⟩, ⟨Rect.unit ![5120] S512.size inb_S13312_S512_5120, tile_body.sl.dma10 m d L⟩, ⟨Rect.unit ![4608] S512.size inb_S13312_S512_4608, tile_body.sl.dma9 m d L⟩, ⟨Rect.unit ![4096] S512.size inb_S13312_S512_4096, tile_body.sl.dma8 m d L⟩, ⟨Rect.unit ![3584] S512.size inb_S13312_S512_3584, tile_body.sl.dma7 m d L⟩, ⟨Rect.unit ![3072] S512.size inb_S13312_S512_3072, tile_body.sl.dma6 m d L⟩, ⟨Rect.unit ![2560] S512.size inb_S13312_S512_2560, tile_body.sl.dma5 m d L⟩, ⟨Rect.unit ![2048] S512.size inb_S13312_S512_2048, tile_body.sl.dma4 m d L⟩, ⟨Rect.unit ![1536] S512.size inb_S13312_S512_1536, tile_body.sl.dma3 m d L⟩, ⟨Rect.unit ![1024] S512.size inb_S13312_S512_1024, tile_body.sl.dma2 m d L⟩, ⟨Rect.unit ![512] S512.size inb_S13312_S512_512, tile_body.sl.dma1 m d L⟩, ⟨Rect.unit ![0] S512.size inb_S13312_S512_0, tile_body.sl.dma0 m d L⟩]) x).toNat < S2600000.size gathers_S2600000_S6656.axis := hin2_of m hpre d L f0
  sl_exec
  -- the first loop: fields 0 … 12, below the window the second gather owns
  sl_for (inv1 (F := F) d L (Finset.univ \ ((sVl).slice (Rect.unit (s := S13312) ![6656] S6656.size inb_S13312_S6656_6656) (fun _ => rfl)).view.set) ((sVl).view.writes (Elt F) f1 [⟨Rect.unit ![6656] S6656.size inb_S13312_S6656_6656, tile_body.sl.gather0_1 m d L f0 hin2⟩, ⟨Rect.unit ![0] S6656.size inb_S13312_S6656_0, tile_body.sl.gather0 m d L f0 hin1⟩]) (outH1 m d L)) $$ [Hs1' Hs2']
  case region =>
    intro k _
    unfold inv1
    iintro ⟨Hv, %g, Hg, %hg⟩
    have hd27 : Disjoint ((sVl).view.setOn (Rect.unit (s := S13312) (k0_off27 k) S16.size (k0_off27_inb k)).set) (((sVl).slice (Rect.unit (s := S13312) ![6656] S6656.size inb_S13312_S6656_6656) (fun _ => rfl)).view.set) := box_disj _ _ (t1_off27 k)
    have hd28_0 : Disjoint ((sVl).view.setOn (Rect.unit (s := S13312) (k0_off28 k 512#32) S16.size (k0_off28_inb k 0)).set) (((sVl).slice (Rect.unit (s := S13312) ![6656] S6656.size inb_S13312_S6656_6656) (fun _ => rfl)).view.set) := box_disj _ _ (t1_off28 k 0)
    have hd28_2 : Disjoint ((sVl).view.setOn (Rect.unit (s := S13312) (k0_off28 k 1536#32) S16.size (k0_off28_inb k 2)).set) (((sVl).slice (Rect.unit (s := S13312) ![6656] S6656.size inb_S13312_S6656_6656) (fun _ => rfl)).view.set) := box_disj _ _ (t1_off28 k 2)
    have hd28_4 : Disjoint ((sVl).view.setOn (Rect.unit (s := S13312) (k0_off28 k 2560#32) S16.size (k0_off28_inb k 4)).set) (((sVl).slice (Rect.unit (s := S13312) ![6656] S6656.size inb_S13312_S6656_6656) (fun _ => rfl)).view.set) := box_disj _ _ (t1_off28 k 4)
    have hd28_6 : Disjoint ((sVl).view.setOn (Rect.unit (s := S13312) (k0_off28 k 3584#32) S16.size (k0_off28_inb k 6)).set) (((sVl).slice (Rect.unit (s := S13312) ![6656] S6656.size inb_S13312_S6656_6656) (fun _ => rfl)).view.set) := box_disj _ _ (t1_off28 k 6)
    have hd28_8 : Disjoint ((sVl).view.setOn (Rect.unit (s := S13312) (k0_off28 k 4608#32) S16.size (k0_off28_inb k 8)).set) (((sVl).slice (Rect.unit (s := S13312) ![6656] S6656.size inb_S13312_S6656_6656) (fun _ => rfl)).view.set) := box_disj _ _ (t1_off28 k 8)
    have hd28_10 : Disjoint ((sVl).view.setOn (Rect.unit (s := S13312) (k0_off28 k 5632#32) S16.size (k0_off28_inb k 10)).set) (((sVl).slice (Rect.unit (s := S13312) ![6656] S6656.size inb_S13312_S6656_6656) (fun _ => rfl)).view.set) := box_disj _ _ (t1_off28 k 10)
    have hd28_1 : Disjoint ((sVl).view.setOn (Rect.unit (s := S13312) (k0_off28 k 1024#32) S16.size (k0_off28_inb k 1)).set) (((sVl).slice (Rect.unit (s := S13312) ![6656] S6656.size inb_S13312_S6656_6656) (fun _ => rfl)).view.set) := box_disj _ _ (t1_off28 k 1)
    have hd28_3 : Disjoint ((sVl).view.setOn (Rect.unit (s := S13312) (k0_off28 k 2048#32) S16.size (k0_off28_inb k 3)).set) (((sVl).slice (Rect.unit (s := S13312) ![6656] S6656.size inb_S13312_S6656_6656) (fun _ => rfl)).view.set) := box_disj _ _ (t1_off28 k 3)
    have hd28_5 : Disjoint ((sVl).view.setOn (Rect.unit (s := S13312) (k0_off28 k 3072#32) S16.size (k0_off28_inb k 5)).set) (((sVl).slice (Rect.unit (s := S13312) ![6656] S6656.size inb_S13312_S6656_6656) (fun _ => rfl)).view.set) := box_disj _ _ (t1_off28 k 5)
    have hd28_7 : Disjoint ((sVl).view.setOn (Rect.unit (s := S13312) (k0_off28 k 4096#32) S16.size (k0_off28_inb k 7)).set) (((sVl).slice (Rect.unit (s := S13312) ![6656] S6656.size inb_S13312_S6656_6656) (fun _ => rfl)).view.set) := box_disj _ _ (t1_off28 k 7)
    have hd28_9 : Disjoint ((sVl).view.setOn (Rect.unit (s := S13312) (k0_off28 k 5120#32) S16.size (k0_off28_inb k 9)).set) (((sVl).slice (Rect.unit (s := S13312) ![6656] S6656.size inb_S13312_S6656_6656) (fun _ => rfl)).view.set) := box_disj _ _ (t1_off28 k 9)
    have hd28_11 : Disjoint ((sVl).view.setOn (Rect.unit (s := S13312) (k0_off28 k 6144#32) S16.size (k0_off28_inb k 11)).set) (((sVl).slice (Rect.unit (s := S13312) ![6656] S6656.size inb_S13312_S6656_6656) (fun _ => rfl)).view.set) := box_disj _ _ (t1_off28 k 11)
    sl_exec
    sl_step
    isplitl [Hv]; · iexact Hv
    iexists _; isplitl [Hg]; · iexact Hg
    ipureintro
    exact region1_pure m d L _ (fun p => vals_run m hpre d L f0 f1 _ hin1 hin2 p) _
      (fun l => (readAt_boxB _ l).trans ((congrFun (write_univ_whole f3 _) l).trans (bias_read m d l))) k g hg
  · unfold inv1
    isplitl [Hs1']; · iexact Hs1'
    iexists f2; isplitl [Hs2']; · iexact Hs2'
    ipureintro; intro j hj; omega
  iintro %r1 HI
  unfold inv1
  icases HI with ⟨Hv, %g1, Hg, %hg1⟩
  sl_exec
  have htrips1 : Scf.trips k0_t1_loop.lb k0_t1_loop.ub k0_t1_loop.st = 32 := by decide
  -- the second loop: fields 13 … 25 onto the first loop's sums
  sl_for (inv2 (F := F) d L ((sVl).view.writes (Elt F) (sVl).view.junk [⟨Rect.unit ![6656] S6656.size inb_S13312_S6656_6656, tile_body.sl.gather0_1 m d L f0 hin2⟩, ⟨Rect.unit ![0] S6656.size inb_S13312_S6656_0, tile_body.sl.gather0 m d L f0 hin1⟩]) (outH1 m d L) (outH2 m d L)) $$ [Hv Hg]
  case region =>
    intro k _
    unfold inv2
    iintro ⟨Hv, %g, Hg, %hg⟩
    sl_exec
    sl_step
    isplitl [Hv]; · iexact Hv
    iexists _; isplitl [Hg]; · iexact Hg
    ipureintro
    exact region2_pure m d L _ (fun p => vals_run m hpre d L f0 _ _ hin1 hin2 p) k g hg.1 hg.2
  · unfold inv2
    isplitl [Hv]; · iexact Hv
    iexists g1; isplitl [Hg]; · iexact Hg
    ipureintro
    refine ⟨fun j hj => by omega, fun j _ => hg1 j ?_⟩
    have hj : (j 0).val < 512 := (j 0).isLt
    rw [htrips1]; omega
  iintro %r2 HI
  unfold inv2
  icases HI with ⟨Hv, %g2, Hg, %hg2⟩
  sl_exec
  have htrips2 : Scf.trips k0_t2_loop.lb k0_t2_loop.ub k0_t2_loop.st = 32 := by decide
  have hg2' : ∀ j : S512.Idx, g2 j = outH2 m d L j := fun j => hg2.1 j (by
    have hj : (j 0).val < 512 := (j 0).isLt
    rw [htrips2]; omega)
  sl_step
  unfold tdRes
  isplitl [Hx' Htd Ht0 Ht1 Hb' Ho']
  · isplitl [Hx']
    · iapply (Entails.of_eq (pts_x (F := F) d L _ _)); iexact Hx'
    isplitl [Htd Ht0 Ht1]
    · iapply (Entails.of_eq (pts_t (F := F) d L _ _))
      iapply (tbl_two (F := F) d L _ _).2
      isplitl [Htd]; · iexact Htd
      isplitl [Ht0]; · iexact Ht0
      iexact Ht1
    isplitl [Hb']
    · iapply (Entails.of_eq (pts_b (F := F) d L _ _)); iexact Hb'
    -- the rows copied out are the kernel's value on the worker's rows
    iapply (Entails.of_eq (pts_o (F := F) d L _))
    iapply (Entails.of_eq (pointsTo_congr (out_final m d L (m (oLoc d)) _ (copy_pay m d L g2 hg2'))))
    iexact Ho'
  isplitl [Hs0' Hv Hg Hs3' Hbufs]
  · isplitl [Hs0']; · iexists _; iapply (Entails.of_eq (pts_s0 (F := F) d L _)); iexact Hs0'
    isplitl [Hv]; · iexists _; iapply (Entails.of_eq (pts_s1 (F := F) d L _)); iexact Hv
    isplitl [Hg]; · iexists _; iapply (Entails.of_eq (pts_s2 (F := F) d L _)); iexact Hg
    isplitl [Hs3']; · iexists _; iapply (Entails.of_eq (pts_s3 (F := F) d L _)); iexact Hs3'
    iexact Hbufs
  isplitl [Hsem4 Hsem5 Hsem6 Hsc0 Hsc1 Hsems]
  · isplitl [Hsem4]; · iexact Hsem4
    isplitl [Hsem5]; · iexact Hsem5
    isplitl [Hsem6]; · iexact Hsem6
    isplitl [Hsc0]; · iexact Hsc0
    isplitl [Hsc1]; · iexact Hsc1
    iexact Hsems
  iexists _; isplitr
  on_goal 2 => iexact HO
  ipureintro
  repeat (first | exact fun p hp => Or.inl hp | refine waits_ok _ rfl ?_)

end Cert.Proof.KI

end
-- ==== Proof.Launch.lean ====
/-
  The embedding-sum kernel's launch set-up: what the launch's handshakes carry to and from each of the 32 workers, the
  one task's obligation from the worker's body, how a SparseCore's share is its sixteen workers' shares, the launch's ghost
  state, and how the four arrays the call works on split into the 32 workers' shares and join back.
-/
import proofs.«207411_g41145786696212_cont_8to1_b_1804_24_alg».proof.Proof.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the handshakes carry -/

omit [FloatOps F] in
theorem nCore_zero : (K (F := F)).nCore 0 = 2 := rfl
omit [FloatOps F] in
theorem nSub_zero : (K (F := F)).nSub 0 = 16 := rfl

/-- Vector subcore i of the call's SparseCore c is worker 2 i + c. -/
def widCI (c : Fin ((K (F := F)).nCore 0)) (i : Fin ((K (F := F)).nSub 0)) : Fin 32 :=
  ⟨2 * i.val + c.val, by
    have h0 : c.val < 2 := c.isLt
    have h1 : i.val < 16 := i.isLt
    omega⟩

/-- The one call hands SparseCore c its sixteen workers' shares, each worker its own, and brings them back with each
    worker's rows of the result at the kernel's value; the kernel's proof takes nothing else from the launch. -/
def P : (K (F := F)).Pay (nD := nD) (Val := Elt F) (Name := ℕ) (U := UU) where
  st := fun q d c => match q with
    | 0 => bigSep Finset.univ fun i : Fin ((K (F := F)).nSub 0) => goRes m d (widCI c i)
  dn := fun q d c => match q with
    | 0 => bigSep Finset.univ fun i : Fin ((K (F := F)).nSub 0) => tdRes m d (widCI c i)
  go := fun q d c i => match q with | 0 => goRes m d (widCI c i)
  td := fun q d c i => match q with | 0 => tdRes m d (widCI c i)
  x := fun _ _ => iprop(emp)

theorem P_st (d : Dev nD) (c : Fin ((K (F := F)).nCore 0)) :
    (P m).st 0 d c = bigSep Finset.univ fun i : Fin ((K (F := F)).nSub 0) => goRes m d (widCI c i) := rfl
theorem P_dn (d : Dev nD) (c : Fin ((K (F := F)).nCore 0)) :
    (P m).dn 0 d c = bigSep Finset.univ fun i : Fin ((K (F := F)).nSub 0) => tdRes m d (widCI c i) := rfl
theorem P_go (d : Dev nD) (c : Fin ((K (F := F)).nCore 0)) (i : Fin ((K (F := F)).nSub 0)) :
    (P m).go 0 d c i = goRes m d (widCI c i) := rfl
theorem P_td (d : Dev nD) (c : Fin ((K (F := F)).nCore 0)) (i : Fin ((K (F := F)).nSub 0)) :
    (P m).td 0 d c i = tdRes m d (widCI c i) := rfl

instance goRes_storable (d : Dev nD) (w : Fin 32) : BI.Storable (upEmb : UEmb _ 𝕄) (goRes m d w) := by
  unfold goRes; infer_instance
instance tdRes_storable (d : Dev nD) (w : Fin 32) : BI.Storable (upEmb : UEmb _ 𝕄) (tdRes m d w) := by
  unfold tdRes; infer_instance

instance P_storable : (P (F := F) m).IsStorable where
  st q d c := match q with
    | 0 => (inferInstance : BI.Storable (upEmb : UEmb _ 𝕄)
        (bigSep Finset.univ fun i : Fin ((K (F := F)).nSub 0) => goRes m d (widCI c i)))
  dn q d c := match q with
    | 0 => (inferInstance : BI.Storable (upEmb : UEmb _ 𝕄)
        (bigSep Finset.univ fun i : Fin ((K (F := F)).nSub 0) => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-! ## The one task's obligation -/

theorem defs₀_vector (c : Fin τ.nSC) (s : Fin τ.nSub) :
    defs₀ (F := F) (.scVector c s) 0 ()
      = SparseCore.onTile hcore0 hsub0 (fun c s => cc0__emb_sum (coordsV c s)
          xV (Memref.isWhole_whole _) tV (Memref.isWhole_whole _) bV (Memref.isWhole_whole _) oV (Memref.isWhole_whole _)
          sI (Memref.isWhole_whole _) sVl (Memref.isWhole_whole _) sO (Memref.isWhole_whole _) sB (Memref.isWhole_whole _)
          cc0_scratch4 cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) (hpre : PreOK m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF hpre d (coordsV ⟨_, hc.1⟩ ⟨_, hc.2⟩) O W hO).trans (wp_mono frame _ _ fun _ => obl_post)

/-! ## A SparseCore's share is its sixteen workers' shares -/

theorem vecSplit : (K (F := F)).VecSplit' (P m) 0 := by
  intro d c
  rw [P_st, P_dn]
  simp only [P_go, P_td]
  iintro H; imodintro
  isplitl [H]; · iexact H
  iintro H; iexact H

/-! ## The launch's ghost state: the handshakes' rounds; the kernel's own copies need no schedule -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call's four arrays, split into the 32 workers' shares and joined back -/

/-- Vector subcore i of SparseCore c ↦ worker 2 i + c numbers the 2 × 16 vector subcores by 0 … 31. -/
def widEquiv : Fin ((K (F := F)).nCore 0) × Fin ((K (F := F)).nSub 0) ≃ Fin 32 where
  toFun p := widCI p.1 p.2
  invFun w := (⟨w.val % 2, Nat.mod_lt _ (by decide)⟩, ⟨w.val / 2, by have := w.isLt; show w.val / 2 < 16; omega⟩)
  left_inv p := by
    obtain ⟨c, i⟩ := p
    have h0 : c.val < 2 := c.isLt
    have h1 : i.val < 16 := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

omit [FloatOps F] in
/-- A family over the workers, taken SparseCore by SparseCore and vector subcore by vector subcore, is the family over
    the 32 workers. -/
theorem bigSep_workers (Φ : Fin 32 → sProp 𝕄) :
    (bigSep Finset.univ fun c : Fin ((K (F := F)).nCore 0) => bigSep Finset.univ fun i : Fin ((K (F := F)).nSub 0) => Φ (widCI c i))
      = bigSep Finset.univ Φ := by
  rw [← BI.bigSep_univ_prod (fun p : Fin ((K (F := F)).nCore 0) × Fin ((K (F := F)).nSub 0) => Φ (widCI p.1 p.2))]
  exact (BI.bigSep_univ_equiv (widEquiv (F := F)) Φ).symm

omit [FloatOps F] in
theorem oSets_disjoint : ∀ w ∈ (Finset.univ : Finset (Fin 32)), ∀ w' ∈ (Finset.univ : Finset (Fin 32)), w ≠ w' → Disjoint (oSet w) (oSet w') :=
  fun _ _ _ _ h => Rect.part_disjoint hdiv32 h
omit [FloatOps F] in
theorem oSets_cover : (Finset.univ : Finset (Fin 32)).biUnion oSet = Finset.univ := Rect.biUnion_part hdiv32

omit [FloatOps F] in
/-- The result vector whole is its 32 runs of 512 rows. -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]

/-- What the call keeps of the three arrays it reads while the workers hold their tokens. -/
def callRest (d : Dev nD) : sProp 𝕄 :=
  iprop((xLoc d ↦{Transfers.shareDrop fullShare 32} xTc m d) ∗ (tLoc d ↦{Transfers.shareDrop fullShare 32} tblc m d)
    ∗ (bLoc d ↦{Transfers.shareDrop fullShare 32} b16c m d))

theorem st_all (d : Dev nD) :
    (bigSep Finset.univ fun c : Fin ((K (F := F)).nCore 0) => (P m).st 0 d c) = bigSep Finset.univ fun w : Fin 32 => goRes m d w :=
  bigSep_workers (goRes m d)
theorem dn_all (d : Dev nD) :
    (bigSep Finset.univ fun c : Fin ((K (F := F)).nCore 0) => (P m).dn 0 d c) = bigSep Finset.univ fun w : Fin 32 => tdRes m d w :=
  bigSep_workers (tdRes m d)

/-- The three arrays the call reads and the result vector, whole, are the 32 workers' shares and the call's remainders. -/
theorem call_split (d : Dev nD) :
    iprop((xLoc d ↦{fullShare} xTc m d) ∗ (tLoc d ↦{fullShare} tblc m d) ∗ (bLoc d ↦{fullShare} b16c m d)
        ∗ (oLoc d ↦{fullShare} m (oLoc d)))
      ⊢ iprop((bigSep Finset.univ fun c : Fin ((K (F := F)).nCore 0) => (P m).st 0 d c) ∗ callRest m d) := by
  rw [st_all]
  unfold goRes callRest
  rw [bigSep_sep', bigSep_sep', bigSep_sep', ← oPts_rows]
  iintro ⟨Hx, Ht, Hb, Ho⟩
  ihave Hx' := (Transfers.pointsTo_toks_split fullShare 32) $$ Hx
  ihave Ht' := (Transfers.pointsTo_toks_split fullShare 32) $$ Ht
  ihave Hb' := (Transfers.pointsTo_toks_split fullShare 32) $$ Hb
  icases Hx' with ⟨Hxr, Hxs⟩
  icases Ht' with ⟨Htr, Hts⟩
  icases Hb' with ⟨Hbr, Hbs⟩
  isplitl [Hxs Hts Hbs Ho]
  · isplitl [Hxs]; · iexact Hxs
    isplitl [Hts]; · iexact Hts
    isplitl [Hbs]; · iexact Hbs
    iexact Ho
  · isplitl [Hxr]; · iexact Hxr
    isplitl [Htr]; · iexact Htr
    iexact Hbr

/-- and back, the result vector at the kernel's value. -/
theorem call_join (d : Dev nD) :
    iprop((bigSep Finset.univ fun c : Fin ((K (F := F)).nCore 0) => (P m).dn 0 d c) ∗ callRest m d)
      ⊢ iprop((xLoc d ↦{fullShare} xTc m d) ∗ (tLoc d ↦{fullShare} tblc m d) ∗ (bLoc d ↦{fullShare} b16c m d)
        ∗ (oLoc d ↦{fullShare} kerOut (xTc m d) (tblc m d) (b16c m d))) := by
  rw [dn_all]
  unfold tdRes callRest
  rw [bigSep_sep', bigSep_sep', bigSep_sep', ← oPts_rows]
  iintro ⟨⟨Hxs, Hts, Hbs, Ho⟩, Hxr, Htr, Hbr⟩
  isplitl [Hxs Hxr]
  · iapply (Transfers.pointsTo_toks_join fullShare 32); isplitl [Hxr]; · iexact Hxr
    iexact Hxs
  isplitl [Hts Htr]
  · iapply (Transfers.pointsTo_toks_join fullShare 32); isplitl [Htr]; · iexact Htr
    iexact Hts
  isplitl [Hbs Hbr]
  · iapply (Transfers.pointsTo_toks_join fullShare 32); isplitl [Hbr]; · iexact Hbr
    iexact Hbs
  iexact Ho

end Cert.Proof.KI

end
-- ==== Proof.Main.lean ====
/-
  @main on the TensorCore, and the program's run: the seven host operations before the SparseCore call leave the index
  array transposed, the table flattened and the bias word in sixteen lanes; the call takes those three arrays and the result
  vector and hands them back with the result vector at the kernel's value; the reshape after it makes the result column;
  the three arguments are never written. From that, and each vector subcore's task, every weakly fair execution of the device's
  threads ends with the result column at the reshaped kernel value and the arguments as launched.
-/
import proofs.«207411_g41145786696212_cont_8to1_b_1804_24_alg».proof.Proof.Launch
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-! ## The program's arrays as device buffers, and its host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v5 : Ref sig .tc)
abbrev t' : DevRef τ sig := Proc.devRef .tc (main_v4 : Ref sig .tc)
abbrev b' : DevRef τ sig := Proc.devRef .tc (main_v6 : Ref sig .tc)
abbrev o' : DevRef τ sig := Proc.devRef .tc (main_v7 : Ref sig .tc)
abbrev r' : DevRef τ sig := Proc.devRef .tc (main_v8 : Ref sig .tc)

/-- Every array of the program: the TensorCore's unscoped buffers. -/
abbrev SU : Finset (DevRef τ sig) := Pipeline.ucRefs τ sig

/-- The seven operations before the call, in order. -/
def ops7 : List (HloOp τ sig (Elt F)) :=
  [StableHlo.unary main_arg1 main_v0 ((extractStridedSlice S2599936x1 ![0, 0] · slices_S2600000x1_S2599936x1_0_0) : (⟨S2600000x1, .f32⟩ : BufTy).Contents (Elt F) → (⟨S2599936x1, .f32⟩ : BufTy).Contents (Elt F)),
   StableHlo.reshape main_v0 main_v1 rfl shapeCasts_S2599936x1_S2599936,
   StableHlo.unary main_arg1 main_v2 ((extractStridedSlice S64x1 ![2599936, 0] · slices_S2600000x1_S64x1_2599936_0) : (⟨S2600000x1, .f32⟩ : BufTy).Contents (Elt F) → (⟨S64x1, .f32⟩ : BufTy).Contents (Elt F)),
   StableHlo.reshape main_v2 main_v3 rfl shapeCasts_S64x1_S64,
   StableHlo.binary main_v1 main_v3 main_v4 ((fun a b => concatenate S2600000 0 [⟨S2599936, a⟩, ⟨S64, b⟩] concatenates_S2599936_S64_S2600000_d0) : (⟨S2599936, .f32⟩ : BufTy).Contents (Elt F) → (⟨S64, .f32⟩ : BufTy).Contents (Elt F) → (⟨S2600000, .f32⟩ : BufTy).Contents (Elt F)),
   StableHlo.unary main_arg0 main_v5 ((transpose S26x16384 [1, 0] · transposes_S16384x26_S26x16384_1_0) : (⟨S16384x26, .i32⟩ : BufTy).Contents (Elt F) → (⟨S26x16384, .i32⟩ : BufTy).Contents (Elt F)),
   StableHlo.unary main_arg2 main_v6 (broadcastInDim S16 ![0] bcast_S1_S16_0 : (⟨S1, .f32⟩ : BufTy).Contents (Elt F) → (⟨S16, .f32⟩ : BufTy).Contents (Elt F))]

/-- The reshape after the call. -/
abbrev opR : HloOp τ sig (Elt F) := StableHlo.reshape main_v7 main_v8 rfl shapeCasts_S16384_S16384x1

/-- What follows the seven operations: the call, the reshape, the return. -/
def rest (d : Dev nD) : Prog (TpuEff nD τ sig (Elt F) (SparseCore.Sig (ΛP (F := F)) 1) .tc) PUnit :=
  (K (F := F)).run d 0 >>= fun _ => (hlo rfl (opR (F := F)) (fun _ => .ret (⟨⟩ : PUnit)) >>= fun _ => pure ⟨⟩)

theorem main_eq (d : Dev nD) : main (F := F) d = (StableHlo.seq (ops7 (F := F)) >>= fun _ => rest d) := rfl

theorem ops7_sub : (ops7 (F := F)).Forall fun op => op.bufs ⊆ StableHlo.tcRefs τ sig :=
  ⟨StableHlo.unary_bufs_sub .., StableHlo.reshape_bufs_sub .., StableHlo.unary_bufs_sub .., StableHlo.reshape_bufs_sub ..,
    StableHlo.binary_bufs_sub .., StableHlo.unary_bufs_sub .., StableHlo.unary_bufs_sub ..⟩

theorem ops7_fresh : (ops7 (F := F)).Forall fun op => op.fresh = ∅ := ⟨rfl, rfl, rfl, rfl, rfl, rfl, rfl⟩

theorem opR_sub : (opR (F := F)).bufs ⊆ SU := Pipeline.sub_ucRefs _ (StableHlo.reshape_bufs_sub ..)

/-! ## The arrays' contents along @main -/

/-- At the launch. -/
def V0 (d : Dev nD) : Valuation τ sig (Elt F) := fun b => m (d, b)
/-- After the seven operations. -/
def W7 (d : Dev nD) : Valuation τ sig (Elt F) := StableHlo.after (ops7 (F := F)) (V0 m d)
/-- After the call: the result vector at the kernel's value. -/
def V1 (d : Dev nD) : Valuation τ sig (Elt F) := Function.update (W7 m d) o' (kerOut (xTc m d) (tblc m d) (b16c m d))

theorem W7_x (d : Dev nD) : W7 m d x' = xTc m d := by
  unfold W7 ops7; after_results; rfl
theorem W7_t (d : Dev nD) : W7 m d t' = tblc m d := by
  unfold W7 ops7; after_results; rfl
theorem W7_b (d : Dev nD) : W7 m d b' = b16c m d := by
  unfold W7 ops7; after_results; rfl
theorem W7_o (d : Dev nD) : W7 m d o' = m (oLoc d) := by
  unfold W7 ops7; after_results; rfl
theorem W7_a0 (d : Dev nD) : W7 m d a0' = m (a0Loc d) := by
  unfold W7 ops7; after_results; rfl
theorem W7_a1 (d : Dev nD) : W7 m d a1' = m (a1Loc d) := by
  unfold W7 ops7; after_results; rfl
theorem W7_a2 (d : Dev nD) : W7 m d a2' = m (a2Loc d) := by
  unfold W7 ops7; after_results; rfl

/-! ## Four arrays out of all of them, and back -/

/-- The four arrays the call works on. -/
abbrev T4 : Finset (DevRef τ sig) := {x', t', b', o'}
/-- The three arguments and the result column. -/
abbrev TR : Finset (DevRef τ sig) := {a0', a1', a2', r'}

theorem T4_sub : T4 ⊆ SU := by
  intro b hb
  simp only [Finset.mem_insert, Finset.mem_singleton] at hb
  rcases hb with rfl | rfl | rfl | rfl <;> exact Finset.mem_filter.mpr ⟨StableHlo.devRef_mem_tcRefs _, by decide⟩

theorem TR_sub : TR ⊆ SU := by
  intro b hb
  simp only [Finset.mem_insert, Finset.mem_singleton] at hb
  rcases hb with rfl | rfl | rfl | rfl <;> exact Finset.mem_filter.mpr ⟨StableHlo.devRef_mem_tcRefs _, by decide⟩

omit [FloatOps F] in
theorem held_T4 (d : Dev nD) (W : Valuation τ sig (Elt F)) :
    (held (T d) T4 W : sProp 𝕄) = iprop((xLoc d ↦{fullShare} W x') ∗ (tLoc d ↦{fullShare} W t') ∗ (bLoc d ↦{fullShare} W b') ∗ (oLoc d ↦{fullShare} W o')) := by
  unfold held T4
  rw [SparseCore.bigSep_insert' (by decide), SparseCore.bigSep_insert' (by decide), SparseCore.bigSep_insert' (by decide), bigSep_singleton]

omit [FloatOps F] in
theorem held_TR (d : Dev nD) (W : Valuation τ sig (Elt F)) :
    (held (T d) TR W : sProp 𝕄) = iprop((a0Loc d ↦{fullShare} W a0') ∗ (a1Loc d ↦{fullShare} W a1') ∗ (a2Loc d ↦{fullShare} W a2') ∗ (rLoc d ↦{fullShare} W r')) := by
  unfold held TR
  rw [SparseCore.bigSep_insert' (by decide), SparseCore.bigSep_insert' (by decide), SparseCore.bigSep_insert' (by decide), bigSep_singleton]

omit [FloatOps F] in
theorem held_SU_split (d : Dev nD) (W : Valuation τ sig (Elt F)) :
    (held (T d) SU W : sProp 𝕄) = iprop(((xLoc d ↦{fullShare} W x') ∗ (tLoc d ↦{fullShare} W t') ∗ (bLoc d ↦{fullShare} W b') ∗ (oLoc d ↦{fullShare} W o'))
      ∗ held (T d) (SU \ T4) W) := by
  rw [StableHlo.held_sub_split (T d) T4_sub W, held_T4]

omit [FloatOps F] in
theorem held_SU_splitR (d : Dev nD) (W : Valuation τ sig (Elt F)) :
    (held (T d) SU W : sProp 𝕄) = iprop(((a0Loc d ↦{fullShare} W a0') ∗ (a1Loc d ↦{fullShare} W a1') ∗ (a2Loc d ↦{fullShare} W a2') ∗ (rLoc d ↦{fullShare} W r'))
      ∗ held (T d) (SU \ TR) W) := by
  rw [StableHlo.held_sub_split (T d) TR_sub W, held_TR]

theorem V1_x (d : Dev nD) : V1 m d x' = xTc m d := (Function.update_of_ne (show x' ≠ o' by decide) _ _).trans (W7_x m d)
theorem V1_t (d : Dev nD) : V1 m d t' = tblc m d := (Function.update_of_ne (show t' ≠ o' by decide) _ _).trans (W7_t m d)
theorem V1_b (d : Dev nD) : V1 m d b' = b16c m d := (Function.update_of_ne (show b' ≠ o' by decide) _ _).trans (W7_b m d)
theorem V1_o (d : Dev nD) : V1 m d o' = kerOut (xTc m d) (tblc m d) (b16c m d) := Function.update_self _ _ _
theorem V1_a0 (d : Dev nD) : V1 m d a0' = m (a0Loc d) := (Function.update_of_ne (show a0' ≠ o' by decide) _ _).trans (W7_a0 m d)
theorem V1_a1 (d : Dev nD) : V1 m d a1' = m (a1Loc d) := (Function.update_of_ne (show a1' ≠ o' by decide) _ _).trans (W7_a1 m d)
theorem V1_a2 (d : Dev nD) : V1 m d a2' = m (a2Loc d) := (Function.update_of_ne (show a2' ≠ o' by decide) _ _).trans (W7_a2 m d)

theorem held_rest_V1 (d : Dev nD) : (held (T d) (SU \ T4) (V1 m d) : sProp 𝕄) = held (T d) (SU \ T4) (W7 m d) :=
  StableHlo.held_congr (T d) fun b hb =>
    Function.update_of_ne (show b ≠ o' from fun e => (Finset.mem_sdiff.mp hb).2 (e ▸ (by decide : o' ∈ T4))) _ _

/-- All the arrays after the seven operations: the four the call works on, and the rest. -/
theorem held_W7 (d : Dev nD) :
    (held (T d) SU (W7 m d) : sProp 𝕄) = iprop(((xLoc d ↦{fullShare} xTc m d) ∗ (tLoc d ↦{fullShare} tblc m d) ∗ (bLoc d ↦{fullShare} b16c m d) ∗ (oLoc d ↦{fullShare} m (oLoc d)))
      ∗ held (T d) (SU \ T4) (W7 m d)) := by
  rw [held_SU_split, W7_x, W7_t, W7_b, W7_o]

/-- All the arrays after the call. -/
theorem held_V1 (d : Dev nD) :
    (held (T d) SU (V1 m d) : sProp 𝕄) = iprop(((xLoc d ↦{fullShare} xTc m d) ∗ (tLoc d ↦{fullShare} tblc m d) ∗ (bLoc d ↦{fullShare} b16c m d)
        ∗ (oLoc d ↦{fullShare} kerOut (xTc m d) (tblc m d) (b16c m d)))
      ∗ held (T d) (SU \ T4) (W7 m d)) := by
  rw [held_SU_split, held_rest_V1, V1_x, V1_t, V1_b, V1_o]

/-! ## What @main leaves -/

/-- The result column: the kernel's vector, reshaped. -/
def resOut (d : Dev nD) : S16384x1.Idx → F .f32 := Cert.EmbSum.Host.outCol (F := F) (kerOut (xTc m d) (tblc m d) (b16c m d))

abbrev FIN (d : Dev nD) : sProp 𝕄 :=
  iprop((a0Loc d ↦{fullShare} m (a0Loc d)) ∗ (a1Loc d ↦{fullShare} m (a1Loc d)) ∗ (a2Loc d ↦{fullShare} m (a2Loc d)) ∗ (rLoc d ↦{fullShare} resOut m d))

theorem R_a0 (d : Dev nD) : (opR (F := F)).result (V1 m d) a0' = m (a0Loc d) :=
  ((opR (F := F)).result_of_not_mem (V1 m d) (b := a0') (show a0' ∉ ({r'} : Finset (DevRef τ sig)) by decide)).trans (V1_a0 m d)
theorem R_a1 (d : Dev nD) : (opR (F := F)).result (V1 m d) a1' = m (a1Loc d) :=
  ((opR (F := F)).result_of_not_mem (V1 m d) (b := a1') (show a1' ∉ ({r'} : Finset (DevRef τ sig)) by decide)).trans (V1_a1 m d)
theorem R_a2 (d : Dev nD) : (opR (F := F)).result (V1 m d) a2' = m (a2Loc d) :=
  ((opR (F := F)).result_of_not_mem (V1 m d) (b := a2') (show a2' ∉ ({r'} : Finset (DevRef τ sig)) by decide)).trans (V1_a2 m d)
theorem R_r (d : Dev nD) : (opR (F := F)).result (V1 m d) r' = resOut m d := by
  refine (StableHlo.reshape_result main_v7 main_v8 rfl shapeCasts_S16384_S16384x1 ⟨by decide, rfl⟩ ⟨by decide, rfl⟩ (V1 m d)).trans ?_
  show Cert.EmbSum.Host.outCol (F := F) (V1 m d o') = _
  rw [V1_o]; rfl

/-- All the arrays after the reshape: the arguments as launched, the result column, and the rest. -/
theorem held_fin (d : Dev nD) :
    (held (T d) SU ((opR (F := F)).result (V1 m d)) : sProp 𝕄) = iprop(FIN m d ∗ held (T d) (SU \ TR) ((opR (F := F)).result (V1 m d))) := by
  rw [held_SU_splitR, R_a0, R_a1, R_a2, R_r]

/-! ## @main on the TensorCore -/

/-- @main on device d's TensorCore: the seven operations, the call (its four arrays out of all of them, and back, the
    result vector at the kernel's value), the reshape; the arguments kept. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) SU (V0 m d) from
    Pipeline.unscopedBufs_held d (V0 m d), main_eq]
  iintro ⟨#Hctx, Hst, ⟨Hb, Hheld, -, -⟩, -⟩
  -- the seven operations
  iapply (StableHlo.wp_seq (defs := (K (F := F)).defs (D (F := F))) 𝒱 none Set.univ d SU _ (ops7 (F := F))
      (fun op h => Pipeline.sub_ucRefs op ((List.forall_iff_forall_mem.mp ops7_sub) op h))
      (List.forall_iff_forall_mem.mp ops7_fresh) (V0 m d)) $$ [Hb Hheld]
  · isplitl [Hb]; · iexact Hb
    iexact Hheld
  iintro ⟨Hb, Hheld⟩
  have hW7 : (held (d.tc : Thread nD τ) SU (StableHlo.after (ops7 (F := F)) (V0 m d)) : sProp 𝕄) = _ := held_W7 m d
  ihave Hh := (Entails.of_eq hW7) $$ Hheld
  icases Hh with ⟨Hfour, Hrest⟩
  ihave Hs := (call_split m d) $$ Hfour
  icases Hs with ⟨Hst0, Hcr⟩
  -- the call
  simp only [rest, wp_bind, wp_pure]
  iapply ((K (F := F)).wp_run (D (F := F)) 𝒱 (EH := EH) (P := P m) κ d 0) $$ [Hst Hst0 Hb Hrest Hcr]
  isplitr; · iexact Hctx
  isplitl [Hst]; · iexact Hst
  isplitl [Hst0]; · iexact Hst0
  iintro ⟨Hst, Hdn⟩
  ihave Hj := (call_join m d) $$ [Hdn Hcr]
  · isplitl [Hdn]; · iexact Hdn
    iexact Hcr
  -- the reshape
  iapply (wp_hlo_within 𝒱 (SparseCore.T d) none Set.univ (op := opR) (S := SU) opR_sub (V := V1 m d)) $$ [Hb Hj Hrest]
  · isplitl [Hb]; · iexact Hb
    rw [held_V1]
    isplitl [Hj]; · iexact Hj
    iexact Hrest
  iintro ⟨Hb, Hheld⟩
  ihave Hh := (Entails.of_eq (held_fin m d)) $$ Hheld
  icases Hh with ⟨Hfin, -⟩
  rw [wp_ret]; imodintro; imodintro
  isplitl [Hst]; · iexact Hst
  iexact Hfin

/-! ## The final memory, and the program's run -/

/-- What the final memory holds on device d: the result column at the reshaped kernel value, the arguments as launched. -/
def fq (d : Dev nD) (s' : Phys nD τ sig (Elt F)) : Prop :=
  s'.mem.mem (rLoc d) = resOut m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := resOut m d)) $$ [HSI Hr]
  · isplitl [HSI] <;> iassumption
  icases H with %hr
  ipureintro
  exact ⟨funext fun i => hr i (Finset.mem_univ i), funext fun i => h0 i (Finset.mem_univ i),
    funext fun i => h1 i (Finset.mem_univ i), funext fun i => h2 i (Finset.mem_univ i)⟩

/-- The program's post: on every device the result column is the kernel's vector reshaped, and the arguments are as launched. -/
def QC : PUnit × MemSt nD τ sig (Elt F) → Prop := fun r =>
  ∀ c : Dev nD, r.2.mem (rLoc c) = resOut m c ∧ r.2.mem (a0Loc c) = m (a0Loc c) ∧ r.2.mem (a1Loc c) = m (a1Loc c) ∧ r.2.mem (a2Loc c) = m (a2Loc c)

/-- Every weakly fair execution of the device's threads from the launch memory ends, and ends at the post. -/
theorem run_main [∀ e, Nonempty (Elt F e)] (ρ : Dev nD → PrngReg) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.HostValsB.lean ====
/-
  The host operations around the device call, each read at one index: the table's one column flattened to a vector
  (its first 2599936 rows and its last 64 rows sliced out, each reshaped to a vector, the two concatenated), the index
  array transposed, the bias word copied into sixteen lanes, and the result vector reshaped to a column.
-/
import Idealize.ShloMosaic.Lib.ValueIdx
import Idealize.ShloMosaic.Lib.ValueLayout
import Idealize.ShloMosaic.Lib.Pipeline.Value
import Idealize.ShloMosaic.PureOps
import proofs.«207411_g41145786696212_cont_8to1_b_1804_24_alg».proof.Kernel
import proofs.«207411_g41145786696212_cont_8to1_b_1804_24_alg».proof.Proof.Gen.Kernel

noncomputable section

namespace Cert.EmbSum.HostB

open Idealize.ShloMosaic Idealize.ShloMosaic.ValueIdx
open Cert.Kernel Cert.Kernel.Facts₀

variable {F : FTy → Type} [FloatOps F] [Cert.Kernel.Facts]

/-! ## The table, flattened -/

/-- The table's column as a vector: rows 0 … 2599935 and rows 2599936 … 2599999, each slice reshaped to a vector,
    concatenated in that order. -/
def tblLin (tbl : FVec F S2600000x1 .f32) : FVec F S2600000 .f32 :=
  concatenate S2600000 0
    [⟨S2599936, shapeCast S2599936
        (extractStridedSlice S2599936x1 ![0, 0] tbl slices_S2600000x1_S2599936x1_0_0) shapeCasts_S2599936x1_S2599936⟩,
     ⟨S64, shapeCast S64
        (extractStridedSlice S64x1 ![2599936, 0] tbl slices_S2600000x1_S64x1_2599936_0) shapeCasts_S64x1_S64⟩]
    concatenates_S2599936_S64_S2600000_d0

/-- Entry n of the flattened table is row n of the table's one column: below 2599936 it falls in the first piece at
    position n, from 2599936 on in the second piece at position n - 2599936, whose slice starts at row 2599936. -/
theorem tblLin_apply (tbl : FVec F S2600000x1 .f32) (n : Fin 2600000) : tblLin tbl (ix1 n) = tbl (ix2 n 0) := by
  unfold tblLin
  by_cases hn : n.val < 2599936
  · -- the position in the first piece
    obtain ⟨m, hm⟩ : ∃ m : Fin 2599936, m.val = n.val := ⟨⟨n.val, hn⟩, rfl⟩
    refine (concatenate_pair_apply_left 0 _ _ concatenates_S2599936_S64_S2600000_d0 (ix1 n) rfl (ix1 m)
      (fun b => match b with | ⟨0, _⟩ => hm)).trans ?_
    refine (shapeCast_apply _ shapeCasts_S2599936x1_S2599936 (ix1 m) (ix2 m 0)
      (by rw [Shape.rowMajor_val_two, Shape.rowMajor_val_one]; show m.val * 1 + 0 = m.val; omega)).trans ?_
    exact extractStridedSlice_apply ![0, 0] tbl slices_S2600000x1_S2599936x1_0_0 (ix2 m 0) (ix2 n 0)
      (fun a => match a with
        | ⟨0, _⟩ => by show n.val = 0 + m.val; omega
        | ⟨1, _⟩ => by show (0 : Nat) = 0 + 0; rfl)
  · -- the position in the second piece
    obtain ⟨m, hm⟩ : ∃ m : Fin 64, m.val + 2599936 = n.val :=
      ⟨⟨n.val - 2599936, by have := n.isLt; omega⟩, by show n.val - 2599936 + 2599936 = n.val; omega⟩
    refine (concatenate_pair_apply_right 0 _ _ concatenates_S2599936_S64_S2600000_d0 (ix1 n) rfl rfl (ix1 m)
      (fun b hb => absurd (Fin.ext (by have hb1 : b.val < 1 := b.isLt; show b.val = 0; omega)) hb)
      hm).trans ?_
    refine (shapeCast_apply _ shapeCasts_S64x1_S64 (ix1 m) (ix2 m 0)
      (by rw [Shape.rowMajor_val_two, Shape.rowMajor_val_one]; show m.val * 1 + 0 = m.val; omega)).trans ?_
    exact extractStridedSlice_apply ![2599936, 0] tbl slices_S2600000x1_S64x1_2599936_0 (ix2 m 0) (ix2 n 0)
      (fun a => match a with
        | ⟨0, _⟩ => by show n.val = 2599936 + m.val; omega
        | ⟨1, _⟩ => by show (0 : Nat) = 0 + 0; rfl)

/-! ## The index array, transposed -/

/-- The index array with its two axes exchanged: a row per field, a column per example. -/
def xT (x : IVec S16384x26 32) : IVec S26x16384 32 :=
  transpose S26x16384 [1, 0] x transposes_S16384x26_S26x16384_1_0

/-- Field f of example r. -/
theorem xT_apply (x : IVec S16384x26 32) (f : Fin 26) (r : Fin 16384) : xT x (ix2 f r) = x (ix2 r f) := by
  unfold xT
  exact transpose_apply [1, 0] x transposes_S16384x26_S26x16384_1_0 (ix2 f r) (ix2 r f)
    (fun b => match b with | ⟨0, _⟩ => rfl | ⟨1, _⟩ => rfl)

/-! ## The bias, in sixteen lanes -/

/-- The one bias word copied into each of sixteen lanes. -/
def bias16 (b : FVec F S1 .f32) : FVec F S16 .f32 :=
  broadcastInDim S16 ![0] bcast_S1_S16_0 b

/-- Every lane holds the bias word. -/
theorem bias16_apply (b : FVec F S1 .f32) (l : Fin 16) : bias16 b (ix1 l) = b (ix1 0) := by
  unfold bias16
  exact broadcastInDim_apply ![0] bcast_S1_S16_0 b (ix1 l) (ix1 0)
    (fun a => match a with | ⟨0, _⟩ => by show (0 : Nat) = if (1 : Nat) = 1 then 0 else l.val; rfl)

/-! ## The result, as a column -/

/-- The result vector reshaped to a one-column array, in row-major order. -/
def outCol (o : FVec F S16384 .f32) : FVec F S16384x1 .f32 :=
  shapeCast S16384x1 o shapeCasts_S16384_S16384x1

/-- Row r of the column is entry r of the vector. -/
theorem outCol_apply (o : FVec F S16384 .f32) (r : Fin 16384) (u : Fin 1) : outCol o (ix2 r u) = o (ix1 r) := by
  unfold outCol
  exact shapeCast_apply o shapeCasts_S16384_S16384x1 (ix2 r u) (ix1 r)
    (by rw [Shape.rowMajor_val_two, Shape.rowMajor_val_one]
        have hu : u.val < 1 := u.isLt
        show r.val = r.val * 1 + u.val; omega)

end Cert.EmbSum.HostB

end
-- ==== Proof.CommonB.lean ====
/-
  The embedding-sum kernel's launch, common ground: the program as the launch theorem reads it, the arrays, the 32 workers'
  shares, and the value each worker leaves in its rows of the result — stated once, generic in the float instance.
-/
import proofs.«207411_g41145786696212_cont_8to1_b_1804_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207411_g41145786696212_cont_8to1_b_1804_24_alg».proof.Proof.Gen.Kernel
import proofs.«207411_g41145786696212_cont_8to1_b_1804_24_alg».proof.Proof.Gen.Kernel.Skeleton
import proofs.«207411_g41145786696212_cont_8to1_b_1804_24_alg».proof.Proof.HostValsB
import proofs.«207411_g41145786696212_cont_8to1_b_1804_24_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

scoped notation "xV" => (Memref.whole Cert.Kernel.main_v5_scv : Memref Cert.Kernel.sig Kind.scVector Space.hbm Cert.Kernel.S26x16384 EltTy.i32)
scoped notation "tV" => (Memref.whole Cert.Kernel.main_v4_scv : Memref Cert.Kernel.sig Kind.scVector Space.hbm Cert.Kernel.S2600000 EltTy.f32)
scoped notation "bV" => (Memref.whole Cert.Kernel.main_v6_scv : Memref Cert.Kernel.sig Kind.scVector Space.hbm Cert.Kernel.S16 EltTy.f32)
scoped notation "oV" => (Memref.whole Cert.Kernel.main_v7_scv : Memref Cert.Kernel.sig Kind.scVector Space.hbm Cert.Kernel.S16384 EltTy.f32)
scoped notation "sI" => (Memref.whole Cert.Kernel.cc0_scratch0 : Memref Cert.Kernel.sig Kind.scVector Space.vmem Cert.Kernel.S13312 EltTy.i32)
scoped notation "sVl" => (Memref.whole Cert.Kernel.cc0_scratch1 : Memref Cert.Kernel.sig Kind.scVector Space.vmem Cert.Kernel.S13312 EltTy.f32)
scoped notation "sO" => (Memref.whole Cert.Kernel.cc0_scratch2 : Memref Cert.Kernel.sig Kind.scVector Space.vmem Cert.Kernel.S512 EltTy.f32)
scoped notation "sB" => (Memref.whole Cert.Kernel.cc0_scratch3 : Memref Cert.Kernel.sig Kind.scVector Space.vmem Cert.Kernel.S16 EltTy.f32)

variable [FloatOps F]

abbrev cV (L : grid0.Coords) : Fin τ.nSC := (L 0).castLE hcore0
abbrev jV (L : grid0.Coords) : Fin τ.nSub := (L 1).castLE hsub0
abbrev thrOf (d : Dev nD) (L : grid0.Coords) : Thread nD τ := V d (cV L) (jV L)

/-! ## The launch's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The three arguments, the four arrays the call works on (the index array transposed, the table flattened, the bias in
    sixteen lanes, the result vector) and the result column, as locations of device d. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xLoc (d : Dev nD) : Loc nD τ sig := (SparseCore.T d).loc main_v5
abbrev tLoc (d : Dev nD) : Loc nD τ sig := (SparseCore.T d).loc main_v4
abbrev bLoc (d : Dev nD) : Loc nD τ sig := (SparseCore.T d).loc main_v6
abbrev oLoc (d : Dev nD) : Loc nD τ sig := (SparseCore.T d).loc main_v7
abbrev rLoc (d : Dev nD) : Loc nD τ sig := (SparseCore.T d).loc main_v8

/-! ## The 32 workers: vector subcore s of SparseCore c is worker 2 s + c, and owns result rows 512 w … 512 w + 511 -/

omit [FloatOps F] in
theorem bound_zero : grid0.bound 0 = 2 := rfl
omit [FloatOps F] in
theorem bound_one : grid0.bound 1 = 16 := rfl

/-- A worker's number, from its grid coordinates. -/
def widL (L : grid0.Coords) : Fin 32 := ⟨2 * (L 1).val + (L 0).val, by
  have h0 : (L 0).val < 2 := (L 0).isLt
  have h1 : (L 1).val < 16 := (L 1).isLt
  omega⟩

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem hdiv32 : 32 ∣ S16384.size 0 := ⟨512, rfl⟩
/-- Worker w's rows of the result vector. -/
abbrev oRect (w : Fin 32) : Rect S16384 := Rect.part (s := S16384) (a₀ := 0) hdiv32 w
abbrev oSet (w : Fin 32) : Finset S16384.Idx := (oRect w).set

/-- The w-th read token of a whole array: every worker reads the transposed indices, the table and the bias lanes under a
    token of its own. -/
abbrev tokW (w : Fin 32) : PosShare TreeShare := Transfers.shareTok fullShare 32 w

/-! ## The value the kernel leaves, as one function of the three arrays it reads

Generic in the float instance: only the kernel's own additions, in the kernel's own order. -/

/-- Entry n of the flattened table (entry 0 past the end: never read by an index in range). -/
def tblGet (tbl : S2600000.Idx → F .f32) (n : ℕ) : F .f32 :=
  if h : n < 2600000 then tbl (ValueIdx.ix1 ⟨n, h⟩) else tbl (ValueIdx.ix1 ⟨0, by decide⟩)

/-- The kernel's order of addition over one row: the first thirteen values in two interleaved chains that start from the bias
    and from value 0, joined; the last thirteen in two chains that start from that partial sum and from value 13, joined. -/
def kerTree {α : Type} (add : α → α → α) (β : α) (v : Fin 26 → α) : α :=
  add (add (add (add (add (add (add
    (add (add (add (add (add (add (add β (v 1)) (v 3)) (v 5)) (v 7)) (v 9)) (v 11))
         (add (add (add (add (add (add (v 0) (v 2)) (v 4)) (v 6)) (v 8)) (v 10)) (v 12)))
    (v 14)) (v 16)) (v 18)) (v 20)) (v 22)) (v 24))
    (add (add (add (add (add (add (v 13) (v 15)) (v 17)) (v 19)) (v 21)) (v 23)) (v 25))

/-- Row r of the result vector: the 26 table entries the transposed index array's column r names, and lane r mod 16 of the
    bias lanes, added in the kernel's order. -/
def kerOut (xT : S26x16384.Idx → BitVec 32) (tbl : S2600000.Idx → F .f32) (b16 : S16.Idx → F .f32) : S16384.Idx → F .f32 :=
  fun j => kerTree FloatOps.addf (b16 (ValueIdx.ix1 ⟨(j 0).val % 16, Nat.mod_lt _ (by decide)⟩))
    (fun f => tblGet tbl (xT (ValueIdx.ix2 f (j 0))).toNat)

/-! ## The launch memory -/

variable (m : (ℓ : Loc nD τ sig) → Buf (Elt F) ℓ)

/-- What the call finds in the three arrays it reads: the host operations before it applied to the arguments. -/
def xTc (d : Dev nD) : S26x16384.Idx → BitVec 32 := Cert.EmbSum.HostB.xT (m (a0Loc d))
def tblc (d : Dev nD) : S2600000.Idx → F .f32 := Cert.EmbSum.HostB.tblLin (F := F) (m (a1Loc d))
def b16c (d : Dev nD) : S16.Idx → F .f32 := Cert.EmbSum.HostB.bias16 (F := F) (m (a2Loc d))

/-- What the proof asks of the launch memory: every index word names a row of the table. -/
def PreOK : Prop := ∀ d : Dev nD, Cert.EmbSum.InRange (m (a0Loc d))

/-- What worker w is handed: a read token of each of the three arrays at the contents the host operations left, and its own
    rows of the result vector at the launch contents. -/
def goRes (d : Dev nD) (w : Fin 32) : sProp 𝕄 :=
  iprop((xLoc d ↦{tokW w} xTc m d) ∗ (tLoc d ↦{tokW w} tblc m d) ∗ (bLoc d ↦{tokW w} b16c m d) ∗ (oLoc d ↦[oSet w]{fullShare} m (oLoc d)))

/-- What it hands back: the tokens, and its rows at the kernel's value. -/
def tdRes (d : Dev nD) (w : Fin 32) : sProp 𝕄 :=
  iprop((xLoc d ↦{tokW w} xTc m d) ∗ (tLoc d ↦{tokW w} tblc m d) ∗ (bLoc d ↦{tokW w} b16c m d)
    ∗ (oLoc d ↦[oSet w]{fullShare} kerOut (xTc m d) (tblc m d) (b16c m d)))

end Cert.Proof.KB

end
-- ==== Proof.BodyGeomB.lean ====
/-
  A worker's own storage and the arrays in the program's spelling: the scratch buffers and DMA semaphores among the subcore's
  scoped storage, the worker's rows of the result as the program slices them, the table's token as two read shares.
-/
import proofs.«207411_g41145786696212_cont_8to1_b_1804_24_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The worker's own storage -/

section Tile

variable (d : Dev nD) (L : grid0.Coords)

abbrev cell (k : DmaSem sig) : GSem nD τ sig := (thrOf d L, .dma k)

omit [FloatOps F] in
theorem ownSems0_V :
    (ownSems0 (thrOf d L) : sProp 𝕄)
      = iprop(semVal (cell d L cc0_scratch4.sem) 0 ∗ semVal (cell d L cc0_scratch5.sem) 0 ∗ semVal (cell d L cc0_scratch6.sem) 0
          ∗ semVal (cell d L cc0_scoped0.sem) 0 ∗ semVal (cell d L cc0_scoped1.sem) 0
          ∗ bigSep ((((((ownCells (thrOf d L)).erase (cell d L cc0_scratch4.sem)).erase (cell d L cc0_scratch5.sem)).erase (cell d L cc0_scratch6.sem)).erase
              (cell d L cc0_scoped0.sem)).erase (cell d L cc0_scoped1.sem)) fun g => semVal g 0) := by
  unfold SparseCore.Cfg.ownSems0
  have hm : ∀ k : DmaSem sig, cell d L k ∈ ownCells (sig := sig) (thrOf d L) := fun k =>
    (mem_ownCells (g := cell d L k)).mpr ⟨rfl, by show (SemLoc.dma k : SemLoc sig).isScoped .scVector = true; revert k; decide⟩
  have hne : ∀ k k' : DmaSem sig, k ≠ k' → cell d L k ≠ cell d L k' := fun k k' h e => h (by
    have := (Prod.mk.inj e).2; exact SemLoc.dma.inj this)
  rw [SparseCore.bigSep_erase' (hm cc0_scratch4.sem),
    SparseCore.bigSep_erase' (Finset.mem_erase.mpr ⟨hne _ _ (by decide), hm cc0_scratch5.sem⟩),
    SparseCore.bigSep_erase' (Finset.mem_erase.mpr ⟨hne _ _ (by decide), Finset.mem_erase.mpr ⟨hne _ _ (by decide), hm cc0_scratch6.sem⟩⟩),
    SparseCore.bigSep_erase' (Finset.mem_erase.mpr ⟨hne _ _ (by decide), Finset.mem_erase.mpr ⟨hne _ _ (by decide), Finset.mem_erase.mpr ⟨hne _ _ (by decide), hm cc0_scoped0.sem⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped1.sem⟩⟩⟩⟩)]

abbrev bref (b : Ref sig .scVector) : DevRef τ sig := (Proc.scVector (cV L) (jV L)).devRef b

omit [FloatOps F] in
theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ (∃ f, (thrOf d L).loc cc0_scratch2 ↦{fullShare} f) ∗ (∃ f, (thrOf d L).loc cc0_scratch3 ↦{fullShare} f)
          ∗ bigSep (((((ownRefs (τ := τ) (.scVector (cV L) (jV L))).erase (bref L cc0_scratch0)).erase (bref L cc0_scratch1)).erase (bref L cc0_scratch2)).erase (bref L cc0_scratch3))
              fun b => iprop(∃ f, ((d, b) : Loc nD τ sig) ↦{fullShare} f)) := by
  unfold SparseCore.Cfg.ownBufs
  have hm0 := SparseCore.Cfg.mem_ownRefs_of_owner (sig := sig) (p := Proc.scVector (cV L) (jV L)) (b := bref L cc0_scratch0) rfl
  have hm1 := SparseCore.Cfg.mem_ownRefs_of_owner (sig := sig) (p := Proc.scVector (cV L) (jV L)) (b := bref L cc0_scratch1) rfl
  have hm2 := SparseCore.Cfg.mem_ownRefs_of_owner (sig := sig) (p := Proc.scVector (cV L) (jV L)) (b := bref L cc0_scratch2) rfl
  have hm3 := SparseCore.Cfg.mem_ownRefs_of_owner (sig := sig) (p := Proc.scVector (cV L) (jV L)) (b := bref L cc0_scratch3) rfl
  have hne : ∀ b b' : Ref sig .scVector, b ≠ b' → bref L b ≠ bref L b' := fun b b' h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide), Finset.mem_erase.mpr ⟨hne _ _ (by decide), hm3⟩⟩⟩)]

/-! ## The arrays in the program's spelling -/

abbrev oRectK (L : grid0.Coords) : Rect S16384 := Rect.unit (s := S16384) (k0_off32 L) S512.size (k0_off32_inb L)
abbrev oRowK (L : grid0.Coords) : Memref sig .scVector .hbm S512 .f32 := (oV).slice (oRectK L) (fun _ => rfl)

omit [FloatOps F] in
theorem oRectK_eq : oRectK L = oRect (widL L) := by
  unfold oRectK oRect Rect.part Rect.block
  congr 1 <;> funext a
  · rw [k0_off32_eq]
    match a with
    | 0 => simp [Shape.partIx, Shape.partSize, widL]; omega
  · match a with
    | 0 => simp [Shape.partSize]

omit [FloatOps F] in
theorem set_oRowK : (oRowK L).view.set = oSet (widL L) := by
  show ((oV).view.slice (oRectK L)).set = (oRect (widL L)).set
  rw [oRectK_eq]
  show ((View.whole (main_v7_scv : Ref sig .scVector)).slice (oRect (widL L))).set = _
  rw [View.set_slice]; exact Finset.map_refl

omit [FloatOps F] in
theorem pts_o (f : Buf (Elt F) (oLoc d)) :
    ((oRowK L).view.loc (thrOf d L) ↦[(oRowK L).view.set]{fullShare} f : sProp 𝕄) = oLoc d ↦[oSet (widL L)]{fullShare} f := by
  rw [set_oRowK]
omit [FloatOps F] in
theorem pts_x (q : PosShare TreeShare) (f : Buf (Elt F) (xLoc d)) : ((xV).view.loc (thrOf d L) ↦{q} f : sProp 𝕄) = xLoc d ↦{q} f := rfl
omit [FloatOps F] in
theorem pts_t (q : PosShare TreeShare) (f : Buf (Elt F) (tLoc d)) : ((tV).view.loc (thrOf d L) ↦{q} f : sProp 𝕄) = tLoc d ↦{q} f := rfl
omit [FloatOps F] in
theorem pts_b (q : PosShare TreeShare) (f : Buf (Elt F) (bLoc d)) : ((bV).view.loc (thrOf d L) ↦{q} f : sProp 𝕄) = bLoc d ↦{q} f := rfl
omit [FloatOps F] in
theorem pts_s0 (f : Buf (Elt F) ((thrOf d L).loc cc0_scratch0)) : ((sI).view.loc (thrOf d L) ↦{fullShare} f : sProp 𝕄) = (thrOf d L).loc cc0_scratch0 ↦{fullShare} f := rfl
omit [FloatOps F] in
theorem pts_s1 (f : Buf (Elt F) ((thrOf d L).loc cc0_scratch1)) : ((sVl).view.loc (thrOf d L) ↦{fullShare} f : sProp 𝕄) = (thrOf d L).loc cc0_scratch1 ↦{fullShare} f := rfl
omit [FloatOps F] in
theorem pts_s2 (f : Buf (Elt F) ((thrOf d L).loc cc0_scratch2)) : ((sO).view.loc (thrOf d L) ↦{fullShare} f : sProp 𝕄) = (thrOf d L).loc cc0_scratch2 ↦{fullShare} f := rfl
omit [FloatOps F] in
theorem pts_s3 (f : Buf (Elt F) ((thrOf d L).loc cc0_scratch3)) : ((sB).view.loc (thrOf d L) ↦{fullShare} f : sProp 𝕄) = (thrOf d L).loc cc0_scratch3 ↦{fullShare} f := rfl

omit [FloatOps F] in
/-- The worker's token of the table as two read shares, one per gather semaphore, and what is left. -/
theorem tbl_two (q : PosShare TreeShare) (f : Buf (Elt F) (tLoc d)) :
    ((tV).view.loc (thrOf d L) ↦{q} f : sProp 𝕄)
      ⊣⊢ iprop(((tV).view.loc (thrOf d L) ↦{Transfers.shareDrop q 2} f)
          ∗ ((tV).view.loc (thrOf d L) ↦{Transfers.shareTok q 2 0} f) ∗ ((tV).view.loc (thrOf d L) ↦{Transfers.shareTok q 2 1} f)) := by
  have h := Transfers.pointsTo_toks (nD := nD) (τ := τ) (sig := sig) (Ix := HIx 1) (Val := Elt F) (Name := ℕ) (U := UU) (Lvl := ℕ)
    (ℓ := (tV).view.loc (thrOf d L)) (S := Finset.univ) (f := f) q 2
  rw [show (Finset.univ : Finset (Fin 2)) = {0, 1} by decide, SparseCore.bigSep_insert' (by decide), bigSep_singleton] at h
  exact h

end Tile

end Cert.Proof.KB

end
-- ==== Proof.BodyFactsB.lean ====
/-
  Facts the one worker's task needs of the index words: every word of the transposed index array names a row of the
  table; so does every word a copy of 512 of them brings; the index scratch, filled 512 words at a time from the start,
  holds such words below the fill line; and the two halves of the filled scratch, read as the gathers' offset lists,
  hold only such words.
-/
import proofs.«207411_g41145786696212_cont_8to1_b_1804_24_alg».proof.Proof.CommonB
import proofs.«207411_g41145786696212_cont_8to1_b_1804_24_alg».proof.Proof.LibStoreReadBack
import proofs.«207411_g41145786696212_cont_8to1_b_1804_24_alg».proof.Proof.PreRange

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The index scratch, filled from the start -/

/-- Every word of the scratch below position n names a row of the table. -/
def InRng (f : S13312.Idx → BitVec 32) (n : ℕ) : Prop := ∀ j : S13312.Idx, (j 0).val < n → (f j).toNat < 2600000

theorem InRng_zero (f : S13312.Idx → BitVec 32) : InRng f 0 := fun _ h => absurd h (Nat.not_lt_zero _)

/-- A store of 512 words that name rows, at the fill line n, moves the fill line to n + 512: a position below n
    lies outside the stored run and reads what was there, a position from n on and below n + 512 reads the stored
    word at its distance from n. -/
theorem InRng_store (g : S13312.Idx → BitVec 32) (Lst : List (View.Piece (Elt F) S13312 .i32)) (n : ℕ)
    (inb : ∀ a, (![n] : Fin 1 → Nat) a + S512.size a ≤ S13312.size a)
    (p : (Rect.unit (s := S13312) ![n] S512.size inb).shape.Idx → BitVec 32)
    (h : InRng ((sI).view.writes (Elt F) g Lst) n) (hp : ∀ y, (p y).toNat < 2600000) :
    InRng ((sI).view.writes (Elt F) g (⟨Rect.unit ![n] S512.size inb, p⟩ :: Lst)) (n + 512) := by
  intro j hj
  show (((sI).view.read (Elt F) ((sI).view.writes (Elt F) g (⟨Rect.unit ![n] S512.size inb, p⟩ :: Lst))) j).toNat < 2600000
  by_cases hlt : (j 0).val < n
  · rw [View.read_store_out (sI).view g ![n] S512.size inb p Lst j ⟨0, Or.inl hlt⟩]
    exact h j hlt
  · have hx : (j 0).val - n < 512 := by omega
    rw [View.read_store_in (sI).view g ![n] S512.size inb p Lst j (fun a => match a with | ⟨0, _⟩ => ⟨(j 0).val - n, hx⟩)
      (fun a => match a with | ⟨0, _⟩ => by show (j 0).val = n + ((j 0).val - n); omega)]
    exact hp _

/-! ## The gathers' offset lists -/

omit [FloatOps F] in
/-- The table has 2600000 rows along the gathered axis. -/
theorem gather_rows : S2600000.size gathers_S2600000_S6656.axis = 2600000 := rfl

/-- The first half of the scratch, filled, is a list of row numbers. -/
theorem hin_lo (fo : S13312.Idx → BitVec 32) (h : InRng fo 6656) :
    ∀ x, (((sI).slice (Rect.unit (s := S13312) ![0] S6656.size inb_S13312_S6656_0) (fun _ => rfl)).view.read (Elt F) fo x).toNat
      < S2600000.size gathers_S2600000_S6656.axis := by
  intro x
  have hx : (x 0).val < 6656 := (x 0).isLt
  exact h ((Rect.unit (s := S13312) ![0] S6656.size inb_S13312_S6656_0).emb x)
    (by show 0 + 1 * (x 0).val < 6656; omega)

/-- The second half of the scratch, filled, is a list of row numbers. -/
theorem hin_hi (fo : S13312.Idx → BitVec 32) (h : InRng fo 13312) :
    ∀ x, (((sI).slice (Rect.unit (s := S13312) ![6656] S6656.size inb_S13312_S6656_6656) (fun _ => rfl)).view.read (Elt F) fo x).toNat
      < S2600000.size gathers_S2600000_S6656.axis := by
  intro x
  have hx : (x 0).val < 6656 := (x 0).isLt
  exact h ((Rect.unit (s := S13312) ![6656] S6656.size inb_S13312_S6656_6656).emb x)
    (by show 6656 + 1 * (x 0).val < 13312; omega)

/-! ## The index words -/

/-- Under the precondition every word of the transposed index array names a row of the table. -/
theorem xTc_lt (hpre : PreOK m) (d : Dev nD) (i : S26x16384.Idx) : (xTc m d i).toNat < 2600000 := by
  obtain ⟨f, r, rfl⟩ : ∃ f r, i = ValueIdx.ix2 f r := ⟨i 0, i 1, ValueIdx.eq_ix2 i⟩
  unfold xTc
  rw [Cert.EmbSum.HostB.xT_apply]
  exact Cert.EmbSum.Pre.toNat_lt_of_inRange (hpre d) _

/-- So does every word that a copy of 512 consecutive words of one of its rows brings. -/
theorem read_xTc_lt (hpre : PreOK m) (d : Dev nD) (off : Fin 2 → ℕ) (inb : ∀ a, off a + S1x512.size a ≤ S26x16384.size a)
    (y : S512.Idx) :
    ((ReadAs.same.apply ((((xV).slice (Rect.unit (s := S26x16384) off S1x512.size inb) (fun _ => rfl)).squeeze S512
      squeezes_S1x512_S512).view.read (Elt F) (xTc m d))) y).toNat < 2600000 :=
  xTc_lt m hpre d _

end Cert.Proof.KB

end
-- ==== Proof.ValFactsB.lean ====
/-
  What one vector subcore's scratch arrays hold, as functions of the launch contents: the index scratch, filled 512 words
  at a time, holds below the fill line the transposed index array's words of the subcore's 512 columns, field by field;
  the value scratch holds the table's entries those words name; and a row of the kernel's result is the kernel's tree
  of additions over the 26 values of that row's column.
-/
import proofs.«207411_g41145786696212_cont_8to1_b_1804_24_alg».proof.Proof.BodyFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The index scratch -/

/-- Position p of the filled index scratch: field p / 512 of the subcore's column p mod 512, that is column
    512 w + p mod 512 of the transposed index array. -/
def idxFn (d : Dev nD) (L : grid0.Coords) : S13312.Idx → BitVec 32 := fun j =>
  xTc m d (ValueIdx.ix2 (⟨(j 0).val / 512, by have h : (j 0).val < 13312 := (j 0).isLt; omega⟩ : Fin 26)
    (⟨512 * (widL L).val + (j 0).val % 512, by have h := (widL L).isLt; omega⟩ : Fin 16384))

/-- Below position n the scratch holds those words. -/
def IdxIs (d : Dev nD) (L : grid0.Coords) (f : S13312.Idx → BitVec 32) (n : ℕ) : Prop :=
  ∀ j : S13312.Idx, (j 0).val < n → f j = idxFn m d L j

theorem IdxIs_zero (d : Dev nD) (L : grid0.Coords) (f : S13312.Idx → BitVec 32) : IdxIs m d L f 0 :=
  fun _ h => absurd h (Nat.not_lt_zero _)

/-- A store of the 512 words of positions n … n + 511, at the fill line n, moves the fill line to n + 512. -/
theorem IdxIs_store (d : Dev nD) (L : grid0.Coords) (g : S13312.Idx → BitVec 32)
    (Lst : List (View.Piece (Elt F) S13312 .i32)) (n : ℕ)
    (inb : ∀ a, (![n] : Fin 1 → Nat) a + S512.size a ≤ S13312.size a)
    (p : (Rect.unit (s := S13312) ![n] S512.size inb).shape.Idx → BitVec 32)
    (h : IdxIs m d L ((sI).view.writes (Elt F) g Lst) n)
    (hp : ∀ y, p y = idxFn m d L (ValueIdx.ix1 (⟨n + (y 0).val, by
      have h0 := inb 0
      have hy : (y 0).val < 512 := (y 0).isLt
      have e : (![n] : Fin 1 → Nat) 0 + S512.size 0 = n + 512 := rfl
      have e' : S13312.size 0 = 13312 := rfl
      omega⟩ : Fin 13312))) :
    IdxIs m d L ((sI).view.writes (Elt F) g (⟨Rect.unit ![n] S512.size inb, p⟩ :: Lst)) (n + 512) := by
  intro j hj
  show ((sI).view.read (Elt F) ((sI).view.writes (Elt F) g (⟨Rect.unit ![n] S512.size inb, p⟩ :: Lst))) j = idxFn m d L j
  by_cases hlt : (j 0).val < n
  · rw [View.read_store_out (sI).view g ![n] S512.size inb p Lst j ⟨0, Or.inl hlt⟩]
    exact h j hlt
  · have hx : (j 0).val - n < 512 := by omega
    rw [View.read_store_in (sI).view g ![n] S512.size inb p Lst j (fun a => match a with | ⟨0, _⟩ => ⟨(j 0).val - n, hx⟩)
      (fun a => match a with | ⟨0, _⟩ => by show (j 0).val = n + ((j 0).val - n); omega)]
    rw [hp]
    refine congrArg (idxFn m d L) ?_
    funext a
    match a with
    | ⟨0, _⟩ => exact Fin.ext (by show n + ((j 0).val - n) = (j 0).val; omega)

/-- A copy of 512 consecutive words of row k of the transposed index array, from column 512 w on, brings its words
    in order. -/
theorem read_xTc_eq (d : Dev nD) (L : grid0.Coords) (off : Fin 2 → ℕ) (inb : ∀ a, off a + S1x512.size a ≤ S26x16384.size a)
    (k : Fin 26) (h0 : off 0 = k.val) (h1 : off 1 = 512 * (widL L).val) (y : S512.Idx) :
    (ReadAs.same.apply ((((xV).slice (Rect.unit (s := S26x16384) off S1x512.size inb) (fun _ => rfl)).squeeze S512
      squeezes_S1x512_S512).view.read (Elt F) (xTc m d))) y
      = xTc m d (ValueIdx.ix2 k (⟨512 * (widL L).val + (y 0).val, by
          have h := (widL L).isLt
          have hy : (y 0).val < 512 := (y 0).isLt
          omega⟩ : Fin 16384)) := by
  have hy : (y 0).val < 512 := (y 0).isLt
  have hq : Shape.reshapeEquiv (s := S1x512) (s' := S512) squeezes_S1x512_S512.numel_eq y
      = (ValueIdx.ix2 (0 : Fin 1) (⟨(y 0).val, hy⟩ : Fin 512) : S1x512.Idx) :=
    Shape.reshapeEquiv_eq_of_rowMajor _ (by
      rw [Shape.rowMajor_val_two, Shape.rowMajor_val_one]
      show 0 * 512 + (y 0).val = (y 0).val
      omega)
  show xTc m d ((Rect.unit (s := S26x16384) off S1x512.size inb).emb
    (Shape.reshapeEquiv (s := S1x512) (s' := S512) squeezes_S1x512_S512.numel_eq y)) = _
  rw [hq]
  refine congrArg (xTc m d) (funext fun a => Fin.ext ?_)
  match a with
  | ⟨0, _⟩ =>
    show off 0 + 1 * 0 = k.val
    omega
  | ⟨1, _⟩ =>
    show off 1 + 1 * (y 0).val = 512 * (widL L).val + (y 0).val
    omega

/-- Piece k of the index scratch's fill: the copy's words are positions 512 k … 512 k + 511 of the filled scratch. -/
theorem pay_idx (d : Dev nD) (L : grid0.Coords) (k : Fin 26) (off : Fin 2 → ℕ)
    (inb : ∀ a, off a + S1x512.size a ≤ S26x16384.size a)
    (h : off = ![k.val, 1024 * (L 1).val + 512 * (L 0).val]) (y : S512.Idx) :
    (ReadAs.same.apply ((((xV).slice (Rect.unit (s := S26x16384) off S1x512.size inb) (fun _ => rfl)).squeeze S512
      squeezes_S1x512_S512).view.read (Elt F) (xTc m d))) y
      = idxFn m d L (ValueIdx.ix1 (⟨512 * k.val + (y 0).val, by
          have hk := k.isLt
          have hy : (y 0).val < 512 := (y 0).isLt
          omega⟩ : Fin 13312)) := by
  have hy : (y 0).val < 512 := (y 0).isLt
  rw [read_xTc_eq m d L off inb k (by rw [h]; rfl)
    (by rw [h]; show 1024 * (L 1).val + 512 * (L 0).val = 512 * (2 * (L 1).val + (L 0).val); omega) y]
  unfold idxFn
  refine congrArg (xTc m d) (funext fun a => ?_)
  match a with
  | ⟨0, _⟩ => exact Fin.ext (by show k.val = (512 * k.val + (y 0).val) / 512; omega)
  | ⟨1, _⟩ => exact Fin.ext (by
      show 512 * (widL L).val + (y 0).val = 512 * (widL L).val + (512 * k.val + (y 0).val) % 512; omega)

/-! ## The value scratch -/

/-- Position p of the filled value scratch: the flattened table's entry at the row the index scratch's word p names. -/
def valFn (d : Dev nD) (L : grid0.Coords) : S13312.Idx → F .f32 := fun p => tblGet (tblc m d) (idxFn m d L p).toNat

/-- A gather of 6656 table entries by the offset list at positions off … off + 6655 of the index scratch: entry x
    is the flattened table's at the row the list's word x names. -/
theorem gather_gen (d : Dev nD) (off : ℕ) (inbI : ∀ a, (![off] : Fin 1 → Nat) a + S6656.size a ≤ S13312.size a)
    (fo : S13312.Idx → BitVec 32) (hn : S6656.numel = S6656.size gathers_S2600000_S6656.axis')
    (hin : ∀ x, (((sI).slice (Rect.unit (s := S13312) ![off] S6656.size inbI) (fun _ => rfl)).view.read (Elt F) fo x).toNat
      < S2600000.size gathers_S2600000_S6656.axis)
    (x : S6656.Idx) (hb : off + (x 0).val < 13312) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![off] S6656.size inbI) (fun _ => rfl)).view.read (Elt F) fo) hn hin) x
      = tblGet (tblc m d) (fo (ValueIdx.ix1 (⟨off + (x 0).val, hb⟩ : Fin 13312))).toNat := by
  have hz : S6656.rowMajor.symm ((x gathers_S2600000_S6656.axis').cast hn.symm) = x := by
    rw [Equiv.symm_apply_eq]
    exact Fin.ext (by rw [Shape.rowMajor_val_one]; rfl)
  have hr : (SparseCore.rows (((sI).slice (Rect.unit (s := S13312) ![off] S6656.size inbI) (fun _ => rfl)).view.read (Elt F) fo)
      hn hin (x gathers_S2600000_S6656.axis')).val = (fo (ValueIdx.ix1 (⟨off + (x 0).val, hb⟩ : Fin 13312))).toNat := by
    show ((((sI).slice (Rect.unit (s := S13312) ![off] S6656.size inbI) (fun _ => rfl)).view.read (Elt F) fo)
      (S6656.rowMajor.symm ((x gathers_S2600000_S6656.axis').cast hn.symm))).toNat = _
    rw [hz]
    refine congrArg (fun j => (fo j).toNat) (funext fun a => Fin.ext ?_)
    match a with
    | ⟨0, _⟩ => show off + 1 * (x 0).val = off + (x 0).val; omega
  have hlt : (fo (ValueIdx.ix1 (⟨off + (x 0).val, hb⟩ : Fin 13312))).toNat < 2600000 := by
    rw [← hr]
    exact (SparseCore.rows (((sI).slice (Rect.unit (s := S13312) ![off] S6656.size inbI) (fun _ => rfl)).view.read (Elt F) fo)
      hn hin (x gathers_S2600000_S6656.axis')).isLt
  unfold tblGet
  rw [dif_pos hlt]
  unfold SparseCore.gatherPayload
  refine congrArg (tblc m d) (funext fun a => Fin.ext ?_)
  match a with
  | ⟨0, _⟩ =>
    have e := congrArg Fin.val (Shape.Gathers.idx_axis gathers_S2600000_S6656
      (SparseCore.rows (((sI).slice (Rect.unit (s := S13312) ![off] S6656.size inbI) (fun _ => rfl)).view.read (Elt F) fo) hn hin) x)
    rw [hr] at e
    show 0 + 1 * (gathers_S2600000_S6656.idx
      (SparseCore.rows (((sI).slice (Rect.unit (s := S13312) ![off] S6656.size inbI) (fun _ => rfl)).view.read (Elt F) fo) hn hin) x
        gathers_S2600000_S6656.axis).val = _
    rw [e]
    show 0 + 1 * (fo (ValueIdx.ix1 (⟨off + (x 0).val, hb⟩ : Fin 13312))).toNat = (fo (ValueIdx.ix1 (⟨off + (x 0).val, hb⟩ : Fin 13312))).toNat
    omega

/-- The first gather, over the filled first half of the index scratch: entry x is position x of the value scratch. -/
theorem gather_lo_apply (d : Dev nD) (L : grid0.Coords) (fo : S13312.Idx → BitVec 32)
    (hn : S6656.numel = S6656.size gathers_S2600000_S6656.axis')
    (hin : ∀ x, (((sI).slice (Rect.unit (s := S13312) ![0] S6656.size inb_S13312_S6656_0) (fun _ => rfl)).view.read (Elt F) fo x).toNat
      < S2600000.size gathers_S2600000_S6656.axis)
    (h : IdxIs m d L fo 6656) (x : S6656.Idx) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![0] S6656.size inb_S13312_S6656_0) (fun _ => rfl)).view.read (Elt F) fo) hn hin) x
      = valFn m d L (ValueIdx.ix1 (⟨(x 0).val, by have hx : (x 0).val < 6656 := (x 0).isLt; omega⟩ : Fin 13312)) := by
  have hx : (x 0).val < 6656 := (x 0).isLt
  rw [gather_gen m d 0 inb_S13312_S6656_0 fo hn hin x (by omega)]
  unfold valFn
  rw [h _ (show 0 + (x 0).val < 6656 by omega)]
  refine congrArg (fun j => tblGet (tblc m d) (idxFn m d L j).toNat) (funext fun a => ?_)
  match a with
  | ⟨0, _⟩ => exact Fin.ext (by show 0 + (x 0).val = (x 0).val; omega)

/-- The second gather, over the filled second half: entry x is position 6656 + x of the value scratch. -/
theorem gather_hi_apply (d : Dev nD) (L : grid0.Coords) (fo : S13312.Idx → BitVec 32)
    (hn : S6656.numel = S6656.size gathers_S2600000_S6656.axis')
    (hin : ∀ x, (((sI).slice (Rect.unit (s := S13312) ![6656] S6656.size inb_S13312_S6656_6656) (fun _ => rfl)).view.read (Elt F) fo x).toNat
      < S2600000.size gathers_S2600000_S6656.axis)
    (h : IdxIs m d L fo 13312) (x : S6656.Idx) :
    SparseCore.gatherPayload gathers_S2600000_S6656
        (((tV).slice (Rect.unit (s := S2600000) ![0] S2600000.size inb_S2600000_S2600000_0) (fun _ => rfl)).view.read (Elt F) (tblc m d))
        (SparseCore.rows (((sI).slice (Rect.unit (s := S13312) ![6656] S6656.size inb_S13312_S6656_6656) (fun _ => rfl)).view.read (Elt F) fo) hn hin) x
      = valFn m d L (ValueIdx.ix1 (⟨6656 + (x 0).val, by have hx : (x 0).val < 6656 := (x 0).isLt; omega⟩ : Fin 13312)) := by
  have hx : (x 0).val < 6656 := (x 0).isLt
  rw [gather_gen m d 6656 inb_S13312_S6656_6656 fo hn hin x (by omega)]
  unfold valFn
  rw [h _ (show 6656 + (x 0).val < 13312 by omega)]

/-- Reading the whole value scratch through its own view is reading the array. -/
theorem of_read_sVl (W : (sVl).view.ty.Contents (Elt F)) (p : S13312.Idx) (v : F .f32)
    (h : (sVl).view.read (Elt F) W p = v) : W p = v := h

/-- A position inside the last stored run of 6656 values reads the stored value at its distance from the run's start. -/
theorem read_sVl_in (f1 : S13312.Idx → F .f32) (n : ℕ) (inb : ∀ a, (![n] : Fin 1 → Nat) a + S6656.size a ≤ S13312.size a)
    (w : (Rect.unit (s := S13312) ![n] S6656.size inb).shape.Idx → F .f32) (Lst : List (View.Piece (Elt F) S13312 .f32))
    (p : S13312.Idx) (h1 : n ≤ (p 0).val) (h2 : (p 0).val - n < 6656) :
    (sVl).view.read (Elt F) ((sVl).view.writes (Elt F) f1 (⟨Rect.unit ![n] S6656.size inb, w⟩ :: Lst)) p
      = w (fun a => match a with | ⟨0, _⟩ => ⟨(p 0).val - n, h2⟩) :=
  View.read_store_in (Val := Elt F) (sVl).view f1 ![n] S6656.size inb w Lst p
    (fun a => match a with | ⟨0, _⟩ => ⟨(p 0).val - n, h2⟩)
    (fun a => match a with | ⟨0, _⟩ => by show (p 0).val = n + ((p 0).val - n); omega)

/-- After both gathers the value scratch is filled: every position holds its value. -/
theorem vals_eq (d : Dev nD) (L : grid0.Coords) (f1 : S13312.Idx → F .f32)
    (G0' : (Rect.unit (s := S13312) ![0] S6656.size inb_S13312_S6656_0).shape.Idx → F .f32)
    (G1' : (Rect.unit (s := S13312) ![6656] S6656.size inb_S13312_S6656_6656).shape.Idx → F .f32)
    (h0 : ∀ x, G0' x = valFn m d L (ValueIdx.ix1 (⟨(x 0).val, by have hx : (x 0).val < 6656 := (x 0).isLt; omega⟩ : Fin 13312)))
    (h1 : ∀ x, G1' x = valFn m d L (ValueIdx.ix1 (⟨6656 + (x 0).val, by have hx : (x 0).val < 6656 := (x 0).isLt; omega⟩ : Fin 13312)))
    (p : S13312.Idx) :
    ((sVl).view.writes (Elt F) f1 [⟨Rect.unit ![6656] S6656.size inb_S13312_S6656_6656, G1'⟩,
      ⟨Rect.unit ![0] S6656.size inb_S13312_S6656_0, G0'⟩]) p = valFn m d L p := by
  have hp : (p 0).val < 13312 := (p 0).isLt
  refine of_read_sVl _ p _ ?_
  by_cases hlt : (p 0).val < 6656
  · rw [View.read_store_out (Val := Elt F) (sVl).view f1 ![6656] S6656.size inb_S13312_S6656_6656 G1' _ p ⟨0, Or.inl hlt⟩,
      read_sVl_in f1 0 inb_S13312_S6656_0 G0' [] p (Nat.zero_le _) (by omega), h0]
    refine congrArg (valFn m d L) (funext fun a => ?_)
    match a with
    | ⟨0, _⟩ => exact Fin.ext (by show (p 0).val - 0 = (p 0).val; omega)
  · have hx : (p 0).val - 6656 < 6656 := by omega
    rw [read_sVl_in f1 6656 inb_S13312_S6656_6656 G1' _ p (by omega) hx, h1]
    refine congrArg (valFn m d L) (funext fun a => ?_)
    obtain rfl : a = 0 := Subsingleton.elim _ _
    exact Fin.ext (by show 6656 + ((p 0).val - 6656) = (p 0).val; omega)

/-- After the first gather alone the first half of the value scratch is filled. -/
theorem vals_lo_eq (d : Dev nD) (L : grid0.Coords) (f1 : S13312.Idx → F .f32)
    (G0' : (Rect.unit (s := S13312) ![0] S6656.size inb_S13312_S6656_0).shape.Idx → F .f32)
    (h0 : ∀ x, G0' x = valFn m d L (ValueIdx.ix1 (⟨(x 0).val, by have hx : (x 0).val < 6656 := (x 0).isLt; omega⟩ : Fin 13312)))
    (p : S13312.Idx) (hlt : (p 0).val < 6656) :
    ((sVl).view.writes (Elt F) f1 [⟨Rect.unit ![0] S6656.size inb_S13312_S6656_0, G0'⟩]) p = valFn m d L p := by
  refine of_read_sVl _ p _ ?_
  rw [read_sVl_in f1 0 inb_S13312_S6656_0 G0' [] p (Nat.zero_le _) (by omega), h0]
  refine congrArg (valFn m d L) (funext fun a => ?_)
  match a with
  | ⟨0, _⟩ => exact Fin.ext (by show (p 0).val - 0 = (p 0).val; omega)

/-! ## A row of the result -/

/-- Row 512 w + j of the kernel's result: the kernel's tree of additions over the bias lane j mod 16 and the 26 values
    at positions 512 f + j of the value scratch. -/
theorem kerOut_row (d : Dev nD) (L : grid0.Coords) (j : Fin 512) :
    kerOut (xTc m d) (tblc m d) (b16c m d) (ValueIdx.ix1 (⟨512 * (widL L).val + j.val, by
        have h := (widL L).isLt
        have hj := j.isLt
        omega⟩ : Fin 16384))
      = kerTree FloatOps.addf (b16c m d (ValueIdx.ix1 (⟨j.val % 16, Nat.mod_lt _ (by decide)⟩ : Fin 16)))
          (fun f => valFn m d L (ValueIdx.ix1 (⟨512 * f.val + j.val, by
            have hf := f.isLt
            have hj := j.isLt
            omega⟩ : Fin 13312))) := by
  have hj := j.isLt
  unfold kerOut valFn idxFn
  refine congrArg₂ (kerTree FloatOps.addf) ?_ ?_
  · refine congrArg (b16c m d) (funext fun a => ?_)
    match a with
    | ⟨0, _⟩ => exact Fin.ext (by show (512 * (widL L).val + j.val) % 16 = j.val % 16; omega)
  · funext f
    refine congrArg (fun i => tblGet (tblc m d) (xTc m d i).toNat) (funext fun a => ?_)
    match a with
    | ⟨0, _⟩ => exact Fin.ext (by show f.val = (512 * f.val + j.val) / 512; omega)
    | ⟨1, _⟩ => exact Fin.ext (by
        show 512 * (widL L).val + j.val = 512 * (widL L).val + (512 * f.val + j.val) % 512; omega)

end Cert.Proof.KB

end
-- ==== Proof.ChainsB.lean ====
/-
  The index scratch after its 13 and after its 26 copies, as explicit lists of stores: every word below the fill line
  names a row of the table and is the transposed index array's word of its position; so the two halves are the
  gathers' offset lists, and after both gathers the value scratch holds, at every position, the table's entry that the
  index scratch's word there names.
-/
import proofs.«207411_g41145786696212_cont_8to1_b_1804_24_alg».proof.Proof.ValFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The copies' payloads and the two lists of stores -/

/-- What a copy of 512 consecutive words of one row of the transposed index array brings. -/
abbrev qPay (d : Dev nD) (L : grid0.Coords) (off : Fin 2 → ℕ) (inb : ∀ a, off a + S1x512.size a ≤ S26x16384.size a) :
    S512.Idx → BitVec 32 :=
  ReadAs.same.apply ((((xV).slice (Rect.unit (s := S26x16384) off S1x512.size inb) (fun _ => rfl)).squeeze S512
    squeezes_S1x512_S512).view.read (Elt F) (xTc m d))

/-- The index scratch after the first 13 copies (the last store first). -/
abbrev idx13 (d : Dev nD) (L : grid0.Coords) (f0 : S13312.Idx → BitVec 32) : S13312.Idx → BitVec 32 :=
  (sI).view.writes (Elt F) f0 [
      ⟨Rect.unit ![6144] S512.size inb_S13312_S512_6144, qPay m d L (k0_off13 L) (k0_off13_inb L)⟩,
      ⟨Rect.unit ![5632] S512.size inb_S13312_S512_5632, qPay m d L (k0_off12 L) (k0_off12_inb L)⟩,
      ⟨Rect.unit ![5120] S512.size inb_S13312_S512_5120, qPay m d L (k0_off11 L) (k0_off11_inb L)⟩,
      ⟨Rect.unit ![4608] S512.size inb_S13312_S512_4608, qPay m d L (k0_off10 L) (k0_off10_inb L)⟩,
      ⟨Rect.unit ![4096] S512.size inb_S13312_S512_4096, qPay m d L (k0_off9 L) (k0_off9_inb L)⟩,
      ⟨Rect.unit ![3584] S512.size inb_S13312_S512_3584, qPay m d L (k0_off8 L) (k0_off8_inb L)⟩,
      ⟨Rect.unit ![3072] S512.size inb_S13312_S512_3072, qPay m d L (k0_off7 L) (k0_off7_inb L)⟩,
      ⟨Rect.unit ![2560] S512.size inb_S13312_S512_2560, qPay m d L (k0_off6 L) (k0_off6_inb L)⟩,
      ⟨Rect.unit ![2048] S512.size inb_S13312_S512_2048, qPay m d L (k0_off5 L) (k0_off5_inb L)⟩,
      ⟨Rect.unit ![1536] S512.size inb_S13312_S512_1536, qPay m d L (k0_off4 L) (k0_off4_inb L)⟩,
      ⟨Rect.unit ![1024] S512.size inb_S13312_S512_1024, qPay m d L (k0_off3 L) (k0_off3_inb L)⟩,
      ⟨Rect.unit ![512] S512.size inb_S13312_S512_512, qPay m d L (k0_off2 L) (k0_off2_inb L)⟩,
      ⟨Rect.unit ![0] S512.size inb_S13312_S512_0, qPay m d L (k0_off1 L) (k0_off1_inb L)⟩]

/-- The index scratch after all 26 copies (the last store first). -/
abbrev idx26 (d : Dev nD) (L : grid0.Coords) (f0 : S13312.Idx → BitVec 32) : S13312.Idx → BitVec 32 :=
  (sI).view.writes (Elt F) f0 [
      ⟨Rect.unit ![12800] S512.size inb_S13312_S512_12800, qPay m d L (k0_off26 L) (k0_off26_inb L)⟩,
      ⟨Rect.unit ![12288] S512.size inb_S13312_S512_12288, qPay m d L (k0_off25 L) (k0_off25_inb L)⟩,
      ⟨Rect.unit ![11776] S512.size inb_S13312_S512_11776, qPay m d L (k0_off24 L) (k0_off24_inb L)⟩,
      ⟨Rect.unit ![11264] S512.size inb_S13312_S512_11264, qPay m d L (k0_off23 L) (k0_off23_inb L)⟩,
      ⟨Rect.unit ![10752] S512.size inb_S13312_S512_10752, qPay m d L (k0_off22 L) (k0_off22_inb L)⟩,
      ⟨Rect.unit ![10240] S512.size inb_S13312_S512_10240, qPay m d L (k0_off21 L) (k0_off21_inb L)⟩,
      ⟨Rect.unit ![9728] S512.size inb_S13312_S512_9728, qPay m d L (k0_off20 L) (k0_off20_inb L)⟩,
      ⟨Rect.unit ![9216] S512.size inb_S13312_S512_9216, qPay m d L (k0_off19 L) (k0_off19_inb L)⟩,
      ⟨Rect.unit ![8704] S512.size inb_S13312_S512_8704, qPay m d L (k0_off18 L) (k0_off18_inb L)⟩,
      ⟨Rect.unit ![8192] S512.size inb_S13312_S512_8192, qPay m d L (k0_off17 L) (k0_off17_inb L)⟩,
      ⟨Rect.unit ![7680] S512.size inb_S13312_S512_7680, qPay m d L (k0_off16 L) (k0_off16_inb L)⟩,
      ⟨Rect.unit ![7168] S512.size inb_S13312_S512_7168, qPay m d L (k0_off15 L) (k0_off15_inb L)⟩,
      ⟨Rect.unit ![6656] S512.size inb_S13312_S512_6656, qPay m d L (k0_off14 L) (k0_off14_inb L)⟩,
      ⟨Rect.unit ![6144] S512.size inb_S13312_S512_6144, qPay m d L (k0_off13 L) (k0_off13_inb L)⟩,
      ⟨Rect.unit ![5632] S512.size inb_S13312_S512_5632, qPay m d L (k0_off12 L) (k0_off12_inb L)⟩,
      ⟨Rect.unit ![5120] S512.size inb_S13312_S512_5120, qPay m d L (k0_off11 L) (k0_off11_inb L)⟩,
      ⟨Rect.unit ![4608] S512.size inb_S13312_S512_4608, qPay m d L (k0_off10 L) (k0_off10_inb L)⟩,
      ⟨Rect.unit ![4096] S512.size inb_S13312_S512_4096, qPay m d L (k0_off9 L) (k0_off9_inb L)⟩,
      ⟨Rect.unit ![3584] S512.size inb_S13312_S512_3584, qPay m d L (k0_off8 L) (k0_off8_inb L)⟩,
      ⟨Rect.unit ![3072] S512.size inb_S13312_S512_3072, qPay m d L (k0_off7 L) (k0_off7_inb L)⟩,
      ⟨Rect.unit ![2560] S512.size inb_S13312_S512_2560, qPay m d L (k0_off6 L) (k0_off6_inb L)⟩,
      ⟨Rect.unit ![2048] S512.size inb_S13312_S512_2048, qPay m d L (k0_off5 L) (k0_off5_inb L)⟩,
      ⟨Rect.unit ![1536] S512.size inb_S13312_S512_1536, qPay m d L (k0_off4 L) (k0_off4_inb L)⟩,
      ⟨Rect.unit ![1024] S512.size inb_S13312_S512_1024, qPay m d L (k0_off3 L) (k0_off3_inb L)⟩,
      ⟨Rect.unit ![512] S512.size inb_S13312_S512_512, qPay m d L (k0_off2 L) (k0_off2_inb L)⟩,
      ⟨Rect.unit ![0] S512.size inb_S13312_S512_0, qPay m d L (k0_off1 L) (k0_off1_inb L)⟩]

/-! ## Every word below the fill line names a row of the table -/

theorem inRng13 (hpre : PreOK m) (d : Dev nD) (L : grid0.Coords) (f0 : S13312.Idx → BitVec 32) :
    InRng (idx13 m d L f0) 6656 :=
  InRng_store f0 _ 6144 _ _
    (InRng_store f0 _ 5632 _ _
    (InRng_store f0 _ 5120 _ _
    (InRng_store f0 _ 4608 _ _
    (InRng_store f0 _ 4096 _ _
    (InRng_store f0 _ 3584 _ _
    (InRng_store f0 _ 3072 _ _
    (InRng_store f0 _ 2560 _ _
    (InRng_store f0 _ 2048 _ _
    (InRng_store f0 _ 1536 _ _
    (InRng_store f0 _ 1024 _ _
    (InRng_store f0 _ 512 _ _
    (InRng_store f0 _ 0 _ _
    (InRng_zero _)
    (fun y => read_xTc_lt m hpre d (k0_off1 L) (k0_off1_inb L) y))
    (fun y => read_xTc_lt m hpre d (k0_off2 L) (k0_off2_inb L) y))
    (fun y => read_xTc_lt m hpre d (k0_off3 L) (k0_off3_inb L) y))
    (fun y => read_xTc_lt m hpre d (k0_off4 L) (k0_off4_inb L) y))
    (fun y => read_xTc_lt m hpre d (k0_off5 L) (k0_off5_inb L) y))
    (fun y => read_xTc_lt m hpre d (k0_off6 L) (k0_off6_inb L) y))
    (fun y => read_xTc_lt m hpre d (k0_off7 L) (k0_off7_inb L) y))
    (fun y => read_xTc_lt m hpre d (k0_off8 L) (k0_off8_inb L) y))
    (fun y => read_xTc_lt m hpre d (k0_off9 L) (k0_off9_inb L) y))
    (fun y => read_xTc_lt m hpre d (k0_off10 L) (k0_off10_inb L) y))
    (fun y => read_xTc_lt m hpre d (k0_off11 L) (k0_off11_inb L) y))
    (fun y => read_xTc_lt m hpre d (k0_off12 L) (k0_off12_inb L) y))
    (fun y => read_xTc_lt m hpre d (k0_off13 L) (k0_off13_inb L) y)

theorem inRng26 (hpre : PreOK m) (d : Dev nD) (L : grid0.Coords) (f0 : S13312.Idx → BitVec 32) :
    InRng (idx26 m d L f0) 13312 :=
  InRng_store f0 _ 12800 _ _
    (InRng_store f0 _ 12288 _ _
    (InRng_store f0 _ 11776 _ _
    (InRng_store f0 _ 11264 _ _
    (InRng_store f0 _ 10752 _ _
    (InRng_store f0 _ 10240 _ _
    (InRng_store f0 _ 9728 _ _
    (InRng_store f0 _ 9216 _ _
    (InRng_store f0 _ 8704 _ _
    (InRng_store f0 _ 8192 _ _
    (InRng_store f0 _ 7680 _ _
    (InRng_store f0 _ 7168 _ _
    (InRng_store f0 _ 6656 _ _
    (InRng_store f0 _ 6144 _ _
    (InRng_store f0 _ 5632 _ _
    (InRng_store f0 _ 5120 _ _
    (InRng_store f0 _ 4608 _ _
    (InRng_store f0 _ 4096 _ _
    (InRng_store f0 _ 3584 _ _
    (InRng_store f0 _ 3072 _ _
    (InRng_store f0 _ 2560 _ _
    (InRng_store f0 _ 2048 _ _
    (InRng_store f0 _ 1536 _ _
    (InRng_store f0 _ 1024 _ _
    (InRng_store f0 _ 512 _ _
    (InRng_store f0 _ 0 _ _
    (InRng_zero _)
    (fun y => read_xTc_lt m hpre d (k0_off1 L) (k0_off1_inb L) y))
    (fun y => read_xTc_lt m hpre d (k0_off2 L) (k0_off2_inb L) y))
    (fun y => read_xTc_lt m hpre d (k0_off3 L) (k0_off3_inb L) y))
    (fun y => read_xTc_lt m hpre d (k0_off4 L) (k0_off4_inb L) y))
    (fun y => read_xTc_lt m hpre d (k0_off5 L) (k0_off5_inb L) y))
    (fun y => read_xTc_lt m hpre d (k0_off6 L) (k0_off6_inb L) y))
    (fun y => read_xTc_lt m hpre d (k0_off7 L) (k0_off7_inb L) y))
    (fun y => read_xTc_lt m hpre d (k0_off8 L) (k0_off8_inb L) y))
    (fun y => read_xTc_lt m hpre d (k0_off9 L) (k0_off9_inb L) y))
    (fun y => read_xTc_lt m hpre d (k0_off10 L) (k0_off10_inb L) y))
    (fun y => read_xTc_lt m hpre d (k0_off11 L) (k0_off11_inb L) y))
    (fun y => read_xTc_lt m hpre d (k0_off12 L) (k0_off12_inb L) y))
    (fun y => read_xTc_lt m hpre d (k0_off13 L) (k0_off13_inb L) y))
    (fun y => read_xTc_lt m hpre d (k0_off14 L) (k0_off14_inb L) y))
    (fun y => read_xTc_lt m hpre d (k0_off15 L) (k0_off15_inb L) y))
    (fun y => read_xTc_lt m hpre d (k0_off16 L) (k0_off16_inb L) y))
    (fun y => read_xTc_lt m hpre d (k0_off17 L) (k0_off17_inb L) y))
    (fun y => read_xTc_lt m hpre d (k0_off18 L) (k0_off18_inb L) y))
    (fun y => read_xTc_lt m hpre d (k0_off19 L) (k0_off19_inb L) y))
    (fun y => read_xTc_lt m hpre d (k0_off20 L) (k0_off20_inb L) y))
    (fun y => read_xTc_lt m hpre d (k0_off21 L) (k0_off21_inb L) y))
    (fun y => read_xTc_lt m hpre d (k0_off22 L) (k0_off22_inb L) y))
    (fun y => read_xTc_lt m hpre d (k0_off23 L) (k0_off23_inb L) y))
    (fun y => read_xTc_lt m hpre d (k0_off24 L) (k0_off24_inb L) y))
    (fun y => read_xTc_lt m hpre d (k0_off25 L) (k0_off25_inb L) y))
    (fun y => read_xTc_lt m hpre d (k0_off26 L) (k0_off26_inb L) y)

/-! ## Every word below the fill line is the transposed index array's word of its position -/

theorem idxIs13 (d : Dev nD) (L : grid0.Coords) (f0 : S13312.Idx → BitVec 32) :
    IdxIs m d L (idx13 m d L f0) 6656 :=
  IdxIs_store m d L f0 _ 6144 _ _
    (IdxIs_store m d L f0 _ 5632 _ _
    (IdxIs_store m d L f0 _ 5120 _ _
    (IdxIs_store m d L f0 _ 4608 _ _
    (IdxIs_store m d L f0 _ 4096 _ _
    (IdxIs_store m d L f0 _ 3584 _ _
    (IdxIs_store m d L f0 _ 3072 _ _
    (IdxIs_store m d L f0 _ 2560 _ _
    (IdxIs_store m d L f0 _ 2048 _ _
    (IdxIs_store m d L f0 _ 1536 _ _
    (IdxIs_store m d L f0 _ 1024 _ _
    (IdxIs_store m d L f0 _ 512 _ _
    (IdxIs_store m d L f0 _ 0 _ _
    (IdxIs_zero m d L _)
    (fun y => pay_idx m d L 0 (k0_off1 L) (k0_off1_inb L) (k0_off1_eq L) y))
    (fun y => pay_idx m d L 1 (k0_off2 L) (k0_off2_inb L) (k0_off2_eq L) y))
    (fun y => pay_idx m d L 2 (k0_off3 L) (k0_off3_inb L) (k0_off3_eq L) y))
    (fun y => pay_idx m d L 3 (k0_off4 L) (k0_off4_inb L) (k0_off4_eq L) y))
    (fun y => pay_idx m d L 4 (k0_off5 L) (k0_off5_inb L) (k0_off5_eq L) y))
    (fun y => pay_idx m d L 5 (k0_off6 L) (k0_off6_inb L) (k0_off6_eq L) y))
    (fun y => pay_idx m d L 6 (k0_off7 L) (k0_off7_inb L) (k0_off7_eq L) y))
    (fun y => pay_idx m d L 7 (k0_off8 L) (k0_off8_inb L) (k0_off8_eq L) y))
    (fun y => pay_idx m d L 8 (k0_off9 L) (k0_off9_inb L) (k0_off9_eq L) y))
    (fun y => pay_idx m d L 9 (k0_off10 L) (k0_off10_inb L) (k0_off10_eq L) y))
    (fun y => pay_idx m d L 10 (k0_off11 L) (k0_off11_inb L) (k0_off11_eq L) y))
    (fun y => pay_idx m d L 11 (k0_off12 L) (k0_off12_inb L) (k0_off12_eq L) y))
    (fun y => pay_idx m d L 12 (k0_off13 L) (k0_off13_inb L) (k0_off13_eq L) y)

theorem idxIs26 (d : Dev nD) (L : grid0.Coords) (f0 : S13312.Idx → BitVec 32) :
    IdxIs m d L (idx26 m d L f0) 13312 :=
  IdxIs_store m d L f0 _ 12800 _ _
    (IdxIs_store m d L f0 _ 12288 _ _
    (IdxIs_store m d L f0 _ 11776 _ _
    (IdxIs_store m d L f0 _ 11264 _ _
    (IdxIs_store m d L f0 _ 10752 _ _
    (IdxIs_store m d L f0 _ 10240 _ _
    (IdxIs_store m d L f0 _ 9728 _ _
    (IdxIs_store m d L f0 _ 9216 _ _
    (IdxIs_store m d L f0 _ 8704 _ _
    (IdxIs_store m d L f0 _ 8192 _ _
    (IdxIs_store m d L f0 _ 7680 _ _
    (IdxIs_store m d L f0 _ 7168 _ _
    (IdxIs_store m d L f0 _ 6656 _ _
    (IdxIs_store m d L f0 _ 6144 _ _
    (IdxIs_store m d L f0 _ 5632 _ _
    (IdxIs_store m d L f0 _ 5120 _ _
    (IdxIs_store m d L f0 _ 4608 _ _
    (IdxIs_store m d L f0 _ 4096 _ _
    (IdxIs_store m d L f0 _ 3584 _ _
    (IdxIs_store m d L f0 _ 3072 _ _
    (IdxIs_store m d L f0 _ 2560 _ _
    (IdxIs_store m d L f0 _ 2048 _ _
    (IdxIs_store m d L f0 _ 1536 _ _
    (IdxIs_store m d L f0 _ 1024 _ _
    (IdxIs_store m d L f0 _ 512 _ _
    (IdxIs_store m d L f0 _ 0 _ _
    (IdxIs_zero m d L _)
    (fun y => pay_idx m d L 0 (k0_off1 L) (k0_off1_inb L) (k0_off1_eq L) y))
    (fun y => pay_idx m d L 1 (k0_off2 L) (k0_off2_inb L) (k0_off2_eq L) y))
    (fun y => pay_idx m d L 2 (k0_off3 L) (k0_off3_inb L) (k0_off3_eq L) y))
    (fun y => pay_idx m d L 3 (k0_off4 L) (k0_off4_inb L) (k0_off4_eq L) y))
    (fun y => pay_idx m d L 4 (k0_off5 L) (k0_off5_inb L) (k0_off5_eq L) y))
    (fun y => pay_idx m d L 5 (k0_off6 L) (k0_off6_inb L) (k0_off6_eq L) y))
    (fun y => pay_idx m d L 6 (k0_off7 L) (k0_off7_inb L) (k0_off7_eq L) y))
    (fun y => pay_idx m d L 7 (k0_off8 L) (k0_off8_inb L) (k0_off8_eq L) y))
    (fun y => pay_idx m d L 8 (k0_off9 L) (k0_off9_inb L) (k0_off9_eq L) y))
    (fun y => pay_idx m d L 9 (k0_off10 L) (k0_off10_inb L) (k0_off10_eq L) y))
    (fun y => pay_idx m d L 10 (k0_off11 L) (k0_off11_inb L) (k0_off11_eq L) y))
    (fun y => pay_idx m d L 11 (k0_off12 L) (k0_off12_inb L) (k0_off12_eq L) y))
    (fun y => pay_idx m d L 12 (k0_off13 L) (k0_off13_inb L) (k0_off13_eq L) y))
    (fun y => pay_idx m d L 13 (k0_off14 L) (k0_off14_inb L) (k0_off14_eq L) y))
    (fun y => pay_idx m d L 14 (k0_off15 L) (k0_off15_inb L) (k0_off15_eq L) y))
    (fun y => pay_idx m d L 15 (k0_off16 L) (k0_off16_inb L) (k0_off16_eq L) y))
    (fun y => pay_idx m d L 16 (k0_off17 L) (k0_off17_inb L) (k0_off17_eq L) y))
    (fun y => pay_idx m d L 17 (k0_off18 L) (k0_off18_inb L) (k0_off18_eq L) y))
    (fun y => pay_idx m d L 18 (k0_off19 L) (k0_off19_inb L) (k0_off19_eq L) y))
    (fun y => pay_idx m d L 19 (k0_off20 L) (k0_off20_inb L) (k0_off20_eq L) y))
    (fun y => pay_idx m d L 20 (k0_off21 L) (k0_off21_inb L) (k0_off21_eq L) y))
    (fun y => pay_idx m d L 21 (k0_off22 L) (k0_off22_inb L) (k0_off22_eq L) y))
    (fun y => pay_idx m d L 22 (k0_off23 L) (k0_off23_inb L) (k0_off23_eq L) y))
    (fun y => pay_idx m d L 23 (k0_off24 L) (k0_off24_inb L) (k0_off24_eq L) y))
    (fun y => pay_idx m d L 24 (k0_off25 L) (k0_off25_inb L) (k0_off25_eq L) y))
    (fun y => pay_idx m d L 25 (k0_off26 L) (k0_off26_inb L) (k0_off26_eq L) y)

/-! ## The gathers' offset lists, and the value scratch after both gathers -/

/-- The first half of the scratch after 13 copies is a list of row numbers. -/
theorem hin1_of (hpre : PreOK m) (d : Dev nD) (L : grid0.Coords) (f0 : S13312.Idx → BitVec 32) :
    ∀ x, (((sI).slice (Rect.unit (s := S13312) ![0] S6656.size inb_S13312_S6656_0) (fun _ => rfl)).view.read (Elt F)
      (idx13 m d L f0) x).toNat < S2600000.size gathers_S2600000_S6656.axis :=
  hin_lo _ (inRng13 m hpre d L f0)

/-- The second half of the scratch after 26 copies is a list of row numbers. -/
theorem hin2_of (hpre : PreOK m) (d : Dev nD) (L : grid0.Coords) (f0 : S13312.Idx → BitVec 32) :
    ∀ x, (((sI).slice (Rect.unit (s := S13312) ![6656] S6656.size inb_S13312_S6656_6656) (fun _ => rfl)).view.read (Elt F)
      (idx26 m d L f0) x).toNat < S2600000.size gathers_S2600000_S6656.axis :=
  hin_hi _ (inRng26 m hpre d L f0)

/-- After the two gathers — the first over the list as it stood after 13 copies, the second over the list after all
    26 — every position of the value scratch holds the table's entry that the index scratch's word there names. -/
theorem vals_run (_hpre : PreOK m) (d : Dev nD) (L : grid0.Coords) (f0 : S13312.Idx → BitVec 32) (f1 : S13312.Idx → F .f32)
    (hn : S6656.numel = S6656.size gathers_S2600000_S6656.axis')
    (hin1 : ∀ x, (((sI).slice (Rect.unit (s := S13312) ![0] S6656.size inb_S13312_S6656_0) (fun _ => rfl)).view.read (Elt F)
      (idx13 m d L f0) x).toNat < S2600000.size gathers_S2600000_S6656.axis)
    (hin2 : ∀ x, (((sI).slice (Rect.unit (s := S13312) ![6656] S6656.size inb_S13312_S6656_6656) (fun _ => rfl)).view.read (Elt F)
      (idx26 m d L f0) x).toNat < S2600000.size gathers_S2600000_S6656.axis)
    (p : S13312.Idx) :
    ((sVl).view.writes (Elt F) f1
      [⟨Rect.unit ![6656] S6656.size inb_S13312_S6656_6656,
          SparseCore.gatherPayload gathers_S2600000_S6656
            (((tV).slice (Rect.unit (s := S2600000) ![0] S2600000.size inb_S2600000_S2600000_0) (fun _ => rfl)).view.read (Elt F) (tblc m d))
            (SparseCore.rows (((sI).slice (Rect.unit (s := S13312) ![6656] S6656.size inb_S13312_S6656_6656) (fun _ => rfl)).view.read (Elt F)
              (idx26 m d L f0)) hn hin2)⟩,
       ⟨Rect.unit ![0] S6656.size inb_S13312_S6656_0,
          SparseCore.gatherPayload gathers_S2600000_S6656
            (((tV).slice (Rect.unit (s := S2600000) ![0] S2600000.size inb_S2600000_S2600000_0) (fun _ => rfl)).view.read (Elt F) (tblc m d))
            (SparseCore.rows (((sI).slice (Rect.unit (s := S13312) ![0] S6656.size inb_S13312_S6656_0) (fun _ => rfl)).view.read (Elt F)
              (idx13 m d L f0)) hn hin1)⟩]) p = valFn m d L p :=
  vals_eq m d L f1 _ _
    (fun x => gather_lo_apply m d L (idx13 m d L f0) hn hin1 (idxIs13 m d L f0) x)
    (fun x => gather_hi_apply m d L (idx26 m d L f0) hn hin2 (idxIs26 m d L f0) x) p

end Cert.Proof.KB

end
-- ==== Proof.BoxFactsB.lean ====
/-
  Facts about the boxes of sixteen lanes the two accumulation loops load and store: where each box lies (below the half of
  the value scratch a gather in flight owns, in the first loop), what a load through a box reads lane by lane, and what the
  bias scratch holds after its copy.
-/
import proofs.«207411_g41145786696212_cont_8to1_b_1804_24_alg».proof.Proof.BodyFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## A box of sixteen lanes below position 6656 misses the upper half of the value scratch -/

omit [FloatOps F] in
theorem box_disj (off : Fin 1 → ℕ) (inb : ∀ a, off a + S16.size a ≤ S13312.size a) (h : off 0 + 16 ≤ 6656) :
    Disjoint ((sVl).view.setOn (Rect.unit (s := S13312) off S16.size inb).set)
      (((sVl).slice (Rect.unit (s := S13312) ![6656] S6656.size inb_S13312_S6656_6656) (fun _ => rfl)).view.set) := by
  rw [Finset.disjoint_left]
  intro i hi hj
  obtain ⟨x, hx, rfl⟩ := Finset.mem_map.mp hi
  have hj' : (sVl).view.emb x ∈ (Rect.unit (s := S13312) ![6656] S6656.size inb_S13312_S6656_6656).set.map (sVl).view.emb := by
    rw [← View.set_slice]; exact hj
  obtain ⟨y, hy, e⟩ := Finset.mem_map.mp hj'
  have e' : y = x := (sVl).view.emb.injective e
  subst e'
  have h1 := (Rect.mem_set_unit.mp hx) 0
  have h2 := (Rect.mem_set_unit.mp hy) 0
  have h3 : (![6656] : Fin 1 → ℕ) 0 = 6656 := rfl
  have h4 : S16.size 0 = 16 := rfl
  omega

/-! ## Where the loops' boxes lie -/

omit [FloatOps F] in
theorem t1_lt (k : Fin k0_t1_loop.trips) : k.val < 32 := Nat.lt_of_lt_of_le k.isLt k0_t1_abs.2.1
omit [FloatOps F] in
theorem t2_lt (k : Fin k0_t2_loop.trips) : k.val < 32 := Nat.lt_of_lt_of_le k.isLt k0_t2_abs.2.1

omit [FloatOps F] in
theorem t1_off27_val (k : Fin k0_t1_loop.trips) : (k0_off27 k) 0 = 16 * k.val := by rw [k0_off27_eq]; rfl
omit [FloatOps F] in
theorem t1_off28_val (k : Fin k0_t1_loop.trips) (r : Fin 12) :
    (k0_off28 k (BitVec.ofNat 32 (512 + 512 * r.val))) 0 = 512 * r.val + 16 * k.val + 512 := by rw [k0_off28_eq]; rfl
omit [FloatOps F] in
theorem t1_off29_val (k : Fin k0_t1_loop.trips) : (k0_off29 k) 0 = 16 * k.val := by rw [k0_off29_eq]; rfl
omit [FloatOps F] in
theorem t2_off30_val (k : Fin k0_t2_loop.trips) : (k0_off30 k) 0 = 16 * k.val := by rw [k0_off30_eq]; rfl
omit [FloatOps F] in
theorem t2_off31 (k : Fin k0_t2_loop.trips) (r : Fin 13) :
    (k0_off31 k (BitVec.ofNat 32 (6656 + 512 * r.val))) 0 = 512 * r.val + 16 * k.val + 6656 := by rw [k0_off31_eq]; rfl

omit [FloatOps F] in
/-- The first loop's boxes end at or below position 6656: the last of them, row 11 of trip 31, ends at
    512·11 + 16·31 + 512 + 16 = 6656. -/
theorem t1_off27 (k : Fin k0_t1_loop.trips) : (k0_off27 k) 0 + 16 ≤ 6656 := by
  rw [t1_off27_val]; have := t1_lt k; omega
omit [FloatOps F] in
theorem t1_off28 (k : Fin k0_t1_loop.trips) (r : Fin 12) :
    (k0_off28 k (BitVec.ofNat 32 (512 + 512 * r.val))) 0 + 16 ≤ 6656 := by
  rw [t1_off28_val]; have := t1_lt k; have := r.isLt; omega

/-! ## A load through a box, lane by lane -/

omit [FloatOps F] in
theorem box_lt {n : ℕ} (off : Fin 1 → ℕ) (inb : ∀ a, off a + S16.size a ≤ (⟨1, ![n]⟩ : Shape).size a) (l : S16.Idx) :
    off 0 + (l 0).val < n := by
  have h1 : off 0 + 16 ≤ n := inb 0
  have h2 : (l 0).val < 16 := (l 0).isLt
  omega

/-- Lane l of a box of the value scratch at offset off is the scratch's word at off + l. -/
theorem readAt_box (V : S13312.Idx → F .f32) (off : Fin 1 → ℕ) (inb : ∀ a, off a + S16.size a ≤ S13312.size a) (l : S16.Idx) :
    View.readAt (Elt F) (sVl).view (Rect.unit (s := S13312) off S16.size inb).toLoadRect V l
      = V (ValueIdx.ix1 ⟨off 0 + (l 0).val, box_lt off inb l⟩) :=
  congrArg V (funext fun a => match a with
    | ⟨0, _⟩ => Fin.ext (show off 0 + 1 * (l 0).val = off 0 + (l 0).val by omega))

/-- The same of the output scratch, -/
theorem readAt_boxO (g : S512.Idx → F .f32) (off : Fin 1 → ℕ) (inb : ∀ a, off a + S16.size a ≤ S512.size a) (l : S16.Idx) :
    View.readAt (Elt F) (sO).view (Rect.unit (s := S512) off S16.size inb).toLoadRect g l
      = g (ValueIdx.ix1 ⟨off 0 + (l 0).val, box_lt off inb l⟩) :=
  congrArg g (funext fun a => match a with
    | ⟨0, _⟩ => Fin.ext (show off 0 + 1 * (l 0).val = off 0 + (l 0).val by omega))

/-- and of the bias scratch, whose one box is the whole of it. -/
theorem readAt_boxB (b : S16.Idx → F .f32) (l : S16.Idx) :
    View.readAt (Elt F) (sB).view (Rect.unit (s := S16) ![0] S16.size inb_S16_S16_0).toLoadRect b l = b l :=
  congrArg b (funext fun a => match a with
    | ⟨0, _⟩ => Fin.ext (show 0 + 1 * (l 0).val = (l 0).val by omega))

/-! ## The bias scratch after its copy -/

/-- A copy into the whole bias scratch replaces its contents by what was copied, -/
theorem write_univ_whole (f3 P : S16.Idx → F .f32) : (sB).view.write (Elt F) f3 P Finset.univ = P :=
  View.write_whole_univ (Val := Elt F) cc0_scratch3 f3 P

/-- and what was copied is the bias lanes as the call found them. -/
theorem bias_read (d : Dev nD) (l : S16.Idx) : (ReadAs.same.apply ((bV).view.read (Elt F) (b16c m d))) l = b16c m d l := rfl

end Cert.Proof.KB

end
-- ==== Proof.BodyPayB.lean ====
/-
  The kernel's order of addition as two chains, and the two loops' stored vectors lane by lane.
-/
import proofs.«207411_g41145786696212_cont_8to1_b_1804_24_alg».proof.Proof.CommonB
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The kernel's two chains of additions, and the stores' payloads as chains of the loaded vectors -/

/-- The first thirteen values added: one chain from the bias through the odd ones, one through the even ones, joined. -/
def chainA {α : Type} (add : α → α → α) (β a0 a1 a2 a3 a4 a5 a6 a7 a8 a9 a10 a11 a12 : α) : α :=
  add (add (add (add (add (add (add β a1) a3) a5) a7) a9) a11) (add (add (add (add (add (add a0 a2) a4) a6) a8) a10) a12)

/-- The last thirteen added onto a partial sum h: one chain from h through the even ones, one through the odd ones, joined. -/
def chainB {α : Type} (add : α → α → α) (h a13 a14 a15 a16 a17 a18 a19 a20 a21 a22 a23 a24 a25 : α) : α :=
  add (add (add (add (add (add (add h a14) a16) a18) a20) a22) a24) (add (add (add (add (add (add a13 a15) a17) a19) a21) a23) a25)

omit [FloatOps F] in
theorem kerTree_chain {α : Type} (add : α → α → α) (β : α) (v : Fin 26 → α) :
    kerTree add β v = chainB add (chainA add β (v 0) (v 1) (v 2) (v 3) (v 4) (v 5) (v 6) (v 7) (v 8) (v 9) (v 10) (v 11) (v 12))
      (v 13) (v 14) (v 15) (v 16) (v 17) (v 18) (v 19) (v 20) (v 21) (v 22) (v 23) (v 24) (v 25) := rfl

/-- The first loop's store, lane by lane. -/
theorem pay2_apply (β u0 u1 u2 u3 u4 u5 u6 u7 u8 u9 u10 u11 u12 : S16.Idx → F .f32) (l : S16.Idx) :
    k0_pay2 (k0_pay4 u0) (k0_pay5 (k0_pay1 β) u1 u3 u5 u7 u9 u11) u2 u4 u6 u8 u10 u12 l
      = chainA FloatOps.addf (β l) (u0 l) (u1 l) (u2 l) (u3 l) (u4 l) (u5 l) (u6 l) (u7 l) (u8 l) (u9 l) (u10 l) (u11 l) (u12 l) := by
  simp only [k0_pay2, k0_pay4, k0_pay5, k0_pay1, shapeCast_self, addf, chainA]

/-- The second loop's store, lane by lane. -/
theorem pay3_apply (h u13 u14 u15 u16 u17 u18 u19 u20 u21 u22 u23 u24 u25 : S16.Idx → F .f32) (l : S16.Idx) :
    k0_pay3 (k0_pay6 u13) (k0_pay7 h u14 u16 u18 u20 u22) (k0_pay8 u24) u15 u17 u19 u21 u23 u25 l
      = chainB FloatOps.addf (h l) (u13 l) (u14 l) (u15 l) (u16 l) (u17 l) (u18 l) (u19 l) (u20 l) (u21 l) (u22 l) (u23 l) (u24 l) (u25 l) := by
  simp only [k0_pay3, k0_pay6, k0_pay7, k0_pay8, shapeCast_self, addf, chainB]

end Cert.Proof.KB

end
-- ==== Proof.BodyOutB.lean ====
/-
  The output scratch's contents after each of the two accumulation loops, as functions of the worker's local row.
-/
import proofs.«207411_g41145786696212_cont_8to1_b_1804_24_alg».proof.Proof.ValFactsB
import proofs.«207411_g41145786696212_cont_8to1_b_1804_24_alg».proof.Proof.BodyPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the output scratch holds after each loop, entry by entry -/

variable (d : Dev nD) (L : grid0.Coords)

/-- Entry 512 f + j of the value scratch after the gathers, as a function of the field f and the worker's local row j
    (entry 0 when out of range: never the case for f < 26, j < 512). -/
def vAt (f j : ℕ) : F .f32 :=
  if h : 512 * f + j < 13312 then valFn m d L (ValueIdx.ix1 ⟨512 * f + j, h⟩) else valFn m d L (ValueIdx.ix1 ⟨0, by decide⟩)

/-- Lane l of the bias lanes (lane 0 when out of range). -/
def bAt (l : ℕ) : F .f32 :=
  if h : l < 16 then b16c m d (ValueIdx.ix1 ⟨l, h⟩) else b16c m d (ValueIdx.ix1 ⟨0, by decide⟩)

/-- After the first loop: local row j holds the bias lane and the first thirteen fields' entries, in the kernel's order. -/
def outH1 : S512.Idx → F .f32 := fun j =>
  chainA FloatOps.addf (bAt m d ((j 0).val % 16)) (vAt m d L 0 (j 0).val) (vAt m d L 1 (j 0).val) (vAt m d L 2 (j 0).val) (vAt m d L 3 (j 0).val) (vAt m d L 4 (j 0).val) (vAt m d L 5 (j 0).val) (vAt m d L 6 (j 0).val) (vAt m d L 7 (j 0).val) (vAt m d L 8 (j 0).val) (vAt m d L 9 (j 0).val) (vAt m d L 10 (j 0).val) (vAt m d L 11 (j 0).val) (vAt m d L 12 (j 0).val)

/-- After the second loop: the other thirteen added on. -/
def outH2 : S512.Idx → F .f32 := fun j =>
  chainB FloatOps.addf (outH1 m d L j) (vAt m d L 13 (j 0).val) (vAt m d L 14 (j 0).val) (vAt m d L 15 (j 0).val) (vAt m d L 16 (j 0).val) (vAt m d L 17 (j 0).val) (vAt m d L 18 (j 0).val) (vAt m d L 19 (j 0).val) (vAt m d L 20 (j 0).val) (vAt m d L 21 (j 0).val) (vAt m d L 22 (j 0).val) (vAt m d L 23 (j 0).val) (vAt m d L 24 (j 0).val) (vAt m d L 25 (j 0).val)

end Cert.Proof.KB

end
-- ==== Proof.Region1B.lean ====
/-
  One trip of the first accumulation loop, as a fact about the output scratch: with the sixteen rows of trip k stored,
  every row below 16 (k + 1) holds the bias lane and the first thirteen fields' values added in the kernel's order.
-/
import proofs.«207411_g41145786696212_cont_8to1_b_1804_24_alg».proof.Proof.BodyOutB
import proofs.«207411_g41145786696212_cont_8to1_b_1804_24_alg».proof.Proof.BoxFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

variable (d : Dev nD) (L : grid0.Coords)

/-! ## Index lemmas -/

/-- Reading the whole output scratch through its own view is reading the array. -/
theorem of_read_sO (W : (sO).view.ty.Contents (Elt F)) (p : S512.Idx) (v : F .f32)
    (h : (sO).view.read (Elt F) W p = v) : W p = v := h

/-- Position 512 f + j of the value scratch is field f of local row j. -/
theorem vAt_eq (f j a : ℕ) (h : a < 13312) (e : a = 512 * f + j) :
    valFn m d L (ValueIdx.ix1 ⟨a, h⟩) = vAt m d L f j := by
  subst e; unfold vAt; rw [dif_pos h]

theorem bAt_eq (l : ℕ) (h : l < 16) : b16c m d (ValueIdx.ix1 ⟨l, h⟩) = bAt m d l := by
  unfold bAt; rw [dif_pos h]

/-- Lane l of the bias lanes is the lane of any row number that is l modulo 16. -/
theorem bias_lane (l : S16.Idx) (n : ℕ) (e : (l 0).val = n % 16) : b16c m d l = bAt m d (n % 16) := by
  have h : n % 16 < 16 := Nat.mod_lt _ (by decide)
  rw [← bAt_eq m d (n % 16) h]
  exact congrArg (b16c m d) (funext fun a => match a with | ⟨0, _⟩ => Fin.ext e)

/-- Lane l of a box loaded from the filled value scratch at offset off is field f of local row j when
    off + l = 512 f + j. -/
theorem load_lane (V : S13312.Idx → F .f32) (hV : ∀ p, V p = valFn m d L p) (off : Fin 1 → ℕ)
    (inb : ∀ a, off a + S16.size a ≤ S13312.size a) (l : S16.Idx) (f j : ℕ) (e : off 0 + (l 0).val = 512 * f + j) :
    View.readAt (Elt F) (sVl).view (Rect.unit (s := S13312) off S16.size inb).toLoadRect V l = vAt m d L f j := by
  rw [readAt_box, hV]
  exact vAt_eq m d L f j _ _ e

/-! ## The trip, over the thirteen loaded vectors taken as given -/

theorem region1_step (k : Fin k0_t1_loop.trips) (g : S512.Idx → F .f32)
    (hg : ∀ j : S512.Idx, (j 0).val < 16 * k.val → g j = outH1 m d L j)
    (β u0 u1 u2 u3 u4 u5 u6 u7 u8 u9 u10 u11 u12 : S16.Idx → F .f32) (hβ : ∀ l, β l = b16c m d l)
    (h0 : ∀ (l : S16.Idx) (n : ℕ), n = 16 * k.val + (l 0).val → u0 l = vAt m d L 0 n)
    (h1 : ∀ (l : S16.Idx) (n : ℕ), n = 16 * k.val + (l 0).val → u1 l = vAt m d L 1 n)
    (h2 : ∀ (l : S16.Idx) (n : ℕ), n = 16 * k.val + (l 0).val → u2 l = vAt m d L 2 n)
    (h3 : ∀ (l : S16.Idx) (n : ℕ), n = 16 * k.val + (l 0).val → u3 l = vAt m d L 3 n)
    (h4 : ∀ (l : S16.Idx) (n : ℕ), n = 16 * k.val + (l 0).val → u4 l = vAt m d L 4 n)
    (h5 : ∀ (l : S16.Idx) (n : ℕ), n = 16 * k.val + (l 0).val → u5 l = vAt m d L 5 n)
    (h6 : ∀ (l : S16.Idx) (n : ℕ), n = 16 * k.val + (l 0).val → u6 l = vAt m d L 6 n)
    (h7 : ∀ (l : S16.Idx) (n : ℕ), n = 16 * k.val + (l 0).val → u7 l = vAt m d L 7 n)
    (h8 : ∀ (l : S16.Idx) (n : ℕ), n = 16 * k.val + (l 0).val → u8 l = vAt m d L 8 n)
    (h9 : ∀ (l : S16.Idx) (n : ℕ), n = 16 * k.val + (l 0).val → u9 l = vAt m d L 9 n)
    (h10 : ∀ (l : S16.Idx) (n : ℕ), n = 16 * k.val + (l 0).val → u10 l = vAt m d L 10 n)
    (h11 : ∀ (l : S16.Idx) (n : ℕ), n = 16 * k.val + (l 0).val → u11 l = vAt m d L 11 n)
    (h12 : ∀ (l : S16.Idx) (n : ℕ), n = 16 * k.val + (l 0).val → u12 l = vAt m d L 12 n) :
    ∀ j : S512.Idx, (j 0).val < 16 * (k.val + 1) →
      ((sO).view.writes (Elt F) g [⟨Rect.unit (s := S512) (k0_off29 k) S16.size (k0_off29_inb k),
        k0_pay2 (k0_pay4 u0) (k0_pay5 (k0_pay1 β) u1 u3 u5 u7 u9 u11) u2 u4 u6 u8 u10 u12⟩]) j = outH1 m d L j := by
  intro j hj
  refine of_read_sO _ j _ ?_
  by_cases hlt : (j 0).val < 16 * k.val
  · rw [View.read_store_out (Val := Elt F) (sO).view g (k0_off29 k) S16.size (k0_off29_inb k) _ [] j
      ⟨0, Or.inl (by rw [t1_off29_val]; exact hlt)⟩]
    exact hg j hlt
  · have hx : (j 0).val - 16 * k.val < 16 := by omega
    let lx : S16.Idx := fun a => match a with | ⟨0, _⟩ => ⟨(j 0).val - 16 * k.val, hx⟩
    have hl : (j 0).val = 16 * k.val + (lx 0).val := by
      show (j 0).val = 16 * k.val + ((j 0).val - 16 * k.val); omega
    have hm : (lx 0).val = (j 0).val % 16 := by
      show (j 0).val - 16 * k.val = (j 0).val % 16; omega
    rw [View.read_store_in (Val := Elt F) (sO).view g (k0_off29 k) S16.size (k0_off29_inb k) _ [] j lx
      (fun a => match a with
        | ⟨0, _⟩ => by show (j 0).val = (k0_off29 k) 0 + ((j 0).val - 16 * k.val); rw [t1_off29_val]; omega)]
    rw [pay2_apply, hβ, bias_lane m d lx (j 0).val hm, h0 lx (j 0).val hl, h1 lx (j 0).val hl, h2 lx (j 0).val hl, h3 lx (j 0).val hl, h4 lx (j 0).val hl, h5 lx (j 0).val hl, h6 lx (j 0).val hl, h7 lx (j 0).val hl, h8 lx (j 0).val hl, h9 lx (j 0).val hl, h10 lx (j 0).val hl, h11 lx (j 0).val hl, h12 lx (j 0).val hl]
    rfl

/-! ## The trip, over the program's own loads -/

/-- With trip k's store in place, the rows below 16 (k + 1) of the output scratch hold the first loop's value: a row
    below 16 k lies outside the stored box and keeps what it held; a row of the box, at lane l = row − 16 k, holds the
    kernel's chain over the bias lane and the thirteen loaded lanes, and the load of field f at offset 512 f + 16 k
    reads at lane l position 512 f + row of the filled value scratch. -/
theorem region1_pure (V : S13312.Idx → F .f32) (hV : ∀ p, V p = valFn m d L p)
    (bias : S16.Idx → F .f32) (hb : ∀ l, bias l = b16c m d l)
    (k : Fin k0_t1_loop.trips) (g : S512.Idx → F .f32)
    (hg : ∀ j : S512.Idx, (j 0).val < 16 * k.val → g j = outH1 m d L j) :
    ∀ j : S512.Idx, (j 0).val < 16 * (k.val + 1) →
      ((sO).view.writes (Elt F) g [⟨Rect.unit (s := S512) (k0_off29 k) S16.size (k0_off29_inb k),
        k0_pay2 (k0_pay4 (View.readAt (Elt F) (sVl).view (Rect.unit (s := S13312) (k0_off27 k) S16.size (k0_off27_inb k)).toLoadRect V)) (k0_pay5 (k0_pay1 bias) (View.readAt (Elt F) (sVl).view (Rect.unit (s := S13312) (k0_off28 k 512#32) S16.size (k0_off28_inb k 0)).toLoadRect V) (View.readAt (Elt F) (sVl).view (Rect.unit (s := S13312) (k0_off28 k 1536#32) S16.size (k0_off28_inb k 2)).toLoadRect V) (View.readAt (Elt F) (sVl).view (Rect.unit (s := S13312) (k0_off28 k 2560#32) S16.size (k0_off28_inb k 4)).toLoadRect V) (View.readAt (Elt F) (sVl).view (Rect.unit (s := S13312) (k0_off28 k 3584#32) S16.size (k0_off28_inb k 6)).toLoadRect V) (View.readAt (Elt F) (sVl).view (Rect.unit (s := S13312) (k0_off28 k 4608#32) S16.size (k0_off28_inb k 8)).toLoadRect V) (View.readAt (Elt F) (sVl).view (Rect.unit (s := S13312) (k0_off28 k 5632#32) S16.size (k0_off28_inb k 10)).toLoadRect V))
          (View.readAt (Elt F) (sVl).view (Rect.unit (s := S13312) (k0_off28 k 1024#32) S16.size (k0_off28_inb k 1)).toLoadRect V) (View.readAt (Elt F) (sVl).view (Rect.unit (s := S13312) (k0_off28 k 2048#32) S16.size (k0_off28_inb k 3)).toLoadRect V) (View.readAt (Elt F) (sVl).view (Rect.unit (s := S13312) (k0_off28 k 3072#32) S16.size (k0_off28_inb k 5)).toLoadRect V) (View.readAt (Elt F) (sVl).view (Rect.unit (s := S13312) (k0_off28 k 4096#32) S16.size (k0_off28_inb k 7)).toLoadRect V) (View.readAt (Elt F) (sVl).view (Rect.unit (s := S13312) (k0_off28 k 5120#32) S16.size (k0_off28_inb k 9)).toLoadRect V) (View.readAt (Elt F) (sVl).view (Rect.unit (s := S13312) (k0_off28 k 6144#32) S16.size (k0_off28_inb k 11)).toLoadRect V)⟩]) j = outH1 m d L j :=
  region1_step m d L k g hg bias _ _ _ _ _ _ _ _ _ _ _ _ _ hb
    (fun l n e => load_lane m d L V hV (k0_off27 k) (k0_off27_inb k) l 0 n (by rw [t1_off27_val, e]; omega))
    (fun l n e => load_lane m d L V hV (k0_off28 k 512#32) (k0_off28_inb k 0) l 1 n (by
      have h : (k0_off28 k 512#32) 0 = 512 * 0 + 16 * k.val + 512 := t1_off28_val k 0
      rw [h, e]; omega))
    (fun l n e => load_lane m d L V hV (k0_off28 k 1024#32) (k0_off28_inb k 1) l 2 n (by
      have h : (k0_off28 k 1024#32) 0 = 512 * 1 + 16 * k.val + 512 := t1_off28_val k 1
      rw [h, e]; omega))
    (fun l n e => load_lane m d L V hV (k0_off28 k 1536#32) (k0_off28_inb k 2) l 3 n (by
      have h : (k0_off28 k 1536#32) 0 = 512 * 2 + 16 * k.val + 512 := t1_off28_val k 2
      rw [h, e]; omega))
    (fun l n e => load_lane m d L V hV (k0_off28 k 2048#32) (k0_off28_inb k 3) l 4 n (by
      have h : (k0_off28 k 2048#32) 0 = 512 * 3 + 16 * k.val + 512 := t1_off28_val k 3
      rw [h, e]; omega))
    (fun l n e => load_lane m d L V hV (k0_off28 k 2560#32) (k0_off28_inb k 4) l 5 n (by
      have h : (k0_off28 k 2560#32) 0 = 512 * 4 + 16 * k.val + 512 := t1_off28_val k 4
      rw [h, e]; omega))
    (fun l n e => load_lane m d L V hV (k0_off28 k 3072#32) (k0_off28_inb k 5) l 6 n (by
      have h : (k0_off28 k 3072#32) 0 = 512 * 5 + 16 * k.val + 512 := t1_off28_val k 5
      rw [h, e]; omega))
    (fun l n e => load_lane m d L V hV (k0_off28 k 3584#32) (k0_off28_inb k 6) l 7 n (by
      have h : (k0_off28 k 3584#32) 0 = 512 * 6 + 16 * k.val + 512 := t1_off28_val k 6
      rw [h, e]; omega))
    (fun l n e => load_lane m d L V hV (k0_off28 k 4096#32) (k0_off28_inb k 7) l 8 n (by
      have h : (k0_off28 k 4096#32) 0 = 512 * 7 + 16 * k.val + 512 := t1_off28_val k 7
      rw [h, e]; omega))
    (fun l n e => load_lane m d L V hV (k0_off28 k 4608#32) (k0_off28_inb k 8) l 9 n (by
      have h : (k0_off28 k 4608#32) 0 = 512 * 8 + 16 * k.val + 512 := t1_off28_val k 8
      rw [h, e]; omega))
    (fun l n e => load_lane m d L V hV (k0_off28 k 5120#32) (k0_off28_inb k 9) l 10 n (by
      have h : (k0_off28 k 5120#32) 0 = 512 * 9 + 16 * k.val + 512 := t1_off28_val k 9
      rw [h, e]; omega))
    (fun l n e => load_lane m d L V hV (k0_off28 k 5632#32) (k0_off28_inb k 10) l 11 n (by
      have h : (k0_off28 k 5632#32) 0 = 512 * 10 + 16 * k.val + 512 := t1_off28_val k 10
      rw [h, e]; omega))
    (fun l n e => load_lane m d L V hV (k0_off28 k 6144#32) (k0_off28_inb k 11) l 12 n (by
      have h : (k0_off28 k 6144#32) 0 = 512 * 11 + 16 * k.val + 512 := t1_off28_val k 11
      rw [h, e]; omega))

end Cert.Proof.KB

end
-- ==== Proof.Region2B.lean ====
/-
  One trip of the second accumulation loop, as a step on the output scratch's contents: trip k adds, to rows 16 k … 16 k + 15
  of the first loop's partial sums, the last thirteen fields' entries in the kernel's order, and leaves every other row.
-/
import proofs.«207411_g41145786696212_cont_8to1_b_1804_24_alg».proof.Proof.BodyOutB
import proofs.«207411_g41145786696212_cont_8to1_b_1804_24_alg».proof.Proof.BoxFactsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## Index lemmas -/

omit [FloatOps F] in
/-- A rank-one index is determined by its coordinate. -/
theorem r2_ix1_eq {n : ℕ} (j : (⟨1, ![n]⟩ : Shape).Idx) (a : ℕ) (h : a < n) (e : a = (j 0).val) : ValueIdx.ix1 ⟨a, h⟩ = j := by
  subst e; exact (ValueIdx.eq_ix1 j).symm

/-- Position 512 f + j of the value scratch holds field f's entry for local row j. -/
theorem r2_vAt_eq (d : Dev nD) (L : grid0.Coords) (a : ℕ) (h : a < 13312) (f j : ℕ) (hf : 512 * f + j < 13312) (e : a = 512 * f + j) :
    valFn m d L (ValueIdx.ix1 ⟨a, h⟩) = vAt m d L f j := by
  subst e; unfold vAt; rw [dif_pos hf]

/-- Lane l of a box of the filled value scratch whose position off + l is 512 f + j is field f's entry for local row j. -/
theorem r2_load_lane (d : Dev nD) (L : grid0.Coords) (V : S13312.Idx → F .f32) (hV : ∀ p, V p = valFn m d L p)
    (off : Fin 1 → ℕ) (inb : ∀ a, off a + S16.size a ≤ S13312.size a) (l : S16.Idx) (f j : ℕ) (hf : 512 * f + j < 13312)
    (e : off 0 + (l 0).val = 512 * f + j) :
    View.readAt (Elt F) (sVl).view (Rect.unit (s := S13312) off S16.size inb).toLoadRect V l = vAt m d L f j := by
  rw [readAt_box, hV]; exact r2_vAt_eq m d L _ _ f j hf e

/-- Reading the whole output scratch through its own view is reading the array. -/
theorem r2_of_read_sO (W : (sO).view.ty.Contents (Elt F)) (p : S512.Idx) (v : F .f32)
    (h : (sO).view.read (Elt F) W p = v) : W p = v := h

/-! ## The stored box, row by row -/

/-- A row inside trip k's box: the store leaves the first loop's partial sum with the last thirteen fields' entries added
    in the kernel's order. -/
theorem r2_in (d : Dev nD) (L : grid0.Coords) (V : S13312.Idx → F .f32) (hV : ∀ p, V p = valFn m d L p)
    (k : Fin k0_t2_loop.trips) (g : S512.Idx → F .f32)
    (hhi : ∀ j : S512.Idx, 16 * k.val ≤ (j 0).val → g j = outH1 m d L j)
    (j : S512.Idx) (l : Fin 16) (hl : 16 * k.val + l.val = (j 0).val) :
    ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH2 m d L j := by
  have hj512 : (j 0).val < 512 := (j 0).isLt
  have hk : k.val < 32 := t2_lt k
  refine r2_of_read_sO _ j _ ?_
  rw [View.read_store_in (Val := Elt F) (sO).view g (k0_off30 k) S16.size (k0_off30_inb k) _ [] j (ValueIdx.ix1 l)
    (fun a => match a with | ⟨0, _⟩ => by have h30 := t2_off30_val k; show (j 0).val = (k0_off30 k) 0 + l.val; omega)]
  rw [pay3_apply]
  generalize hx : (ValueIdx.ix1 l : S16.Idx) = x
  have hxl : (x 0).val = l.val := by rw [← hx]
  have eH : (View.readAt (Elt F) (sO).view (Rect.unit (s := S512) (k0_off30 k) S16.size (k0_off30_inb k)).toLoadRect g) x = outH1 m d L j := by
    rw [readAt_boxO, r2_ix1_eq j _ _ (by rw [t2_off30_val, hxl]; exact hl)]
    exact hhi j (by omega)
  have e13 : (View.readAt (Elt F) (sVl).view (Rect.unit (s := S13312) (k0_off31 k 6656#32) S16.size (k0_off31_inb k 0)).toLoadRect V) x = vAt m d L 13 (j 0).val :=
    r2_load_lane m d L V hV (k0_off31 k 6656#32) (k0_off31_inb k 0) x 13 (j 0).val (by omega)
      (by rw [show (k0_off31 k 6656#32) 0 = 512 * 0 + 16 * k.val + 6656 from t2_off31 k 0]; show 512 * 0 + 16 * k.val + 6656 + (x 0).val = 512 * 13 + (j 0).val; omega)
  have e14 : (View.readAt (Elt F) (sVl).view (Rect.unit (s := S13312) (k0_off31 k 7168#32) S16.size (k0_off31_inb k 1)).toLoadRect V) x = vAt m d L 14 (j 0).val :=
    r2_load_lane m d L V hV (k0_off31 k 7168#32) (k0_off31_inb k 1) x 14 (j 0).val (by omega)
      (by rw [show (k0_off31 k 7168#32) 0 = 512 * 1 + 16 * k.val + 6656 from t2_off31 k 1]; show 512 * 1 + 16 * k.val + 6656 + (x 0).val = 512 * 14 + (j 0).val; omega)
  have e15 : (View.readAt (Elt F) (sVl).view (Rect.unit (s := S13312) (k0_off31 k 7680#32) S16.size (k0_off31_inb k 2)).toLoadRect V) x = vAt m d L 15 (j 0).val :=
    r2_load_lane m d L V hV (k0_off31 k 7680#32) (k0_off31_inb k 2) x 15 (j 0).val (by omega)
      (by rw [show (k0_off31 k 7680#32) 0 = 512 * 2 + 16 * k.val + 6656 from t2_off31 k 2]; show 512 * 2 + 16 * k.val + 6656 + (x 0).val = 512 * 15 + (j 0).val; omega)
  have e16 : (View.readAt (Elt F) (sVl).view (Rect.unit (s := S13312) (k0_off31 k 8192#32) S16.size (k0_off31_inb k 3)).toLoadRect V) x = vAt m d L 16 (j 0).val :=
    r2_load_lane m d L V hV (k0_off31 k 8192#32) (k0_off31_inb k 3) x 16 (j 0).val (by omega)
      (by rw [show (k0_off31 k 8192#32) 0 = 512 * 3 + 16 * k.val + 6656 from t2_off31 k 3]; show 512 * 3 + 16 * k.val + 6656 + (x 0).val = 512 * 16 + (j 0).val; omega)
  have e17 : (View.readAt (Elt F) (sVl).view (Rect.unit (s := S13312) (k0_off31 k 8704#32) S16.size (k0_off31_inb k 4)).toLoadRect V) x = vAt m d L 17 (j 0).val :=
    r2_load_lane m d L V hV (k0_off31 k 8704#32) (k0_off31_inb k 4) x 17 (j 0).val (by omega)
      (by rw [show (k0_off31 k 8704#32) 0 = 512 * 4 + 16 * k.val + 6656 from t2_off31 k 4]; show 512 * 4 + 16 * k.val + 6656 + (x 0).val = 512 * 17 + (j 0).val; omega)
  have e18 : (View.readAt (Elt F) (sVl).view (Rect.unit (s := S13312) (k0_off31 k 9216#32) S16.size (k0_off31_inb k 5)).toLoadRect V) x = vAt m d L 18 (j 0).val :=
    r2_load_lane m d L V hV (k0_off31 k 9216#32) (k0_off31_inb k 5) x 18 (j 0).val (by omega)
      (by rw [show (k0_off31 k 9216#32) 0 = 512 * 5 + 16 * k.val + 6656 from t2_off31 k 5]; show 512 * 5 + 16 * k.val + 6656 + (x 0).val = 512 * 18 + (j 0).val; omega)
  have e19 : (View.readAt (Elt F) (sVl).view (Rect.unit (s := S13312) (k0_off31 k 9728#32) S16.size (k0_off31_inb k 6)).toLoadRect V) x = vAt m d L 19 (j 0).val :=
    r2_load_lane m d L V hV (k0_off31 k 9728#32) (k0_off31_inb k 6) x 19 (j 0).val (by omega)
      (by rw [show (k0_off31 k 9728#32) 0 = 512 * 6 + 16 * k.val + 6656 from t2_off31 k 6]; show 512 * 6 + 16 * k.val + 6656 + (x 0).val = 512 * 19 + (j 0).val; omega)
  have e20 : (View.readAt (Elt F) (sVl).view (Rect.unit (s := S13312) (k0_off31 k 10240#32) S16.size (k0_off31_inb k 7)).toLoadRect V) x = vAt m d L 20 (j 0).val :=
    r2_load_lane m d L V hV (k0_off31 k 10240#32) (k0_off31_inb k 7) x 20 (j 0).val (by omega)
      (by rw [show (k0_off31 k 10240#32) 0 = 512 * 7 + 16 * k.val + 6656 from t2_off31 k 7]; show 512 * 7 + 16 * k.val + 6656 + (x 0).val = 512 * 20 + (j 0).val; omega)
  have e21 : (View.readAt (Elt F) (sVl).view (Rect.unit (s := S13312) (k0_off31 k 10752#32) S16.size (k0_off31_inb k 8)).toLoadRect V) x = vAt m d L 21 (j 0).val :=
    r2_load_lane m d L V hV (k0_off31 k 10752#32) (k0_off31_inb k 8) x 21 (j 0).val (by omega)
      (by rw [show (k0_off31 k 10752#32) 0 = 512 * 8 + 16 * k.val + 6656 from t2_off31 k 8]; show 512 * 8 + 16 * k.val + 6656 + (x 0).val = 512 * 21 + (j 0).val; omega)
  have e22 : (View.readAt (Elt F) (sVl).view (Rect.unit (s := S13312) (k0_off31 k 11264#32) S16.size (k0_off31_inb k 9)).toLoadRect V) x = vAt m d L 22 (j 0).val :=
    r2_load_lane m d L V hV (k0_off31 k 11264#32) (k0_off31_inb k 9) x 22 (j 0).val (by omega)
      (by rw [show (k0_off31 k 11264#32) 0 = 512 * 9 + 16 * k.val + 6656 from t2_off31 k 9]; show 512 * 9 + 16 * k.val + 6656 + (x 0).val = 512 * 22 + (j 0).val; omega)
  have e23 : (View.readAt (Elt F) (sVl).view (Rect.unit (s := S13312) (k0_off31 k 11776#32) S16.size (k0_off31_inb k 10)).toLoadRect V) x = vAt m d L 23 (j 0).val :=
    r2_load_lane m d L V hV (k0_off31 k 11776#32) (k0_off31_inb k 10) x 23 (j 0).val (by omega)
      (by rw [show (k0_off31 k 11776#32) 0 = 512 * 10 + 16 * k.val + 6656 from t2_off31 k 10]; show 512 * 10 + 16 * k.val + 6656 + (x 0).val = 512 * 23 + (j 0).val; omega)
  have e24 : (View.readAt (Elt F) (sVl).view (Rect.unit (s := S13312) (k0_off31 k 12288#32) S16.size (k0_off31_inb k 11)).toLoadRect V) x = vAt m d L 24 (j 0).val :=
    r2_load_lane m d L V hV (k0_off31 k 12288#32) (k0_off31_inb k 11) x 24 (j 0).val (by omega)
      (by rw [show (k0_off31 k 12288#32) 0 = 512 * 11 + 16 * k.val + 6656 from t2_off31 k 11]; show 512 * 11 + 16 * k.val + 6656 + (x 0).val = 512 * 24 + (j 0).val; omega)
  have e25 : (View.readAt (Elt F) (sVl).view (Rect.unit (s := S13312) (k0_off31 k 12800#32) S16.size (k0_off31_inb k 12)).toLoadRect V) x = vAt m d L 25 (j 0).val :=
    r2_load_lane m d L V hV (k0_off31 k 12800#32) (k0_off31_inb k 12) x 25 (j 0).val (by omega)
      (by rw [show (k0_off31 k 12800#32) 0 = 512 * 12 + 16 * k.val + 6656 from t2_off31 k 12]; show 512 * 12 + 16 * k.val + 6656 + (x 0).val = 512 * 25 + (j 0).val; omega)
  rw [eH, e13, e14, e15, e16, e17, e18, e19, e20, e21, e22, e23, e24, e25]
  rfl

/-! ## The step -/

/-- Trip k of the second loop, on contents that hold the finished rows below 16 k and the first loop's partial sums from
    16 k on: afterwards the finished rows reach 16 (k + 1). -/
theorem region2_pure (d : Dev nD) (L : grid0.Coords) (V : S13312.Idx → F .f32) (hV : ∀ p, V p = valFn m d L p)
    (k : Fin k0_t2_loop.trips) (g : S512.Idx → F .f32)
    (hlo : ∀ j : S512.Idx, (j 0).val < 16 * k.val → g j = outH2 m d L j) (hhi : ∀ j : S512.Idx, 16 * k.val ≤ (j 0).val → g j = outH1 m d L j) :
    (∀ j : S512.Idx, (j 0).val < 16 * (k.val + 1) → ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH2 m d L j)
    ∧ (∀ j : S512.Idx, 16 * (k.val + 1) ≤ (j 0).val → ((sO).view.writes (Elt F) g [⟨Rect.unit (s := S512) (k0_off30 k) S16.size (k0_off30_inb k),
        k0_pay3 (k0_pay6 (View.readAt (Elt F) (sVl).view (Rect.unit (s := S13312) (k0_off31 k 6656#32) S16.size (k0_off31_inb k 0)).toLoadRect V)) (k0_pay7 (View.readAt (Elt F) (sO).view (Rect.unit (s := S512) (k0_off30 k) S16.size (k0_off30_inb k)).toLoadRect g) (View.readAt (Elt F) (sVl).view (Rect.unit (s := S13312) (k0_off31 k 7168#32) S16.size (k0_off31_inb k 1)).toLoadRect V) (View.readAt (Elt F) (sVl).view (Rect.unit (s := S13312) (k0_off31 k 8192#32) S16.size (k0_off31_inb k 3)).toLoadRect V) (View.readAt (Elt F) (sVl).view (Rect.unit (s := S13312) (k0_off31 k 9216#32) S16.size (k0_off31_inb k 5)).toLoadRect V) (View.readAt (Elt F) (sVl).view (Rect.unit (s := S13312) (k0_off31 k 10240#32) S16.size (k0_off31_inb k 7)).toLoadRect V) (View.readAt (Elt F) (sVl).view (Rect.unit (s := S13312) (k0_off31 k 11264#32) S16.size (k0_off31_inb k 9)).toLoadRect V)) (k0_pay8 (View.readAt (Elt F) (sVl).view (Rect.unit (s := S13312) (k0_off31 k 12288#32) S16.size (k0_off31_inb k 11)).toLoadRect V))
          (View.readAt (Elt F) (sVl).view (Rect.unit (s := S13312) (k0_off31 k 7680#32) S16.size (k0_off31_inb k 2)).toLoadRect V) (View.readAt (Elt F) (sVl).view (Rect.unit (s := S13312) (k0_off31 k 8704#32) S16.size (k0_off31_inb k 4)).toLoadRect V) (View.readAt (Elt F) (sVl).view (Rect.unit (s := S13312) (k0_off31 k 9728#32) S16.size (k0_off31_inb k 6)).toLoadRect V) (View.readAt (Elt F) (sVl).view (Rect.unit (s := S13312) (k0_off31 k 10752#32) S16.size (k0_off31_inb k 8)).toLoadRect V) (View.readAt (Elt F) (sVl).view (Rect.unit (s := S13312) (k0_off31 k 11776#32) S16.size (k0_off31_inb k 10)).toLoadRect V) (View.readAt (Elt F) (sVl).view (Rect.unit (s := S13312) (k0_off31 k 12800#32) S16.size (k0_off31_inb k 12)).toLoadRect V)⟩]) j = outH1 m d L j) := by
  refine ⟨fun j hj => ?_, fun j hj => ?_⟩
  · by_cases hb : (j 0).val < 16 * k.val
    · refine r2_of_read_sO _ j _ ?_
      rw [View.read_store_out (Val := Elt F) (sO).view g (k0_off30 k) S16.size (k0_off30_inb k) _ [] j
        ⟨0, Or.inl (by rw [t2_off30_val]; exact hb)⟩]
      exact hlo j hb
    · obtain ⟨l, hl⟩ : ∃ l : Fin 16, 16 * k.val + l.val = (j 0).val :=
        ⟨⟨(j 0).val - 16 * k.val, by omega⟩, by show 16 * k.val + ((j 0).val - 16 * k.val) = (j 0).val; omega⟩
      exact r2_in m d L V hV k g hhi j l hl
  · refine r2_of_read_sO _ j _ ?_
    rw [View.read_store_out (Val := Elt F) (sO).view g (k0_off30 k) S16.size (k0_off30_inb k) _ [] j
      ⟨0, Or.inr (by rw [t2_off30_val]; show 16 * k.val + 16 ≤ (j 0).val; omega)⟩]
    exact hhi j (by omega)

end Cert.Proof.KB

end
-- ==== Proof.OutRowsB.lean ====
/-
  The rows of the result that one vector subcore writes: the output scratch after the second accumulation loop holds,
  at local row j, the kernel's value of row 512 w + j; and the copy of the scratch onto the subcore's 512 rows of the
  result vector leaves those rows at the kernel's value.
-/
import proofs.«207411_g41145786696212_cont_8to1_b_1804_24_alg».proof.Proof.BodyOutB
import proofs.«207411_g41145786696212_cont_8to1_b_1804_24_alg».proof.Proof.BodyGeomB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

variable (d : Dev nD) (L : grid0.Coords)

/-! ## The output scratch after the second loop -/

/-- For a field f < 26 and a local row j < 512, entry 512 f + j of the value scratch is in range. -/
theorem or_vAt_eq (f : Fin 26) (j : Fin 512) :
    vAt m d L f.val j.val = valFn m d L (ValueIdx.ix1 (⟨512 * f.val + j.val, by
      have hf := f.isLt
      have hj := j.isLt
      omega⟩ : Fin 13312)) := by
  unfold vAt
  rw [dif_pos]

/-- A lane number below 16 is in range. -/
theorem or_bAt_eq (l : ℕ) (h : l < 16) : bAt m d l = b16c m d (ValueIdx.ix1 (⟨l, h⟩ : Fin 16)) := by
  unfold bAt
  rw [dif_pos h]

/-- After the second loop, local row j of the output scratch holds the kernel's value of row 512 w + j. -/
theorem outH2_row (j : Fin 512) :
    outH2 m d L (ValueIdx.ix1 j) = kerOut (xTc m d) (tblc m d) (b16c m d) (ValueIdx.ix1 (⟨512 * (widL L).val + j.val, by
      have h := (widL L).isLt
      have hj := j.isLt
      omega⟩ : Fin 16384)) := by
  rw [kerOut_row, kerTree_chain]
  show chainB FloatOps.addf
      (chainA FloatOps.addf (bAt m d (j.val % 16)) (vAt m d L (0 : Fin 26).val j.val) (vAt m d L (1 : Fin 26).val j.val) (vAt m d L (2 : Fin 26).val j.val) (vAt m d L (3 : Fin 26).val j.val) (vAt m d L (4 : Fin 26).val j.val) (vAt m d L (5 : Fin 26).val j.val) (vAt m d L (6 : Fin 26).val j.val) (vAt m d L (7 : Fin 26).val j.val) (vAt m d L (8 : Fin 26).val j.val) (vAt m d L (9 : Fin 26).val j.val) (vAt m d L (10 : Fin 26).val j.val) (vAt m d L (11 : Fin 26).val j.val) (vAt m d L (12 : Fin 26).val j.val))
      (vAt m d L (13 : Fin 26).val j.val) (vAt m d L (14 : Fin 26).val j.val) (vAt m d L (15 : Fin 26).val j.val) (vAt m d L (16 : Fin 26).val j.val) (vAt m d L (17 : Fin 26).val j.val) (vAt m d L (18 : Fin 26).val j.val) (vAt m d L (19 : Fin 26).val j.val) (vAt m d L (20 : Fin 26).val j.val) (vAt m d L (21 : Fin 26).val j.val) (vAt m d L (22 : Fin 26).val j.val) (vAt m d L (23 : Fin 26).val j.val) (vAt m d L (24 : Fin 26).val j.val) (vAt m d L (25 : Fin 26).val j.val) = _
  rw [or_bAt_eq m d (j.val % 16) (Nat.mod_lt _ (by decide)),
    or_vAt_eq m d L 0 j, or_vAt_eq m d L 1 j, or_vAt_eq m d L 2 j, or_vAt_eq m d L 3 j, or_vAt_eq m d L 4 j, or_vAt_eq m d L 5 j, or_vAt_eq m d L 6 j, or_vAt_eq m d L 7 j, or_vAt_eq m d L 8 j, or_vAt_eq m d L 9 j, or_vAt_eq m d L 10 j, or_vAt_eq m d L 11 j, or_vAt_eq m d L 12 j, or_vAt_eq m d L 13 j, or_vAt_eq m d L 14 j, or_vAt_eq m d L 15 j, or_vAt_eq m d L 16 j, or_vAt_eq m d L 17 j, or_vAt_eq m d L 18 j, or_vAt_eq m d L 19 j, or_vAt_eq m d L 20 j, or_vAt_eq m d L 21 j, or_vAt_eq m d L 22 j, or_vAt_eq m d L 23 j, or_vAt_eq m d L 24 j, or_vAt_eq m d L 25 j]

/-! ## The copy onto the subcore's rows of the result vector -/

/-- Reading an array through the subcore's rows at local row x is the array at that row's place. -/
theorem or_of_read_oRow (W : (oRowK L).view.ty.Contents (Elt F)) (x : S512.Idx) (v : F .f32)
    (h : (oRowK L).view.read (Elt F) W x = v) : W ((oRowK L).view.emb x) = v := h

/-- Local row j of the subcore's rows is row 512 w + j of the result vector. -/
theorem or_emb_oRowK (x : S512.Idx) (j : Fin 512) (hx : (x 0).val = j.val) :
    (oRowK L).view.emb x = ValueIdx.ix1 (⟨512 * (widL L).val + j.val, by
      have h := (widL L).isLt
      have hj := j.isLt
      omega⟩ : Fin 16384) := by
  funext a
  match a with
  | ⟨0, _⟩ =>
    refine Fin.ext ?_
    show (k0_off32 L) 0 + 1 * (x 0).val = 512 * (widL L).val + j.val
    rw [k0_off32_eq]
    show 1024 * (L 1).val + 512 * (L 0).val + 1 * (x 0).val = 512 * (2 * (L 1).val + (L 0).val) + j.val
    omega

/-- What the copy brings, when the output scratch holds the second loop's values. -/
theorem copy_pay (g2 : S512.Idx → F .f32) (hg : ∀ j, g2 j = outH2 m d L j) (j : Fin 512) :
    (ReadAs.same.apply ((sO).view.read (Elt F) g2)) (ValueIdx.ix1 j) = outH2 m d L (ValueIdx.ix1 j) :=
  hg (ValueIdx.ix1 j)

/-- After the copy, written as a list of one store over all 512 rows: every one of the subcore's rows of the result
    vector holds the kernel's value. -/
theorem out_final (o0 : Buf (Elt F) (oLoc d)) (P : (Rect.whole S512).shape.Idx → F .f32)
    (hP : ∀ j : Fin 512, P (ValueIdx.ix1 j) = outH2 m d L (ValueIdx.ix1 j)) :
    ∀ i ∈ (oRowK L).view.set,
      ((oRowK L).view.writes (Elt F) o0 [⟨Rect.whole S512, P⟩]) i = kerOut (xTc m d) (tblc m d) (b16c m d) i := by
  intro i hi
  obtain ⟨x, -, rfl⟩ := Finset.mem_map.mp hi
  have hxl : (x 0).val < 512 := (x 0).isLt
  have hx : x = ValueIdx.ix1 (⟨(x 0).val, hxl⟩ : Fin 512) := by
    funext a
    match a with
    | ⟨0, _⟩ => rfl
  refine or_of_read_oRow L _ x _ ?_
  have h := View.read_writes_cons_emb (Val := Elt F) (oRowK L).view o0 (Rect.whole S512) P [] x
  rw [Rect.emb_whole_apply] at h
  rw [h, or_emb_oRowK L x ⟨(x 0).val, hxl⟩ rfl, ← outH2_row, ← hP]
  exact congrArg P hx

/-- The same with the copy written as one write over all 512 rows. -/
theorem out_final' (o0 : Buf (Elt F) (oLoc d)) (P : S512.Idx → F .f32)
    (hP : ∀ j : Fin 512, P (ValueIdx.ix1 j) = outH2 m d L (ValueIdx.ix1 j)) :
    ∀ i ∈ (oRowK L).view.set,
      ((oRowK L).view.write (Elt F) o0 P Finset.univ) i = kerOut (xTc m d) (tblc m d) (b16c m d) i := by
  intro i hi
  obtain ⟨x, -, rfl⟩ := Finset.mem_map.mp hi
  have hxl : (x 0).val < 512 := (x 0).isLt
  have hx : x = ValueIdx.ix1 (⟨(x 0).val, hxl⟩ : Fin 512) := by
    funext a
    match a with
    | ⟨0, _⟩ => rfl
  refine or_of_read_oRow L _ x _ ?_
  rw [View.read_write_of_mem (Val := Elt F) (v := (oRowK L).view) o0 P (Finset.mem_univ x),
    or_emb_oRowK L x ⟨(x 0).val, hxl⟩ rfl, ← outH2_row, ← hP]
  exact congrArg P hx

end Cert.Proof.KB

end
-- ==== Proof.BodyB.lean ====
/-
  One worker's task. Vector subcore s of SparseCore c is worker w = 2 s + c and owns rows 512 w … 512 w + 511 of the result. It
  copies its 512 columns of the transposed index array, field by field, into an index scratch (thirteen copies on one DMA
  semaphore, all issued, then all waited for; twice), gathers the flattened table at those indices into a value scratch (one
  indirect gather per half, each on a semaphore of its own, the second half's copies running while the first gather is in
  flight), adds up each local row's 26 values and the bias lane in two loops of 32 trips of 16 lanes (the first over fields
  0 … 12 while the second gather is still in flight: its loads stay below entry 6656, the window that gather owns starts
  there), and copies the 512 sums out to its rows. No copy's source or destination is touched between its issue and the wait
  that completes it. Stated once, generic in the float instance: the rows end at the kernel's own order of additions.
-/
import proofs.«207411_g41145786696212_cont_8to1_b_1804_24_alg».proof.Proof.BodyGeomB
import proofs.«207411_g41145786696212_cont_8to1_b_1804_24_alg».proof.Proof.ChainsB
import proofs.«207411_g41145786696212_cont_8to1_b_1804_24_alg».proof.Proof.BoxFactsB
import proofs.«207411_g41145786696212_cont_8to1_b_1804_24_alg».proof.Proof.BodyOutB
import proofs.«207411_g41145786696212_cont_8to1_b_1804_24_alg».proof.Proof.Region1B
import proofs.«207411_g41145786696212_cont_8to1_b_1804_24_alg».proof.Proof.Region2B
import proofs.«207411_g41145786696212_cont_8to1_b_1804_24_alg».proof.Proof.OutRowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- A wait recorded at the index none keeps the waits within what the launch allows. -/
theorem waits_ok {W W' : Waits sig (HIx 1)} (a : SemLoc sig × HIx 1) (ha : a.2 = none) (h : ∀ p ∈ W', p ∈ W ∨ p.2 = none) :
    ∀ p ∈ insert a W', p ∈ W ∨ p.2 = none :=
  fun p hp => (Finset.mem_insert.mp hp).elim (fun e => Or.inr (e ▸ ha)) (h p)

/-- The first loop's invariant: the value scratch as found (less the window the second gather owns), and the output scratch's
    first 16 k entries at H. -/
def inv1 (d : Dev nD) (L : grid0.Coords) (Sv : Finset S13312.Idx) (V : S13312.Idx → F .f32) (H : S512.Idx → F .f32) (k : Nat) (_ : BitVec 32) : sProp 𝕄 :=
  iprop(((sVl).view.loc (thrOf d L) ↦[Sv]{fullShare} V)
    ∗ ∃ g : S512.Idx → F .f32, ((sO).view.loc (thrOf d L) ↦{fullShare} g) ∗ ⌜∀ j : S512.Idx, (j 0).val < 16 * k → g j = H j⌝)

/-- The second loop's invariant: the value scratch whole, the output scratch's first 16 k entries final, the rest the first loop's. -/
def inv2 (d : Dev nD) (L : grid0.Coords) (V : S13312.Idx → F .f32) (H1 H2 : S512.Idx → F .f32) (k : Nat) (_ : BitVec 32) : sProp 𝕄 :=
  iprop(((sVl).view.loc (thrOf d L) ↦{fullShare} V)
    ∗ ∃ g : S512.Idx → F .f32, ((sO).view.loc (thrOf d L) ↦{fullShare} g)
        ∗ ⌜(∀ j : S512.Idx, (j 0).val < 16 * k → g j = H2 j) ∧ (∀ j : S512.Idx, 16 * k ≤ (j 0).val → g j = H1 j)⌝)

/-- The task of the worker at grid coordinates L, from what it is handed to what it hands back, its scoped storage returned
    as found and nothing newly owed. -/
theorem tile_body [∀ e, Nonempty (Elt F e)] (hF : (K (F := F)).Facts) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ goRes m d (widL L)
        ∗ scopedBufs (thrOf d L) ∗ scopedSems0 (thrOf d L) ∗ owes (thrOf d L) O W)
      ⊢ wp frame (wpE (defs₀ (F := F)) 𝒱₀ (thrOf d L) none) Set.univ
          (cc0__emb_sum L xV (Memref.isWhole_whole _) tV (Memref.isWhole_whole _) bV (Memref.isWhole_whole _) oV (Memref.isWhole_whole _)
            sI (Memref.isWhole_whole _) sVl (Memref.isWhole_whole _) sO (Memref.isWhole_whole _) sB (Memref.isWhole_whole _)
            cc0_scratch4 cc0_scratch5 cc0_scratch6 cc0_scoped0 cc0_scoped1)
          fun _ => iprop(tdRes m d (widL L) ∗ scopedBufs (thrOf d L) ∗ scopedSems0 (thrOf d L)
            ∗ ∃ W', ⌜∀ p ∈ W', p ∈ W ∨ p.2 = none⌝ ∗ owes (thrOf d L) O W') := by
  rw [cc0__emb_sum_eq_skeleton]; unfold cc0__emb_sum_skel
  rw [(K (F := F)).scopedBufs_V hF d (cV L) (jV L), SparseCore.Cfg.scopedSems0_V (Val := Elt F) d (cV L) (jV L), ownSems0_V, ownBufs_V]
  unfold goRes
  iintro ⟨#Hlv, -, ⟨Hx, Ht, Hb, Ho⟩, ⟨⟨%f0, Hs0⟩, ⟨%f1, Hs1⟩, ⟨%f2, Hs2⟩, ⟨%f3, Hs3⟩, Hbufs⟩, ⟨Hsem4, Hsem5, Hsem6, Hsc0, Hsc1, Hsems⟩, HO⟩
  ihave Hmw := ((K (F := F)).mayWaits_none (thr := thrOf d L) hO) $$ Hlv
  -- the thirteen copies of each half complete on one semaphore: a batch, its windows carved out of the index scratch
  have plan : Transfers.BatchOf (thrOf d L) (SemLoc.dma (sig := sig) cc0_scratch6.sem) 13 (windows := true) := trivial
  ihave Hx' := (Entails.of_eq (pts_x (F := F) d L _ _).symm) $$ Hx
  ihave Ht' := (Entails.of_eq (pts_t (F := F) d L _ _).symm) $$ Ht
  -- the table is read by two gathers in flight at once: a read share for each
  ihave Ht2 := (tbl_two (F := F) d L _ _).1 $$ Ht'
  icases Ht2 with ⟨Htd, Ht0, Ht1⟩
  ihave Hb' := (Entails.of_eq (pts_b (F := F) d L _ _).symm) $$ Hb
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  sl_exec
  -- the first gather's list: the first thirteen fields' indices, every word a row of the table
  have hin1 : ∀ x, (((sI).slice (Rect.unit (s := S13312) ![0] S6656.size inb_S13312_S6656_0) (fun _ => rfl)).view.read (Elt F)
      ((sI).view.writes (Elt F) f0 [⟨Rect.unit ![6144] S512.size inb_S13312_S512_6144, tile_body.sl.dma12 m d L⟩, ⟨Rect.unit ![5632] S512.size inb_S13312_S512_5632, tile_body.sl.dma11 m d L⟩, ⟨Rect.unit ![5120] S512.size inb_S13312_S512_5120, tile_body.sl.dma10 m d L⟩, ⟨Rect.unit ![4608] S512.size inb_S13312_S512_4608, tile_body.sl.dma9 m d L⟩, ⟨Rect.unit ![4096] S512.size inb_S13312_S512_4096, tile_body.sl.dma8 m d L⟩, ⟨Rect.unit ![3584] S512.size inb_S13312_S512_3584, tile_body.sl.dma7 m d L⟩, ⟨Rect.unit ![3072] S512.size inb_S13312_S512_3072, tile_body.sl.dma6 m d L⟩, ⟨Rect.unit ![2560] S512.size inb_S13312_S512_2560, tile_body.sl.dma5 m d L⟩, ⟨Rect.unit ![2048] S512.size inb_S13312_S512_2048, tile_body.sl.dma4 m d L⟩, ⟨Rect.unit ![1536] S512.size inb_S13312_S512_1536, tile_body.sl.dma3 m d L⟩, ⟨Rect.unit ![1024] S512.size inb_S13312_S512_1024, tile_body.sl.dma2 m d L⟩, ⟨Rect.unit ![512] S512.size inb_S13312_S512_512, tile_body.sl.dma1 m d L⟩, ⟨Rect.unit ![0] S512.size inb_S13312_S512_0, tile_body.sl.dma0 m d L⟩]) x).toNat < S2600000.size gathers_S2600000_S6656.axis := hin1_of m hpre d L f0
  sl_exec
  -- the second gather's list: the other thirteen
  have hin2 : ∀ x, (((sI).slice (Rect.unit (s := S13312) ![6656] S6656.size inb_S13312_S6656_6656) (fun _ => rfl)).view.read (Elt F)
      ((sI).view.writes (Elt F) f0 [⟨Rect.unit ![12800] S512.size inb_S13312_S512_12800, tile_body.sl.dma13 m d L⟩, ⟨Rect.unit ![12288] S512.size inb_S13312_S512_12288, tile_body.sl.dma12_1 m d L⟩, ⟨Rect.unit ![11776] S512.size inb_S13312_S512_11776, tile_body.sl.dma11_1 m d L⟩, ⟨Rect.unit ![11264] S512.size inb_S13312_S512_11264, tile_body.sl.dma10_1 m d L⟩, ⟨Rect.unit ![10752] S512.size inb_S13312_S512_10752, tile_body.sl.dma9_1 m d L⟩, ⟨Rect.unit ![10240] S512.size inb_S13312_S512_10240, tile_body.sl.dma8_1 m d L⟩, ⟨Rect.unit ![9728] S512.size inb_S13312_S512_9728, tile_body.sl.dma7_1 m d L⟩, ⟨Rect.unit ![9216] S512.size inb_S13312_S512_9216, tile_body.sl.dma6_1 m d L⟩, ⟨Rect.unit ![8704] S512.size inb_S13312_S512_8704, tile_body.sl.dma5_1 m d L⟩, ⟨Rect.unit ![8192] S512.size inb_S13312_S512_8192, tile_body.sl.dma4_1 m d L⟩, ⟨Rect.unit ![7680] S512.size inb_S13312_S512_7680, tile_body.sl.dma3_1 m d L⟩, ⟨Rect.unit ![7168] S512.size inb_S13312_S512_7168, tile_body.sl.dma2_1 m d L⟩, ⟨Rect.unit ![6656] S512.size inb_S13312_S512_6656, tile_body.sl.dma1_1 m d L⟩, ⟨Rect.unit ![6144] S512.size inb_S13312_S512_6144, tile_body.sl.dma12 m d L⟩, ⟨Rect.unit ![5632] S512.size inb_S13312_S512_5632, tile_body.sl.dma11 m d L⟩, ⟨Rect.unit ![5120] S512.size inb_S13312_S512_5120, tile_body.sl.dma10 m d L⟩, ⟨Rect.unit ![4608] S512.size inb_S13312_S512_4608, tile_body.sl.dma9 m d L⟩, ⟨Rect.unit ![4096] S512.size inb_S13312_S512_4096, tile_body.sl.dma8 m d L⟩, ⟨Rect.unit ![3584] S512.size inb_S13312_S512_3584, tile_body.sl.dma7 m d L⟩, ⟨Rect.unit ![3072] S512.size inb_S13312_S512_3072, tile_body.sl.dma6 m d L⟩, ⟨Rect.unit ![2560] S512.size inb_S13312_S512_2560, tile_body.sl.dma5 m d L⟩, ⟨Rect.unit ![2048] S512.size inb_S13312_S512_2048, tile_body.sl.dma4 m d L⟩, ⟨Rect.unit ![1536] S512.size inb_S13312_S512_1536, tile_body.sl.dma3 m d L⟩, ⟨Rect.unit ![1024] S512.size inb_S13312_S512_1024, tile_body.sl.dma2 m d L⟩, ⟨Rect.unit ![512] S512.size inb_S13312_S512_512, tile_body.sl.dma1 m d L⟩, ⟨Rect.unit ![0] S512.size inb_S13312_S512_0, tile_body.sl.dma0 m d L⟩]) x).toNat < S2600000.size gathers_S2600000_S6656.axis := hin2_of m hpre d L f0
  sl_exec
  -- the first loop: fields 0 … 12, below the window the second gather owns
  sl_for (inv1 (F := F) d L (Finset.univ \ ((sVl).slice (Rect.unit (s := S13312) ![6656] S6656.size inb_S13312_S6656_6656) (fun _ => rfl)).view.set) ((sVl).view.writes (Elt F) f1 [⟨Rect.unit ![6656] S6656.size inb_S13312_S6656_6656, tile_body.sl.gather0_1 m d L f0 hin2⟩, ⟨Rect.unit ![0] S6656.size inb_S13312_S6656_0, tile_body.sl.gather0 m d L f0 hin1⟩]) (outH1 m d L)) $$ [Hs1' Hs2']
  case region =>
    intro k _
    unfold inv1
    iintro ⟨Hv, %g, Hg, %hg⟩
    have hd27 : Disjoint ((sVl).view.setOn (Rect.unit (s := S13312) (k0_off27 k) S16.size (k0_off27_inb k)).set) (((sVl).slice (Rect.unit (s := S13312) ![6656] S6656.size inb_S13312_S6656_6656) (fun _ => rfl)).view.set) := box_disj _ _ (t1_off27 k)
    have hd28_0 : Disjoint ((sVl).view.setOn (Rect.unit (s := S13312) (k0_off28 k 512#32) S16.size (k0_off28_inb k 0)).set) (((sVl).slice (Rect.unit (s := S13312) ![6656] S6656.size inb_S13312_S6656_6656) (fun _ => rfl)).view.set) := box_disj _ _ (t1_off28 k 0)
    have hd28_2 : Disjoint ((sVl).view.setOn (Rect.unit (s := S13312) (k0_off28 k 1536#32) S16.size (k0_off28_inb k 2)).set) (((sVl).slice (Rect.unit (s := S13312) ![6656] S6656.size inb_S13312_S6656_6656) (fun _ => rfl)).view.set) := box_disj _ _ (t1_off28 k 2)
    have hd28_4 : Disjoint ((sVl).view.setOn (Rect.unit (s := S13312) (k0_off28 k 2560#32) S16.size (k0_off28_inb k 4)).set) (((sVl).slice (Rect.unit (s := S13312) ![6656] S6656.size inb_S13312_S6656_6656) (fun _ => rfl)).view.set) := box_disj _ _ (t1_off28 k 4)
    have hd28_6 : Disjoint ((sVl).view.setOn (Rect.unit (s := S13312) (k0_off28 k 3584#32) S16.size (k0_off28_inb k 6)).set) (((sVl).slice (Rect.unit (s := S13312) ![6656] S6656.size inb_S13312_S6656_6656) (fun _ => rfl)).view.set) := box_disj _ _ (t1_off28 k 6)
    have hd28_8 : Disjoint ((sVl).view.setOn (Rect.unit (s := S13312) (k0_off28 k 4608#32) S16.size (k0_off28_inb k 8)).set) (((sVl).slice (Rect.unit (s := S13312) ![6656] S6656.size inb_S13312_S6656_6656) (fun _ => rfl)).view.set) := box_disj _ _ (t1_off28 k 8)
    have hd28_10 : Disjoint ((sVl).view.setOn (Rect.unit (s := S13312) (k0_off28 k 5632#32) S16.size (k0_off28_inb k 10)).set) (((sVl).slice (Rect.unit (s := S13312) ![6656] S6656.size inb_S13312_S6656_6656) (fun _ => rfl)).view.set) := box_disj _ _ (t1_off28 k 10)
    have hd28_1 : Disjoint ((sVl).view.setOn (Rect.unit (s := S13312) (k0_off28 k 1024#32) S16.size (k0_off28_inb k 1)).set) (((sVl).slice (Rect.unit (s := S13312) ![6656] S6656.size inb_S13312_S6656_6656) (fun _ => rfl)).view.set) := box_disj _ _ (t1_off28 k 1)
    have hd28_3 : Disjoint ((sVl).view.setOn (Rect.unit (s := S13312) (k0_off28 k 2048#32) S16.size (k0_off28_inb k 3)).set) (((sVl).slice (Rect.unit (s := S13312) ![6656] S6656.size inb_S13312_S6656_6656) (fun _ => rfl)).view.set) := box_disj _ _ (t1_off28 k 3)
    have hd28_5 : Disjoint ((sVl).view.setOn (Rect.unit (s := S13312) (k0_off28 k 3072#32) S16.size (k0_off28_inb k 5)).set) (((sVl).slice (Rect.unit (s := S13312) ![6656] S6656.size inb_S13312_S6656_6656) (fun _ => rfl)).view.set) := box_disj _ _ (t1_off28 k 5)
    have hd28_7 : Disjoint ((sVl).view.setOn (Rect.unit (s := S13312) (k0_off28 k 4096#32) S16.size (k0_off28_inb k 7)).set) (((sVl).slice (Rect.unit (s := S13312) ![6656] S6656.size inb_S13312_S6656_6656) (fun _ => rfl)).view.set) := box_disj _ _ (t1_off28 k 7)
    have hd28_9 : Disjoint ((sVl).view.setOn (Rect.unit (s := S13312) (k0_off28 k 5120#32) S16.size (k0_off28_inb k 9)).set) (((sVl).slice (Rect.unit (s := S13312) ![6656] S6656.size inb_S13312_S6656_6656) (fun _ => rfl)).view.set) := box_disj _ _ (t1_off28 k 9)
    have hd28_11 : Disjoint ((sVl).view.setOn (Rect.unit (s := S13312) (k0_off28 k 6144#32) S16.size (k0_off28_inb k 11)).set) (((sVl).slice (Rect.unit (s := S13312) ![6656] S6656.size inb_S13312_S6656_6656) (fun _ => rfl)).view.set) := box_disj _ _ (t1_off28 k 11)
    sl_exec
    sl_step
    isplitl [Hv]; · iexact Hv
    iexists _; isplitl [Hg]; · iexact Hg
    ipureintro
    exact region1_pure m d L _ (fun p => vals_run m hpre d L f0 f1 _ hin1 hin2 p) _
      (fun l => (readAt_boxB _ l).trans ((congrFun (write_univ_whole f3 _) l).trans (bias_read m d l))) k g hg
  · unfold inv1
    isplitl [Hs1']; · iexact Hs1'
    iexists f2; isplitl [Hs2']; · iexact Hs2'
    ipureintro; intro j hj; omega
  iintro %r1 HI
  unfold inv1
  icases HI with ⟨Hv, %g1, Hg, %hg1⟩
  sl_exec
  have htrips1 : Scf.trips k0_t1_loop.lb k0_t1_loop.ub k0_t1_loop.st = 32 := by decide
  -- the second loop: fields 13 … 25 onto the first loop's sums
  sl_for (inv2 (F := F) d L ((sVl).view.writes (Elt F) (sVl).view.junk [⟨Rect.unit ![6656] S6656.size inb_S13312_S6656_6656, tile_body.sl.gather0_1 m d L f0 hin2⟩, ⟨Rect.unit ![0] S6656.size inb_S13312_S6656_0, tile_body.sl.gather0 m d L f0 hin1⟩]) (outH1 m d L) (outH2 m d L)) $$ [Hv Hg]
  case region =>
    intro k _
    unfold inv2
    iintro ⟨Hv, %g, Hg, %hg⟩
    sl_exec
    sl_step
    isplitl [Hv]; · iexact Hv
    iexists _; isplitl [Hg]; · iexact Hg
    ipureintro
    exact region2_pure m d L _ (fun p => vals_run m hpre d L f0 _ _ hin1 hin2 p) k g hg.1 hg.2
  · unfold inv2
    isplitl [Hv]; · iexact Hv
    iexists g1; isplitl [Hg]; · iexact Hg
    ipureintro
    refine ⟨fun j hj => by omega, fun j _ => hg1 j ?_⟩
    have hj : (j 0).val < 512 := (j 0).isLt
    rw [htrips1]; omega
  iintro %r2 HI
  unfold inv2
  icases HI with ⟨Hv, %g2, Hg, %hg2⟩
  sl_exec
  have htrips2 : Scf.trips k0_t2_loop.lb k0_t2_loop.ub k0_t2_loop.st = 32 := by decide
  have hg2' : ∀ j : S512.Idx, g2 j = outH2 m d L j := fun j => hg2.1 j (by
    have hj : (j 0).val < 512 := (j 0).isLt
    rw [htrips2]; omega)
  sl_step
  unfold tdRes
  isplitl [Hx' Htd Ht0 Ht1 Hb' Ho']
  · isplitl [Hx']
    · iapply (Entails.of_eq (pts_x (F := F) d L _ _)); iexact Hx'
    isplitl [Htd Ht0 Ht1]
    · iapply (Entails.of_eq (pts_t (F := F) d L _ _))
      iapply (tbl_two (F := F) d L _ _).2
      isplitl [Htd]; · iexact Htd
      isplitl [Ht0]; · iexact Ht0
      iexact Ht1
    isplitl [Hb']
    · iapply (Entails.of_eq (pts_b (F := F) d L _ _)); iexact Hb'
    -- the rows copied out are the kernel's value on the worker's rows
    iapply (Entails.of_eq (pts_o (F := F) d L _))
    iapply (Entails.of_eq (pointsTo_congr (out_final m d L (m (oLoc d)) _ (copy_pay m d L g2 hg2'))))
    iexact Ho'
  isplitl [Hs0' Hv Hg Hs3' Hbufs]
  · isplitl [Hs0']; · iexists _; iapply (Entails.of_eq (pts_s0 (F := F) d L _)); iexact Hs0'
    isplitl [Hv]; · iexists _; iapply (Entails.of_eq (pts_s1 (F := F) d L _)); iexact Hv
    isplitl [Hg]; · iexists _; iapply (Entails.of_eq (pts_s2 (F := F) d L _)); iexact Hg
    isplitl [Hs3']; · iexists _; iapply (Entails.of_eq (pts_s3 (F := F) d L _)); iexact Hs3'
    iexact Hbufs
  isplitl [Hsem4 Hsem5 Hsem6 Hsc0 Hsc1 Hsems]
  · isplitl [Hsem4]; · iexact Hsem4
    isplitl [Hsem5]; · iexact Hsem5
    isplitl [Hsem6]; · iexact Hsem6
    isplitl [Hsc0]; · iexact Hsc0
    isplitl [Hsc1]; · iexact Hsc1
    iexact Hsems
  iexists _; isplitr
  on_goal 2 => iexact HO
  ipureintro
  repeat (first | exact fun p hp => Or.inl hp | refine waits_ok _ rfl ?_)

end Cert.Proof.KB

end
-- ==== Proof.LaunchB.lean ====
/-
  The embedding-sum kernel's launch set-up: what the launch's handshakes carry to and from each of the 32 workers, the
  one task's obligation from the worker's body, how a SparseCore's share is its sixteen workers' shares, the launch's ghost
  state, and how the four arrays the call works on split into the 32 workers' shares and join back.
-/
import proofs.«207411_g41145786696212_cont_8to1_b_1804_24_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the handshakes carry -/

omit [FloatOps F] in
theorem nCore_zero : (K (F := F)).nCore 0 = 2 := rfl
omit [FloatOps F] in
theorem nSub_zero : (K (F := F)).nSub 0 = 16 := rfl

/-- Vector subcore i of the call's SparseCore c is worker 2 i + c. -/
def widCI (c : Fin ((K (F := F)).nCore 0)) (i : Fin ((K (F := F)).nSub 0)) : Fin 32 :=
  ⟨2 * i.val + c.val, by
    have h0 : c.val < 2 := c.isLt
    have h1 : i.val < 16 := i.isLt
    omega⟩

/-- The one call hands SparseCore c its sixteen workers' shares, each worker its own, and brings them back with each
    worker's rows of the result at the kernel's value; the kernel's proof takes nothing else from the launch. -/
def P : (K (F := F)).Pay (nD := nD) (Val := Elt F) (Name := ℕ) (U := UU) where
  st := fun q d c => match q with
    | 0 => bigSep Finset.univ fun i : Fin ((K (F := F)).nSub 0) => goRes m d (widCI c i)
  dn := fun q d c => match q with
    | 0 => bigSep Finset.univ fun i : Fin ((K (F := F)).nSub 0) => tdRes m d (widCI c i)
  go := fun q d c i => match q with | 0 => goRes m d (widCI c i)
  td := fun q d c i => match q with | 0 => tdRes m d (widCI c i)
  x := fun _ _ => iprop(emp)

theorem P_st (d : Dev nD) (c : Fin ((K (F := F)).nCore 0)) :
    (P m).st 0 d c = bigSep Finset.univ fun i : Fin ((K (F := F)).nSub 0) => goRes m d (widCI c i) := rfl
theorem P_dn (d : Dev nD) (c : Fin ((K (F := F)).nCore 0)) :
    (P m).dn 0 d c = bigSep Finset.univ fun i : Fin ((K (F := F)).nSub 0) => tdRes m d (widCI c i) := rfl
theorem P_go (d : Dev nD) (c : Fin ((K (F := F)).nCore 0)) (i : Fin ((K (F := F)).nSub 0)) :
    (P m).go 0 d c i = goRes m d (widCI c i) := rfl
theorem P_td (d : Dev nD) (c : Fin ((K (F := F)).nCore 0)) (i : Fin ((K (F := F)).nSub 0)) :
    (P m).td 0 d c i = tdRes m d (widCI c i) := rfl

instance goRes_storable (d : Dev nD) (w : Fin 32) : BI.Storable (upEmb : UEmb _ 𝕄) (goRes m d w) := by
  unfold goRes; infer_instance
instance tdRes_storable (d : Dev nD) (w : Fin 32) : BI.Storable (upEmb : UEmb _ 𝕄) (tdRes m d w) := by
  unfold tdRes; infer_instance

instance P_storable : (P (F := F) m).IsStorable where
  st q d c := match q with
    | 0 => (inferInstance : BI.Storable (upEmb : UEmb _ 𝕄)
        (bigSep Finset.univ fun i : Fin ((K (F := F)).nSub 0) => goRes m d (widCI c i)))
  dn q d c := match q with
    | 0 => (inferInstance : BI.Storable (upEmb : UEmb _ 𝕄)
        (bigSep Finset.univ fun i : Fin ((K (F := F)).nSub 0) => tdRes m d (widCI c i)))
  go q d c i := match q with | 0 => (inferInstance : BI.Storable (upEmb : UEmb _ 𝕄) (goRes m d (widCI c i)))
  td q d c i := match q with | 0 => (inferInstance : BI.Storable (upEmb : UEmb _ 𝕄) (tdRes m d (widCI c i)))

/-! ## The one task's obligation -/

theorem defs₀_vector (c : Fin τ.nSC) (s : Fin τ.nSub) :
    defs₀ (F := F) (.scVector c s) 0 ()
      = SparseCore.onTile hcore0 hsub0 (fun c s => cc0__emb_sum (coordsV c s)
          xV (Memref.isWhole_whole _) tV (Memref.isWhole_whole _) bV (Memref.isWhole_whole _) oV (Memref.isWhole_whole _)
          sI (Memref.isWhole_whole _) sVl (Memref.isWhole_whole _) sO (Memref.isWhole_whole _) sB (Memref.isWhole_whole _)
          cc0_scratch4 cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) (hpre : PreOK m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hF hpre d (coordsV ⟨_, hc.1⟩ ⟨_, hc.2⟩) O W hO).trans (wp_mono frame _ _ fun _ => obl_post)

/-! ## A SparseCore's share is its sixteen workers' shares -/

theorem vecSplit : (K (F := F)).VecSplit' (P m) 0 := by
  intro d c
  rw [P_st, P_dn]
  simp only [P_go, P_td]
  iintro H; imodintro
  isplitl [H]; · iexact H
  iintro H; iexact H

/-! ## The launch's ghost state: the handshakes' rounds; the kernel's own copies need no schedule -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The call's four arrays, split into the 32 workers' shares and joined back -/

/-- Vector subcore i of SparseCore c ↦ worker 2 i + c numbers the 2 × 16 vector subcores by 0 … 31. -/
def widEquiv : Fin ((K (F := F)).nCore 0) × Fin ((K (F := F)).nSub 0) ≃ Fin 32 where
  toFun p := widCI p.1 p.2
  invFun w := (⟨w.val % 2, Nat.mod_lt _ (by decide)⟩, ⟨w.val / 2, by have := w.isLt; show w.val / 2 < 16; omega⟩)
  left_inv p := by
    obtain ⟨c, i⟩ := p
    have h0 : c.val < 2 := c.isLt
    have h1 : i.val < 16 := i.isLt
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

omit [FloatOps F] in
/-- A family over the workers, taken SparseCore by SparseCore and vector subcore by vector subcore, is the family over
    the 32 workers. -/
theorem bigSep_workers (Φ : Fin 32 → sProp 𝕄) :
    (bigSep Finset.univ fun c : Fin ((K (F := F)).nCore 0) => bigSep Finset.univ fun i : Fin ((K (F := F)).nSub 0) => Φ (widCI c i))
      = bigSep Finset.univ Φ := by
  rw [← BI.bigSep_univ_prod (fun p : Fin ((K (F := F)).nCore 0) × Fin ((K (F := F)).nSub 0) => Φ (widCI p.1 p.2))]
  exact (BI.bigSep_univ_equiv (widEquiv (F := F)) Φ).symm

omit [FloatOps F] in
theorem oSets_disjoint : ∀ w ∈ (Finset.univ : Finset (Fin 32)), ∀ w' ∈ (Finset.univ : Finset (Fin 32)), w ≠ w' → Disjoint (oSet w) (oSet w') :=
  fun _ _ _ _ h => Rect.part_disjoint hdiv32 h
omit [FloatOps F] in
theorem oSets_cover : (Finset.univ : Finset (Fin 32)).biUnion oSet = Finset.univ := Rect.biUnion_part hdiv32

omit [FloatOps F] in
/-- The result vector whole is its 32 runs of 512 rows. -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]

/-- What the call keeps of the three arrays it reads while the workers hold their tokens. -/
def callRest (d : Dev nD) : sProp 𝕄 :=
  iprop((xLoc d ↦{Transfers.shareDrop fullShare 32} xTc m d) ∗ (tLoc d ↦{Transfers.shareDrop fullShare 32} tblc m d)
    ∗ (bLoc d ↦{Transfers.shareDrop fullShare 32} b16c m d))

theorem st_all (d : Dev nD) :
    (bigSep Finset.univ fun c : Fin ((K (F := F)).nCore 0) => (P m).st 0 d c) = bigSep Finset.univ fun w : Fin 32 => goRes m d w :=
  bigSep_workers (goRes m d)
theorem dn_all (d : Dev nD) :
    (bigSep Finset.univ fun c : Fin ((K (F := F)).nCore 0) => (P m).dn 0 d c) = bigSep Finset.univ fun w : Fin 32 => tdRes m d w :=
  bigSep_workers (tdRes m d)

/-- The three arrays the call reads and the result vector, whole, are the 32 workers' shares and the call's remainders. -/
theorem call_split (d : Dev nD) :
    iprop((xLoc d ↦{fullShare} xTc m d) ∗ (tLoc d ↦{fullShare} tblc m d) ∗ (bLoc d ↦{fullShare} b16c m d)
        ∗ (oLoc d ↦{fullShare} m (oLoc d)))
      ⊢ iprop((bigSep Finset.univ fun c : Fin ((K (F := F)).nCore 0) => (P m).st 0 d c) ∗ callRest m d) := by
  rw [st_all]
  unfold goRes callRest
  rw [bigSep_sep', bigSep_sep', bigSep_sep', ← oPts_rows]
  iintro ⟨Hx, Ht, Hb, Ho⟩
  ihave Hx' := (Transfers.pointsTo_toks_split fullShare 32) $$ Hx
  ihave Ht' := (Transfers.pointsTo_toks_split fullShare 32) $$ Ht
  ihave Hb' := (Transfers.pointsTo_toks_split fullShare 32) $$ Hb
  icases Hx' with ⟨Hxr, Hxs⟩
  icases Ht' with ⟨Htr, Hts⟩
  icases Hb' with ⟨Hbr, Hbs⟩
  isplitl [Hxs Hts Hbs Ho]
  · isplitl [Hxs]; · iexact Hxs
    isplitl [Hts]; · iexact Hts
    isplitl [Hbs]; · iexact Hbs
    iexact Ho
  · isplitl [Hxr]; · iexact Hxr
    isplitl [Htr]; · iexact Htr
    iexact Hbr

/-- and back, the result vector at the kernel's value. -/
theorem call_join (d : Dev nD) :
    iprop((bigSep Finset.univ fun c : Fin ((K (F := F)).nCore 0) => (P m).dn 0 d c) ∗ callRest m d)
      ⊢ iprop((xLoc d ↦{fullShare} xTc m d) ∗ (tLoc d ↦{fullShare} tblc m d) ∗ (bLoc d ↦{fullShare} b16c m d)
        ∗ (oLoc d ↦{fullShare} kerOut (xTc m d) (tblc m d) (b16c m d))) := by
  rw [dn_all]
  unfold tdRes callRest
  rw [bigSep_sep', bigSep_sep', bigSep_sep', ← oPts_rows]
  iintro ⟨⟨Hxs, Hts, Hbs, Ho⟩, Hxr, Htr, Hbr⟩
  isplitl [Hxs Hxr]
  · iapply (Transfers.pointsTo_toks_join fullShare 32); isplitl [Hxr]; · iexact Hxr
    iexact Hxs
  isplitl [Hts Htr]
  · iapply (Transfers.pointsTo_toks_join fullShare 32); isplitl [Htr]; · iexact Htr
    iexact Hts
  isplitl [Hbs Hbr]
  · iapply (Transfers.pointsTo_toks_join fullShare 32); isplitl [Hbr]; · iexact Hbr
    iexact Hbs
  iexact Ho

end Cert.Proof.KB

end
-- ==== Proof.MainB.lean ====
/-
  @main on the TensorCore, and the program's run: the seven host operations before the SparseCore call leave the index
  array transposed, the table flattened and the bias word in sixteen lanes; the call takes those three arrays and the result
  vector and hands them back with the result vector at the kernel's value; the reshape after it makes the result column;
  the three arguments are never written. From that, and each vector subcore's task, every weakly fair execution of the device's
  threads ends with the result column at the reshaped kernel value and the arguments as launched.
-/
import proofs.«207411_g41145786696212_cont_8to1_b_1804_24_alg».proof.Proof.LaunchB
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ)

/-! ## The program's arrays as device buffers, and its host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v5 : Ref sig .tc)
abbrev t' : DevRef τ sig := Proc.devRef .tc (main_v4 : Ref sig .tc)
abbrev b' : DevRef τ sig := Proc.devRef .tc (main_v6 : Ref sig .tc)
abbrev o' : DevRef τ sig := Proc.devRef .tc (main_v7 : Ref sig .tc)
abbrev r' : DevRef τ sig := Proc.devRef .tc (main_v8 : Ref sig .tc)

/-- Every array of the program: the TensorCore's unscoped buffers. -/
abbrev SU : Finset (DevRef τ sig) := Pipeline.ucRefs τ sig

/-- The seven operations before the call, in order. -/
def ops7 : List (HloOp τ sig (Elt F)) :=
  [StableHlo.unary main_arg1 main_v0 ((extractStridedSlice S2599936x1 ![0, 0] · slices_S2600000x1_S2599936x1_0_0) : (⟨S2600000x1, .f32⟩ : BufTy).Contents (Elt F) → (⟨S2599936x1, .f32⟩ : BufTy).Contents (Elt F)),
   StableHlo.reshape main_v0 main_v1 rfl shapeCasts_S2599936x1_S2599936,
   StableHlo.unary main_arg1 main_v2 ((extractStridedSlice S64x1 ![2599936, 0] · slices_S2600000x1_S64x1_2599936_0) : (⟨S2600000x1, .f32⟩ : BufTy).Contents (Elt F) → (⟨S64x1, .f32⟩ : BufTy).Contents (Elt F)),
   StableHlo.reshape main_v2 main_v3 rfl shapeCasts_S64x1_S64,
   StableHlo.binary main_v1 main_v3 main_v4 ((fun a b => concatenate S2600000 0 [⟨S2599936, a⟩, ⟨S64, b⟩] concatenates_S2599936_S64_S2600000_d0) : (⟨S2599936, .f32⟩ : BufTy).Contents (Elt F) → (⟨S64, .f32⟩ : BufTy).Contents (Elt F) → (⟨S2600000, .f32⟩ : BufTy).Contents (Elt F)),
   StableHlo.unary main_arg0 main_v5 ((transpose S26x16384 [1, 0] · transposes_S16384x26_S26x16384_1_0) : (⟨S16384x26, .i32⟩ : BufTy).Contents (Elt F) → (⟨S26x16384, .i32⟩ : BufTy).Contents (Elt F)),
   StableHlo.unary main_arg2 main_v6 (broadcastInDim S16 ![0] bcast_S1_S16_0 : (⟨S1, .f32⟩ : BufTy).Contents (Elt F) → (⟨S16, .f32⟩ : BufTy).Contents (Elt F))]

/-- The reshape after the call. -/
abbrev opR : HloOp τ sig (Elt F) := StableHlo.reshape main_v7 main_v8 rfl shapeCasts_S16384_S16384x1

/-- What follows the seven operations: the call, the reshape, the return. -/
def rest (d : Dev nD) : Prog (TpuEff nD τ sig (Elt F) (SparseCore.Sig (ΛP (F := F)) 1) .tc) PUnit :=
  (K (F := F)).run d 0 >>= fun _ => (hlo rfl (opR (F := F)) (fun _ => .ret (⟨⟩ : PUnit)) >>= fun _ => pure ⟨⟩)

theorem main_eq (d : Dev nD) : main (F := F) d = (StableHlo.seq (ops7 (F := F)) >>= fun _ => rest d) := rfl

theorem ops7_sub : (ops7 (F := F)).Forall fun op => op.bufs ⊆ StableHlo.tcRefs τ sig :=
  ⟨StableHlo.unary_bufs_sub .., StableHlo.reshape_bufs_sub .., StableHlo.unary_bufs_sub .., StableHlo.reshape_bufs_sub ..,
    StableHlo.binary_bufs_sub .., StableHlo.unary_bufs_sub .., StableHlo.unary_bufs_sub ..⟩

theorem ops7_fresh : (ops7 (F := F)).Forall fun op => op.fresh = ∅ := ⟨rfl, rfl, rfl, rfl, rfl, rfl, rfl⟩

theorem opR_sub : (opR (F := F)).bufs ⊆ SU := Pipeline.sub_ucRefs _ (StableHlo.reshape_bufs_sub ..)

/-! ## The arrays' contents along @main -/

/-- At the launch. -/
def V0 (d : Dev nD) : Valuation τ sig (Elt F) := fun b => m (d, b)
/-- After the seven operations. -/
def W7 (d : Dev nD) : Valuation τ sig (Elt F) := StableHlo.after (ops7 (F := F)) (V0 m d)
/-- After the call: the result vector at the kernel's value. -/
def V1 (d : Dev nD) : Valuation τ sig (Elt F) := Function.update (W7 m d) o' (kerOut (xTc m d) (tblc m d) (b16c m d))

theorem W7_x (d : Dev nD) : W7 m d x' = xTc m d := by
  unfold W7 ops7; after_results; rfl
theorem W7_t (d : Dev nD) : W7 m d t' = tblc m d := by
  unfold W7 ops7; after_results; rfl
theorem W7_b (d : Dev nD) : W7 m d b' = b16c m d := by
  unfold W7 ops7; after_results; rfl
theorem W7_o (d : Dev nD) : W7 m d o' = m (oLoc d) := by
  unfold W7 ops7; after_results; rfl
theorem W7_a0 (d : Dev nD) : W7 m d a0' = m (a0Loc d) := by
  unfold W7 ops7; after_results; rfl
theorem W7_a1 (d : Dev nD) : W7 m d a1' = m (a1Loc d) := by
  unfold W7 ops7; after_results; rfl
theorem W7_a2 (d : Dev nD) : W7 m d a2' = m (a2Loc d) := by
  unfold W7 ops7; after_results; rfl

/-! ## Four arrays out of all of them, and back -/

/-- The four arrays the call works on. -/
abbrev T4 : Finset (DevRef τ sig) := {x', t', b', o'}
/-- The three arguments and the result column. -/
abbrev TR : Finset (DevRef τ sig) := {a0', a1', a2', r'}

theorem T4_sub : T4 ⊆ SU := by
  intro b hb
  simp only [Finset.mem_insert, Finset.mem_singleton] at hb
  rcases hb with rfl | rfl | rfl | rfl <;> exact Finset.mem_filter.mpr ⟨StableHlo.devRef_mem_tcRefs _, by decide⟩

theorem TR_sub : TR ⊆ SU := by
  intro b hb
  simp only [Finset.mem_insert, Finset.mem_singleton] at hb
  rcases hb with rfl | rfl | rfl | rfl <;> exact Finset.mem_filter.mpr ⟨StableHlo.devRef_mem_tcRefs _, by decide⟩

omit [FloatOps F] in
theorem held_T4 (d : Dev nD) (W : Valuation τ sig (Elt F)) :
    (held (T d) T4 W : sProp 𝕄) = iprop((xLoc d ↦{fullShare} W x') ∗ (tLoc d ↦{fullShare} W t') ∗ (bLoc d ↦{fullShare} W b') ∗ (oLoc d ↦{fullShare} W o')) := by
  unfold held T4
  rw [SparseCore.bigSep_insert' (by decide), SparseCore.bigSep_insert' (by decide), SparseCore.bigSep_insert' (by decide), bigSep_singleton]

omit [FloatOps F] in
theorem held_TR (d : Dev nD) (W : Valuation τ sig (Elt F)) :
    (held (T d) TR W : sProp 𝕄) = iprop((a0Loc d ↦{fullShare} W a0') ∗ (a1Loc d ↦{fullShare} W a1') ∗ (a2Loc d ↦{fullShare} W a2') ∗ (rLoc d ↦{fullShare} W r')) := by
  unfold held TR
  rw [SparseCore.bigSep_insert' (by decide), SparseCore.bigSep_insert' (by decide), SparseCore.bigSep_insert' (by decide), bigSep_singleton]

omit [FloatOps F] in
theorem held_SU_split (d : Dev nD) (W : Valuation τ sig (Elt F)) :
    (held (T d) SU W : sProp 𝕄) = iprop(((xLoc d ↦{fullShare} W x') ∗ (tLoc d ↦{fullShare} W t') ∗ (bLoc d ↦{fullShare} W b') ∗ (oLoc d ↦{fullShare} W o'))
      ∗ held (T d) (SU \ T4) W) := by
  rw [StableHlo.held_sub_split (T d) T4_sub W, held_T4]

omit [FloatOps F] in
theorem held_SU_splitR (d : Dev nD) (W : Valuation τ sig (Elt F)) :
    (held (T d) SU W : sProp 𝕄) = iprop(((a0Loc d ↦{fullShare} W a0') ∗ (a1Loc d ↦{fullShare} W a1') ∗ (a2Loc d ↦{fullShare} W a2') ∗ (rLoc d ↦{fullShare} W r'))
      ∗ held (T d) (SU \ TR) W) := by
  rw [StableHlo.held_sub_split (T d) TR_sub W, held_TR]

theorem V1_x (d : Dev nD) : V1 m d x' = xTc m d := (Function.update_of_ne (show x' ≠ o' by decide) _ _).trans (W7_x m d)
theorem V1_t (d : Dev nD) : V1 m d t' = tblc m d := (Function.update_of_ne (show t' ≠ o' by decide) _ _).trans (W7_t m d)
theorem V1_b (d : Dev nD) : V1 m d b' = b16c m d := (Function.update_of_ne (show b' ≠ o' by decide) _ _).trans (W7_b m d)
theorem V1_o (d : Dev nD) : V1 m d o' = kerOut (xTc m d) (tblc m d) (b16c m d) := Function.update_self _ _ _
theorem V1_a0 (d : Dev nD) : V1 m d a0' = m (a0Loc d) := (Function.update_of_ne (show a0' ≠ o' by decide) _ _).trans (W7_a0 m d)
theorem V1_a1 (d : Dev nD) : V1 m d a1' = m (a1Loc d) := (Function.update_of_ne (show a1' ≠ o' by decide) _ _).trans (W7_a1 m d)
theorem V1_a2 (d : Dev nD) : V1 m d a2' = m (a2Loc d) := (Function.update_of_ne (show a2' ≠ o' by decide) _ _).trans (W7_a2 m d)

theorem held_rest_V1 (d : Dev nD) : (held (T d) (SU \ T4) (V1 m d) : sProp 𝕄) = held (T d) (SU \ T4) (W7 m d) :=
  StableHlo.held_congr (T d) fun b hb =>
    Function.update_of_ne (show b ≠ o' from fun e => (Finset.mem_sdiff.mp hb).2 (e ▸ (by decide : o' ∈ T4))) _ _

/-- All the arrays after the seven operations: the four the call works on, and the rest. -/
theorem held_W7 (d : Dev nD) :
    (held (T d) SU (W7 m d) : sProp 𝕄) = iprop(((xLoc d ↦{fullShare} xTc m d) ∗ (tLoc d ↦{fullShare} tblc m d) ∗ (bLoc d ↦{fullShare} b16c m d) ∗ (oLoc d ↦{fullShare} m (oLoc d)))
      ∗ held (T d) (SU \ T4) (W7 m d)) := by
  rw [held_SU_split, W7_x, W7_t, W7_b, W7_o]

/-- All the arrays after the call. -/
theorem held_V1 (d : Dev nD) :
    (held (T d) SU (V1 m d) : sProp 𝕄) = iprop(((xLoc d ↦{fullShare} xTc m d) ∗ (tLoc d ↦{fullShare} tblc m d) ∗ (bLoc d ↦{fullShare} b16c m d)
        ∗ (oLoc d ↦{fullShare} kerOut (xTc m d) (tblc m d) (b16c m d)))
      ∗ held (T d) (SU \ T4) (W7 m d)) := by
  rw [held_SU_split, held_rest_V1, V1_x, V1_t, V1_b, V1_o]

/-! ## What @main leaves -/

/-- The result column: the kernel's vector, reshaped. -/
def resOut (d : Dev nD) : S16384x1.Idx → F .f32 := Cert.EmbSum.HostB.outCol (F := F) (kerOut (xTc m d) (tblc m d) (b16c m d))

abbrev FIN (d : Dev nD) : sProp 𝕄 :=
  iprop((a0Loc d ↦{fullShare} m (a0Loc d)) ∗ (a1Loc d ↦{fullShare} m (a1Loc d)) ∗ (a2Loc d ↦{fullShare} m (a2Loc d)) ∗ (rLoc d ↦{fullShare} resOut m d))

theorem R_a0 (d : Dev nD) : (opR (F := F)).result (V1 m d) a0' = m (a0Loc d) :=
  ((opR (F := F)).result_of_not_mem (V1 m d) (b := a0') (show a0' ∉ ({r'} : Finset (DevRef τ sig)) by decide)).trans (V1_a0 m d)
theorem R_a1 (d : Dev nD) : (opR (F := F)).result (V1 m d) a1' = m (a1Loc d) :=
  ((opR (F := F)).result_of_not_mem (V1 m d) (b := a1') (show a1' ∉ ({r'} : Finset (DevRef τ sig)) by decide)).trans (V1_a1 m d)
theorem R_a2 (d : Dev nD) : (opR (F := F)).result (V1 m d) a2' = m (a2Loc d) :=
  ((opR (F := F)).result_of_not_mem (V1 m d) (b := a2') (show a2' ∉ ({r'} : Finset (DevRef τ sig)) by decide)).trans (V1_a2 m d)
theorem R_r (d : Dev nD) : (opR (F := F)).result (V1 m d) r' = resOut m d := by
  refine (StableHlo.reshape_result main_v7 main_v8 rfl shapeCasts_S16384_S16384x1 ⟨by decide, rfl⟩ ⟨by decide, rfl⟩ (V1 m d)).trans ?_
  show Cert.EmbSum.HostB.outCol (F := F) (V1 m d o') = _
  rw [V1_o]; rfl

/-- All the arrays after the reshape: the arguments as launched, the result column, and the rest. -/
theorem held_fin (d : Dev nD) :
    (held (T d) SU ((opR (F := F)).result (V1 m d)) : sProp 𝕄) = iprop(FIN m d ∗ held (T d) (SU \ TR) ((opR (F := F)).result (V1 m d))) := by
  rw [held_SU_splitR, R_a0, R_a1, R_a2, R_r]

/-! ## @main on the TensorCore -/

/-- @main on device d's TensorCore: the seven operations, the call (its four arrays out of all of them, and back, the
    result vector at the kernel's value), the reshape; the arguments kept. -/
theorem hmain (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (T d) SU (V0 m d) from
    Pipeline.unscopedBufs_held d (V0 m d), main_eq]
  iintro ⟨#Hctx, Hst, ⟨Hb, Hheld, -, -⟩, -⟩
  -- the seven operations
  iapply (StableHlo.wp_seq (defs := (K (F := F)).defs (D (F := F))) 𝒱 none Set.univ d SU _ (ops7 (F := F))
      (fun op h => Pipeline.sub_ucRefs op ((List.forall_iff_forall_mem.mp ops7_sub) op h))
      (List.forall_iff_forall_mem.mp ops7_fresh) (V0 m d)) $$ [Hb Hheld]
  · isplitl [Hb]; · iexact Hb
    iexact Hheld
  iintro ⟨Hb, Hheld⟩
  have hW7 : (held (d.tc : Thread nD τ) SU (StableHlo.after (ops7 (F := F)) (V0 m d)) : sProp 𝕄) = _ := held_W7 m d
  ihave Hh := (Entails.of_eq hW7) $$ Hheld
  icases Hh with ⟨Hfour, Hrest⟩
  ihave Hs := (call_split m d) $$ Hfour
  icases Hs with ⟨Hst0, Hcr⟩
  -- the call
  simp only [rest, wp_bind, wp_pure]
  iapply ((K (F := F)).wp_run (D (F := F)) 𝒱 (EH := EH) (P := P m) κ d 0) $$ [Hst Hst0 Hb Hrest Hcr]
  isplitr; · iexact Hctx
  isplitl [Hst]; · iexact Hst
  isplitl [Hst0]; · iexact Hst0
  iintro ⟨Hst, Hdn⟩
  ihave Hj := (call_join m d) $$ [Hdn Hcr]
  · isplitl [Hdn]; · iexact Hdn
    iexact Hcr
  -- the reshape
  iapply (wp_hlo_within 𝒱 (SparseCore.T d) none Set.univ (op := opR) (S := SU) opR_sub (V := V1 m d)) $$ [Hb Hj Hrest]
  · isplitl [Hb]; · iexact Hb
    rw [held_V1]
    isplitl [Hj]; · iexact Hj
    iexact Hrest
  iintro ⟨Hb, Hheld⟩
  ihave Hh := (Entails.of_eq (held_fin m d)) $$ Hheld
  icases Hh with ⟨Hfin, -⟩
  rw [wp_ret]; imodintro; imodintro
  isplitl [Hst]; · iexact Hst
  iexact Hfin

/-! ## The final memory, and the program's run -/

/-- What the final memory holds on device d: the result column at the reshaped kernel value, the arguments as launched. -/
def fq (d : Dev nD) (s' : Phys nD τ sig (Elt F)) : Prop :=
  s'.mem.mem (rLoc d) = resOut m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := resOut m d)) $$ [HSI Hr]
  · isplitl [HSI] <;> iassumption
  icases H with %hr
  ipureintro
  exact ⟨funext fun i => hr i (Finset.mem_univ i), funext fun i => h0 i (Finset.mem_univ i),
    funext fun i => h1 i (Finset.mem_univ i), funext fun i => h2 i (Finset.mem_univ i)⟩

/-- The program's post: on every device the result column is the kernel's vector reshaped, and the arguments are as launched. -/
def QC : PUnit × MemSt nD τ sig (Elt F) → Prop := fun r =>
  ∀ c : Dev nD, r.2.mem (rLoc c) = resOut m c ∧ r.2.mem (a0Loc c) = m (a0Loc c) ∧ r.2.mem (a1Loc c) = m (a1Loc c) ∧ r.2.mem (a2Loc c) = m (a2Loc c)

/-- Every weakly fair execution of the device's threads from the launch memory ends, and ends at the post. -/
theorem run_main [∀ e, Nonempty (Elt F e)] (ρ : Dev nD → PrngReg) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.SumOrder.lean ====
/-
  The order in which one result row is added up, against the plain sum. The additions are those of a commutative
  monoid (on the extended reals addition is commutative and associative at the infinities too), so every bracketing
  and every order of the same 27 summands gives the same value; no finiteness is used.
-/
import Mathlib.Algebra.BigOperators.Fin
import Mathlib.Tactic.Abel
import proofs.«207411_g41145786696212_cont_8to1_b_1804_24_alg».proof.Proof.Spec

open scoped BigOperators

namespace Cert.EmbSum

/-- The 26 looked-up values of one row and the bias word `β`, added in two halves of 13 values. In each half there
    are two running sums, one over the half's odd-numbered and one over its even-numbered fields; the first of the
    two starts from what came before (the bias in the first half, the first half's total in the second), and the
    two are then added. `+` associates to the left, so each unbracketed run below is a running sum:
    `A0 = β + v 1 + … + v 11`, `A1 = v 0 + v 2 + … + v 12`, `H = A0 + A1`,
    `B0 = H + v 14 + … + v 24`, `B1 = v 13 + v 15 + … + v 25`, and the value is `B0 + B1`. -/
def kerOrder {α : Type*} [AddCommMonoid α] (β : α) (v : Fin 26 → α) : α :=
  (β + v 1 + v 3 + v 5 + v 7 + v 9 + v 11 + (v 0 + v 2 + v 4 + v 6 + v 8 + v 10 + v 12)
      + v 14 + v 16 + v 18 + v 20 + v 22 + v 24)
    + (v 13 + v 15 + v 17 + v 19 + v 21 + v 23 + v 25)

/-- The 26 members of `Fin 26`, in order. -/
theorem kerOrder_finRange26 : List.finRange 26 = [0, 1, 2, 3, 4, 5, 6, 7, 8, 9, 10, 11, 12, 13, 14, 15, 16, 17, 18, 19, 20,
    21, 22, 23, 24, 25] := by
  decide

/-- The 26 summands of `∑ f : Fin 26, v f`, written out. -/
theorem kerOrder_sum_fin26 {α : Type*} [AddCommMonoid α] (v : Fin 26 → α) :
    (∑ f : Fin 26, v f) = v 0 + (v 1 + (v 2 + (v 3 + (v 4 + (v 5 + (v 6 + (v 7 + (v 8 + (v 9 + (v 10 + (v 11 + (v 12
      + (v 13 + (v 14 + (v 15 + (v 16 + (v 17 + (v 18 + (v 19 + (v 20 + (v 21 + (v 22 + (v 23 + (v 24
      + v 25)))))))))))))))))))))))) := by
  rw [Fin.sum_univ_def, kerOrder_finRange26]
  simp only [List.map_cons, List.map_nil, List.sum_cons, List.sum_nil, add_zero]

/-- That order of addition gives the plain sum of the 26 values, plus the bias. -/
theorem kerOrder_eq {α : Type*} [AddCommMonoid α] (β : α) (v : Fin 26 → α) :
    kerOrder β v = (∑ f : Fin 26, v f) + β := by
  rw [kerOrder_sum_fin26, kerOrder]
  abel

end Cert.EmbSum
-- ==== Proof.Bridge.lean ====
/-
  The kernel's value against the stated function, at the ideal values: the kernel's tree of 26 additions is the plain
  sum plus the bias (addition of extended reals is commutative and associative), each summand is the table's entry at
  the row the index word names (the word in range, the flattened table's entry n the column's row n), every bias lane
  holds the bias word, and row r of the result column is entry r of the result vector.
-/
import proofs.«207411_g41145786696212_cont_8to1_b_1804_24_alg».proof.Proof.Common
import proofs.«207411_g41145786696212_cont_8to1_b_1804_24_alg».proof.Proof.SumOrder
import proofs.«207411_g41145786696212_cont_8to1_b_1804_24_alg».proof.Proof.PreRange

noncomputable section

open scoped BigOperators

namespace Cert.Proof.Bridge

open Idealize.ShloMosaic Idealize.ShloMosaic.ValueIdx

/-- The kernel's tree of additions, over a commutative monoid's addition, is the stated order of addition. -/
theorem kerTree_add {α : Type} [AddCommMonoid α] (β : α) (v : Fin 26 → α) :
    Cert.Proof.KI.kerTree (fun a b => a + b) β v = Cert.EmbSum.kerOrder β v := rfl

/-- Entry n of the flattened table, for a word in range, is the stated table entry. -/
theorem tblGet_eq (tbl : FVec Ideal Cert.KernelIdeal.S2600000x1 .f32) (n : ℕ) (hn : n < 2600000) :
    Cert.Proof.KI.tblGet (F := Ideal) (Cert.EmbSum.Host.tblLin (F := Ideal) tbl) n = Cert.EmbSum.tblAt tbl n := by
  unfold Cert.Proof.KI.tblGet Cert.EmbSum.tblAt
  rw [dif_pos hn, dif_pos hn]
  exact Cert.EmbSum.Host.tblLin_apply tbl ⟨n, hn⟩

/-- THE KERNEL'S VALUE under the precondition: the result column is the stated function of the three arguments. -/
theorem kerOut_eq_out (x : IVec Cert.KernelIdeal.S16384x26 32) (tbl : FVec Ideal Cert.KernelIdeal.S2600000x1 .f32)
    (b : FVec Ideal Cert.KernelIdeal.S1 .f32) (hx : Cert.EmbSum.InRange x) :
    Cert.EmbSum.Host.outCol (F := Ideal) (Cert.Proof.KI.kerOut (F := Ideal) (Cert.EmbSum.Host.xT x)
        (Cert.EmbSum.Host.tblLin (F := Ideal) tbl) (Cert.EmbSum.Host.bias16 (F := Ideal) b))
      = Cert.EmbSum.out x tbl b := by
  funext j
  obtain ⟨r, u, rfl⟩ : ∃ r u, j = ix2 r u := ⟨j 0, j 1, eq_ix2 j⟩
  rw [Cert.EmbSum.Host.outCol_apply]
  show Cert.Proof.KI.kerTree (fun a b : EReal => a + b)
      (Cert.EmbSum.Host.bias16 (F := Ideal) b (ix1 ⟨r.val % 16, Nat.mod_lt _ (by decide)⟩))
      (fun f => Cert.Proof.KI.tblGet (F := Ideal) (Cert.EmbSum.Host.tblLin (F := Ideal) tbl)
        (Cert.EmbSum.Host.xT x (ix2 f r)).toNat)
    = (∑ f : Fin 26, Cert.EmbSum.tblAt tbl (x (ix2 r f)).toNat) + b (ix1 0)
  rw [kerTree_add, Cert.EmbSum.kerOrder_eq, Cert.EmbSum.Host.bias16_apply]
  refine congrArg (· + b (ix1 0)) (Finset.sum_congr rfl fun f _ => ?_)
  rw [Cert.EmbSum.Host.xT_apply]
  exact tblGet_eq tbl _ (Cert.EmbSum.Pre.toNat_lt_of_inRange hx _)

end Cert.Proof.Bridge

end
-- ==== Proof.RefRun.lean ====
/-
  The reference's run, as a straight line: its @main (the outlined functions unfolded at their calls) as a list of
  host operations, the run of that list, and the result array as one pure term refOut of the three argument arrays.
-/
import proofs.«207411_g41145786696212_cont_8to1_b_1804_24_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 28 operations, in order: the 23 of the outlined lookup (with the one select of the outlined
    index wrap in its place), then the zero, the sum over the fields, the bias's two broadcasts, the addition. -/
abbrev ops : List (HloOp τ sig (Elt F)) :=
  [ TRef.nullary main_call0.c (constantI S_ 32 0#32),
    TRef.unary main_call0.c main_call0.v0 (broadcastInDim S16384x26 ![] bcast_S_S16384x26),
    TRef.binary (.of main_arg0) main_call0.v0 main_call0.v1 (cmpi .slt),
    TRef.nullary main_call0.c_0 (constantI S_ 32 2600000#32),
    TRef.unary main_call0.c_0 main_call0.v2 (broadcastInDim S16384x26 ![] bcast_S_S16384x26),
    TRef.binary (.of main_arg0) main_call0.v2 main_call0.v3 addi,
    TRef.ternary main_call0.v1 main_call0.v3 (.of main_arg0) main_call0.call0.v0 select,
    TRef.unary main_call0.call0.v0 main_call0.v5 (broadcastInDim S16384x26x1 ![0, 1] bcast_S16384x26_S16384x26x1_0_1),
    TRef.nullary main_call0.c_1 (constantI S1 32 2599999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S2600000x1_S16384x26x1_S16384x26x1_2_0_n_n_0_2_11 x i),
    TRef.unary main_call0.v12 main_call0.v14 (broadcastInDim S16384x26x1 ![0, 1] bcast_S16384x26_S16384x26x1_0_1),
    TRef.nullary main_call0.cst (constant S_ .f32 0x7FC00000#32),
    TRef.unary main_call0.cst main_call0.v15 (broadcastInDim S16384x26x1 ![] bcast_S_S16384x26x1),
    TRef.ternary main_call0.v14 main_call0.v13 main_call0.v15 main_call0.v16 select,
    nullary main_cst (constant S_ .f32 0x00000000#32),
    binary main_v0 main_cst main_v1 ((fun x v => Host.reduceAdd x v reducesTo_S16384x26x1_S16384x1_d1 h_S_) : (⟨S16384x26x1, .f32⟩ : BufTy).Contents (Elt F) → (⟨S_, .f32⟩ : BufTy).Contents (Elt F) → (⟨S16384x1, .f32⟩ : BufTy).Contents (Elt F)),
    unary main_arg2 main_v2 (broadcastInDim S1x1 ![1] bcast_S1_S1x1_1 : (⟨S1, .f32⟩ : BufTy).Contents (Elt F) → (⟨S1x1, .f32⟩ : BufTy).Contents (Elt F)),
    unary main_v2 main_v3 (broadcastInDim S16384x1 ![0, 1] bcast_S1x1_S16384x1_0_1 : (⟨S1x1, .f32⟩ : BufTy).Contents (Elt F) → (⟨S16384x1, .f32⟩ : BufTy).Contents (Elt F)),
    binary main_v1 main_v3 main_v4 (addf : (⟨S16384x1, .f32⟩ : BufTy).Contents (Elt F) → (⟨S16384x1, .f32⟩ : BufTy).Contents (Elt F) → (⟨S16384x1, .f32⟩ : BufTy).Contents (Elt F)) ]

set_option maxRecDepth 1024 in
/-- @main is that straight line: the two outlined functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub ..⟩

/-! ## The result as one term of the arguments -/

/-- The index array with every negative entry moved up by the table's length. -/
def wrapIdx (x : IVec S16384x26 32) : IVec S16384x26 32 :=
  select (cmpi .slt x (broadcastInDim S16384x26 ![] bcast_S_S16384x26 (constantI S_ 32 0#32)))
    (addi x (broadcastInDim S16384x26 ![] bcast_S_S16384x26 (constantI S_ 32 2600000#32))) x

/-- The wrapped indices with a trailing unit axis: the lookup's start indices. -/
def idx3 (x : IVec S16384x26 32) : IVec S16384x26x1 32 :=
  broadcastInDim S16384x26x1 ![0, 1] bcast_S16384x26_S16384x26x1_0_1 (wrapIdx x)

/-- One where the start index lies in [0, 2599999], zero elsewhere. -/
def inRangeMask (x : IVec S16384x26 32) : IVec S16384x26x1 1 :=
  broadcastInDim S16384x26x1 ![0, 1] bcast_S16384x26_S16384x26x1_0_1
    (Host.reduce IntOp.andi
      (andi (cmpi .sge (idx3 x) (broadcastInDim S16384x26x1 ![] bcast_S_S16384x26x1 (constantI S_ 32 0#32)))
        (cmpi .sle (idx3 x) (broadcastInDim S16384x26x1 ![0, 1, 2] bcast_S1x1x1_S16384x26x1_0_1_2
          (broadcastInDim S1x1x1 ![2] bcast_S1_S1x1x1_2 (constantI S1 32 2599999#32)))))
      (constantI S_ 1 1#1) reducesTo_S16384x26x1_S16384x26_d2 h_S_)

/-- The looked-up table entries, the fill value where the start index is out of range. -/
def taken (x : IVec S16384x26 32) (tbl : FVec Ideal S2600000x1 .f32) : FVec Ideal S16384x26x1 .f32 :=
  select (inRangeMask x) (Host.gather gather_S2600000x1_S16384x26x1_S16384x26x1_2_0_n_n_0_2_11 tbl (idx3 x))
    (broadcastInDim S16384x26x1 ![] bcast_S_S16384x26x1 (constant (F := Ideal) S_ .f32 0x7FC00000#32))

/-- The reference's result: the looked-up entries summed over the fields from zero, plus the broadcast bias. -/
def refOut (x : IVec S16384x26 32) (tbl : FVec Ideal S2600000x1 .f32) (b : FVec Ideal S1 .f32) : FVec Ideal S16384x1 .f32 :=
  addf (Host.reduceAdd (taken x tbl) (constant (F := Ideal) S_ .f32 0x00000000#32) reducesTo_S16384x26x1_S16384x1_d1 h_S_)
    (broadcastInDim S16384x1 ![0, 1] bcast_S1x1_S16384x1_0_1 (broadcastInDim S1x1 ![1] bcast_S1_S1x1_1 b))

attribute [local irreducible] Host.reduce Host.gather Host.reduceAdd in
set_option maxRecDepth 8192 in
/-- The fold of the 28 operations at the result buffer is refOut of the contents at the three argument buffers. -/
theorem out_eq (V : Valuation τ sig (Elt Ideal)) :
    after ops V (main_v4 : DevRef τ sig)
      = refOut (V (main_arg0 : DevRef τ sig)) (V (main_arg1 : DevRef τ sig)) (V (main_arg2 : DevRef τ sig)) := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

/-- On every device, from any memory with zero counters: every weakly fair execution of @main terminates with the
    result buffer at refOut of the three argument arrays and the arguments unchanged. -/
theorem run (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev nD,
        r.2.mem ((c.tc : Thread nD τ).loc main_v4) = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c main_v4).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m g)

end Cert.ReferenceIdeal.RefValue

end
-- ==== Proof.LibTakeGather.lean ====
/-
  A lookup of table rows read at an index: stablehlo.gather of a one-column operand [N, 1] at start indices [B, C, 1]
  (offset axis 2, collapsed axis 0, start index map [0], index vector axis 2, slice sizes [1, 1]) with result [B, C, 1].
  Result element (r, f, u) is the operand at row idx[r, f, 0] read as a signed integer and clamped into [0, N − 1],
  column 0.
-/
import Idealize.ShloMosaic.Lib.ValueIdx

noncomputable section

namespace Idealize.ShloMosaic.ValueIdx

open Idealize.ShloMosaic

section TakeCol
variable {α : Type}

/-- Those dimension numbers for an operand [N, 1], start indices [B, C, 1] and result [B, C, 1]. -/
abbrev takeColDims (N B C : Nat)
    (wf : GatherDims.WF ⟨2, ![N, 1]⟩ ⟨3, ![B, C, 1]⟩ ⟨3, ![B, C, 1]⟩ [2] [0] [] [0] [] 2 ![1, 1]) :
    GatherDims ⟨2, ![N, 1]⟩ ⟨3, ![B, C, 1]⟩ ⟨3, ![B, C, 1]⟩ where
  offsetDims := [2]
  collapsedSliceDims := [0]
  operandBatchingDims := []
  startIndicesBatchingDims := []
  startIndexMap := [0]
  indexVectorDim := 2
  sliceSizes := ![1, 1]
  wf := wf

/-- The start-indices index [r, f, 0] of result index (r, f, u). -/
abbrev takeColIdx {B C : Nat} (y : (⟨3, ![B, C, 1]⟩ : Shape).Idx) : (⟨3, ![B, C, 1]⟩ : Shape).Idx :=
  fun a => match a with | ⟨0, _⟩ => y 0 | ⟨1, _⟩ => y 1 | ⟨2, _⟩ => ⟨0, Nat.one_pos⟩

/-- The operand's row coordinate: the start index read signed and clamped. -/
theorem takeCol_row {N B C w : Nat}
    (wf : GatherDims.WF ⟨2, ![N, 1]⟩ ⟨3, ![B, C, 1]⟩ ⟨3, ![B, C, 1]⟩ [2] [0] [] [0] [] 2 ![1, 1])
    (idx : IVec ⟨3, ![B, C, 1]⟩ w) (y : (⟨3, ![B, C, 1]⟩ : Shape).Idx) :
    (takeColDims N B C wf).start y idx (0 : Fin 2) + (takeColDims N B C wf).batchCoord y (0 : Fin 2)
        + (takeColDims N B C wf).offCoord y (0 : Fin 2)
      = min (idx (takeColIdx y)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (takeColDims N B C wf).startIndexMap from List.mem_singleton.mpr rfl)]
  have hsi : (takeColDims N B C wf).siIdx y ⟨List.idxOf (0 : Fin 2) (takeColDims N B C wf).startIndexMap,
      List.idxOf_lt_length_iff.2 (List.mem_singleton.mpr rfl)⟩ = takeColIdx y := by
    funext b; refine Fin.ext ?_
    match b with
    | ⟨0, _⟩ => rfl
    | ⟨1, _⟩ => rfl
    | ⟨2, _⟩ => rfl
  rw [hsi]
  rfl

/-- The operand's column coordinate: zero. -/
theorem takeCol_col {N B C w : Nat}
    (wf : GatherDims.WF ⟨2, ![N, 1]⟩ ⟨3, ![B, C, 1]⟩ ⟨3, ![B, C, 1]⟩ [2] [0] [] [0] [] 2 ![1, 1])
    (idx : IVec ⟨3, ![B, C, 1]⟩ w) (y : (⟨3, ![B, C, 1]⟩ : Shape).Idx) :
    (takeColDims N B C wf).start y idx (1 : Fin 2) + (takeColDims N B C wf).batchCoord y (1 : Fin 2)
        + (takeColDims N B C wf).offCoord y (1 : Fin 2) = 0 := by
  have hst : (takeColDims N B C wf).start y idx (1 : Fin 2) = 0 := by
    unfold GatherDims.start
    rw [dif_neg (fun h => absurd (congrArg Fin.val (List.mem_singleton.mp h)) Nat.one_ne_zero)]
  have hoff : (takeColDims N B C wf).offCoord y (1 : Fin 2) = 0 := by
    have hlt := GatherDims.offCoord_lt (takeColDims N B C wf) y (1 : Fin 2)
      ((GatherDims.mem_sKept _ _).mpr ⟨fun h => absurd (congrArg Fin.val (List.mem_singleton.mp h)) Nat.one_ne_zero, List.not_mem_nil⟩)
    have h1 : (takeColDims N B C wf).sliceSizes (1 : Fin 2) = 1 := rfl
    omega
  rw [hst, hoff, GatherDims.batchCoord_eq_zero _ _ _ List.not_mem_nil]

/-- THE LOOKUP READ AT (r, f, u): the operand at the row the start index idx[r, f, 0] names, read signed and clamped
    into [0, N − 1], column 0. -/
theorem gather_takeCol_apply {N B C w : Nat} (hN : 0 < N)
    (wf : GatherDims.WF ⟨2, ![N, 1]⟩ ⟨3, ![B, C, 1]⟩ ⟨3, ![B, C, 1]⟩ [2] [0] [] [0] [] 2 ![1, 1])
    (x : (⟨2, ![N, 1]⟩ : Shape).Idx → α) (idx : IVec ⟨3, ![B, C, 1]⟩ w) (y : (⟨3, ![B, C, 1]⟩ : Shape).Idx) :
    Host.gather (takeColDims N B C wf) x idx y
      = x (ix2 ⟨min (idx (takeColIdx y)).toInt.toNat (N - 1), by omega⟩ 0) := by
  unfold Host.gather
  congr 1
  funext a
  refine Fin.ext ?_
  match a with
  | ⟨0, _⟩ => exact takeCol_row wf idx y
  | ⟨1, _⟩ => exact takeCol_col wf idx y

end TakeCol

end Idealize.ShloMosaic.ValueIdx

end
-- ==== Proof.RefRead.lean ====
/-
  The reference's result read at an index: under the precondition on the index words (each names a row of the table)
  the wrap of negative indices keeps every word, the range mask is all ones, each looked-up entry is the table's at
  the row the word names, and the sum over the fields from zero plus the broadcast bias is the stated row sum.
-/
import proofs.«207411_g41145786696212_cont_8to1_b_1804_24_alg».proof.Proof.RefRun
import proofs.«207411_g41145786696212_cont_8to1_b_1804_24_alg».proof.Proof.Spec
import proofs.«207411_g41145786696212_cont_8to1_b_1804_24_alg».proof.Proof.LibTakeGather
import Idealize.ShloMosaic.Lib.IdealHost
import Idealize.ShloMosaic.Lib.Affine
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-! ## Words -/

/-- A left fold of the one-bit "and" over entries that are all one, from one, is one. -/
theorem foldl_andi_one {ι : Type} (g : ι → BitVec 1) (hg : ∀ n, g n = 1#1) (l : List ι) :
    l.foldl (fun r n => IntOp.andi r (g n)) 1#1 = 1#1 := by
  induction l with
  | nil => rfl
  | cons n l ih =>
    rw [List.foldl_cons, hg n, show IntOp.andi (1#1 : BitVec 1) 1#1 = 1#1 from by decide]
    exact ih

/-- The "and" over any axes of an array of ones, from one, is one at every index. -/
theorem reduce_andi_one {s t u : Shape} {axes : List (Fin s.rank)} (p : IVec s 1) (init : IVec u 1)
    (h : s.ReducesTo axes t) (hu : 0 < u.numel) (hp : ∀ i, p i = 1#1) (hi : init (Shape.Idx.first hu) = 1#1) (j : t.Idx) :
    Host.reduce IntOp.andi p init h hu j = 1#1 := by
  unfold Host.reduce
  rw [hi]
  exact foldl_andi_one (fun n => p (s.rowMajor.symm n)) (fun n => hp _) _

/-- A 32-bit word that, read signed, is not negative, reads the same unsigned. -/
theorem toInt_eq_toNat_of_nonneg (v : BitVec 32) (h0 : 0 ≤ v.toInt) : v.toInt = (v.toNat : ℤ) := by
  have hlt := v.isLt
  rw [BitVec.toInt_eq_toNat_cond] at h0 ⊢
  by_cases hc : 2 * v.toNat < 2 ^ 32
  · rw [if_pos hc]
  · rw [if_neg hc] at h0; omega

/-- The table entry at the row a word in range names, the row read signed and clamped to the last row. -/
theorem lookup_eq (tbl : FVec Ideal S2600000x1 .f32) (v : BitVec 32) (h0 : 0 ≤ v.toInt) (h1 : v.toInt ≤ 2599999)
    (hb : min v.toInt.toNat (2600000 - 1) < 2600000) :
    tbl (ix2 (⟨min v.toInt.toNat (2600000 - 1), hb⟩ : Fin 2600000) (0 : Fin 1)) = Cert.EmbSum.tblAt tbl v.toNat := by
  have hn := toInt_eq_toNat_of_nonneg v h0
  have hlt : v.toNat < 2600000 := by omega
  unfold Cert.EmbSum.tblAt
  rw [dif_pos hlt]
  refine congrArg (fun q : Fin 2600000 => tbl (ix2 q (0 : Fin 1))) (Fin.ext ?_)
  show min v.toInt.toNat (2600000 - 1) = v.toNat
  omega

/-- The same with the word given up to an equation. -/
theorem lookup_eq' (tbl : FVec Ideal S2600000x1 .f32) (v w : BitVec 32) (hvw : v = w) (h0 : 0 ≤ w.toInt)
    (h1 : w.toInt ≤ 2599999) (hb : min v.toInt.toNat (2600000 - 1) < 2600000) :
    tbl (ix2 (⟨min v.toInt.toNat (2600000 - 1), hb⟩ : Fin 2600000) (0 : Fin 1)) = Cert.EmbSum.tblAt tbl w.toNat := by
  subst hvw
  exact lookup_eq tbl v h0 h1 hb

/-! ## The stages at an index -/

/-- An index word in range is not negative, so the wrap leaves it. -/
theorem wrapIdx_apply (x : IVec S16384x26 32) (hx : Cert.EmbSum.InRange x) (i : S16384x26.Idx) : wrapIdx x i = x i := by
  have hlt : IntOp.cmpi .slt (x i) 0#32 = 0#1 := by
    refine eq_zero_of_ne_one fun h => ?_
    have h' := IntOp.cmpi_slt.mp h
    rw [show (0#32 : BitVec 32).toInt = 0 from by decide] at h'
    exact absurd h' (not_lt.mpr (hx i).1)
  show Scalar.select (IntOp.cmpi .slt (x i) 0#32) _ _ = x i
  rw [hlt, select_zero]

/-- The start indices at (r, f, u) are the wrapped indices at (r, f). -/
theorem idx3_apply (x : IVec S16384x26 32) (j : S16384x26x1.Idx) : idx3 x j = wrapIdx x (ix2 (j 0) (j 1)) := by
  unfold idx3
  exact broadcastInDim_apply _ _ _ j (ix2 (j 0) (j 1)) (fun a => match a with | ⟨0, _⟩ => rfl | ⟨1, _⟩ => rfl)

/-- Under the precondition the range mask is one everywhere. -/
theorem inRangeMask_apply (x : IVec S16384x26 32) (hx : Cert.EmbSum.InRange x) (j : S16384x26x1.Idx) :
    inRangeMask x j = 1#1 := by
  unfold inRangeMask
  refine (broadcastInDim_apply _ _ _ j (ix2 (j 0) (j 1)) (fun a => match a with | ⟨0, _⟩ => rfl | ⟨1, _⟩ => rfl)).trans ?_
  refine reduce_andi_one _ _ _ _ (fun i => ?_) rfl _
  show IntOp.andi (IntOp.cmpi .sge (idx3 x i) 0#32) (IntOp.cmpi .sle (idx3 x i) 2599999#32) = 1#1
  rw [idx3_apply, wrapIdx_apply x hx]
  have hge : IntOp.cmpi .sge (x (ix2 (i 0) (i 1))) 0#32 = 1#1 :=
    IntOp.cmpi_sge.mpr (by rw [show (0#32 : BitVec 32).toInt = 0 from by decide]; exact (hx _).1)
  have hle : IntOp.cmpi .sle (x (ix2 (i 0) (i 1))) 2599999#32 = 1#1 :=
    IntOp.cmpi_sle.mpr (by rw [show (2599999#32 : BitVec 32).toInt = 2599999 from by decide]; exact (hx _).2)
  rw [hge, hle]
  decide

/-- Under the precondition the looked-up entry at (r, f, u) is the table's at the row x[r, f] names. -/
theorem taken_apply (x : IVec S16384x26 32) (tbl : FVec Ideal S2600000x1 .f32) (hx : Cert.EmbSum.InRange x)
    (r : Fin 16384) (f : Fin 26) (u : Fin 1) :
    taken x tbl (ix3 r f u) = Cert.EmbSum.tblAt tbl (x (ix2 r f)).toNat := by
  unfold taken
  rw [select_apply, inRangeMask_apply x hx, select_one]
  show Host.gather (takeColDims 2600000 16384 26 gather_S2600000x1_S16384x26x1_S16384x26x1_2_0_n_n_0_2_11_wf) tbl (idx3 x) (ix3 r f u) = _
  rw [gather_takeCol_apply (by decide)]
  have hv : idx3 x (takeColIdx (ix3 r f u)) = x (ix2 r f) := by
    rw [idx3_apply]
    exact wrapIdx_apply x hx _
  exact lookup_eq' tbl _ (x (ix2 r f)) hv (hx _).1 (hx _).2 _

/-- The bias's two broadcasts read its one word everywhere. -/
theorem bias_apply (b : FVec Ideal S1 .f32) (j : S16384x1.Idx) :
    broadcastInDim S16384x1 ![0, 1] bcast_S1x1_S16384x1_0_1 (broadcastInDim S1x1 ![1] bcast_S1_S1x1_1 b) j = b (ix1 0) := by
  refine (broadcastInDim_apply _ _ _ j (ix2 (0 : Fin 1) (0 : Fin 1)) (fun a => match a with | ⟨0, _⟩ => rfl | ⟨1, _⟩ => rfl)).trans ?_
  exact broadcastInDim_apply _ _ _ (ix2 (0 : Fin 1) (0 : Fin 1)) (ix1 (0 : Fin 1)) (fun a => match a with | ⟨0, _⟩ => rfl)

/-- The sum's source index over result index (r, u) with field f inserted is (r, f, u). -/
theorem lift_eq (hR : S16384x26x1.Reduces [1] S16384x1) (r : Fin 16384) (u : Fin 1) (f : Fin 26) :
    hR.lift (ix2 r u) f = ix3 r f u := by
  funext c
  refine Fin.ext ?_
  match c with
  | ⟨0, _⟩ => rfl
  | ⟨1, _⟩ => rfl
  | ⟨2, _⟩ => rfl

/-- THE REFERENCE'S RESULT under the precondition: row r is the 26 looked-up entries added up, plus the bias. -/
theorem refOut_eq (x : IVec S16384x26 32) (tbl : FVec Ideal S2600000x1 .f32) (b : FVec Ideal S1 .f32)
    (hx : Cert.EmbSum.InRange x) : refOut x tbl b = Cert.EmbSum.out x tbl b := by
  funext j
  obtain ⟨r, u, rfl⟩ : ∃ r u, j = ix2 r u := ⟨j 0, j 1, eq_ix2 j⟩
  have hR : S16384x26x1.Reduces [1] S16384x1 := by decide
  unfold refOut
  rw [addf_apply, bias_apply, hostReduceAdd_apply,
    Ideal.hostReduceAdd_single reducesTo_S16384x26x1_S16384x1_d1 hR]
  show Ideal.ofBits .f32 0x00000000#32 + (∑ k : Fin 26, taken x tbl (hR.lift (ix2 r u) k)) + b (ix1 0)
    = (∑ f : Fin 26, Cert.EmbSum.tblAt tbl (x (ix2 r f)).toNat) + b (ix1 0)
  rw [Ideal.ofBits_zero_f32, zero_add]
  refine congrArg (· + b (ix1 0)) (Finset.sum_congr rfl fun f _ => ?_)
  rw [lift_eq, taken_apply x tbl hx]

end Cert.ReferenceIdeal.RefValue

end
-- ==== Proof.lean ====
/-
  The certificate's claims. The kernel — at the word level and at the ideal values — runs and leaves its three
  arguments; so does the reference; the idealization rewrote nothing; and at the ideal values, from memories that agree
  on the arguments, the kernel and the reference end with the same result array: row r is the sum of the 26 table
  entries that row r of the index array names, plus the bias word. The precondition is what makes every index word
  name a row of the table.
-/
import proofs.«207411_g41145786696212_cont_8to1_b_1804_24_alg».proof.Defs
import proofs.«207411_g41145786696212_cont_8to1_b_1804_24_alg».proof.Proof.Gen.Kernel
import proofs.«207411_g41145786696212_cont_8to1_b_1804_24_alg».proof.Proof.Gen.Kernel.Skeleton
import proofs.«207411_g41145786696212_cont_8to1_b_1804_24_alg».proof.Proof.Gen.KernelIdeal
import proofs.«207411_g41145786696212_cont_8to1_b_1804_24_alg».proof.Proof.Gen.KernelIdeal.Skeleton
import proofs.«207411_g41145786696212_cont_8to1_b_1804_24_alg».proof.Proof.Gen.ReferenceIdeal
import proofs.«207411_g41145786696212_cont_8to1_b_1804_24_alg».proof.Proof.Gen.Pre_input_domain
import proofs.«207411_g41145786696212_cont_8to1_b_1804_24_alg».proof.Proof.Main
import proofs.«207411_g41145786696212_cont_8to1_b_1804_24_alg».proof.Proof.MainB
import proofs.«207411_g41145786696212_cont_8to1_b_1804_24_alg».proof.Proof.Bridge
import proofs.«207411_g41145786696212_cont_8to1_b_1804_24_alg».proof.Proof.RefRead
import proofs.«207411_g41145786696212_cont_8to1_b_1804_24_alg».proof.Proof.PreRange
import Idealize.ShloMosaic.Adequacy
import Idealize.ShloMosaic.Init

noncomputable section

namespace Cert.Proof

open Idealize.ShloMosaic Idealize.SL.Sem

/-- The word-level kernel runs and leaves its three arguments: its run, with the result's value dropped; the
    precondition gives that every index word names a row of the table. -/
theorem frame_k : Cert.frame_Kernel := fun m g hpre =>
  (θ_run (Cert.Kernel.defs (F := Bits)) _ _).mono (fun _ h c => (h c).2)
    (Cert.Proof.KB.run_main (F := Bits) m g fun d => Cert.EmbSum.Pre.inRange_of_pre _ _ _ (hpre d))

/-- The same for the kernel read at the ideal values. -/
theorem frame_ki : Cert.frame_KernelIdeal := fun m g hpre =>
  (θ_run (Cert.KernelIdeal.defs (F := Ideal)) _ _).mono (fun _ h c => (h c).2)
    (Cert.Proof.KI.run_main (F := Ideal) m g fun d => Cert.EmbSum.Pre.inRange_of_pre _ _ _ (hpre d))

/-- The reference runs and leaves its three arguments: its run, with the result's value dropped. -/
theorem frame_ri : Cert.frame_ReferenceIdeal := fun m g _ =>
  (θ_run (Cert.ReferenceIdeal.defs (F := Ideal)) _ _).mono (fun _ h c => (h c).2)
    (Cert.ReferenceIdeal.RefValue.run m g)

/-- The idealization rewrote no operation. -/
theorem preserves : Cert.preserves_Kernel_KernelIdeal := trivial

/-- At the ideal values, from memories that agree on the three arguments, both programs end with the same result:
    row r is the sum of the 26 table entries that row r of the index array names, plus the bias word. The kernel
    adds them in its own order, the reference in any; the sum is the same. -/
theorem algebraic : Cert.algebraic_KernelIdeal_ReferenceIdeal := by
  intro m g m' g' hpre hagree
  have hok : Cert.Proof.KI.PreOK m := fun d => Cert.EmbSum.Pre.inRange_of_pre _ _ _ (hpre d)
  refine ⟨fun c => (Cert.EmbSum.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :
        Buf (Elt Ideal) ((c.tc : Thread Cert.KernelIdeal.nD Cert.KernelIdeal.τ).loc Cert.KernelIdeal.main_v8)), ?_, ?_⟩
  · refine (θ_run (Cert.KernelIdeal.defs (F := Ideal)) _ _).mono (fun _ h c => ⟨(h c).1.trans ?_, (h c).2⟩)
      (Cert.Proof.KI.run_main (F := Ideal) m g hok)
    exact Cert.Proof.Bridge.kerOut_eq_out _ _ _ (hok c)
  · refine (θ_run (Cert.ReferenceIdeal.defs (F := Ideal)) _ _).mono (fun _ h c => ⟨(h c).1.trans ?_, (h c).2⟩)
      (Cert.ReferenceIdeal.RefValue.run m' g')
    rw [(hagree c).1, (hagree c).2.1, (hagree c).2.2]
    exact Cert.ReferenceIdeal.RefValue.refOut_eq _ _ _ (hok c)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
